-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v50_1)) (v3 : (c : Dev Cert.KernelIdeal.nD) → Buf (Elt Ideal) ((c.tc : Thread Cert.KernelIdeal.nD Cert.KernelIdeal.τ).loc Cert.KernelIdeal.main_v50_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v50_1) = v2 c
          ∧ r.2.mem ((c.tc : Thread Cert.KernelIdeal.nD Cert.KernelIdeal.τ).loc Cert.KernelIdeal.main_v50_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S4096 : Shape := ⟨1, ![4096]⟩
abbrev S32000x256 : Shape := ⟨2, ![32000, 256]⟩
abbrev S1536x256 : Shape := ⟨2, ![1536, 256]⟩
abbrev S256 : Shape := ⟨1, ![256]⟩
abbrev S256x768 : Shape := ⟨2, ![256, 768]⟩
abbrev S768 : Shape := ⟨1, ![768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S32000x256 : S_.BroadcastsInDim S32000x256 (![] : Fin 0 → Fin S32000x256.rank)
  reducesTo_S32000x256_S_d0_1 : S32000x256.ReducesTo [0, 1] S_
  bcast_S_S1536x256 : S_.BroadcastsInDim S1536x256 (![] : Fin 0 → Fin S1536x256.rank)
  reducesTo_S1536x256_S_d0_1 : S1536x256.ReducesTo [0, 1] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg10 : FVec F S768 .f32) (main_arg11 : FVec F S768 .f32) (main_v33 : IVec S_ 1) : IVec S_ 1 :=
  let main_v34 : FVec F S768 .f32 := Host.absf main_arg10
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768 .f32 := Host.absf main_arg11
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg7 : FVec F S256 .f32) (main_arg8 : FVec F S256x768 .f32) (main_arg9 : FVec F S768 .f32) (main_arg10 : FVec F S768 .f32) (main_arg11 : FVec F S768 .f32) (main_v13 : IVec S_ 1) (main_v16 : IVec S1536x256 1) : IVec S_ 1 :=
  let main_c_5 : IVec S_ 1 := constantI S_ 1 1#1
  let main_v17 : IVec S_ 1 := (fun x v => Host.reduce IntOp.andi x v reducesTo_S1536x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x768 .f32 := Host.absf main_arg8
  let main_cst_8 : FVec F S_ .f32 := constant S_ .f32 0x7F800000#32
  let main_v25 : FVec F S256x768 .f32 := broadcastInDim S256x768 ![] bcast_S_S256x768 main_cst_8
  let main_v26 : IVec S256x768 1 := cmpf .olt main_v24 main_v25
  let main_c_9 : IVec S_ 1 := constantI S_ 1 1#1
  let main_v27 : IVec S_ 1 := (fun x v => Host.reduce IntOp.andi x v reducesTo_S256x768_S_d0_1 h_S_) main_v26 main_c_9
  let main_v28 : IVec S_ 1 := andi main_v23 main_v27
  let main_v29 : FVec F S768 .f32 := Host.absf main_arg9
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg10 main_arg11 main_v33

def fn {F : FTy → Type} [FloatOps F] (main_arg0 : FVec F S8x2048x768 .f32) (main_arg1 : IVec S4096 32) (main_arg2 : IVec S4096 32) (main_arg3 : IVec S4096 32) (main_arg4 : FVec F S4096 .f32) (main_arg5 : FVec F S32000x256 .f32) (main_arg6 : FVec F S1536x256 .f32) (main_arg7 : FVec F S256 .f32) (main_arg8 : FVec F S256x768 .f32) (main_arg9 : FVec F S768 .f32) (main_arg10 : FVec F S768 .f32) (main_arg11 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S4096 .f32 := Host.absf main_arg4
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S32000x256 .f32 := Host.absf main_arg5
  let main_cst_2 : FVec F S_ .f32 := constant S_ .f32 0x7F800000#32
  let main_v10 : FVec F S32000x256 .f32 := broadcastInDim S32000x256 ![] bcast_S_S32000x256 main_cst_2
  let main_v11 : IVec S32000x256 1 := cmpf .olt main_v9 main_v10
  let main_c_3 : IVec S_ 1 := constantI S_ 1 1#1
  let main_v12 : IVec S_ 1 := (fun x v => Host.reduce IntOp.andi x v reducesTo_S32000x256_S_d0_1 h_S_) main_v11 main_c_3
  let main_v13 : IVec S_ 1 := andi main_v8 main_v12
  let main_v14 : FVec F S1536x256 .f32 := Host.absf main_arg6
  let main_cst_4 : FVec F S_ .f32 := constant S_ .f32 0x7F800000#32
  let main_v15 : FVec F S1536x256 .f32 := broadcastInDim S1536x256 ![] bcast_S_S1536x256 main_cst_4
  let main_v16 : IVec S1536x256 1 := cmpf .olt main_v14 main_v15
  fn_part1 (F := F) main_arg7 main_arg8 main_arg9 main_arg10 main_arg11 main_v13 main_v16
-- ==== Kernel.lean ====
abbrev S8x2048x768 : Shape := ⟨3, ![8, 2048, 768]⟩
abbrev S4096 : Shape := ⟨1, ![4096]⟩
abbrev S32000x256 : Shape := ⟨2, ![32000, 256]⟩
abbrev S1536x256 : Shape := ⟨2, ![1536, 256]⟩
abbrev S256 : Shape := ⟨1, ![256]⟩
abbrev S256x768 : Shape := ⟨2, ![256, 768]⟩
abbrev S768 : Shape := ⟨1, ![768]⟩
abbrev S_ : Shape := ⟨0, ![]⟩
abbrev S4096x1 : Shape := ⟨2, ![4096, 1]⟩
abbrev S4096x2 : Shape := ⟨2, ![4096, 2]⟩
abbrev S4096x768 : Shape := ⟨2, ![4096, 768]⟩
abbrev S4096x1536 : Shape := ⟨2, ![4096, 1536]⟩
abbrev S4096x256 : Shape := ⟨2, ![4096, 256]⟩
abbrev S1x256 : Shape := ⟨2, ![1, 256]⟩
abbrev S32000 : Shape := ⟨1, ![32000]⟩
abbrev S1x32000 : Shape := ⟨2, ![1, 32000]⟩
abbrev S512x256 : Shape := ⟨2, ![512, 256]⟩
abbrev S3200x256 : Shape := ⟨2, ![3200, 256]⟩
abbrev S512x1 : Shape := ⟨2, ![512, 1]⟩
abbrev S512x768 : Shape := ⟨2, ![512, 768]⟩
abbrev S512x3200 : Shape := ⟨2, ![512, 3200]⟩
abbrev S512 : Shape := ⟨1, ![512]⟩
abbrev S1x768 : Shape := ⟨2, ![1, 768]⟩
abbrev S4096x32000 : Shape := ⟨2, ![4096, 32000]⟩
abbrev S256x256 : Shape := ⟨2, ![256, 256]⟩
abbrev S256x1 : Shape := ⟨2, ![256, 1]⟩
abbrev S1x3200 : Shape := ⟨2, ![1, 3200]⟩
abbrev S256x3200 : Shape := ⟨2, ![256, 3200]⟩
abbrev S16384x768 : Shape := ⟨2, ![16384, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 105
  | .vmem => 39
  | .smem => 0
  | _ => 0

abbrev bufTy : (tb : Table) → Fin (tcTables nBuf tb) → BufTy
  | .hbm, ⟨0, _⟩ => ⟨S8x2048x768, .f32⟩
  | .hbm, ⟨1, _⟩ => ⟨S4096, .i32⟩
  | .hbm, ⟨2, _⟩ => ⟨S4096, .i32⟩
  | .hbm, ⟨3, _⟩ => ⟨S4096, .i32⟩
  | .hbm, ⟨4, _⟩ => ⟨S4096, .f32⟩
  | .hbm, ⟨5, _⟩ => ⟨S32000x256, .f32⟩
  | .hbm, ⟨6, _⟩ => ⟨S1536x256, .f32⟩
  | .hbm, ⟨7, _⟩ => ⟨S256, .f32⟩
  | .hbm, ⟨8, _⟩ => ⟨S256x768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S4096x1, .i32⟩
  | .hbm, ⟨28, _⟩ => ⟨S4096x2, .i32⟩
  | .hbm, ⟨29, _⟩ => ⟨S4096x768, .f32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096x768, .f32⟩
  | .hbm, ⟨48, _⟩ => ⟨S4096x1536, .f32⟩
  | .hbm, ⟨49, _⟩ => ⟨S4096x256, .f32⟩
  | .hbm, ⟨50, _⟩ => ⟨S1x256, .f32⟩
  | .hbm, ⟨51, _⟩ => ⟨S4096x256, .f32⟩
  | .hbm, ⟨52, _⟩ => ⟨S4096x256, .f32⟩
  | .hbm, ⟨53, _⟩ => ⟨S4096x256, .bf16⟩
  | .hbm, ⟨54, _⟩ => ⟨S32000x256, .bf16⟩
  | .hbm, ⟨55, _⟩ => ⟨S256x768, .bf16⟩
  | .hbm, ⟨56, _⟩ => ⟨S32000x256, .f32⟩
  | .hbm, ⟨57, _⟩ => ⟨S_, .f32⟩
  | .hbm, ⟨58, _⟩ => ⟨S32000, .f32⟩
  | .hbm, ⟨59, _⟩ => ⟨S32000, .f32⟩
  | .hbm, ⟨60, _⟩ => ⟨S1x32000, .f32⟩
  | .hbm, ⟨61, _⟩ => ⟨S4096x256, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S4096x1, .f32⟩
  | .hbm, ⟨66, _⟩ => ⟨S_, .f32⟩
  | .hbm, ⟨67, _⟩ => ⟨S1x32000, .f32⟩
  | .hbm, ⟨68, _⟩ => ⟨S1x32000, .f32⟩
  | .hbm, ⟨69, _⟩ => ⟨S_, .f32⟩
  | .hbm, ⟨70, _⟩ => ⟨S1x32000, .f32⟩
  | .hbm, ⟨71, _⟩ => ⟨S1x32000, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S4096x1, .f32⟩
  | .hbm, ⟨79, _⟩ => ⟨S4096x768, .f32⟩
  | .hbm, ⟨80, _⟩ => ⟨S4096x1, .f32⟩
  | .hbm, ⟨81, _⟩ => ⟨S4096x1, .f32⟩
  | .hbm, ⟨82, _⟩ => ⟨S4096x32000, .f32⟩
  | .hbm, ⟨83, _⟩ => ⟨S4096x32000, .f32⟩
  | .hbm, ⟨84, _⟩ => ⟨S_, .i32⟩
  | .hbm, ⟨85, _⟩ => ⟨S4096, .i32⟩
  | .hbm, ⟨86, _⟩ => ⟨S4096, .i1⟩
  | .hbm, ⟨87, _⟩ => ⟨S_, .i32⟩
  | .hbm, ⟨88, _⟩ => ⟨S4096, .i32⟩
  | .hbm, ⟨89, _⟩ => ⟨S4096, .i32⟩
  | .hbm, ⟨90, _⟩ => ⟨S4096, .i32⟩
  | .hbm, ⟨91, _⟩ => ⟨S_, .i32⟩
  | .hbm, ⟨92, _⟩ => ⟨S4096, .i32⟩
  | .hbm, ⟨93, _⟩ => ⟨S4096, .i1⟩
  | .hbm, ⟨94, _⟩ => ⟨S_, .i32⟩
  | .hbm, ⟨95, _⟩ => ⟨S4096, .i32⟩
  | .hbm, ⟨96, _⟩ => ⟨S4096, .i32⟩
  | .hbm, ⟨97, _⟩ => ⟨S4096, .i32⟩
  | .hbm, ⟨98, _⟩ => ⟨S4096x1, .i32⟩
  | .hbm, ⟨99, _⟩ => ⟨S4096x1, .i32⟩
  | .hbm, ⟨100, _⟩ => ⟨S4096x2, .i32⟩
  | .hbm, ⟨101, _⟩ => ⟨S8x2048x768, .f32⟩
  | .hbm, ⟨102, _⟩ => ⟨S16384x768, .f32⟩
  | .hbm, ⟨103, _⟩ => ⟨S16384x768, .f32⟩
  | .hbm, ⟨104, _⟩ => ⟨S8x2048x768, .f32⟩
  | .local _ .vmem, ⟨0, _⟩ => ⟨S512x256, .bf16⟩
  | .local _ .vmem, ⟨1, _⟩ => ⟨S512x256, .bf16⟩
  | .local _ .vmem, ⟨2, _⟩ => ⟨S3200x256, .bf16⟩
  | .local _ .vmem, ⟨3, _⟩ => ⟨S3200x256, .bf16⟩
  | .local _ .vmem, ⟨4, _⟩ => ⟨S256x768, .bf16⟩
  | .local _ .vmem, ⟨5, _⟩ => ⟨S768, .f32⟩
  | .local _ .vmem, ⟨6, _⟩ => ⟨S512x1, .f32⟩
  | .local _ .vmem, ⟨7, _⟩ => ⟨S512x1, .f32⟩
  | .local _ .vmem, ⟨8, _⟩ => ⟨S512x768, .f32⟩
  | .local _ .vmem, ⟨9, _⟩ => ⟨S512x768, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x256, .f32⟩
  | .local _ .vmem, ⟨15, _⟩ => ⟨S512x1, .f32⟩
  | .local _ .vmem, ⟨16, _⟩ => ⟨S512x1, .f32⟩
  | .local _ .vmem, ⟨17, _⟩ => ⟨S256x256, .bf16⟩
  | .local _ .vmem, ⟨18, _⟩ => ⟨S256x256, .bf16⟩
  | .local _ .vmem, ⟨19, _⟩ => ⟨S3200x256, .bf16⟩
  | .local _ .vmem, ⟨20, _⟩ => ⟨S3200x256, .bf16⟩
  | .local _ .vmem, ⟨21, _⟩ => ⟨S256x1, .f32⟩
  | .local _ .vmem, ⟨22, _⟩ => ⟨S256x1, .f32⟩
  | .local _ .vmem, ⟨23, _⟩ => ⟨S256x1, .f32⟩
  | .local _ .vmem, ⟨24, _⟩ => ⟨S256x1, .f32⟩
  | .local _ .vmem, ⟨25, _⟩ => ⟨S256x1, .f32⟩
  | .local _ .vmem, ⟨26, _⟩ => ⟨S256x1, .f32⟩
  | .local _ .vmem, ⟨27, _⟩ => ⟨S1x3200, .f32⟩
  | .local _ .vmem, ⟨28, _⟩ => ⟨S1x3200, .f32⟩
  | .local _ .vmem, ⟨29, _⟩ => ⟨S256x3200, .f32⟩
  | .local _ .vmem, ⟨30, _⟩ => ⟨S256x3200, .f32⟩
  | .local _ .vmem, ⟨31, _⟩ => ⟨S256x3200, .f32⟩
  | .local _ .vmem, ⟨32, _⟩ => ⟨S256x3200, .f32⟩
  | .local _ .vmem, ⟨33, _⟩ => ⟨S1024x768, .f32⟩
  | .local _ .vmem, ⟨34, _⟩ => ⟨S1024x768, .f32⟩
  | .local _ .vmem, ⟨35, _⟩ => ⟨S768, .f32⟩
  | .local _ .vmem, ⟨36, _⟩ => ⟨S768, .f32⟩
  | .local _ .vmem, ⟨37, _⟩ => ⟨S1024x768, .f32⟩
  | .local _ .vmem, ⟨38, _⟩ => ⟨S1024x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_v5 : Ref sig .tc := ⟨.hbm, 20, rfl⟩
abbrev main_v6 : Ref sig .tc := ⟨.hbm, 21, rfl⟩
abbrev main_c_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call0_v0 : Ref sig .tc := ⟨.hbm, 56, rfl⟩
abbrev main_call0_cst : Ref sig .tc := ⟨.hbm, 57, rfl⟩
abbrev main_call0_v1 : Ref sig .tc := ⟨.hbm, 58, rfl⟩
abbrev main_v36 : Ref sig .tc := ⟨.hbm, 59, rfl⟩
abbrev main_v37 : Ref sig .tc := ⟨.hbm, 60, rfl⟩
abbrev main_call1_v0 : Ref sig .tc := ⟨.hbm, 61, rfl⟩
abbrev main_call1_cst : Ref sig .tc := ⟨.hbm, 62, rfl⟩
abbrev main_call1_v1 : Ref sig .tc := ⟨.hbm, 63, rfl⟩
abbrev main_v38 : Ref sig .tc := ⟨.hbm, 64, rfl⟩
abbrev main_v39 : Ref sig .tc := ⟨.hbm, 65, rfl⟩
abbrev main_cst : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49_0 : Ref sig .tc := ⟨.hbm, 79, rfl⟩
abbrev main_v49_1 : Ref sig .tc := ⟨.hbm, 80, rfl⟩
abbrev main_v49_2 : Ref sig .tc := ⟨.hbm, 81, rfl⟩
abbrev main_v50_0 : Ref sig .tc := ⟨.hbm, 82, rfl⟩
abbrev main_v50_1 : Ref sig .tc := ⟨.hbm, 83, rfl⟩
abbrev main_c_10 : Ref sig .tc := ⟨.hbm, 84, rfl⟩
abbrev main_v51 : Ref sig .tc := ⟨.hbm, 85, rfl⟩
abbrev main_v52 : Ref sig .tc := ⟨.hbm, 86, rfl⟩
abbrev main_c_11 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_12 : Ref sig .tc := ⟨.hbm, 91, rfl⟩
abbrev main_v56 : Ref sig .tc := ⟨.hbm, 92, rfl⟩
abbrev main_v57 : Ref sig .tc := ⟨.hbm, 93, rfl⟩
abbrev main_c_13 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg2_0 : Ref sig .tc := ⟨.vmem, 36, rfl⟩
abbrev cc2_stg3_0 : Ref sig .tc := ⟨.vmem, 37, rfl⟩
abbrev cc2_stg3_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem3_1 : DmaSem sig := 35

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c9_i32 : BitVec 32 := 9#32
  let v38 : BitVec 1 := Scalar.cmpi .eq arg1 c9_i32
  let v39 : BitVec 32 := Scalar.extui v38
  let c0_i32_21 : BitVec 32 := 0#32
  let v40 : BitVec 1 := Scalar.cmpi .ne v39 c0_i32_21
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3200x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![10, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3200x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x3200 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S256x3200 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x3200 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096x768_S4096x768_S4096x1536_d1 : Shape.Concatenates [S4096x768, S4096x768] S4096x1536 1
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bitsLt_bf16_f32 : FTy.bits .bf16 < FTy.bits .f32
  reducesTo_S32000x256_S32000_d1 : S32000x256.ReducesTo [1] S32000
  h_S_ : 0 < S_.numel
  shapeCasts_S32000_S1x32000 : S32000.ShapeCasts S1x32000
  reducesTo_S4096x256_S4096_d1 : S4096x256.ReducesTo [1] S4096
  shapeCasts_S4096_S4096x1 : S4096.ShapeCasts S4096x1
  bcast_S_S1x32000 : S_.BroadcastsInDim S1x32000 (![] : Fin 0 → Fin S1x32000.rank)
  bcast_S_S4096x1 : S_.BroadcastsInDim S4096x1 (![] : Fin 0 → Fin S4096x1.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S3200x256_S3200x256_0_0 : ∀ a, (![0, 0] : Fin 2 → Nat) a + S3200x256.size a ≤ S3200x256.size a
  h_S3200x256 : 0 < S3200x256.numel
  shapeCasts_S3200x256_S3200x256 : S3200x256.ShapeCasts S3200x256
  reduces_S512x3200_S512 : S512x3200.Reduces [1] S512
  shapeCasts_S512_S512x1 : S512.ShapeCasts S512x1
  broadcasts_S512x1_S512x3200 : S512x1.Broadcasts S512x3200
  broadcasts_S512x1_S512x256 : S512x1.Broadcasts S512x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  broadcasts_S512x1_S512x768 : S512x1.Broadcasts S512x768
  inb_S512x768_S512x768_0_0 : ∀ a, (![0, 0] : Fin 2 → Nat) a + S512x768.size a ≤ S512x768.size a
  h_S512x768 : 0 < S512x768.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x3200 : S256x1.Broadcasts S256x3200
  inb_S256x3200_S256x3200_0_0 : ∀ a, (![0, 0] : Fin 2 → Nat) a + S256x3200.size a ≤ S256x3200.size a
  h_S256x3200 : 0 < S256x3200.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S256x3200 : S1x3200.Broadcasts S256x3200
  shapeCasts_S8x2048x768_S16384x768 : S8x2048x768.ShapeCasts S16384x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  reduces_S1024x768_S1024 : S1024x768.Reduces [1] S1024
  shapeCasts_S1024_S1024x1 : S1024.ShapeCasts S1024x1
  broadcasts_S1024x1_S1024x768 : S1024x1.Broadcasts S1024x768
  broadcasts_S1x768_S1024x768 : S1x768.Broadcasts S1024x768
  shapeCasts_S16384x768_S8x2048x768 : S16384x768.ShapeCasts S8x2048x768
  gather_S8x2048x768_S4096x2_S4096x768_1_01_n_n_01_1_11768_wf : GatherDims.WF S8x2048x768 S4096x2 S4096x768 [1] [0, 1] [] [0, 1] [] 1 ![1, 1, 768]
  dot_S4096x1536_S1536x256_S4096x256_1_0_0_1_n_n_wf : DotDims.WF S4096x1536 S1536x256 S4096x256 [1] [0] [0] [1] [] []
  dot_S512x256_S3200x256_S512x3200_1_1_0_0_n_n_wf : DotDims.WF S512x256 S3200x256 S512x3200 [1] [1] [0] [0] [] []
  dot_S512x3200_S3200x256_S512x256_1_0_0_1_n_n_wf : DotDims.WF S512x3200 S3200x256 S512x256 [1] [0] [0] [1] [] []
  dot_S512x256_S256x768_S512x768_1_0_0_1_n_n_wf : DotDims.WF S512x256 S256x768 S512x768 [1] [0] [0] [1] [] []
  dot_S256x256_S3200x256_S256x3200_1_1_0_0_n_n_wf : DotDims.WF S256x256 S3200x256 S256x3200 [1] [1] [0] [0] [] []
  scatter_S8x2048x768_S4096x2_S4096x768_1_01_01_1_wf : ScatterDims.WF S8x2048x768 S4096x2 S4096x768 [1] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .bf16 = 32 ∨ (Rect.block (s := S4096x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x256.size a ≤ S32000x256.size a
  hwx0_1 : ∀ i : grid0.Coords, EltTy.bits .bf16 = 32 ∨ (Rect.block (s := S32000x256) S3200x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S256x768.size a
  hwx0_2 : ∀ i : grid0.Coords, EltTy.bits .bf16 = 32 ∨ (Rect.block (s := S256x768) S256x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x768.size a ≤ S4096x768.size a
  hwx0_5 : ∀ i : grid0.Coords, EltTy.bits .f32 = 32 ∨ (Rect.block (s := S4096x768) S512x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S4096x1.size a
  hwx0_7 : ∀ i : grid0.Coords, EltTy.bits .f32 = 32 ∨ (Rect.block (s := S4096x1) S512x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S4096x256.size a
  hwx1_0 : ∀ i : grid1.Coords, EltTy.bits .bf16 = 32 ∨ (Rect.block (s := S4096x256) S256x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x256.size a ≤ S32000x256.size a
  hwx1_1 : ∀ i : grid1.Coords, EltTy.bits .bf16 = 32 ∨ (Rect.block (s := S32000x256) S3200x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S4096x1.size a
  hwx1_2 : ∀ i : grid1.Coords, EltTy.bits .f32 = 32 ∨ (Rect.block (s := S4096x1) S256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S4096x1.size a
  hwx1_3 : ∀ i : grid1.Coords, EltTy.bits .f32 = 32 ∨ (Rect.block (s := S4096x1) S256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S4096x1.size a
  hwx1_4 : ∀ i : grid1.Coords, EltTy.bits .f32 = 32 ∨ (Rect.block (s := S4096x1) S256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x3200.size a ≤ S1x32000.size a
  hwx1_5 : ∀ i : grid1.Coords, EltTy.bits .f32 = 32 ∨ (Rect.block (s := S1x32000) S1x3200.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x3200.size a ≤ S4096x32000.size a
  hwx1_6 : ∀ i : grid1.Coords, EltTy.bits .f32 = 32 ∨ (Rect.block (s := S4096x32000) S256x3200.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x3200.size a ≤ S4096x32000.size a
  hwx1_7 : ∀ i : grid1.Coords, EltTy.bits .f32 = 32 ∨ (Rect.block (s := S4096x32000) S256x3200.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x768.size a ≤ S16384x768.size a
  hwx2_0 : ∀ i : grid2.Coords, EltTy.bits .f32 = 32 ∨ (Rect.block (s := S16384x768) S1024x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768.size a ≤ S768.size a
  hwx2_1 : ∀ i : grid2.Coords, EltTy.bits .f32 = 32 ∨ (Rect.block (s := S768) S768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768.size a ≤ S768.size a
  hwx2_2 : ∀ i : grid2.Coords, EltTy.bits .f32 = 32 ∨ (Rect.block (s := S768) S768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x768.size a ≤ S16384x768.size a
  hwx2_3 : ∀ i : grid2.Coords, EltTy.bits .f32 = 32 ∨ (Rect.block (s := S16384x768) S1024x768.size (cc2_transform_3 i) (hinb2_3 i)).WholeWords (EltTy.packing .f32)

variable [Facts₀]

def gather_S8x2048x768_S4096x2_S4096x768_1_01_n_n_01_1_11768 : GatherDims S8x2048x768 S4096x2 S4096x768 where
  offsetDims := [1]
  collapsedSliceDims := [0, 1]
  operandBatchingDims := []
  startIndicesBatchingDims := []
  startIndexMap := [0, 1]
  indexVectorDim := 1
  sliceSizes := ![1, 1, 768]
  wf := gather_S8x2048x768_S4096x2_S4096x768_1_01_n_n_01_1_11768_wf
def dot_S4096x1536_S1536x256_S4096x256_1_0_0_1_n_n : DotDims S4096x1536 S1536x256 S4096x256 where
  lhsContracting := [1]
  rhsContracting := [0]
  lhsNonContracting := [0]
  rhsNonContracting := [1]
  lhsBatch := []
  rhsBatch := []
  wf := dot_S4096x1536_S1536x256_S4096x256_1_0_0_1_n_n_wf
def dot_S512x256_S3200x256_S512x3200_1_1_0_0_n_n : DotDims S512x256 S3200x256 S512x3200 where
  lhsContracting := [1]
  rhsContracting := [1]
  lhsNonContracting := [0]
  rhsNonContracting := [0]
  lhsBatch := []
  rhsBatch := []
  wf := dot_S512x256_S3200x256_S512x3200_1_1_0_0_n_n_wf
def dot_S512x3200_S3200x256_S512x256_1_0_0_1_n_n : DotDims S512x3200 S3200x256 S512x256 where
  lhsContracting := [1]
  rhsContracting := [0]
  lhsNonContracting := [0]
  rhsNonContracting := [1]
  lhsBatch := []
  rhsBatch := []
  wf := dot_S512x3200_S3200x256_S512x256_1_0_0_1_n_n_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S256x256_S3200x256_S256x3200_1_1_0_0_n_n : DotDims S256x256 S3200x256 S256x3200 where
  lhsContracting := [1]
  rhsContracting := [1]
  lhsNonContracting := [0]
  rhsNonContracting := [0]
  lhsBatch := []
  rhsBatch := []
  wf := dot_S256x256_S3200x256_S256x3200_1_1_0_0_n_n_wf
def scatter_S8x2048x768_S4096x2_S4096x768_1_01_01_1 : ScatterDims S8x2048x768 S4096x2 S4096x768 where
  updateWindowDims := [1]
  insertedWindowDims := [0, 1]
  scatterDimsToOperandDims := [0, 1]
  indexVectorDim := 1
  wf := scatter_S8x2048x768_S4096x2_S4096x768_1_01_01_1_wf

abbrev win0_0 : Pipeline.Window sig grid0 :=
  Pipeline.Window.ofSpec (Memref.whole main_v33) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S3200x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S256x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v49_0) S512x768.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v49_1) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v49_2) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun i => !(k0_cond2 i == 1#1) | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v33) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S3200x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49_1) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49_2) S256x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v47) S256x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x3200.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v50_0) S256x3200.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v50_1) S256x3200.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v65) S1024x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1024x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x2048x768 : Shape := ⟨3, ![8, 2048, 768]⟩
abbrev S4096 : Shape := ⟨1, ![4096]⟩
abbrev S32000x256 : Shape := ⟨2, ![32000, 256]⟩
abbrev S1536x256 : Shape := ⟨2, ![1536, 256]⟩
abbrev S256 : Shape := ⟨1, ![256]⟩
abbrev S256x768 : Shape := ⟨2, ![256, 768]⟩
abbrev S768 : Shape := ⟨1, ![768]⟩
abbrev S_ : Shape := ⟨0, ![]⟩
abbrev S4096x1 : Shape := ⟨2, ![4096, 1]⟩
abbrev S4096x2 : Shape := ⟨2, ![4096, 2]⟩
abbrev S4096x768 : Shape := ⟨2, ![4096, 768]⟩
abbrev S4096x1536 : Shape := ⟨2, ![4096, 1536]⟩
abbrev S4096x256 : Shape := ⟨2, ![4096, 256]⟩
abbrev S1x256 : Shape := ⟨2, ![1, 256]⟩
abbrev S4096x32000 : Shape := ⟨2, ![4096, 32000]⟩
abbrev S1x768 : Shape := ⟨2, ![1, 768]⟩
abbrev S8x2048 : Shape := ⟨2, ![8, 2048]⟩
abbrev S8x2048x1 : Shape := ⟨3, ![8, 2048, 1]⟩
abbrev S1x1x768 : Shape := ⟨3, ![1, 1, 768]⟩
abbrev S32000 : Shape := ⟨1, ![32000]⟩
abbrev S1x32000 : Shape := ⟨2, ![1, 32000]⟩

abbrev nBuf : Space → Nat
  | .hbm => 143
  | .vmem => 0
  | .smem => 0
  | _ => 0

abbrev hbmTy0_0 (i : Nat) : BufTy := match i % 128 with
  | 0 => ⟨S8x2048x768, .f32⟩
  | 1 => ⟨S4096, .i32⟩
  | 2 => ⟨S4096, .i32⟩
  | 3 => ⟨S4096, .i32⟩
  | 4 => ⟨S4096, .f32⟩
  | 5 => ⟨S32000x256, .f32⟩
  | 6 => ⟨S1536x256, .f32⟩
  | 7 => ⟨S256, .f32⟩
  | 8 => ⟨S256x768, .f32⟩
  | 9 => ⟨S768, .f32⟩
  | 10 => ⟨S768, .f32⟩
  | 11 => ⟨S768, .f32⟩
  | 12 => ⟨S_, .i32⟩
  | 13 => ⟨S4096, .i32⟩
  | 14 => ⟨S4096, .i1⟩
  | 15 => ⟨S_, .i32⟩
  | 16 => ⟨S4096, .i32⟩
  | 17 => ⟨S4096, .i32⟩
  | 18 => ⟨S4096, .i32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S4096x1, .i32⟩
  | 28 => ⟨S4096x2, .i32⟩
  | 29 => ⟨S4096x768, .f32⟩
  | 30 => ⟨S_, .i32⟩
  | 31 => ⟨S4096, .i32⟩
  | 32 => ⟨S4096, .i1⟩
  | 33 => ⟨S_, .i32⟩
  | 34 => ⟨S4096, .i32⟩
  | 35 => ⟨S4096, .i32⟩
  | 36 => ⟨S4096, .i32⟩
  | 37 => ⟨S_, .i32⟩
  | 38 => ⟨S4096, .i32⟩
  | 39 => ⟨S4096, .i1⟩
  | 40 => ⟨S_, .i32⟩
  | 41 => ⟨S4096, .i32⟩
  | 42 => ⟨S4096, .i32⟩
  | 43 => ⟨S4096, .i32⟩
  | 44 => ⟨S4096x1, .i32⟩
  | 45 => ⟨S4096x1, .i32⟩
  | 46 => ⟨S4096x2, .i32⟩
  | 47 => ⟨S4096x768, .f32⟩
  | 48 => ⟨S4096x1536, .f32⟩
  | 49 => ⟨S4096x256, .f32⟩
  | 50 => ⟨S1x256, .f32⟩
  | 51 => ⟨S4096x256, .f32⟩
  | 52 => ⟨S4096x256, .f32⟩
  | 53 => ⟨S4096x32000, .f32⟩
  | 54 => ⟨S_, .f32⟩
  | 55 => ⟨S4096, .f32⟩
  | 56 => ⟨S_, .f32⟩
  | 57 => ⟨S4096, .f32⟩
  | 58 => ⟨S4096, .f32⟩
  | 59 => ⟨S4096x1, .f32⟩
  | 60 => ⟨S4096x32000, .f32⟩
  | 61 => ⟨S4096x32000, .f32⟩
  | 62 => ⟨S4096x32000, .f32⟩
  | 63 => ⟨S_, .f32⟩
  | 64 => ⟨S4096, .f32⟩
  | 65 => ⟨S4096x1, .f32⟩
  | 66 => ⟨S4096x32000, .f32⟩
  | 67 => ⟨S4096x32000, .f32⟩
  | 68 => ⟨S4096x256, .f32⟩
  | 69 => ⟨S4096x768, .f32⟩
  | 70 => ⟨S1x768, .f32⟩
  | 71 => ⟨S4096x768, .f32⟩
  | 72 => ⟨S4096x768, .f32⟩
  | 73 => ⟨S4096x1, .f32⟩
  | 74 => ⟨S4096x768, .f32⟩
  | 75 => ⟨S4096x768, .f32⟩
  | 76 => ⟨S_, .i32⟩
  | 77 => ⟨S4096, .i32⟩
  | 78 => ⟨S4096, .i1⟩
  | 79 => ⟨S_, .i32⟩
  | 80 => ⟨S4096, .i32⟩
  | 81 => ⟨S4096, .i32⟩
  | 82 => ⟨S4096, .i32⟩
  | 83 => ⟨S_, .i32⟩
  | 84 => ⟨S4096, .i32⟩
  | 85 => ⟨S4096, .i1⟩
  | 86 => ⟨S_, .i32⟩
  | 87 => ⟨S4096, .i32⟩
  | 88 => ⟨S4096, .i32⟩
  | 89 => ⟨S4096, .i32⟩
  | 90 => ⟨S4096x1, .i32⟩
  | 91 => ⟨S4096x1, .i32⟩
  | 92 => ⟨S4096x2, .i32⟩
  | 93 => ⟨S8x2048x768, .f32⟩
  | 94 => ⟨S_, .f32⟩
  | 95 => ⟨S8x2048, .f32⟩
  | 96 => ⟨S8x2048x1, .f32⟩
  | 97 => ⟨S_, .f32⟩
  | 98 => ⟨S8x2048x1, .f32⟩
  | 99 => ⟨S8x2048x1, .f32⟩
  | 100 => ⟨S8x2048x768, .f32⟩
  | 101 => ⟨S8x2048x768, .f32⟩
  | 102 => ⟨S8x2048x768, .f32⟩
  | 103 => ⟨S_, .f32⟩
  | 104 => ⟨S8x2048, .f32⟩
  | 105 => ⟨S8x2048x1, .f32⟩
  | 106 => ⟨S_, .f32⟩
  | 107 => ⟨S8x2048x1, .f32⟩
  | 108 => ⟨S8x2048x1, .f32⟩
  | 109 => ⟨S8x2048x768, .f32⟩
  | 110 => ⟨S8x2048x768, .f32⟩
  | 111 => ⟨S_, .f32⟩
  | 112 => ⟨S8x2048x1, .f32⟩
  | 113 => ⟨S8x2048x1, .f32⟩
  | 114 => ⟨S8x2048x1, .f32⟩
  | 115 => ⟨S8x2048x768, .f32⟩
  | 116 => ⟨S8x2048x768, .f32⟩
  | 117 => ⟨S1x1x768, .f32⟩
  | 118 => ⟨S8x2048x768, .f32⟩
  | 119 => ⟨S8x2048x768, .f32⟩
  | 120 => ⟨S1x1x768, .f32⟩
  | 121 => ⟨S8x2048x768, .f32⟩
  | 122 => ⟨S8x2048x768, .f32⟩
  | 123 => ⟨S4096x256, .f32⟩
  | 124 => ⟨S_, .f32⟩
  | 125 => ⟨S4096, .f32⟩
  | 126 => ⟨S4096, .f32⟩
  | 127 => ⟨S32000x256, .f32⟩
  | _ => ⟨S8x2048x768, .f32⟩

abbrev hbmTy0_1 (i : Nat) : BufTy := match i % 128 with
  | 0 => ⟨S_, .f32⟩
  | 1 => ⟨S32000, .f32⟩
  | 2 => ⟨S32000, .f32⟩
  | 3 => ⟨S4096x1, .f32⟩
  | 4 => ⟨S_, .f32⟩
  | 5 => ⟨S4096x1, .f32⟩
  | 6 => ⟨S4096x1, .f32⟩
  | 7 => ⟨S4096x32000, .f32⟩
  | 8 => ⟨S4096x32000, .f32⟩
  | 9 => ⟨S1x32000, .f32⟩
  | 10 => ⟨S_, .f32⟩
  | 11 => ⟨S1x32000, .f32⟩
  | 12 => ⟨S1x32000, .f32⟩
  | 13 => ⟨S4096x32000, .f32⟩
  | 14 => ⟨S4096x32000, .f32⟩
  | _ => ⟨S8x2048x768, .f32⟩

abbrev hbmTy (i : Nat) : BufTy := match i / 128 with
  | 0 => hbmTy0_0 i
  | 1 => hbmTy0_1 i
  | _ => ⟨S8x2048x768, .f32⟩

abbrev bufTy : (tb : Table) → Fin (tcTables nBuf tb) → BufTy
  | .hbm, ⟨i, _⟩ => hbmTy i
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_v5 : Ref sig .tc := ⟨.hbm, 20, rfl⟩
abbrev main_v6 : Ref sig .tc := ⟨.hbm, 21, rfl⟩
abbrev main_c_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_17 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_call0_v0 : Ref sig .tc := ⟨.hbm, 123, rfl⟩
abbrev main_call0_cst : Ref sig .tc := ⟨.hbm, 124, rfl⟩
abbrev main_call0_v1 : Ref sig .tc := ⟨.hbm, 125, rfl⟩
abbrev main_v91 : Ref sig .tc := ⟨.hbm, 126, rfl⟩
abbrev main_call1_v0 : Ref sig .tc := ⟨.hbm, 127, rfl⟩
abbrev main_call1_cst : Ref sig .tc := ⟨.hbm, 128, rfl⟩
abbrev main_call1_v1 : Ref sig .tc := ⟨.hbm, 129, rfl⟩
abbrev main_v92 : Ref sig .tc := ⟨.hbm, 130, rfl⟩
abbrev main_v93 : Ref sig .tc := ⟨.hbm, 131, rfl⟩
abbrev main_cst_18 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_19 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096x768_S4096x768_S4096x1536_d1 : Shape.Concatenates [S4096x768, S4096x768] S4096x1536 1
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x32000_S4096_d1 : S4096x32000.ReducesTo [1] S4096
  h_S_ : 0 < S_.numel
  bcast_S4096x1_S4096x32000_0_1 : S4096x1.BroadcastsInDim S4096x32000 (![0, 1] : Fin 2 → Fin S4096x32000.rank)
  bcast_S768_S1x768_1 : S768.BroadcastsInDim S1x768 (![1] : Fin 1 → Fin S1x768.rank)
  bcast_S1x768_S4096x768_0_1 : S1x768.BroadcastsInDim S4096x768 (![0, 1] : Fin 2 → Fin S4096x768.rank)
  bcast_S4096x1_S4096x768_0_1 : S4096x1.BroadcastsInDim S4096x768 (![0, 1] : Fin 2 → Fin S4096x768.rank)
  reducesTo_S8x2048x768_S8x2048_d2 : S8x2048x768.ReducesTo [2] S8x2048
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x768_0_1_2 : S8x2048x1.BroadcastsInDim S8x2048x768 (![0, 1, 2] : Fin 3 → Fin S8x2048x768.rank)
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  reducesTo_S4096x256_S4096_d1 : S4096x256.ReducesTo [1] S4096
  reducesTo_S32000x256_S32000_d1 : S32000x256.ReducesTo [1] S32000
  bcast_S_S4096x1 : S_.BroadcastsInDim S4096x1 (![] : Fin 0 → Fin S4096x1.rank)
  bcast_S32000_S1x32000_1 : S32000.BroadcastsInDim S1x32000 (![1] : Fin 1 → Fin S1x32000.rank)
  bcast_S_S1x32000 : S_.BroadcastsInDim S1x32000 (![] : Fin 0 → Fin S1x32000.rank)
  bcast_S1x32000_S4096x32000_0_1 : S1x32000.BroadcastsInDim S4096x32000 (![0, 1] : Fin 2 → Fin S4096x32000.rank)
  gather_S8x2048x768_S4096x2_S4096x768_1_01_n_n_01_1_11768_wf : GatherDims.WF S8x2048x768 S4096x2 S4096x768 [1] [0, 1] [] [0, 1] [] 1 ![1, 1, 768]
  dot_S4096x1536_S1536x256_S4096x256_1_0_0_1_n_n_wf : DotDims.WF S4096x1536 S1536x256 S4096x256 [1] [0] [0] [1] [] []
  dot_S4096x256_S32000x256_S4096x32000_1_1_0_0_n_n_wf : DotDims.WF S4096x256 S32000x256 S4096x32000 [1] [1] [0] [0] [] []
  dot_S4096x32000_S32000x256_S4096x256_1_0_0_1_n_n_wf : DotDims.WF S4096x32000 S32000x256 S4096x256 [1] [0] [0] [1] [] []
  dot_S4096x256_S256x768_S4096x768_1_0_0_1_n_n_wf : DotDims.WF S4096x256 S256x768 S4096x768 [1] [0] [0] [1] [] []
  scatter_S8x2048x768_S4096x2_S4096x768_1_01_01_1_wf : ScatterDims.WF S8x2048x768 S4096x2 S4096x768 [1] [0, 1] [0, 1] 1

variable [Facts₀]

def gather_S8x2048x768_S4096x2_S4096x768_1_01_n_n_01_1_11768 : GatherDims S8x2048x768 S4096x2 S4096x768 where
  offsetDims := [1]
  collapsedSliceDims := [0, 1]
  operandBatchingDims := []
  startIndicesBatchingDims := []
  startIndexMap := [0, 1]
  indexVectorDim := 1
  sliceSizes := ![1, 1, 768]
  wf := gather_S8x2048x768_S4096x2_S4096x768_1_01_n_n_01_1_11768_wf
def dot_S4096x1536_S1536x256_S4096x256_1_0_0_1_n_n : DotDims S4096x1536 S1536x256 S4096x256 where
  lhsContracting := [1]
  rhsContracting := [0]
  lhsNonContracting := [0]
  rhsNonContracting := [1]
  lhsBatch := []
  rhsBatch := []
  wf := dot_S4096x1536_S1536x256_S4096x256_1_0_0_1_n_n_wf
def dot_S4096x256_S32000x256_S4096x32000_1_1_0_0_n_n : DotDims S4096x256 S32000x256 S4096x32000 where
  lhsContracting := [1]
  rhsContracting := [1]
  lhsNonContracting := [0]
  rhsNonContracting := [0]
  lhsBatch := []
  rhsBatch := []
  wf := dot_S4096x256_S32000x256_S4096x32000_1_1_0_0_n_n_wf
def dot_S4096x32000_S32000x256_S4096x256_1_0_0_1_n_n : DotDims S4096x32000 S32000x256 S4096x256 where
  lhsContracting := [1]
  rhsContracting := [0]
  lhsNonContracting := [0]
  rhsNonContracting := [1]
  lhsBatch := []
  rhsBatch := []
  wf := dot_S4096x32000_S32000x256_S4096x256_1_0_0_1_n_n_wf
def dot_S4096x256_S256x768_S4096x768_1_0_0_1_n_n : DotDims S4096x256 S256x768 S4096x768 where
  lhsContracting := [1]
  rhsContracting := [0]
  lhsNonContracting := [0]
  rhsNonContracting := [1]
  lhsBatch := []
  rhsBatch := []
  wf := dot_S4096x256_S256x768_S4096x768_1_0_0_1_n_n_wf
def scatter_S8x2048x768_S4096x2_S4096x768_1_01_01_1 : ScatterDims S8x2048x768 S4096x2 S4096x768 where
  updateWindowDims := [1]
  insertedWindowDims := [0, 1]
  scatterDimsToOperandDims := [0, 1]
  indexVectorDim := 1
  wf := scatter_S8x2048x768_S4096x2_S4096x768_1_01_01_1_wf

class Facts : Prop extends Facts₀ where

variable [Facts]
-- ==== Proof.K.R0Defs.lean ====
/-
  Region 0 (the attention-reduction kernel): what its three control cases share. The grid is 8 mention tiles by 10
  entity tiles, the entity axis inner. The body resets its three scratch accumulators (running maximum, running sum,
  running weighted sum) at the first entity tile of a mention tile, updates them at every entity tile, and at the last
  one writes the projected update, the maximum and the sum into its three outputs. So a point is in one of three cases:
  first tile, a middle tile, last tile.
-/
import proofs.«120323_j21741124452848_2_alg».proof.Proof.Gen.Kernel.Launch
import proofs.«120323_j21741124452848_2_alg».proof.Proof.Gen.Kernel.Skeleton
import proofs.«120323_j21741124452848_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is not
    fetched its block index has not moved since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "This is the first entity tile": the entity coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- "This is the last entity tile": the entity coordinate is 9. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle: the outputs are stored, and written back, at the last entity tile only -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/
abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3200x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x768 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- Scratch operand 0: a whole scoped buffer of the kernel's own. -/
abbrev scM0_0 : Memref sig .tc .vmem S512x256 .f32 := Memref.whole cc0_scratch0
abbrev VS0_0 : View sig .tc .vmem S512x256 .f32 := scM0_0.view
/-- Scratch operand 1: a whole scoped buffer of the kernel's own. -/
abbrev scM0_1 : Memref sig .tc .vmem S512x1 .f32 := Memref.whole cc0_scratch1
abbrev VS0_1 : View sig .tc .vmem S512x1 .f32 := scM0_1.view
/-- Scratch operand 2: a whole scoped buffer of the kernel's own. -/
abbrev scM0_2 : Memref sig .tc .vmem S512x1 .f32 := Memref.whole cc0_scratch2
abbrev VS0_2 : View sig .tc .vmem S512x1 .f32 := scM0_2.view
/-- One staging buffer of each output window, through which its contents are stated (the choice does not matter). -/
abbrev VO0_5 : View sig .tc .vmem S512x768 .f32 := (Memref.whole cc0_stg5_0 : Memref sig .tc .vmem S512x768 .f32).view
abbrev VO0_6 : View sig .tc .vmem S512x1 .f32 := (Memref.whole cc0_stg6_0 : Memref sig .tc .vmem S512x1 .f32).view
abbrev VO0_7 : View sig .tc .vmem S512x1 .f32 := (Memref.whole cc0_stg7_0 : Memref sig .tc .vmem S512x1 .f32).view

/-- The region's class invariant with the three scratch operands as memrefs owned at some contents, the other scoped
    buffers unopened, and the generator register at some state. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d))
          ∗ Pipeline.scopedRestBut (Ix := Unit) (Name := ℕ) (U := UR sig nD τ) (Lvl := ℕ) (Val := Elt F) spec0 c [cc0_scratch0, cc0_scratch1, cc0_scratch2]) ∗ (∃ r, prngReg c r)) := by
  unfold Pipeline.ΦA; rw [scopedRest0_split]; simp only [scM0_0, scM0_1, scM0_2, owns_whole]; try rfl

end Cert.Kernel.Hand

end
-- ==== Proof.K.R0RunA.lean ====
/-
  Region 0, case A: the FIRST entity tile of a mention tile (not the last). The body resets the three scratch accumulators, then folds this tile in; it stores nothing into the outputs, which are handed back untouched.
-/
import proofs.«120323_j21741124452848_2_alg».proof.Proof.K.R0Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body on whole memrefs in this case: the inputs' at their contents and handed back as they were; the pieces the
    body's stores leave in each buffer it stores into are the witness the symbolic run finds. -/
noncomputable def kernelRun0_A (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i)
    (x0 : Vec F S512x256 .bf16) (x1 : Vec F S3200x256 .bf16) (x2 : Vec F S256x768 .bf16) (x3 : Vec F S768 .f32) (x4 : Vec F S512x1 .f32) :
    Σ' (LS0 : List (View.Piece (Elt F) S512x256 .f32)) (LS1 : List (View.Piece (Elt F) S512x1 .f32)), { LS2 : List (View.Piece (Elt F) S512x1 .f32) //
      ∀ (xi5 : Vec F S512x768 .f32) (xi6 : Vec F S512x1 .f32) (xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__kernelA i arg2 harg2 arg3 harg3 arg4 harg4 arg5 harg5 arg6 harg6 arg7 harg7 arg8 harg8 arg9 harg9 arg10 harg10 arg11 harg11 arg12 harg12) K } := by
  refine ⟨?_, ?_, ?_, fun xi5 xi6 xi7 E K => ?run⟩
  case run =>
    simp only [cc0__kernelA_eq_skeleton]; unfold cc0__kernelA_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.Kernel.Hand

end
-- ==== Proof.K.R0RunB.lean ====
/-
  Region 0, case B: a MIDDLE entity tile. The body folds this tile into the three scratch accumulators, which it finds at what the point before left; it stores nothing into the outputs, which are handed back untouched.
-/
import proofs.«120323_j21741124452848_2_alg».proof.Proof.K.R0Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body on whole memrefs in this case: the inputs' at their contents and handed back as they were; the pieces the
    body's stores leave in each buffer it stores into are the witness the symbolic run finds. -/
noncomputable def kernelRun0_B (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i)
    (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) :
    Σ' (LS0 : List (View.Piece (Elt F) S512x256 .f32)) (LS1 : List (View.Piece (Elt F) S512x1 .f32)), { LS2 : List (View.Piece (Elt F) S512x1 .f32) //
      ∀ (xi5 : Vec F S512x768 .f32) (xi6 : Vec F S512x1 .f32) (xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__kernelA i arg2 harg2 arg3 harg3 arg4 harg4 arg5 harg5 arg6 harg6 arg7 harg7 arg8 harg8 arg9 harg9 arg10 harg10 arg11 harg11 arg12 harg12) K } := by
  refine ⟨?_, ?_, ?_, fun xi5 xi6 xi7 E K => ?run⟩
  case run =>
    simp only [cc0__kernelA_eq_skeleton]; unfold cc0__kernelA_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.Kernel.Hand

end
-- ==== Proof.K.R0RunC.lean ====
/-
  Region 0, case C: the LAST entity tile of a mention tile. The body folds this tile into the three scratch accumulators, then stores the projected, masked quotient of the weighted sum by the running sum into output 5, the running maximum into output 6 and the running sum into output 7.
-/
import proofs.«120323_j21741124452848_2_alg».proof.Proof.K.R0Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body on whole memrefs in this case: the inputs' at their contents and handed back as they were; the pieces the
    body's stores leave in each buffer it stores into are the witness the symbolic run finds. -/
noncomputable def kernelRun0_C (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) :
    Σ' (L5 : List (View.Piece (Elt F) S512x768 .f32)) (L6 : List (View.Piece (Elt F) S512x1 .f32)) (L7 : List (View.Piece (Elt F) S512x1 .f32)) (LS0 : List (View.Piece (Elt F) S512x256 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__kernelA i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__kernelA_eq_skeleton]; unfold cc0__kernelA_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    iexists _; iexact HS2

end Cert.Kernel.Hand

end
-- ==== Proof.K.R0Frame.lean ====
/-
  Region 0: what the scratch accumulators and the outputs hold after each grid point, the region's invariant, its proof
  data and its body obligation. The three scratch buffers are carried from point to point inside a mention tile: the
  invariant before point n + 1 holds them at what point n left.
-/
import proofs.«120323_j21741124452848_2_alg».proof.Proof.K.R0RunA
import proofs.«120323_j21741124452848_2_alg».proof.Proof.K.R0RunB
import proofs.«120323_j21741124452848_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three scratch buffers' contents, and the three outputs' staging buffers' contents. -/
abbrev Sc0 (F : FTy → Type) [FloatOps F] : Type := Vec F S512x256 .f32 × Vec F S512x1 .f32 × Vec F S512x1 .f32
abbrev Ou0 (F : FTy → Type) [FloatOps F] : Type := Vec F S512x768 .f32 × Vec F S512x1 .f32 × Vec F S512x1 .f32

/-- What an output's staging buffer is said to hold at a point that stores nothing into it: a placeholder nothing
    consults (the window is neither written back there nor read at the next point). -/
def idleOu0 : Ou0 F := (VO0_5.read (Elt F) (VO0_5.writes (Elt F) VO0_5.junk []), VO0_6.read (Elt F) (VO0_6.writes (Elt F) VO0_6.junk []), VO0_7.read (Elt F) (VO0_7.writes (Elt F) VO0_7.junk []))

/-! ## Each case's pieces cover the buffer they are stored into -/
theorem scover0_A_0 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .bf16) (x1 : Vec F S3200x256 .bf16) (x2 : Vec F S256x768 .bf16) (x3 : Vec F S768 .f32) (x4 : Vec F S512x1 .f32) (y : S512x256.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).1 S512x256.size (by sl_kernel_rfl) y
theorem scover0_A_1 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .bf16) (x1 : Vec F S3200x256 .bf16) (x2 : Vec F S256x768 .bf16) (x3 : Vec F S768 .f32) (x4 : Vec F S512x1 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1 S512x1.size (by sl_kernel_rfl) y
theorem scover0_A_2 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .bf16) (x1 : Vec F S3200x256 .bf16) (x2 : Vec F S256x768 .bf16) (x3 : Vec F S768 .f32) (x4 : Vec F S512x1 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1 S512x1.size (by sl_kernel_rfl) y
theorem scover0_B_0 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) (y : S512x256.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1 S512x256.size (by sl_kernel_rfl) y
theorem scover0_B_1 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1 S512x1.size (by sl_kernel_rfl) y
theorem scover0_B_2 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1 S512x1.size (by sl_kernel_rfl) y
theorem scover0_C_0 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) (y : S512x256.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1 S512x256.size (by sl_kernel_rfl) y
theorem scover0_C_1 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1 S512x1.size (by sl_kernel_rfl) y
theorem scover0_C_2 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1 S512x1.size (by sl_kernel_rfl) y
theorem cover0_C_5 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) (y : S512x768.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1 S512x768.size (by sl_kernel_rfl) y
theorem cover0_C_6 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1 S512x1.size (by sl_kernel_rfl) y
theorem cover0_C_7 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1 S512x1.size (by sl_kernel_rfl) y

/-! ## What each case leaves: its pieces read back -/
/-- What case A leaves in the three scratch buffers. -/
def sout0_A (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .bf16) (x1 : Vec F S3200x256 .bf16) (x2 : Vec F S256x768 .bf16) (x3 : Vec F S768 .f32) (x4 : Vec F S512x1 .f32) : Sc0 F :=
  (VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).1), VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1), VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1))
/-- What case B leaves in the three scratch buffers. -/
def sout0_B (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) : Sc0 F :=
  (VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1), VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1), VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1))
/-- What case C leaves in the three scratch buffers. -/
def sout0_C (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) : Sc0 F :=
  (VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1), VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1), VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1))
/-- What case C leaves in the three outputs' staging buffers. -/
def out0_C (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) : Ou0 F :=
  (VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1), VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1), VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1))

/-! ## What the outputs and the scratch buffers hold after each point -/
/-- THE ACCUMULATION: after the body at position `n`, the outputs' staging buffers and the scratch buffers hold what the
    case of `n` leaves, run at the point's memrefs and input blocks over the scratch contents position `n - 1` left. -/
def outsAt0 (c : Dev nD) : (n : ℕ) → n < cfg0.N → Ou0 F × Sc0 F
  | 0, hn => (idleOu0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => absurd ((hcond0_1 ⟨0, hn⟩).mp h) (show ¬ (0 : ℕ) % 10 = 9 by decide)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 10 = 0 then
      if h1 : (n + 1) % 10 = 9 then False.elim (by omega)
      else (idleOu0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 10 = 9 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2)
      else
        (idleOu0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 10 = 0) (h1 : ¬t.val % 10 = 9) :
    outsAt0 V c t.val t.isLt = (idleOu0, sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 10 = 0) (h1 : ¬t.val % 10 = 9) :
    outsAt0 V c t.val t.isLt = (idleOu0, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 10 = 0) (h1 : t.val % 10 = 9) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The three scratch buffers owned at given contents, the other scoped buffers unopened, the generator register at some state. -/
def PhiAt0 (c : Dev nD) (s : Sc0 F) : sProp 𝕄 :=
  iprop(iprop(iprop(owns (c : Thread nD τ) scM0_0 fullShare s.1 ∗ owns (c : Thread nD τ) scM0_1 fullShare s.2.1 ∗ owns (c : Thread nD τ) scM0_2 fullShare s.2.2)
      ∗ Pipeline.scopedRestBut (Ix := Unit) (Name := ℕ) (U := UR sig nD τ) (Lvl := ℕ) (Val := Elt F) spec0 c [cc0_scratch0, cc0_scratch1, cc0_scratch2]) ∗ (∃ r, prngReg c r))

/-- The invariant before position `n`: before the first point the class's (every scratch at anything); afterwards the
    scratch buffers at what the point before left. -/
def PhiS0 (c : Dev nD) : (n : ℕ) → n ≤ cfg0.N → sProp 𝕄
  | 0, _ => Pipeline.ΦA spec0 c
  | n + 1, hn => PhiAt0 c (outsAt0 V c n hn).2

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) : PhiS0 V c (n + 1) hn = PhiAt0 c (outsAt0 V c n hn).2 := rfl
theorem PhiS0_pos (c : Dev nD) (n : ℕ) (h : n ≤ cfg0.N) (hz : n ≠ 0) :
    PhiS0 V c n h = PhiAt0 c (outsAt0 V c (n - 1) (by omega)).2 := by
  cases n with
  | zero => exact absurd rfl hz
  | succ n => rfl

/-! ## The proof data -/

/-- The region's proof data on core `c`: the arrays as the region finds them; after the body at point `t` each input's
    buffer at its block and the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1.1
    | ⟨6, _⟩ => (outsAt0 V c t.val t.isLt).1.2.1
    | ⟨7, _⟩ => (outsAt0 V c t.val t.isLt).1.2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1.1 := by dsimp only [dat0]
theorem after0_6 (c : Dev nD) (t : Fin cfg0.N) : (dat0 V c).after 6 t = (outsAt0 V c t.val t.isLt).1.2.1 := by dsimp only [dat0]
theorem after0_7 (c : Dev nD) (t : Fin cfg0.N) : (dat0 V c).after 7 t = (outsAt0 V c t.val t.isLt).1.2.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the inputs' memrefs hold their blocks; the closed forms say which case the point is in; the
    invariant hands the body the scratch buffers at what the point before left (at anything before the first point) and
    takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 80 := lt_of_lt_of_eq t.isLt (show cfg0.N = 80 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 10 = 0
  · by_cases h1 : t.val % 10 = 9
    · exfalso; omega
    · rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [outsAt0_A V c t h0 h1]
      unfold PhiAt0 sout0_A; (try dsimp only)
      by_cases hz : t.val = 0
      · rw [PhiS0_castSucc V c t, PhiS0_zero V c _ _ hz, PhiA0_eq]
        iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        iintro ⟨H0, H1, H2, H3, H4, H5, H6, H7, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        iexists _; iexact H7
      · rw [PhiS0_castSucc V c t, PhiS0_pos V c _ _ hz]; unfold PhiAt0
        iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        isplitl [HS2]; · iexists _; iexact HS2
        iintro ⟨H0, H1, H2, H3, H4, H5, H6, H7, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        iexists _; iexact H7
  · have hz : t.val ≠ 0 := fun hz => h0 (by rw [hz])
    by_cases h1 : t.val % 10 = 9
    · rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold PhiAt0 out0_C sout0_C; (try dsimp only)
      rw [PhiS0_castSucc V c t, PhiS0_pos V c _ _ hz]; unfold PhiAt0
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _ _).2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      iintro ⟨H0, H1, H2, H3, H4, ⟨%e5, H5⟩, ⟨%e6, H6⟩, ⟨%e7, H7⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _ _ _ _)
    · rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [outsAt0_B V c t h0 h1]
      unfold PhiAt0 sout0_B; (try dsimp only)
      rw [PhiS0_castSucc V c t, PhiS0_pos V c _ _ hz]; unfold PhiAt0
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch buffers' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]; unfold PhiAt0
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

theorem hout0 (c : Dev nD) : (dat0 V c).Φ (Fin.last cfg0.N) ⊢ Pipeline.ΦA spec0 c :=
  Phi_out0 V c _ (by rw [Fin.val_last]; have : cfg0.N = 80 := N_0; omega)

end Cert.Kernel.Hand

end
-- ==== Proof.K.R1.lean ====
/-
Region 1 of the program: the pallas_call that materialises the two 4096 × 32000 result arrays tile by tile, on the
grid 10 × 16 with the column (entity) tile as the outer axis.  At a point the body reads six blocks — a 256 × 256 tile
of queries, a 3200 × 256 tile of table rows, three 256 × 1 columns (the row maxima, the row sums, the reciprocal query
norms) and one 1 × 3200 row (the reciprocal table-row norms) — and writes two 256 × 3200 tiles: the normalised
exponentials of the scores, and the scores scaled by the two reciprocal norms.

This module is the frame half of that region, for any float instance: what each window's buffer holds when the body is
called, the body's separation-logic triple on whole buffers, the proof data of the pipeline, and the body obligation
at every grid point.  Everything is stated at a parameter `V`, the TensorCore's buffer contents when the region is
entered.
-/
import proofs.«120323_j21741124452848_2_alg».proof.Proof.Gen.Kernel.Launch
import proofs.«120323_j21741124452848_2_alg».proof.Proof.Gen.Kernel.Skeleton
import proofs.«120323_j21741124452848_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with a 3200-long axis is checked coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## A window's block at a grid point -/

/-- The block of window `w` at point `t`: the rectangle of the window's array, as the region finds it, that the
    window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What an input window's buffer holds when the body is called

An input window is fetched only at the points where its block index changes: the query tile and the three columns at
every point (their index is the inner coordinate), the table tile and the row of reciprocal norms only at the first
point of each sweep of the inner axis (their index is the outer coordinate).  Where a window is not fetched its index is
the previous point's, and the body has left the buffer as it found it, so the buffer still holds the block of THIS
point.  Stated for any proof data whose array is `V`'s and whose body leaves the input in place. -/

theorem held1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem held1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem held1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem held1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem held1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem held1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes

Every access of the body is of a whole buffer: offset zero, unit stride, the buffer's own extents. -/

abbrev box1_q : Rect S256x256 := Rect.unit (s := S256x256) ![0, 0] S256x256.size inb_S256x256_S256x256_0_0
abbrev box1_e : Rect S3200x256 := Rect.unit (s := S3200x256) ![0, 0] S3200x256.size inb_S3200x256_S3200x256_0_0
abbrev box1_col : Rect S256x1 := Rect.unit (s := S256x1) ![0, 0] S256x1.size inb_S256x1_S256x1_0_0
abbrev box1_row : Rect S1x3200 := Rect.unit (s := S1x3200) ![0, 0] S1x3200.size inb_S1x3200_S1x3200_0_0
abbrev box1_o : Rect S256x3200 := Rect.unit (s := S256x3200) ![0, 0] S256x3200.size inb_S256x3200_S256x3200_0_0

/-! ## What the body leaves in the two output buffers -/

/-- The first output tile after the body, from the blocks the body read: the query tile `x0`, the table tile `x1`,
    the column of row maxima `x2` and the column of row sums `x3`.  One store of the whole tile: the exponential of
    (score − maximum), divided by the sum. -/
def out1_6 (x0 : Vec F S256x256 .bf16) (x1 : Vec F S3200x256 .bf16) (x2 : Vec F S256x1 .f32) (x3 : Vec F S256x1 .f32) : Vec F S256x3200 .f32 :=
  View.canon [⟨box1_o, k1_pay2 (View.ld x0 box1_q) (View.ld x1 box1_e) (View.ld x2 box1_col) (View.ld x3 box1_col)⟩]

/-- The second output tile after the body, from the query tile `x0`, the table tile `x1`, the column of reciprocal
    query norms `x4` and the row of reciprocal table-row norms `x5`.  One store of the whole tile: the score times
    both reciprocals. -/
def out1_7 (x0 : Vec F S256x256 .bf16) (x1 : Vec F S3200x256 .bf16) (x4 : Vec F S256x1 .f32) (x5 : Vec F S1x3200 .f32) : Vec F S256x3200 .f32 :=
  View.canon [⟨box1_o, k1_pay3 (View.ld x0 box1_q) (View.ld x1 box1_e) (View.ld x4 box1_col) (View.ld x5 box1_row)⟩]

/-- A single store of the whole 256 × 3200 tile reaches every index of it. -/
theorem tiles1_o (p0 : Vec F S256x3200 .f32) (y : S256x3200.Idx) :
    ∃ pc ∈ ([⟨box1_o, p0⟩] : List (View.Piece (Elt F) S256x3200 .f32)), y ∈ pc.1.set :=
  View.cover_of_tiled [⟨box1_o, p0⟩] S256x3200.size (by rfl) y

/-! ## The body's triple -/

set_option maxHeartbeats 1000000 in
/-- The body on whole buffers.  Given the six input buffers at contents `x0 … x5` and the two output buffers at any
    contents (the body loads an output buffer before it overwrites it, and drops what it loaded), the body runs to a
    continuation that holds the inputs unchanged and the outputs at `out1_6` and `out1_7` of the inputs. -/
theorem run_kernelB (c : Dev nD) (E : Set ℕ) (i : grid1.Coords)
    (arg2 : Memref sig .tc .vmem S256x256 .bf16) (harg2 : arg2.IsWhole) (arg3 : Memref sig .tc .vmem S3200x256 .bf16) (harg3 : arg3.IsWhole)
    (arg4 : Memref sig .tc .vmem S256x1 .f32) (harg4 : arg4.IsWhole) (arg5 : Memref sig .tc .vmem S256x1 .f32) (harg5 : arg5.IsWhole)
    (arg6 : Memref sig .tc .vmem S256x1 .f32) (harg6 : arg6.IsWhole) (arg7 : Memref sig .tc .vmem S1x3200 .f32) (harg7 : arg7.IsWhole)
    (arg8 : Memref sig .tc .vmem S256x3200 .f32) (harg8 : arg8.IsWhole) (arg9 : Memref sig .tc .vmem S256x3200 .f32) (harg9 : arg9.IsWhole)
    (x0 : Vec F S256x256 .bf16) (x1 : Vec F S3200x256 .bf16) (x2 : Vec F S256x1 .f32) (x3 : Vec F S256x1 .f32)
    (x4 : Vec F S256x1 .f32) (x5 : Vec F S1x3200 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3) ∗ owns (c : Thread nD τ) arg9 fullShare (out1_7 x0 x1 x4 x5)) -∗ K ⟨⟩))
      ⊢ wp frame (wpE (defs₀ (F := F)) Variants.none c none) E
          (cc1__kernelB i arg2 harg2 arg3 harg3 arg4 harg4 arg5 harg5 arg6 harg6 arg7 harg7 arg8 harg8 arg9 harg9) K := by
  simp only [cc1__kernelB_eq_skeleton]; unfold cc1__kernelB_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (tiles1_o _)
  iexists _; isplitr
  swap; · iexact H7
  ipureintro
  exact View.read_writes_eq_canon _ _ _ (tiles1_o _)

/-! ## The pipeline's proof data -/

/-- The proof data of this pipeline on core `c`.  The arrays are the region-entry contents.  After the body at point
    `t` an input window's buffer holds its block there, and an output window's buffer holds the body's result on the
    input blocks there.  The invariant is the one of a body that touches nothing but its windows; nothing is owed;
    every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t)
    | ⟨7, _⟩ => out1_7 (iblk1 V c 0 t) (iblk1 V c 1 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) := by dsimp only [dat1]
theorem after1_7 (c : Dev nD) (t : Fin cfg1.N) :
    (dat1 V c).after 7 t = out1_7 (iblk1 V c 0 t) (iblk1 V c 1 t) (iblk1 V c 4 t) (iblk1 V c 5 t) := by dsimp only [dat1]

/-- Each input window's buffer holds its block at every point, fetched there or not. -/
theorem held1_0 (c : Dev nD) (t : Fin cfg1.N) (d) : (dat1 V c).before 0 t d = iblk1 V c 0 t :=
  held1_0_of V (dat1 V c) (A_eq1 V c 0) (after1_0 V c) t d
theorem held1_1 (c : Dev nD) (t : Fin cfg1.N) (d) : (dat1 V c).before 1 t d = iblk1 V c 1 t :=
  held1_1_of V (dat1 V c) (A_eq1 V c 1) (after1_1 V c) t d
theorem held1_2 (c : Dev nD) (t : Fin cfg1.N) (d) : (dat1 V c).before 2 t d = iblk1 V c 2 t :=
  held1_2_of V (dat1 V c) (A_eq1 V c 2) (after1_2 V c) t d
theorem held1_3 (c : Dev nD) (t : Fin cfg1.N) (d) : (dat1 V c).before 3 t d = iblk1 V c 3 t :=
  held1_3_of V (dat1 V c) (A_eq1 V c 3) (after1_3 V c) t d
theorem held1_4 (c : Dev nD) (t : Fin cfg1.N) (d) : (dat1 V c).before 4 t d = iblk1 V c 4 t :=
  held1_4_of V (dat1 V c) (A_eq1 V c 4) (after1_4 V c) t d
theorem held1_5 (c : Dev nD) (t : Fin cfg1.N) (d) : (dat1 V c).before 5 t d = iblk1 V c 5 t :=
  held1_5_of V (dat1 V c) (A_eq1 V c 5) (after1_5 V c) t d

/-! ## The body obligation at a generic point -/

/-- What the body is called with at point `t`: the invariant, the core's debt, and each window's current buffer at
    what the pipeline has put there, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns: the same with each buffer at what the body leaves. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the input buffers hold their blocks, so the body's triple applies; the invariant and the
    debt are not touched and do not change from one point to the next. -/
theorem run_body1 (c : Dev nD) (t : Fin cfg1.N) :
    pre1 V c t ⊢ wp frame (wpE (defs₀ (F := F)) Variants.none c none) Set.univ (bodyAt1 t) (fun _ => post1 V c t) := by
  unfold pre1 post1 bodyAt1
  simp only [held1_0, held1_1, held1_2, held1_3, held1_4, held1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_kernelB c Set.univ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every point. -/
theorem body_obligation1 (c : Dev nD) : BodyObligation (dat1 (F := F) V c) (defs₀ (F := F)) Variants.none () Set.univ := fun t => by
  rw [bigSep_W1, bigSep_W1]
  exact run_body1 V c t

end Cert.Kernel.Hand

end
-- ==== Proof.K.R2.lean ====
/-
  The LayerNorm pallas_call of the kernel program (custom_call 2, `cc2__ln_kernel`: grid of 16 row tiles, window 0 the
  1024x768 row tile of the input, windows 1 and 2 the whole scale and bias vectors, window 3 the 1024x768 row tile of the
  output), stated at ANY contents `V` of the TensorCore's buffers on entry to the call.

  What is here: the block each window sees at a grid point, read off `V`; the closed form of the output tile the body
  stores, as a function of the three input blocks (`out2_3`); the body's separation-logic triple on whole staging
  buffers; the pipeline's proof data `dat2`; and the library's body obligation for it, at every grid point.
-/
import proofs.«120323_j21741124452848_2_alg».proof.Proof.Gen.Kernel.Launch
import proofs.«120323_j21741124452848_2_alg».proof.Proof.Gen.Kernel.Skeleton
import proofs.«120323_j21741124452848_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the LayerNorm call is entered
variable (V : (c : Dev nD) → (b : Ref sig .tc) → Buf (Elt F) ((c : Thread nD τ).loc b))

/-! ## Blocks -/

/-- The block of window `w` at grid point `t`: the window's view of its array, read at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row tile (window 0) is in its staging buffer at every point. Stated for any proof data over the entry arrays whose
    body leaves the tile as it found it. -/
theorem held2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The scale vector (window 1) is copied in at the first point only; its block index never moves (the index map is
    constant), so at every later point the buffer still holds the same, whole, vector. -/
theorem held2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias vector (window 2): as the scale vector. -/
theorem held2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches: each access is of a whole buffer -/

/-- The whole 1024x768 tile. -/
abbrev tile2 : Rect S1024x768 := Rect.unit (s := S1024x768) ![0, 0] S1024x768.size inb_S1024x768_S1024x768_0_0
/-- The whole 768-vector. -/
abbrev lane2 : Rect S768 := Rect.unit (s := S768) ![0] S768.size inb_S768_S768_0

/-! ## The output tile the body leaves -/

/-- The output window's staging buffer after the body: one store of the whole tile, whose value is the normalised,
    scaled and shifted row tile computed from the three loaded blocks. -/
def out2_3 (x0 : Vec F S1024x768 .f32) (x1 : Vec F S768 .f32) (x2 : Vec F S768 .f32) : Vec F S1024x768 .f32 :=
  View.canon [⟨tile2, k2_pay1 (View.ld x0 tile2) (View.ld x1 lane2) (View.ld x2 lane2)⟩]

/-- One whole-tile store covers every index of the tile. -/
theorem tiles2_3 (p0 : Vec F S1024x768 .f32) (y : S1024x768.Idx) :
    ∃ pc ∈ ([⟨tile2, p0⟩] : List (View.Piece (Elt F) S1024x768 .f32)), y ∈ pc.1.set :=
  View.cover_of_tiled [⟨tile2, p0⟩] S1024x768.size (by rfl) y

/-! ## The body's triple -/

set_option maxHeartbeats 1000000 in
/-- The body run on whole staging buffers: the three inputs owned at contents reading `x0`, `x1`, `x2`, the output owned at
    arbitrary contents (the body reads it once, and discards what it read, before overwriting it). It returns the inputs
    untouched and the output reading `out2_3 x0 x1 x2`. -/
theorem ln_triple2 (c : Dev nD) (E : Set ℕ) (i : grid2.Coords)
    (arg1 : Memref sig .tc .vmem S1024x768 .f32) (harg1 : arg1.IsWhole) (arg2 : Memref sig .tc .vmem S768 .f32) (harg2 : arg2.IsWhole)
    (arg3 : Memref sig .tc .vmem S768 .f32) (harg3 : arg3.IsWhole) (arg4 : Memref sig .tc .vmem S1024x768 .f32) (harg4 : arg4.IsWhole)
    (x0 : Vec F S1024x768 .f32) (x1 : Vec F S768 .f32) (x2 : Vec F S768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__ln_kernel i arg1 harg1 arg2 harg2 arg3 harg3 arg4 harg4) K := by
  simp only [cc2__ln_kernel_eq_skeleton]; unfold cc2__ln_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tiles2_3 _)

/-! ## The proof data of the call -/

/-- On core `c`: the arrays are the entry contents; after the body at point `t` every input buffer holds its block and the
    output buffer holds `out2_3` of the three input blocks; the invariant is the one of bodies that touch nothing but their
    windows; full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- What the body finds in each input buffer is that window's block. -/
theorem held2_0 (c : Dev nD) (t : Fin cfg2.N) (d) : (dat2 V c).before 0 t d = iblk2 V c 0 t :=
  held2_0_of V (dat2 V c) (A_eq2 V c 0) (after2_0 V c) t d
theorem held2_1 (c : Dev nD) (t : Fin cfg2.N) (d) : (dat2 V c).before 1 t d = iblk2 V c 1 t :=
  held2_1_of V (dat2 V c) (A_eq2 V c 1) (after2_1 V c) t d
theorem held2_2 (c : Dev nD) (t : Fin cfg2.N) (d) : (dat2 V c).before 2 t d = iblk2 V c 2 t :=
  held2_2_of V (dat2 V c) (A_eq2 V c 2) (after2_2 V c) t d

/-! ## The body obligation -/

/-- The resources the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and the resources it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at a grid point: the three input buffers hold their blocks, so the triple applies; the invariant and what is
    owed are carried across untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1, held2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (ln_triple2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the LayerNorm call, at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The whole run of the kernel program: host operations, the attention-reduction region, the materialisation region, host
  operations (the scatter-add), the LayerNorm region, a last reshape. The buffers' contents at every boundary are a fold
  from the launch memory: a stretch of host operations applies them; a region leaves its arrays at what its write-backs
  make of them and every other buffer as it found it. Every weakly fair execution terminates with every unscoped buffer
  at the last boundary's contents.
-/
import proofs.«120323_j21741124452848_2_alg».proof.Proof.K.R0Frame
import proofs.«120323_j21741124452848_2_alg».proof.Proof.K.R1
import proofs.«120323_j21741124452848_2_alg».proof.Proof.K.R2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No host operation of @main allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- Region 0's entry. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b

/-- After region: its arrays at what the pipeline leaves (the inputs as entered, each output's write-backs folded), every
    other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After region: its arrays at what the pipeline leaves (the inputs as entered, each output's write-backs folded), every
    other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After the scatter-add and the reshape: region 2's entry. -/
abbrev W8 : Dev nD → Valuation τ sig (Elt F) := fun c => StableHlo.after hostOps2 (W7 m ρ c)
abbrev V8 : (c : Dev nD) → (b : Ref sig .tc) → Buf (Elt F) ((c : Thread nD τ).loc b) := fun c b => W8 m ρ c b

/-- After region: its arrays at what the pipeline leaves (the inputs as entered, each output's write-backs folded), every
    other buffer as entered. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev V9 : (c : Dev nD) → (b : Ref sig .tc) → Buf (Elt F) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- After the last reshape: the end. -/
abbrev W10 : Dev nD → Valuation τ sig (Elt F) := fun c => StableHlo.after hostOps3 (W9 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c
  | ⟨2, _⟩ => fun c => dat2 (V8 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at their final contents; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h1.trans (hin0 (V5 m ρ) c)
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V5 m ρ) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at their final contents; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it. Its arrays are split out of the unscoped buffers and put back at their final contents; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .region (reg1 m ρ),
    .host (hseg hostOps2 hostOps2_sub hostOps2_fresh (W7 m ρ)),
    .region (reg2 m ρ),
    .host (hseg hostOps3 hostOps3_sub hostOps3_fresh (W9 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W10 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.Kernel.Hand

end
-- ==== Proof.K.V0Blocks.lean ====
/-
  The attention-reduction call (grid of 8 mention tiles by 10 entity tiles, the entity axis inner): which entries of its
  arrays each window's block holds at a grid point. Point `t` is mention tile `t / 10` and entity tile `t % 10`. The
  query, mask and the three output windows move with the mention tile (512 rows each), the entity window with the entity
  tile (3200 rows), and the projection matrix and its bias are whole arrays. So a block's entry `(r, k)` is the array's
  entry `(512 (t / 10) + r, k)`, or `(3200 (t % 10) + e, k)` for the entities.
-/
import proofs.«120323_j21741124452848_2_alg».proof.Proof.K.R0Defs
import Idealize.ShloMosaic.Lib.Pipeline.Value
import Idealize.ShloMosaic.Lib.ValueIdx

noncomputable section

namespace Cert.Kernel.Hand

open Cert.Kernel Cert.Kernel.Gen
open Idealize.ShloMosaic Idealize.ShloMosaic.TcCoe Idealize.ShloMosaic.ValueIdx
open Idealize.SL.Sem
open Idealize.ShloMosaic.Pipeline (Dat)

variable {F : FTy → Type} [FloatOps F]

variable (V : (c : Dev nD) → (b : Ref sig .tc) → Buf (Elt F) ((c : Thread nD τ).loc b))

/-! ## The index maps, decided once over the eighty grid points -/

theorem idx0 : ∀ t : Fin cfg0.N,
    win0_0.index t (0 : Fin 2) = t.val / 10 ∧ win0_0.index t (1 : Fin 2) = 0
    ∧ win0_1.index t (0 : Fin 2) = t.val % 10 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val / 10 ∧ win0_4.index t (1 : Fin 2) = 0 :=
  (by decide +kernel : ∀ t : Fin grid0.N, _)

theorem idx0_out : ∀ t : Fin cfg0.N,
    win0_5.index t (0 : Fin 2) = t.val / 10 ∧ win0_5.index t (1 : Fin 2) = 0
    ∧ win0_6.index t (0 : Fin 2) = t.val / 10 ∧ win0_6.index t (1 : Fin 2) = 0
    ∧ win0_7.index t (0 : Fin 2) = t.val / 10 ∧ win0_7.index t (1 : Fin 2) = 0 :=
  (by decide +kernel : ∀ t : Fin grid0.N, _)

theorem point_lt (t : Fin cfg0.N) : t.val < 80 := by
  have h : t.val < grid0.N := t.isLt
  have hN : grid0.N = 80 := N_0
  omega

/-- The array row under row `r` of a mention tile at point `t`. -/
def rowOf (t : Fin cfg0.N) (r : Fin 512) : Fin 4096 :=
  ⟨512 * (t.val / 10) + r.val, by have := point_lt t; have := r.isLt; omega⟩

theorem rowOf_val (t : Fin cfg0.N) (r : Fin 512) : (rowOf t r).val = 512 * (t.val / 10) + r.val := rfl

/-- The entity under row `e` of an entity tile at point `t`. -/
def entOf (t : Fin cfg0.N) (e : Fin 3200) : Fin 32000 :=
  ⟨3200 * (t.val % 10) + e.val, by have := point_lt t; have := e.isLt; omega⟩

theorem entOf_val (t : Fin cfg0.N) (e : Fin 3200) : (entOf t e).val = 3200 * (t.val % 10) + e.val := rfl

/-! ## The input windows' blocks, entry by entry -/

/-- The query tile: rows `512 (t / 10) …` of the query array. -/
theorem blk0_0_apply (c : Dev nD) (t : Fin cfg0.N) (r : Fin 512) (k : Fin 256) :
    (iblk0 V c 0 t : Vec F S512x256 .bf16) (ix2 r k) = (V c main_v33 : S4096x256.Idx → Elt F .bf16) (ix2 (rowOf t r) k) := by
  obtain ⟨e0, e1, -⟩ := idx0 t
  unfold iblk0
  rw [View.read_apply]
  show (V c main_v33 : S4096x256.Idx → Elt F .bf16) _ = _
  congr 1
  funext a
  apply Fin.ext
  match a with
  | ⟨0, _⟩ => show win0_0.index t (0 : Fin 2) * 512 + 1 * r.val = 512 * (t.val / 10) + r.val; rw [e0]; omega
  | ⟨1, _⟩ => show win0_0.index t (1 : Fin 2) * 256 + 1 * k.val = k.val; rw [e1]; omega

/-- The entity tile: rows `3200 (t % 10) …` of the entity table. -/
theorem blk0_1_apply (c : Dev nD) (t : Fin cfg0.N) (e : Fin 3200) (k : Fin 256) :
    (iblk0 V c 1 t : Vec F S3200x256 .bf16) (ix2 e k) = (V c main_v34 : S32000x256.Idx → Elt F .bf16) (ix2 (entOf t e) k) := by
  obtain ⟨-, -, e2, e3, -⟩ := idx0 t
  unfold iblk0
  rw [View.read_apply]
  show (V c main_v34 : S32000x256.Idx → Elt F .bf16) _ = _
  congr 1
  funext a
  apply Fin.ext
  match a with
  | ⟨0, _⟩ => show win0_1.index t (0 : Fin 2) * 3200 + 1 * e.val = 3200 * (t.val % 10) + e.val; rw [e2]; omega
  | ⟨1, _⟩ => show win0_1.index t (1 : Fin 2) * 256 + 1 * k.val = k.val; rw [e3]; omega

/-- The projection matrix's window is the whole matrix, at every point. -/
theorem blk0_2_eq (c : Dev nD) (t : Fin cfg0.N) :
    (iblk0 V c 2 t : Vec F S256x768 .bf16) = (V c main_v35 : S256x768.Idx → Elt F .bf16) := by
  obtain ⟨-, -, -, -, e4, e5, -⟩ := idx0 t
  funext j
  unfold iblk0
  rw [View.read_apply]
  show (V c main_v35 : S256x768.Idx → Elt F .bf16) _ = _
  congr 1
  funext a
  apply Fin.ext
  match a with
  | ⟨0, _⟩ => show win0_2.index t (0 : Fin 2) * 256 + 1 * (j 0).val = (j 0).val; rw [e4]; omega
  | ⟨1, _⟩ => show win0_2.index t (1 : Fin 2) * 768 + 1 * (j 1).val = (j 1).val; rw [e5]; omega

/-- The projection bias's window is the whole vector, at every point. -/
theorem blk0_3_eq (c : Dev nD) (t : Fin cfg0.N) :
    (iblk0 V c 3 t : Vec F S768 .f32) = (V c main_arg9 : S768.Idx → Elt F .f32) := by
  obtain ⟨-, -, -, -, -, -, e6, -⟩ := idx0 t
  funext j
  unfold iblk0
  rw [View.read_apply]
  show (V c main_arg9 : S768.Idx → Elt F .f32) _ = _
  congr 1
  funext a
  apply Fin.ext
  match a with
  | ⟨0, _⟩ => show win0_3.index t (0 : Fin 1) * 768 + 1 * (j 0).val = (j 0).val; rw [e6]; omega

/-- The mask tile: rows `512 (t / 10) …` of the mask column. -/
theorem blk0_4_apply (c : Dev nD) (t : Fin cfg0.N) (r : Fin 512) (u : Fin 1) :
    (iblk0 V c 4 t : Vec F S512x1 .f32) (ix2 r u) = (V c main_v48 : S4096x1.Idx → Elt F .f32) (ix2 (rowOf t r) u) := by
  obtain ⟨-, -, -, -, -, -, -, e7, e8⟩ := idx0 t
  unfold iblk0
  rw [View.read_apply]
  show (V c main_v48 : S4096x1.Idx → Elt F .f32) _ = _
  congr 1
  funext a
  apply Fin.ext
  match a with
  | ⟨0, _⟩ => show win0_4.index t (0 : Fin 2) * 512 + 1 * r.val = 512 * (t.val / 10) + r.val; rw [e7]; omega
  | ⟨1, _⟩ => show win0_4.index t (1 : Fin 2) * 1 + 1 * u.val = u.val; rw [e8]; omega

/-! ## The output windows' blocks of any whole-array function -/

/-- The update tile of a [4096, 768] array `G`: its rows `512 (t / 10) …`. -/
theorem blk0_5_apply (t : Fin cfg0.N) (G : S4096x768.Idx → Elt F .f32) (r : Fin 512) (h : Fin 768) :
    (((cfg0.win 5).blk t).view.read (Elt F) G : Vec F S512x768 .f32) (ix2 r h) = G (ix2 (rowOf t r) h) := by
  obtain ⟨e0, e1, -⟩ := idx0_out t
  rw [View.read_apply]
  show G _ = _
  congr 1
  funext a
  apply Fin.ext
  match a with
  | ⟨0, _⟩ => show win0_5.index t (0 : Fin 2) * 512 + 1 * r.val = 512 * (t.val / 10) + r.val; rw [e0]; omega
  | ⟨1, _⟩ => show win0_5.index t (1 : Fin 2) * 768 + 1 * h.val = h.val; rw [e1]; omega

/-- The running-maximum tile of a [4096, 1] array `G`. -/
theorem blk0_6_apply (t : Fin cfg0.N) (G : S4096x1.Idx → Elt F .f32) (r : Fin 512) (u : Fin 1) :
    (((cfg0.win 6).blk t).view.read (Elt F) G : Vec F S512x1 .f32) (ix2 r u) = G (ix2 (rowOf t r) u) := by
  obtain ⟨-, -, e2, e3, -⟩ := idx0_out t
  rw [View.read_apply]
  show G _ = _
  congr 1
  funext a
  apply Fin.ext
  match a with
  | ⟨0, _⟩ => show win0_6.index t (0 : Fin 2) * 512 + 1 * r.val = 512 * (t.val / 10) + r.val; rw [e2]; omega
  | ⟨1, _⟩ => show win0_6.index t (1 : Fin 2) * 1 + 1 * u.val = u.val; rw [e3]; omega

/-- The running-sum tile of a [4096, 1] array `G`. -/
theorem blk0_7_apply (t : Fin cfg0.N) (G : S4096x1.Idx → Elt F .f32) (r : Fin 512) (u : Fin 1) :
    (((cfg0.win 7).blk t).view.read (Elt F) G : Vec F S512x1 .f32) (ix2 r u) = G (ix2 (rowOf t r) u) := by
  obtain ⟨-, -, -, -, e4, e5⟩ := idx0_out t
  rw [View.read_apply]
  show G _ = _
  congr 1
  funext a
  apply Fin.ext
  match a with
  | ⟨0, _⟩ => show win0_7.index t (0 : Fin 2) * 512 + 1 * r.val = 512 * (t.val / 10) + r.val; rw [e4]; omega
  | ⟨1, _⟩ => show win0_7.index t (1 : Fin 2) * 1 + 1 * u.val = u.val; rw [e5]; omega

end Cert.Kernel.Hand

end
-- ==== Proof.K.V0Cover.lean ====
/-
  The attention-reduction call: from the tiles written back to the whole arrays. Each output window writes its tile back
  only at the last entity tile of a mention tile (the points `t` with `t % 10 = 9`); the eight such points' tiles are the
  eight blocks of 512 rows, so they partition the 4096 rows. Hence, if at every such point the tile written back is the
  tile of one whole-array function `G`, the array ends holding `G`: row `ρ` is covered by the point `10 (ρ / 512) + 9`.
  The five input arrays are never written back and end as they were on entry.
-/
import proofs.«120323_j21741124452848_2_alg».proof.Proof.K.R0Frame
import proofs.«120323_j21741124452848_2_alg».proof.Proof.K.V0Blocks
import Idealize.ShloMosaic.Lib.Pipeline.Value
import Idealize.ShloMosaic.Lib.ValueIdx

noncomputable section

namespace Cert.Kernel.Hand

open Cert.Kernel Cert.Kernel.Gen
open Idealize.ShloMosaic Idealize.ShloMosaic.TcCoe Idealize.ShloMosaic.ValueIdx
open Idealize.SL.Sem
open Idealize.ShloMosaic.Pipeline (Dat)

variable {F : FTy → Type} [FloatOps F]

variable (V : (c : Dev nD) → (b : Ref sig .tc) → Buf (Elt F) ((c : Thread nD τ).loc b))

/-! ## The inputs are as on entry -/

theorem arr0_0 (c : Dev nD) : (dat0 V c).arrAt 0 cfg0.N = V c (Pipeline.arrRef spec0 0) :=
  ((dat0 V c).arrAt_in 0 rfl _).trans (A_eq0 V c 0)
theorem arr0_1 (c : Dev nD) : (dat0 V c).arrAt 1 cfg0.N = V c (Pipeline.arrRef spec0 1) :=
  ((dat0 V c).arrAt_in 1 rfl _).trans (A_eq0 V c 1)
theorem arr0_2 (c : Dev nD) : (dat0 V c).arrAt 2 cfg0.N = V c (Pipeline.arrRef spec0 2) :=
  ((dat0 V c).arrAt_in 2 rfl _).trans (A_eq0 V c 2)
theorem arr0_3 (c : Dev nD) : (dat0 V c).arrAt 3 cfg0.N = V c (Pipeline.arrRef spec0 3) :=
  ((dat0 V c).arrAt_in 3 rfl _).trans (A_eq0 V c 3)
theorem arr0_4 (c : Dev nD) : (dat0 V c).arrAt 4 cfg0.N = V c (Pipeline.arrRef spec0 4) :=
  ((dat0 V c).arrAt_in 4 rfl _).trans (A_eq0 V c 4)

/-! ## The point that covers a row -/

/-- The last entity tile of the mention tile that holds row `ρ`. -/
def lastOf (ρ : ℕ) (hρ : ρ < 4096) : Fin cfg0.N :=
  ⟨10 * (ρ / 512) + 9, by show 10 * (ρ / 512) + 9 < grid0.N; have hN : grid0.N = 80 := N_0; omega⟩

theorem lastOf_val (ρ : ℕ) (hρ : ρ < 4096) : (lastOf ρ hρ).val = 10 * (ρ / 512) + 9 := rfl

theorem lastOf_mod (ρ : ℕ) (hρ : ρ < 4096) : (lastOf ρ hρ).val % 10 = 9 := by rw [lastOf_val]; omega

theorem lastOf_div (ρ : ℕ) (hρ : ρ < 4096) : (lastOf ρ hρ).val / 10 = ρ / 512 := by rw [lastOf_val]; omega

/-! ## Membership in an output tile, coordinate by coordinate -/

theorem mem_blk0_5 (t : Fin cfg0.N) (i : S4096x768.Idx) :
    i ∈ ((cfg0.win 5).blk t).view.set ↔ ∀ a : Fin 2, win0_5.index t a * S512x768.size a ≤ (i a).val ∧ (i a).val < win0_5.index t a * S512x768.size a + S512x768.size a := by
  show i ∈ ((View.whole main_v49_0).slice (win0_5.rect t)).set ↔ _
  rw [View.set_slice_whole, Rect.mem_set_unit]
  exact Iff.rfl

theorem mem_blk0_6 (t : Fin cfg0.N) (i : S4096x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v49_1).slice (win0_6.rect t)).set ↔ _
  rw [View.set_slice_whole, Rect.mem_set_unit]
  exact Iff.rfl

theorem mem_blk0_7 (t : Fin cfg0.N) (i : S4096x1.Idx) :
    i ∈ ((cfg0.win 7).blk t).view.set ↔ ∀ a : Fin 2, win0_7.index t a * S512x1.size a ≤ (i a).val ∧ (i a).val < win0_7.index t a * S512x1.size a + S512x1.size a := by
  show i ∈ ((View.whole main_v49_2).slice (win0_7.rect t)).set ↔ _
  rw [View.set_slice_whole, Rect.mem_set_unit]
  exact Iff.rfl

/-! ## The cover -/

theorem cover0_5 (i : S4096x768.Idx) : ∃ t : Fin cfg0.N, (cfg0.win 5).flush t = true ∧ i ∈ ((cfg0.win 5).blk t).view.set := by
  have hi0 : (i 0).val < 4096 := (i 0).isLt
  have hi1 : (i 1).val < 768 := (i 1).isLt
  refine ⟨lastOf (i 0).val hi0, (flush0_5 _).mpr (lastOf_mod _ hi0), ?_⟩
  rw [mem_blk0_5]
  obtain ⟨e0, e1, -⟩ := idx0_out (lastOf (i 0).val hi0)
  rw [lastOf_div] at e0
  intro a
  match a with
  | ⟨0, _⟩ =>
    show win0_5.index _ (0 : Fin 2) * 512 ≤ (i 0).val ∧ (i 0).val < win0_5.index _ (0 : Fin 2) * 512 + 512
    rw [e0]; omega
  | ⟨1, _⟩ =>
    show win0_5.index _ (1 : Fin 2) * 768 ≤ (i 1).val ∧ (i 1).val < win0_5.index _ (1 : Fin 2) * 768 + 768
    rw [e1]; omega

theorem cover0_6 (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  refine ⟨lastOf (i 0).val hi0, (flush0_6 _).mpr (lastOf_mod _ hi0), ?_⟩
  rw [mem_blk0_6]
  obtain ⟨-, -, e2, e3, -⟩ := idx0_out (lastOf (i 0).val hi0)
  rw [lastOf_div] at e2
  intro a
  match a with
  | ⟨0, _⟩ =>
    show win0_6.index _ (0 : Fin 2) * 512 ≤ (i 0).val ∧ (i 0).val < win0_6.index _ (0 : Fin 2) * 512 + 512
    rw [e2]; omega
  | ⟨1, _⟩ =>
    show win0_6.index _ (1 : Fin 2) * 1 ≤ (i 1).val ∧ (i 1).val < win0_6.index _ (1 : Fin 2) * 1 + 1
    rw [e3]; omega

theorem cover0_7 (i : S4096x1.Idx) : ∃ t : Fin cfg0.N, (cfg0.win 7).flush t = true ∧ i ∈ ((cfg0.win 7).blk t).view.set := by
  have hi0 : (i 0).val < 4096 := (i 0).isLt
  have hi1 : (i 1).val < 1 := (i 1).isLt
  refine ⟨lastOf (i 0).val hi0, (flush0_7 _).mpr (lastOf_mod _ hi0), ?_⟩
  rw [mem_blk0_7]
  obtain ⟨-, -, -, -, e4, e5⟩ := idx0_out (lastOf (i 0).val hi0)
  rw [lastOf_div] at e4
  intro a
  match a with
  | ⟨0, _⟩ =>
    show win0_7.index _ (0 : Fin 2) * 512 ≤ (i 0).val ∧ (i 0).val < win0_7.index _ (0 : Fin 2) * 512 + 512
    rw [e4]; omega
  | ⟨1, _⟩ =>
    show win0_7.index _ (1 : Fin 2) * 1 ≤ (i 1).val ∧ (i 1).val < win0_7.index _ (1 : Fin 2) * 1 + 1
    rw [e5]; omega

/-! ## The outputs: tiles of one function at the write-back points make the array that function -/

/-- The update array. -/
theorem arr0_5_of (c : Dev nD) (G : S4096x768.Idx → Elt F .f32)
    (hG : ∀ t : Fin cfg0.N, t.val % 10 = 9 → (dat0 V c).after 5 t = ((cfg0.win 5).blk t).view.read (Elt F) G) :
    (dat0 V c).arrAt 5 cfg0.N = G :=
  (dat0 V c).arrAt_eq_of_cover 5 G
    (fun t hf => by
      show (cfg0.win 5).cut (grid0.coords t) ((dat0 V c).after 5 t) = _
      rw [hG t ((flush0_5 t).mp hf)])
    cover0_5

/-- The running-maximum column. -/
theorem arr0_6_of (c : Dev nD) (G : S4096x1.Idx → Elt F .f32)
    (hG : ∀ t : Fin cfg0.N, t.val % 10 = 9 → (dat0 V c).after 6 t = ((cfg0.win 6).blk t).view.read (Elt F) G) :
    (dat0 V c).arrAt 6 cfg0.N = G :=
  (dat0 V c).arrAt_eq_of_cover 6 G
    (fun t hf => by
      show (cfg0.win 6).cut (grid0.coords t) ((dat0 V c).after 6 t) = _
      rw [hG t ((flush0_6 t).mp hf)])
    cover0_6

/-- The running-sum column. -/
theorem arr0_7_of (c : Dev nD) (G : S4096x1.Idx → Elt F .f32)
    (hG : ∀ t : Fin cfg0.N, t.val % 10 = 9 → (dat0 V c).after 7 t = ((cfg0.win 7).blk t).view.read (Elt F) G) :
    (dat0 V c).arrAt 7 cfg0.N = G :=
  (dat0 V c).arrAt_eq_of_cover 7 G
    (fun t hf => by
      show (cfg0.win 7).cut (grid0.coords t) ((dat0 V c).after 7 t) = _
      rw [hG t ((flush0_7 t).mp hf)])
    cover0_7

end Cert.Kernel.Hand

end
-- ==== Proof.K.Frame.lean ====
/-
  The frame of the kernel program: no host operation and no region writes an argument array (a region reads one through an
  input window, whose array it hands back as it found it, or does not touch it), so at the end of the run every argument
  holds its launch contents.
-/
import proofs.«120323_j21741124452848_2_alg».proof.Proof.K.Run
import proofs.«120323_j21741124452848_2_alg».proof.Proof.K.V0Cover
import proofs.«120323_j21741124452848_2_alg».proof.Proof.Gen.Kernel.Regions

set_option maxRecDepth 16384

noncomputable section

namespace Cert.Kernel.Hand

open Cert.Kernel
open Cert.Kernel.Gen (hostOps0 hostOps0_1 hostOps0_2 hostOps0_3 hostOps0_4 hostOps2 hostOps3 launch0 launch1 launch2 cellOf_inj)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A buffer a stretch of host operations does not write keeps its contents through it -/

theorem W1_of (c : Dev nD) (r : Ref sig .tc) (h : r ∉ Gen.hostOps0_W) : W1 m ρ c (Proc.devRef .tc r) = W0 m ρ c (Proc.devRef .tc r) :=
  StableHlo.after_of_writes_sub hostOps0 _ Gen.hostOps0_writes h
theorem W2_of (c : Dev nD) (r : Ref sig .tc) (h : r ∉ Gen.hostOps0_1_W) : W2 m ρ c (Proc.devRef .tc r) = W1 m ρ c (Proc.devRef .tc r) :=
  StableHlo.after_of_writes_sub hostOps0_1 _ Gen.hostOps0_1_writes h
theorem W3_of (c : Dev nD) (r : Ref sig .tc) (h : r ∉ Gen.hostOps0_2_W) : W3 m ρ c (Proc.devRef .tc r) = W2 m ρ c (Proc.devRef .tc r) :=
  StableHlo.after_of_writes_sub hostOps0_2 _ Gen.hostOps0_2_writes h
theorem W4_of (c : Dev nD) (r : Ref sig .tc) (h : r ∉ Gen.hostOps0_3_W) : W4 m ρ c (Proc.devRef .tc r) = W3 m ρ c (Proc.devRef .tc r) :=
  StableHlo.after_of_writes_sub hostOps0_3 _ Gen.hostOps0_3_writes h
theorem W5_of (c : Dev nD) (r : Ref sig .tc) (h : r ∉ Gen.hostOps0_4_W) : W5 m ρ c (Proc.devRef .tc r) = W4 m ρ c (Proc.devRef .tc r) :=
  StableHlo.after_of_writes_sub hostOps0_4 _ Gen.hostOps0_4_writes h
theorem W8_of (c : Dev nD) (r : Ref sig .tc) (h : r ∉ Gen.hostOps2_W) : W8 m ρ c (Proc.devRef .tc r) = W7 m ρ c (Proc.devRef .tc r) :=
  StableHlo.after_of_writes_sub hostOps2 _ Gen.hostOps2_writes h
theorem W10_of (c : Dev nD) (r : Ref sig .tc) (h : r ∉ Gen.hostOps3_W) : W10 m ρ c (Proc.devRef .tc r) = W9 m ρ c (Proc.devRef .tc r) :=
  StableHlo.after_of_writes_sub hostOps3 _ Gen.hostOps3_writes h

/-! ## Each argument, read back through the ten boundaries to the launch memory -/

theorem W10_main_arg0 (c : Dev nD) : W10 m ρ c (Proc.devRef .tc main_arg0) = m ((c : Thread nD τ).loc main_arg0) :=
  (W10_of m ρ c main_arg0 (by decide)).trans <| (W9_of_ne m ρ c main_arg0 (by decide)).trans <| (W8_of m ρ c main_arg0 (by decide)).trans <| (W7_of_ne m ρ c main_arg0 (by decide)).trans <|
    (W6_of_ne m ρ c main_arg0 (by decide)).trans <| (W5_of m ρ c main_arg0 (by decide)).trans <| (W4_of m ρ c main_arg0 (by decide)).trans <| (W3_of m ρ c main_arg0 (by decide)).trans <|
    (W2_of m ρ c main_arg0 (by decide)).trans <| (W1_of m ρ c main_arg0 (by decide)).trans rfl
theorem W10_main_arg1 (c : Dev nD) : W10 m ρ c (Proc.devRef .tc main_arg1) = m ((c : Thread nD τ).loc main_arg1) :=
  (W10_of m ρ c main_arg1 (by decide)).trans <| (W9_of_ne m ρ c main_arg1 (by decide)).trans <| (W8_of m ρ c main_arg1 (by decide)).trans <| (W7_of_ne m ρ c main_arg1 (by decide)).trans <|
    (W6_of_ne m ρ c main_arg1 (by decide)).trans <| (W5_of m ρ c main_arg1 (by decide)).trans <| (W4_of m ρ c main_arg1 (by decide)).trans <| (W3_of m ρ c main_arg1 (by decide)).trans <|
    (W2_of m ρ c main_arg1 (by decide)).trans <| (W1_of m ρ c main_arg1 (by decide)).trans rfl
theorem W10_main_arg2 (c : Dev nD) : W10 m ρ c (Proc.devRef .tc main_arg2) = m ((c : Thread nD τ).loc main_arg2) :=
  (W10_of m ρ c main_arg2 (by decide)).trans <| (W9_of_ne m ρ c main_arg2 (by decide)).trans <| (W8_of m ρ c main_arg2 (by decide)).trans <| (W7_of_ne m ρ c main_arg2 (by decide)).trans <|
    (W6_of_ne m ρ c main_arg2 (by decide)).trans <| (W5_of m ρ c main_arg2 (by decide)).trans <| (W4_of m ρ c main_arg2 (by decide)).trans <| (W3_of m ρ c main_arg2 (by decide)).trans <|
    (W2_of m ρ c main_arg2 (by decide)).trans <| (W1_of m ρ c main_arg2 (by decide)).trans rfl
theorem W10_main_arg3 (c : Dev nD) : W10 m ρ c (Proc.devRef .tc main_arg3) = m ((c : Thread nD τ).loc main_arg3) :=
  (W10_of m ρ c main_arg3 (by decide)).trans <| (W9_of_ne m ρ c main_arg3 (by decide)).trans <| (W8_of m ρ c main_arg3 (by decide)).trans <| (W7_of_ne m ρ c main_arg3 (by decide)).trans <|
    (W6_of_ne m ρ c main_arg3 (by decide)).trans <| (W5_of m ρ c main_arg3 (by decide)).trans <| (W4_of m ρ c main_arg3 (by decide)).trans <| (W3_of m ρ c main_arg3 (by decide)).trans <|
    (W2_of m ρ c main_arg3 (by decide)).trans <| (W1_of m ρ c main_arg3 (by decide)).trans rfl
theorem W10_main_arg4 (c : Dev nD) : W10 m ρ c (Proc.devRef .tc main_arg4) = m ((c : Thread nD τ).loc main_arg4) :=
  (W10_of m ρ c main_arg4 (by decide)).trans <| (W9_of_ne m ρ c main_arg4 (by decide)).trans <| (W8_of m ρ c main_arg4 (by decide)).trans <| (W7_of_ne m ρ c main_arg4 (by decide)).trans <|
    (W6_of_ne m ρ c main_arg4 (by decide)).trans <| (W5_of m ρ c main_arg4 (by decide)).trans <| (W4_of m ρ c main_arg4 (by decide)).trans <| (W3_of m ρ c main_arg4 (by decide)).trans <|
    (W2_of m ρ c main_arg4 (by decide)).trans <| (W1_of m ρ c main_arg4 (by decide)).trans rfl
theorem W10_main_arg5 (c : Dev nD) : W10 m ρ c (Proc.devRef .tc main_arg5) = m ((c : Thread nD τ).loc main_arg5) :=
  (W10_of m ρ c main_arg5 (by decide)).trans <| (W9_of_ne m ρ c main_arg5 (by decide)).trans <| (W8_of m ρ c main_arg5 (by decide)).trans <| (W7_of_ne m ρ c main_arg5 (by decide)).trans <|
    (W6_of_ne m ρ c main_arg5 (by decide)).trans <| (W5_of m ρ c main_arg5 (by decide)).trans <| (W4_of m ρ c main_arg5 (by decide)).trans <| (W3_of m ρ c main_arg5 (by decide)).trans <|
    (W2_of m ρ c main_arg5 (by decide)).trans <| (W1_of m ρ c main_arg5 (by decide)).trans rfl
theorem W10_main_arg6 (c : Dev nD) : W10 m ρ c (Proc.devRef .tc main_arg6) = m ((c : Thread nD τ).loc main_arg6) :=
  (W10_of m ρ c main_arg6 (by decide)).trans <| (W9_of_ne m ρ c main_arg6 (by decide)).trans <| (W8_of m ρ c main_arg6 (by decide)).trans <| (W7_of_ne m ρ c main_arg6 (by decide)).trans <|
    (W6_of_ne m ρ c main_arg6 (by decide)).trans <| (W5_of m ρ c main_arg6 (by decide)).trans <| (W4_of m ρ c main_arg6 (by decide)).trans <| (W3_of m ρ c main_arg6 (by decide)).trans <|
    (W2_of m ρ c main_arg6 (by decide)).trans <| (W1_of m ρ c main_arg6 (by decide)).trans rfl
theorem W10_main_arg7 (c : Dev nD) : W10 m ρ c (Proc.devRef .tc main_arg7) = m ((c : Thread nD τ).loc main_arg7) :=
  (W10_of m ρ c main_arg7 (by decide)).trans <| (W9_of_ne m ρ c main_arg7 (by decide)).trans <| (W8_of m ρ c main_arg7 (by decide)).trans <| (W7_of_ne m ρ c main_arg7 (by decide)).trans <|
    (W6_of_ne m ρ c main_arg7 (by decide)).trans <| (W5_of m ρ c main_arg7 (by decide)).trans <| (W4_of m ρ c main_arg7 (by decide)).trans <| (W3_of m ρ c main_arg7 (by decide)).trans <|
    (W2_of m ρ c main_arg7 (by decide)).trans <| (W1_of m ρ c main_arg7 (by decide)).trans rfl
theorem W10_main_arg8 (c : Dev nD) : W10 m ρ c (Proc.devRef .tc main_arg8) = m ((c : Thread nD τ).loc main_arg8) :=
  (W10_of m ρ c main_arg8 (by decide)).trans <| (W9_of_ne m ρ c main_arg8 (by decide)).trans <| (W8_of m ρ c main_arg8 (by decide)).trans <| (W7_of_ne m ρ c main_arg8 (by decide)).trans <|
    (W6_of_ne m ρ c main_arg8 (by decide)).trans <| (W5_of m ρ c main_arg8 (by decide)).trans <| (W4_of m ρ c main_arg8 (by decide)).trans <| (W3_of m ρ c main_arg8 (by decide)).trans <|
    (W2_of m ρ c main_arg8 (by decide)).trans <| (W1_of m ρ c main_arg8 (by decide)).trans rfl
theorem W10_main_arg9 (c : Dev nD) : W10 m ρ c (Proc.devRef .tc main_arg9) = m ((c : Thread nD τ).loc main_arg9) :=
  (W10_of m ρ c main_arg9 (by decide)).trans <| (W9_of_ne m ρ c main_arg9 (by decide)).trans <| (W8_of m ρ c main_arg9 (by decide)).trans <| (W7_of_ne m ρ c main_arg9 (by decide)).trans <|
    ((W6_arr m ρ c 3).trans (arr0_3 (V5 m ρ) c)).trans <| (W5_of m ρ c main_arg9 (by decide)).trans <| (W4_of m ρ c main_arg9 (by decide)).trans <| (W3_of m ρ c main_arg9 (by decide)).trans <|
    (W2_of m ρ c main_arg9 (by decide)).trans <| (W1_of m ρ c main_arg9 (by decide)).trans rfl
theorem W10_main_arg10 (c : Dev nD) : W10 m ρ c (Proc.devRef .tc main_arg10) = m ((c : Thread nD τ).loc main_arg10) :=
  (W10_of m ρ c main_arg10 (by decide)).trans <| ((W9_arr m ρ c 1).trans (((dat2 (V8 m ρ) c).arrAt_in 1 rfl _).trans (A_eq2 (V8 m ρ) c 1))).trans <| (W8_of m ρ c main_arg10 (by decide)).trans <| (W7_of_ne m ρ c main_arg10 (by decide)).trans <|
    (W6_of_ne m ρ c main_arg10 (by decide)).trans <| (W5_of m ρ c main_arg10 (by decide)).trans <| (W4_of m ρ c main_arg10 (by decide)).trans <| (W3_of m ρ c main_arg10 (by decide)).trans <|
    (W2_of m ρ c main_arg10 (by decide)).trans <| (W1_of m ρ c main_arg10 (by decide)).trans rfl
theorem W10_main_arg11 (c : Dev nD) : W10 m ρ c (Proc.devRef .tc main_arg11) = m ((c : Thread nD τ).loc main_arg11) :=
  (W10_of m ρ c main_arg11 (by decide)).trans <| ((W9_arr m ρ c 2).trans (((dat2 (V8 m ρ) c).arrAt_in 2 rfl _).trans (A_eq2 (V8 m ρ) c 2))).trans <| (W8_of m ρ c main_arg11 (by decide)).trans <| (W7_of_ne m ρ c main_arg11 (by decide)).trans <|
    (W6_of_ne m ρ c main_arg11 (by decide)).trans <| (W5_of m ρ c main_arg11 (by decide)).trans <| (W4_of m ρ c main_arg11 (by decide)).trans <| (W3_of m ρ c main_arg11 (by decide)).trans <|
    (W2_of m ρ c main_arg11 (by decide)).trans <| (W1_of m ρ c main_arg11 (by decide)).trans rfl

/-- THE FRAME: from any memory with zero counters every weakly fair execution of @main terminates, nothing faulting,
    and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c),
     (h c _ (mem_uc main_arg10 (by decide))).trans (W10_main_arg10 m ρ c),
     (h c _ (mem_uc main_arg11 (by decide))).trans (W10_main_arg11 m ρ c)⟩) (run_all m ρ)

end Cert.Kernel.Hand

end
-- ==== Proof.KI.R0Defs.lean ====
/-
  Region 0 (the attention-reduction kernel): what its three control cases share. The grid is 8 mention tiles by 10
  entity tiles, the entity axis inner. The body resets its three scratch accumulators (running maximum, running sum,
  running weighted sum) at the first entity tile of a mention tile, updates them at every entity tile, and at the last
  one writes the projected update, the maximum and the sum into its three outputs. So a point is in one of three cases:
  first tile, a middle tile, last tile.
-/
import proofs.«120323_j21741124452848_2_alg».proof.Proof.Gen.KernelIdeal.Launch
import proofs.«120323_j21741124452848_2_alg».proof.Proof.Gen.KernelIdeal.Skeleton
import proofs.«120323_j21741124452848_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is not
    fetched its block index has not moved since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "This is the first entity tile": the entity coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- "This is the last entity tile": the entity coordinate is 9. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle: the outputs are stored, and written back, at the last entity tile only -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/
abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3200x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x768 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- Scratch operand 0: a whole scoped buffer of the kernel's own. -/
abbrev scM0_0 : Memref sig .tc .vmem S512x256 .f32 := Memref.whole cc0_scratch0
abbrev VS0_0 : View sig .tc .vmem S512x256 .f32 := scM0_0.view
/-- Scratch operand 1: a whole scoped buffer of the kernel's own. -/
abbrev scM0_1 : Memref sig .tc .vmem S512x1 .f32 := Memref.whole cc0_scratch1
abbrev VS0_1 : View sig .tc .vmem S512x1 .f32 := scM0_1.view
/-- Scratch operand 2: a whole scoped buffer of the kernel's own. -/
abbrev scM0_2 : Memref sig .tc .vmem S512x1 .f32 := Memref.whole cc0_scratch2
abbrev VS0_2 : View sig .tc .vmem S512x1 .f32 := scM0_2.view
/-- One staging buffer of each output window, through which its contents are stated (the choice does not matter). -/
abbrev VO0_5 : View sig .tc .vmem S512x768 .f32 := (Memref.whole cc0_stg5_0 : Memref sig .tc .vmem S512x768 .f32).view
abbrev VO0_6 : View sig .tc .vmem S512x1 .f32 := (Memref.whole cc0_stg6_0 : Memref sig .tc .vmem S512x1 .f32).view
abbrev VO0_7 : View sig .tc .vmem S512x1 .f32 := (Memref.whole cc0_stg7_0 : Memref sig .tc .vmem S512x1 .f32).view

/-- The region's class invariant with the three scratch operands as memrefs owned at some contents, the other scoped
    buffers unopened, and the generator register at some state. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d))
          ∗ Pipeline.scopedRestBut (Ix := Unit) (Name := ℕ) (U := UR sig nD τ) (Lvl := ℕ) (Val := Elt F) spec0 c [cc0_scratch0, cc0_scratch1, cc0_scratch2]) ∗ (∃ r, prngReg c r)) := by
  unfold Pipeline.ΦA; rw [scopedRest0_split]; simp only [scM0_0, scM0_1, scM0_2, owns_whole]; try rfl

end Cert.KernelIdeal.Hand

end
-- ==== Proof.KI.R0RunA.lean ====
/-
  Region 0, case A: the FIRST entity tile of a mention tile (not the last). The body resets the three scratch accumulators, then folds this tile in; it stores nothing into the outputs, which are handed back untouched.
-/
import proofs.«120323_j21741124452848_2_alg».proof.Proof.KI.R0Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body on whole memrefs in this case: the inputs' at their contents and handed back as they were; the pieces the
    body's stores leave in each buffer it stores into are the witness the symbolic run finds. -/
noncomputable def kernelRun0_A (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i)
    (x0 : Vec F S512x256 .bf16) (x1 : Vec F S3200x256 .bf16) (x2 : Vec F S256x768 .bf16) (x3 : Vec F S768 .f32) (x4 : Vec F S512x1 .f32) :
    Σ' (LS0 : List (View.Piece (Elt F) S512x256 .f32)) (LS1 : List (View.Piece (Elt F) S512x1 .f32)), { LS2 : List (View.Piece (Elt F) S512x1 .f32) //
      ∀ (xi5 : Vec F S512x768 .f32) (xi6 : Vec F S512x1 .f32) (xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__kernelA i arg2 harg2 arg3 harg3 arg4 harg4 arg5 harg5 arg6 harg6 arg7 harg7 arg8 harg8 arg9 harg9 arg10 harg10 arg11 harg11 arg12 harg12) K } := by
  refine ⟨?_, ?_, ?_, fun xi5 xi6 xi7 E K => ?run⟩
  case run =>
    simp only [cc0__kernelA_eq_skeleton]; unfold cc0__kernelA_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.KernelIdeal.Hand

end
-- ==== Proof.KI.R0RunB.lean ====
/-
  Region 0, case B: a MIDDLE entity tile. The body folds this tile into the three scratch accumulators, which it finds at what the point before left; it stores nothing into the outputs, which are handed back untouched.
-/
import proofs.«120323_j21741124452848_2_alg».proof.Proof.KI.R0Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body on whole memrefs in this case: the inputs' at their contents and handed back as they were; the pieces the
    body's stores leave in each buffer it stores into are the witness the symbolic run finds. -/
noncomputable def kernelRun0_B (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i)
    (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) :
    Σ' (LS0 : List (View.Piece (Elt F) S512x256 .f32)) (LS1 : List (View.Piece (Elt F) S512x1 .f32)), { LS2 : List (View.Piece (Elt F) S512x1 .f32) //
      ∀ (xi5 : Vec F S512x768 .f32) (xi6 : Vec F S512x1 .f32) (xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__kernelA i arg2 harg2 arg3 harg3 arg4 harg4 arg5 harg5 arg6 harg6 arg7 harg7 arg8 harg8 arg9 harg9 arg10 harg10 arg11 harg11 arg12 harg12) K } := by
  refine ⟨?_, ?_, ?_, fun xi5 xi6 xi7 E K => ?run⟩
  case run =>
    simp only [cc0__kernelA_eq_skeleton]; unfold cc0__kernelA_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.KernelIdeal.Hand

end
-- ==== Proof.KI.R0RunC.lean ====
/-
  Region 0, case C: the LAST entity tile of a mention tile. The body folds this tile into the three scratch accumulators, then stores the projected, masked quotient of the weighted sum by the running sum into output 5, the running maximum into output 6 and the running sum into output 7.
-/
import proofs.«120323_j21741124452848_2_alg».proof.Proof.KI.R0Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body on whole memrefs in this case: the inputs' at their contents and handed back as they were; the pieces the
    body's stores leave in each buffer it stores into are the witness the symbolic run finds. -/
noncomputable def kernelRun0_C (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) :
    Σ' (L5 : List (View.Piece (Elt F) S512x768 .f32)) (L6 : List (View.Piece (Elt F) S512x1 .f32)) (L7 : List (View.Piece (Elt F) S512x1 .f32)) (LS0 : List (View.Piece (Elt F) S512x256 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__kernelA i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__kernelA_eq_skeleton]; unfold cc0__kernelA_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    iexists _; iexact HS2

end Cert.KernelIdeal.Hand

end
-- ==== Proof.KI.R0Frame.lean ====
/-
  Region 0: what the scratch accumulators and the outputs hold after each grid point, the region's invariant, its proof
  data and its body obligation. The three scratch buffers are carried from point to point inside a mention tile: the
  invariant before point n + 1 holds them at what point n left.
-/
import proofs.«120323_j21741124452848_2_alg».proof.Proof.KI.R0RunA
import proofs.«120323_j21741124452848_2_alg».proof.Proof.KI.R0RunB
import proofs.«120323_j21741124452848_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three scratch buffers' contents, and the three outputs' staging buffers' contents. -/
abbrev Sc0 (F : FTy → Type) [FloatOps F] : Type := Vec F S512x256 .f32 × Vec F S512x1 .f32 × Vec F S512x1 .f32
abbrev Ou0 (F : FTy → Type) [FloatOps F] : Type := Vec F S512x768 .f32 × Vec F S512x1 .f32 × Vec F S512x1 .f32

/-- What an output's staging buffer is said to hold at a point that stores nothing into it: a placeholder nothing
    consults (the window is neither written back there nor read at the next point). -/
def idleOu0 : Ou0 F := (VO0_5.read (Elt F) (VO0_5.writes (Elt F) VO0_5.junk []), VO0_6.read (Elt F) (VO0_6.writes (Elt F) VO0_6.junk []), VO0_7.read (Elt F) (VO0_7.writes (Elt F) VO0_7.junk []))

/-! ## Each case's pieces cover the buffer they are stored into -/
theorem scover0_A_0 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .bf16) (x1 : Vec F S3200x256 .bf16) (x2 : Vec F S256x768 .bf16) (x3 : Vec F S768 .f32) (x4 : Vec F S512x1 .f32) (y : S512x256.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).1 S512x256.size (by sl_kernel_rfl) y
theorem scover0_A_1 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .bf16) (x1 : Vec F S3200x256 .bf16) (x2 : Vec F S256x768 .bf16) (x3 : Vec F S768 .f32) (x4 : Vec F S512x1 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1 S512x1.size (by sl_kernel_rfl) y
theorem scover0_A_2 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .bf16) (x1 : Vec F S3200x256 .bf16) (x2 : Vec F S256x768 .bf16) (x3 : Vec F S768 .f32) (x4 : Vec F S512x1 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1 S512x1.size (by sl_kernel_rfl) y
theorem scover0_B_0 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) (y : S512x256.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1 S512x256.size (by sl_kernel_rfl) y
theorem scover0_B_1 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1 S512x1.size (by sl_kernel_rfl) y
theorem scover0_B_2 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1 S512x1.size (by sl_kernel_rfl) y
theorem scover0_C_0 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) (y : S512x256.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1 S512x256.size (by sl_kernel_rfl) y
theorem scover0_C_1 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1 S512x1.size (by sl_kernel_rfl) y
theorem scover0_C_2 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1 S512x1.size (by sl_kernel_rfl) y
theorem cover0_C_5 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) (y : S512x768.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1 S512x768.size (by sl_kernel_rfl) y
theorem cover0_C_6 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1 S512x1.size (by sl_kernel_rfl) y
theorem cover0_C_7 (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1 S512x1.size (by sl_kernel_rfl) y

/-! ## What each case leaves: its pieces read back -/
/-- What case A leaves in the three scratch buffers. -/
def sout0_A (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .bf16) (x1 : Vec F S3200x256 .bf16) (x2 : Vec F S256x768 .bf16) (x3 : Vec F S768 .f32) (x4 : Vec F S512x1 .f32) : Sc0 F :=
  (VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).1), VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1), VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1))
/-- What case B leaves in the three scratch buffers. -/
def sout0_B (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) : Sc0 F :=
  (VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1), VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1), VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1))
/-- What case C leaves in the three scratch buffers. -/
def sout0_C (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) : Sc0 F :=
  (VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1), VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1), VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1))
/-- What case C leaves in the three outputs' staging buffers. -/
def out0_C (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) : Ou0 F :=
  (VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1), VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1), VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1))

/-! ## What the outputs and the scratch buffers hold after each point -/
/-- THE ACCUMULATION: after the body at position `n`, the outputs' staging buffers and the scratch buffers hold what the
    case of `n` leaves, run at the point's memrefs and input blocks over the scratch contents position `n - 1` left. -/
def outsAt0 (c : Dev nD) : (n : ℕ) → n < cfg0.N → Ou0 F × Sc0 F
  | 0, hn => (idleOu0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => absurd ((hcond0_1 ⟨0, hn⟩).mp h) (show ¬ (0 : ℕ) % 10 = 9 by decide)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 10 = 0 then
      if h1 : (n + 1) % 10 = 9 then False.elim (by omega)
      else (idleOu0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 10 = 9 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2)
      else
        (idleOu0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 10 = 0) (h1 : ¬t.val % 10 = 9) :
    outsAt0 V c t.val t.isLt = (idleOu0, sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 10 = 0) (h1 : ¬t.val % 10 = 9) :
    outsAt0 V c t.val t.isLt = (idleOu0, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 10 = 0) (h1 : t.val % 10 = 9) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The three scratch buffers owned at given contents, the other scoped buffers unopened, the generator register at some state. -/
def PhiAt0 (c : Dev nD) (s : Sc0 F) : sProp 𝕄 :=
  iprop(iprop(iprop(owns (c : Thread nD τ) scM0_0 fullShare s.1 ∗ owns (c : Thread nD τ) scM0_1 fullShare s.2.1 ∗ owns (c : Thread nD τ) scM0_2 fullShare s.2.2)
      ∗ Pipeline.scopedRestBut (Ix := Unit) (Name := ℕ) (U := UR sig nD τ) (Lvl := ℕ) (Val := Elt F) spec0 c [cc0_scratch0, cc0_scratch1, cc0_scratch2]) ∗ (∃ r, prngReg c r))

/-- The invariant before position `n`: before the first point the class's (every scratch at anything); afterwards the
    scratch buffers at what the point before left. -/
def PhiS0 (c : Dev nD) : (n : ℕ) → n ≤ cfg0.N → sProp 𝕄
  | 0, _ => Pipeline.ΦA spec0 c
  | n + 1, hn => PhiAt0 c (outsAt0 V c n hn).2

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) : PhiS0 V c (n + 1) hn = PhiAt0 c (outsAt0 V c n hn).2 := rfl
theorem PhiS0_pos (c : Dev nD) (n : ℕ) (h : n ≤ cfg0.N) (hz : n ≠ 0) :
    PhiS0 V c n h = PhiAt0 c (outsAt0 V c (n - 1) (by omega)).2 := by
  cases n with
  | zero => exact absurd rfl hz
  | succ n => rfl

/-! ## The proof data -/

/-- The region's proof data on core `c`: the arrays as the region finds them; after the body at point `t` each input's
    buffer at its block and the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1.1
    | ⟨6, _⟩ => (outsAt0 V c t.val t.isLt).1.2.1
    | ⟨7, _⟩ => (outsAt0 V c t.val t.isLt).1.2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1.1 := by dsimp only [dat0]
theorem after0_6 (c : Dev nD) (t : Fin cfg0.N) : (dat0 V c).after 6 t = (outsAt0 V c t.val t.isLt).1.2.1 := by dsimp only [dat0]
theorem after0_7 (c : Dev nD) (t : Fin cfg0.N) : (dat0 V c).after 7 t = (outsAt0 V c t.val t.isLt).1.2.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the inputs' memrefs hold their blocks; the closed forms say which case the point is in; the
    invariant hands the body the scratch buffers at what the point before left (at anything before the first point) and
    takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 80 := lt_of_lt_of_eq t.isLt (show cfg0.N = 80 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 10 = 0
  · by_cases h1 : t.val % 10 = 9
    · exfalso; omega
    · rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [outsAt0_A V c t h0 h1]
      unfold PhiAt0 sout0_A; (try dsimp only)
      by_cases hz : t.val = 0
      · rw [PhiS0_castSucc V c t, PhiS0_zero V c _ _ hz, PhiA0_eq]
        iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        iintro ⟨H0, H1, H2, H3, H4, H5, H6, H7, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        iexists _; iexact H7
      · rw [PhiS0_castSucc V c t, PhiS0_pos V c _ _ hz]; unfold PhiAt0
        iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        isplitl [HS2]; · iexists _; iexact HS2
        iintro ⟨H0, H1, H2, H3, H4, H5, H6, H7, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        iexists _; iexact H7
  · have hz : t.val ≠ 0 := fun hz => h0 (by rw [hz])
    by_cases h1 : t.val % 10 = 9
    · rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold PhiAt0 out0_C sout0_C; (try dsimp only)
      rw [PhiS0_castSucc V c t, PhiS0_pos V c _ _ hz]; unfold PhiAt0
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _ _).2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      iintro ⟨H0, H1, H2, H3, H4, ⟨%e5, H5⟩, ⟨%e6, H6⟩, ⟨%e7, H7⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _ _ _ _)
    · rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [outsAt0_B V c t h0 h1]
      unfold PhiAt0 sout0_B; (try dsimp only)
      rw [PhiS0_castSucc V c t, PhiS0_pos V c _ _ hz]; unfold PhiAt0
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch buffers' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]; unfold PhiAt0
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

theorem hout0 (c : Dev nD) : (dat0 V c).Φ (Fin.last cfg0.N) ⊢ Pipeline.ΦA spec0 c :=
  Phi_out0 V c _ (by rw [Fin.val_last]; have : cfg0.N = 80 := N_0; omega)

end Cert.KernelIdeal.Hand

end
-- ==== Proof.KI.R1.lean ====
/-
Region 1 of the program: the pallas_call that materialises the two 4096 × 32000 result arrays tile by tile, on the
grid 10 × 16 with the column (entity) tile as the outer axis.  At a point the body reads six blocks — a 256 × 256 tile
of queries, a 3200 × 256 tile of table rows, three 256 × 1 columns (the row maxima, the row sums, the reciprocal query
norms) and one 1 × 3200 row (the reciprocal table-row norms) — and writes two 256 × 3200 tiles: the normalised
exponentials of the scores, and the scores scaled by the two reciprocal norms.

This module is the frame half of that region, for any float instance: what each window's buffer holds when the body is
called, the body's separation-logic triple on whole buffers, the proof data of the pipeline, and the body obligation
at every grid point.  Everything is stated at a parameter `V`, the TensorCore's buffer contents when the region is
entered.
-/
import proofs.«120323_j21741124452848_2_alg».proof.Proof.Gen.KernelIdeal.Launch
import proofs.«120323_j21741124452848_2_alg».proof.Proof.Gen.KernelIdeal.Skeleton
import proofs.«120323_j21741124452848_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with a 3200-long axis is checked coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## A window's block at a grid point -/

/-- The block of window `w` at point `t`: the rectangle of the window's array, as the region finds it, that the
    window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What an input window's buffer holds when the body is called

An input window is fetched only at the points where its block index changes: the query tile and the three columns at
every point (their index is the inner coordinate), the table tile and the row of reciprocal norms only at the first
point of each sweep of the inner axis (their index is the outer coordinate).  Where a window is not fetched its index is
the previous point's, and the body has left the buffer as it found it, so the buffer still holds the block of THIS
point.  Stated for any proof data whose array is `V`'s and whose body leaves the input in place. -/

theorem held1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem held1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem held1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem held1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem held1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem held1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes

Every access of the body is of a whole buffer: offset zero, unit stride, the buffer's own extents. -/

abbrev box1_q : Rect S256x256 := Rect.unit (s := S256x256) ![0, 0] S256x256.size inb_S256x256_S256x256_0_0
abbrev box1_e : Rect S3200x256 := Rect.unit (s := S3200x256) ![0, 0] S3200x256.size inb_S3200x256_S3200x256_0_0
abbrev box1_col : Rect S256x1 := Rect.unit (s := S256x1) ![0, 0] S256x1.size inb_S256x1_S256x1_0_0
abbrev box1_row : Rect S1x3200 := Rect.unit (s := S1x3200) ![0, 0] S1x3200.size inb_S1x3200_S1x3200_0_0
abbrev box1_o : Rect S256x3200 := Rect.unit (s := S256x3200) ![0, 0] S256x3200.size inb_S256x3200_S256x3200_0_0

/-! ## What the body leaves in the two output buffers -/

/-- The first output tile after the body, from the blocks the body read: the query tile `x0`, the table tile `x1`,
    the column of row maxima `x2` and the column of row sums `x3`.  One store of the whole tile: the exponential of
    (score − maximum), divided by the sum. -/
def out1_6 (x0 : Vec F S256x256 .bf16) (x1 : Vec F S3200x256 .bf16) (x2 : Vec F S256x1 .f32) (x3 : Vec F S256x1 .f32) : Vec F S256x3200 .f32 :=
  View.canon [⟨box1_o, k1_pay2 (View.ld x0 box1_q) (View.ld x1 box1_e) (View.ld x2 box1_col) (View.ld x3 box1_col)⟩]

/-- The second output tile after the body, from the query tile `x0`, the table tile `x1`, the column of reciprocal
    query norms `x4` and the row of reciprocal table-row norms `x5`.  One store of the whole tile: the score times
    both reciprocals. -/
def out1_7 (x0 : Vec F S256x256 .bf16) (x1 : Vec F S3200x256 .bf16) (x4 : Vec F S256x1 .f32) (x5 : Vec F S1x3200 .f32) : Vec F S256x3200 .f32 :=
  View.canon [⟨box1_o, k1_pay3 (View.ld x0 box1_q) (View.ld x1 box1_e) (View.ld x4 box1_col) (View.ld x5 box1_row)⟩]

/-- A single store of the whole 256 × 3200 tile reaches every index of it. -/
theorem tiles1_o (p0 : Vec F S256x3200 .f32) (y : S256x3200.Idx) :
    ∃ pc ∈ ([⟨box1_o, p0⟩] : List (View.Piece (Elt F) S256x3200 .f32)), y ∈ pc.1.set :=
  View.cover_of_tiled [⟨box1_o, p0⟩] S256x3200.size (by rfl) y

/-! ## The body's triple -/

set_option maxHeartbeats 1000000 in
/-- The body on whole buffers.  Given the six input buffers at contents `x0 … x5` and the two output buffers at any
    contents (the body loads an output buffer before it overwrites it, and drops what it loaded), the body runs to a
    continuation that holds the inputs unchanged and the outputs at `out1_6` and `out1_7` of the inputs. -/
theorem run_kernelB (c : Dev nD) (E : Set ℕ) (i : grid1.Coords)
    (arg2 : Memref sig .tc .vmem S256x256 .bf16) (harg2 : arg2.IsWhole) (arg3 : Memref sig .tc .vmem S3200x256 .bf16) (harg3 : arg3.IsWhole)
    (arg4 : Memref sig .tc .vmem S256x1 .f32) (harg4 : arg4.IsWhole) (arg5 : Memref sig .tc .vmem S256x1 .f32) (harg5 : arg5.IsWhole)
    (arg6 : Memref sig .tc .vmem S256x1 .f32) (harg6 : arg6.IsWhole) (arg7 : Memref sig .tc .vmem S1x3200 .f32) (harg7 : arg7.IsWhole)
    (arg8 : Memref sig .tc .vmem S256x3200 .f32) (harg8 : arg8.IsWhole) (arg9 : Memref sig .tc .vmem S256x3200 .f32) (harg9 : arg9.IsWhole)
    (x0 : Vec F S256x256 .bf16) (x1 : Vec F S3200x256 .bf16) (x2 : Vec F S256x1 .f32) (x3 : Vec F S256x1 .f32)
    (x4 : Vec F S256x1 .f32) (x5 : Vec F S1x3200 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3) ∗ owns (c : Thread nD τ) arg9 fullShare (out1_7 x0 x1 x4 x5)) -∗ K ⟨⟩))
      ⊢ wp frame (wpE (defs₀ (F := F)) Variants.none c none) E
          (cc1__kernelB i arg2 harg2 arg3 harg3 arg4 harg4 arg5 harg5 arg6 harg6 arg7 harg7 arg8 harg8 arg9 harg9) K := by
  simp only [cc1__kernelB_eq_skeleton]; unfold cc1__kernelB_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (tiles1_o _)
  iexists _; isplitr
  swap; · iexact H7
  ipureintro
  exact View.read_writes_eq_canon _ _ _ (tiles1_o _)

/-! ## The pipeline's proof data -/

/-- The proof data of this pipeline on core `c`.  The arrays are the region-entry contents.  After the body at point
    `t` an input window's buffer holds its block there, and an output window's buffer holds the body's result on the
    input blocks there.  The invariant is the one of a body that touches nothing but its windows; nothing is owed;
    every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t)
    | ⟨7, _⟩ => out1_7 (iblk1 V c 0 t) (iblk1 V c 1 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) := by dsimp only [dat1]
theorem after1_7 (c : Dev nD) (t : Fin cfg1.N) :
    (dat1 V c).after 7 t = out1_7 (iblk1 V c 0 t) (iblk1 V c 1 t) (iblk1 V c 4 t) (iblk1 V c 5 t) := by dsimp only [dat1]

/-- Each input window's buffer holds its block at every point, fetched there or not. -/
theorem held1_0 (c : Dev nD) (t : Fin cfg1.N) (d) : (dat1 V c).before 0 t d = iblk1 V c 0 t :=
  held1_0_of V (dat1 V c) (A_eq1 V c 0) (after1_0 V c) t d
theorem held1_1 (c : Dev nD) (t : Fin cfg1.N) (d) : (dat1 V c).before 1 t d = iblk1 V c 1 t :=
  held1_1_of V (dat1 V c) (A_eq1 V c 1) (after1_1 V c) t d
theorem held1_2 (c : Dev nD) (t : Fin cfg1.N) (d) : (dat1 V c).before 2 t d = iblk1 V c 2 t :=
  held1_2_of V (dat1 V c) (A_eq1 V c 2) (after1_2 V c) t d
theorem held1_3 (c : Dev nD) (t : Fin cfg1.N) (d) : (dat1 V c).before 3 t d = iblk1 V c 3 t :=
  held1_3_of V (dat1 V c) (A_eq1 V c 3) (after1_3 V c) t d
theorem held1_4 (c : Dev nD) (t : Fin cfg1.N) (d) : (dat1 V c).before 4 t d = iblk1 V c 4 t :=
  held1_4_of V (dat1 V c) (A_eq1 V c 4) (after1_4 V c) t d
theorem held1_5 (c : Dev nD) (t : Fin cfg1.N) (d) : (dat1 V c).before 5 t d = iblk1 V c 5 t :=
  held1_5_of V (dat1 V c) (A_eq1 V c 5) (after1_5 V c) t d

/-! ## The body obligation at a generic point -/

/-- What the body is called with at point `t`: the invariant, the core's debt, and each window's current buffer at
    what the pipeline has put there, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns: the same with each buffer at what the body leaves. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the input buffers hold their blocks, so the body's triple applies; the invariant and the
    debt are not touched and do not change from one point to the next. -/
theorem run_body1 (c : Dev nD) (t : Fin cfg1.N) :
    pre1 V c t ⊢ wp frame (wpE (defs₀ (F := F)) Variants.none c none) Set.univ (bodyAt1 t) (fun _ => post1 V c t) := by
  unfold pre1 post1 bodyAt1
  simp only [held1_0, held1_1, held1_2, held1_3, held1_4, held1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_kernelB c Set.univ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every point. -/
theorem body_obligation1 (c : Dev nD) : BodyObligation (dat1 (F := F) V c) (defs₀ (F := F)) Variants.none () Set.univ := fun t => by
  rw [bigSep_W1, bigSep_W1]
  exact run_body1 V c t

end Cert.KernelIdeal.Hand

end
-- ==== Proof.KI.R2.lean ====
/-
  The LayerNorm pallas_call of the kernel program (custom_call 2, `cc2__ln_kernel`: grid of 16 row tiles, window 0 the
  1024x768 row tile of the input, windows 1 and 2 the whole scale and bias vectors, window 3 the 1024x768 row tile of the
  output), stated at ANY contents `V` of the TensorCore's buffers on entry to the call.

  What is here: the block each window sees at a grid point, read off `V`; the closed form of the output tile the body
  stores, as a function of the three input blocks (`out2_3`); the body's separation-logic triple on whole staging
  buffers; the pipeline's proof data `dat2`; and the library's body obligation for it, at every grid point.
-/
import proofs.«120323_j21741124452848_2_alg».proof.Proof.Gen.KernelIdeal.Launch
import proofs.«120323_j21741124452848_2_alg».proof.Proof.Gen.KernelIdeal.Skeleton
import proofs.«120323_j21741124452848_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the LayerNorm call is entered
variable (V : (c : Dev nD) → (b : Ref sig .tc) → Buf (Elt F) ((c : Thread nD τ).loc b))

/-! ## Blocks -/

/-- The block of window `w` at grid point `t`: the window's view of its array, read at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row tile (window 0) is in its staging buffer at every point. Stated for any proof data over the entry arrays whose
    body leaves the tile as it found it. -/
theorem held2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The scale vector (window 1) is copied in at the first point only; its block index never moves (the index map is
    constant), so at every later point the buffer still holds the same, whole, vector. -/
theorem held2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias vector (window 2): as the scale vector. -/
theorem held2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches: each access is of a whole buffer -/

/-- The whole 1024x768 tile. -/
abbrev tile2 : Rect S1024x768 := Rect.unit (s := S1024x768) ![0, 0] S1024x768.size inb_S1024x768_S1024x768_0_0
/-- The whole 768-vector. -/
abbrev lane2 : Rect S768 := Rect.unit (s := S768) ![0] S768.size inb_S768_S768_0

/-! ## The output tile the body leaves -/

/-- The output window's staging buffer after the body: one store of the whole tile, whose value is the normalised,
    scaled and shifted row tile computed from the three loaded blocks. -/
def out2_3 (x0 : Vec F S1024x768 .f32) (x1 : Vec F S768 .f32) (x2 : Vec F S768 .f32) : Vec F S1024x768 .f32 :=
  View.canon [⟨tile2, k2_pay1 (View.ld x0 tile2) (View.ld x1 lane2) (View.ld x2 lane2)⟩]

/-- One whole-tile store covers every index of the tile. -/
theorem tiles2_3 (p0 : Vec F S1024x768 .f32) (y : S1024x768.Idx) :
    ∃ pc ∈ ([⟨tile2, p0⟩] : List (View.Piece (Elt F) S1024x768 .f32)), y ∈ pc.1.set :=
  View.cover_of_tiled [⟨tile2, p0⟩] S1024x768.size (by rfl) y

/-! ## The body's triple -/

set_option maxHeartbeats 1000000 in
/-- The body run on whole staging buffers: the three inputs owned at contents reading `x0`, `x1`, `x2`, the output owned at
    arbitrary contents (the body reads it once, and discards what it read, before overwriting it). It returns the inputs
    untouched and the output reading `out2_3 x0 x1 x2`. -/
theorem ln_triple2 (c : Dev nD) (E : Set ℕ) (i : grid2.Coords)
    (arg1 : Memref sig .tc .vmem S1024x768 .f32) (harg1 : arg1.IsWhole) (arg2 : Memref sig .tc .vmem S768 .f32) (harg2 : arg2.IsWhole)
    (arg3 : Memref sig .tc .vmem S768 .f32) (harg3 : arg3.IsWhole) (arg4 : Memref sig .tc .vmem S1024x768 .f32) (harg4 : arg4.IsWhole)
    (x0 : Vec F S1024x768 .f32) (x1 : Vec F S768 .f32) (x2 : Vec F S768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__ln_kernel i arg1 harg1 arg2 harg2 arg3 harg3 arg4 harg4) K := by
  simp only [cc2__ln_kernel_eq_skeleton]; unfold cc2__ln_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tiles2_3 _)

/-! ## The proof data of the call -/

/-- On core `c`: the arrays are the entry contents; after the body at point `t` every input buffer holds its block and the
    output buffer holds `out2_3` of the three input blocks; the invariant is the one of bodies that touch nothing but their
    windows; full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- What the body finds in each input buffer is that window's block. -/
theorem held2_0 (c : Dev nD) (t : Fin cfg2.N) (d) : (dat2 V c).before 0 t d = iblk2 V c 0 t :=
  held2_0_of V (dat2 V c) (A_eq2 V c 0) (after2_0 V c) t d
theorem held2_1 (c : Dev nD) (t : Fin cfg2.N) (d) : (dat2 V c).before 1 t d = iblk2 V c 1 t :=
  held2_1_of V (dat2 V c) (A_eq2 V c 1) (after2_1 V c) t d
theorem held2_2 (c : Dev nD) (t : Fin cfg2.N) (d) : (dat2 V c).before 2 t d = iblk2 V c 2 t :=
  held2_2_of V (dat2 V c) (A_eq2 V c 2) (after2_2 V c) t d

/-! ## The body obligation -/

/-- The resources the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and the resources it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at a grid point: the three input buffers hold their blocks, so the triple applies; the invariant and what is
    owed are carried across untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1, held2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (ln_triple2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the LayerNorm call, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole run of the kernel program: host operations, the attention-reduction region, the materialisation region, host
  operations (the scatter-add), the LayerNorm region, a last reshape. The buffers' contents at every boundary are a fold
  from the launch memory: a stretch of host operations applies them; a region leaves its arrays at what its write-backs
  make of them and every other buffer as it found it. Every weakly fair execution terminates with every unscoped buffer
  at the last boundary's contents.
-/
import proofs.«120323_j21741124452848_2_alg».proof.Proof.KI.R0Frame
import proofs.«120323_j21741124452848_2_alg».proof.Proof.KI.R1
import proofs.«120323_j21741124452848_2_alg».proof.Proof.KI.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No host operation of @main allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- Region 0's entry. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b

/-- After region: its arrays at what the pipeline leaves (the inputs as entered, each output's write-backs folded), every
    other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After region: its arrays at what the pipeline leaves (the inputs as entered, each output's write-backs folded), every
    other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After the scatter-add and the reshape: region 2's entry. -/
abbrev W8 : Dev nD → Valuation τ sig (Elt F) := fun c => StableHlo.after hostOps2 (W7 m ρ c)
abbrev V8 : (c : Dev nD) → (b : Ref sig .tc) → Buf (Elt F) ((c : Thread nD τ).loc b) := fun c b => W8 m ρ c b

/-- After region: its arrays at what the pipeline leaves (the inputs as entered, each output's write-backs folded), every
    other buffer as entered. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev V9 : (c : Dev nD) → (b : Ref sig .tc) → Buf (Elt F) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- After the last reshape: the end. -/
abbrev W10 : Dev nD → Valuation τ sig (Elt F) := fun c => StableHlo.after hostOps3 (W9 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c
  | ⟨2, _⟩ => fun c => dat2 (V8 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at their final contents; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h1.trans (hin0 (V5 m ρ) c)
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V5 m ρ) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at their final contents; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it. Its arrays are split out of the unscoped buffers and put back at their final contents; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .region (reg1 m ρ),
    .host (hseg hostOps2 hostOps2_sub hostOps2_fresh (W7 m ρ)),
    .region (reg2 m ρ),
    .host (hseg hostOps3 hostOps3_sub hostOps3_fresh (W9 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W10 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.KernelIdeal.Hand

end
-- ==== Proof.KI.V0Blocks.lean ====
/-
  The attention-reduction call (grid of 8 mention tiles by 10 entity tiles, the entity axis inner): which entries of its
  arrays each window's block holds at a grid point. Point `t` is mention tile `t / 10` and entity tile `t % 10`. The
  query, mask and the three output windows move with the mention tile (512 rows each), the entity window with the entity
  tile (3200 rows), and the projection matrix and its bias are whole arrays. So a block's entry `(r, k)` is the array's
  entry `(512 (t / 10) + r, k)`, or `(3200 (t % 10) + e, k)` for the entities.
-/
import proofs.«120323_j21741124452848_2_alg».proof.Proof.KI.R0Defs
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

variable (V : (c : Dev nD) → (b : Ref sig .tc) → Buf (Elt F) ((c : Thread nD τ).loc b))

/-! ## The index maps, decided once over the eighty grid points -/

theorem idx0 : ∀ t : Fin cfg0.N,
    win0_0.index t (0 : Fin 2) = t.val / 10 ∧ win0_0.index t (1 : Fin 2) = 0
    ∧ win0_1.index t (0 : Fin 2) = t.val % 10 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val / 10 ∧ win0_4.index t (1 : Fin 2) = 0 :=
  (by decide +kernel : ∀ t : Fin grid0.N, _)

theorem idx0_out : ∀ t : Fin cfg0.N,
    win0_5.index t (0 : Fin 2) = t.val / 10 ∧ win0_5.index t (1 : Fin 2) = 0
    ∧ win0_6.index t (0 : Fin 2) = t.val / 10 ∧ win0_6.index t (1 : Fin 2) = 0
    ∧ win0_7.index t (0 : Fin 2) = t.val / 10 ∧ win0_7.index t (1 : Fin 2) = 0 :=
  (by decide +kernel : ∀ t : Fin grid0.N, _)

theorem point_lt (t : Fin cfg0.N) : t.val < 80 := by
  have h : t.val < grid0.N := t.isLt
  have hN : grid0.N = 80 := N_0
  omega

/-- The array row under row `r` of a mention tile at point `t`. -/
def rowOf (t : Fin cfg0.N) (r : Fin 512) : Fin 4096 :=
  ⟨512 * (t.val / 10) + r.val, by have := point_lt t; have := r.isLt; omega⟩

theorem rowOf_val (t : Fin cfg0.N) (r : Fin 512) : (rowOf t r).val = 512 * (t.val / 10) + r.val := rfl

/-- The entity under row `e` of an entity tile at point `t`. -/
def entOf (t : Fin cfg0.N) (e : Fin 3200) : Fin 32000 :=
  ⟨3200 * (t.val % 10) + e.val, by have := point_lt t; have := e.isLt; omega⟩

theorem entOf_val (t : Fin cfg0.N) (e : Fin 3200) : (entOf t e).val = 3200 * (t.val % 10) + e.val := rfl

/-! ## The input windows' blocks, entry by entry -/

/-- The query tile: rows `512 (t / 10) …` of the query array. -/
theorem blk0_0_apply (c : Dev nD) (t : Fin cfg0.N) (r : Fin 512) (k : Fin 256) :
    (iblk0 V c 0 t : Vec F S512x256 .bf16) (ix2 r k) = (V c main_v33 : S4096x256.Idx → Elt F .bf16) (ix2 (rowOf t r) k) := by
  obtain ⟨e0, e1, -⟩ := idx0 t
  unfold iblk0
  rw [View.read_apply]
  show (V c main_v33 : S4096x256.Idx → Elt F .bf16) _ = _
  congr 1
  funext a
  apply Fin.ext
  match a with
  | ⟨0, _⟩ => show win0_0.index t (0 : Fin 2) * 512 + 1 * r.val = 512 * (t.val / 10) + r.val; rw [e0]; omega
  | ⟨1, _⟩ => show win0_0.index t (1 : Fin 2) * 256 + 1 * k.val = k.val; rw [e1]; omega

/-- The entity tile: rows `3200 (t % 10) …` of the entity table. -/
theorem blk0_1_apply (c : Dev nD) (t : Fin cfg0.N) (e : Fin 3200) (k : Fin 256) :
    (iblk0 V c 1 t : Vec F S3200x256 .bf16) (ix2 e k) = (V c main_v34 : S32000x256.Idx → Elt F .bf16) (ix2 (entOf t e) k) := by
  obtain ⟨-, -, e2, e3, -⟩ := idx0 t
  unfold iblk0
  rw [View.read_apply]
  show (V c main_v34 : S32000x256.Idx → Elt F .bf16) _ = _
  congr 1
  funext a
  apply Fin.ext
  match a with
  | ⟨0, _⟩ => show win0_1.index t (0 : Fin 2) * 3200 + 1 * e.val = 3200 * (t.val % 10) + e.val; rw [e2]; omega
  | ⟨1, _⟩ => show win0_1.index t (1 : Fin 2) * 256 + 1 * k.val = k.val; rw [e3]; omega

/-- The projection matrix's window is the whole matrix, at every point. -/
theorem blk0_2_eq (c : Dev nD) (t : Fin cfg0.N) :
    (iblk0 V c 2 t : Vec F S256x768 .bf16) = (V c main_v35 : S256x768.Idx → Elt F .bf16) := by
  obtain ⟨-, -, -, -, e4, e5, -⟩ := idx0 t
  funext j
  unfold iblk0
  rw [View.read_apply]
  show (V c main_v35 : S256x768.Idx → Elt F .bf16) _ = _
  congr 1
  funext a
  apply Fin.ext
  match a with
  | ⟨0, _⟩ => show win0_2.index t (0 : Fin 2) * 256 + 1 * (j 0).val = (j 0).val; rw [e4]; omega
  | ⟨1, _⟩ => show win0_2.index t (1 : Fin 2) * 768 + 1 * (j 1).val = (j 1).val; rw [e5]; omega

/-- The projection bias's window is the whole vector, at every point. -/
theorem blk0_3_eq (c : Dev nD) (t : Fin cfg0.N) :
    (iblk0 V c 3 t : Vec F S768 .f32) = (V c main_arg9 : S768.Idx → Elt F .f32) := by
  obtain ⟨-, -, -, -, -, -, e6, -⟩ := idx0 t
  funext j
  unfold iblk0
  rw [View.read_apply]
  show (V c main_arg9 : S768.Idx → Elt F .f32) _ = _
  congr 1
  funext a
  apply Fin.ext
  match a with
  | ⟨0, _⟩ => show win0_3.index t (0 : Fin 1) * 768 + 1 * (j 0).val = (j 0).val; rw [e6]; omega

/-- The mask tile: rows `512 (t / 10) …` of the mask column. -/
theorem blk0_4_apply (c : Dev nD) (t : Fin cfg0.N) (r : Fin 512) (u : Fin 1) :
    (iblk0 V c 4 t : Vec F S512x1 .f32) (ix2 r u) = (V c main_v48 : S4096x1.Idx → Elt F .f32) (ix2 (rowOf t r) u) := by
  obtain ⟨-, -, -, -, -, -, -, e7, e8⟩ := idx0 t
  unfold iblk0
  rw [View.read_apply]
  show (V c main_v48 : S4096x1.Idx → Elt F .f32) _ = _
  congr 1
  funext a
  apply Fin.ext
  match a with
  | ⟨0, _⟩ => show win0_4.index t (0 : Fin 2) * 512 + 1 * r.val = 512 * (t.val / 10) + r.val; rw [e7]; omega
  | ⟨1, _⟩ => show win0_4.index t (1 : Fin 2) * 1 + 1 * u.val = u.val; rw [e8]; omega

/-! ## The output windows' blocks of any whole-array function -/

/-- The update tile of a [4096, 768] array `G`: its rows `512 (t / 10) …`. -/
theorem blk0_5_apply (t : Fin cfg0.N) (G : S4096x768.Idx → Elt F .f32) (r : Fin 512) (h : Fin 768) :
    (((cfg0.win 5).blk t).view.read (Elt F) G : Vec F S512x768 .f32) (ix2 r h) = G (ix2 (rowOf t r) h) := by
  obtain ⟨e0, e1, -⟩ := idx0_out t
  rw [View.read_apply]
  show G _ = _
  congr 1
  funext a
  apply Fin.ext
  match a with
  | ⟨0, _⟩ => show win0_5.index t (0 : Fin 2) * 512 + 1 * r.val = 512 * (t.val / 10) + r.val; rw [e0]; omega
  | ⟨1, _⟩ => show win0_5.index t (1 : Fin 2) * 768 + 1 * h.val = h.val; rw [e1]; omega

/-- The running-maximum tile of a [4096, 1] array `G`. -/
theorem blk0_6_apply (t : Fin cfg0.N) (G : S4096x1.Idx → Elt F .f32) (r : Fin 512) (u : Fin 1) :
    (((cfg0.win 6).blk t).view.read (Elt F) G : Vec F S512x1 .f32) (ix2 r u) = G (ix2 (rowOf t r) u) := by
  obtain ⟨-, -, e2, e3, -⟩ := idx0_out t
  rw [View.read_apply]
  show G _ = _
  congr 1
  funext a
  apply Fin.ext
  match a with
  | ⟨0, _⟩ => show win0_6.index t (0 : Fin 2) * 512 + 1 * r.val = 512 * (t.val / 10) + r.val; rw [e2]; omega
  | ⟨1, _⟩ => show win0_6.index t (1 : Fin 2) * 1 + 1 * u.val = u.val; rw [e3]; omega

/-- The running-sum tile of a [4096, 1] array `G`. -/
theorem blk0_7_apply (t : Fin cfg0.N) (G : S4096x1.Idx → Elt F .f32) (r : Fin 512) (u : Fin 1) :
    (((cfg0.win 7).blk t).view.read (Elt F) G : Vec F S512x1 .f32) (ix2 r u) = G (ix2 (rowOf t r) u) := by
  obtain ⟨-, -, -, -, e4, e5⟩ := idx0_out t
  rw [View.read_apply]
  show G _ = _
  congr 1
  funext a
  apply Fin.ext
  match a with
  | ⟨0, _⟩ => show win0_7.index t (0 : Fin 2) * 512 + 1 * r.val = 512 * (t.val / 10) + r.val; rw [e4]; omega
  | ⟨1, _⟩ => show win0_7.index t (1 : Fin 2) * 1 + 1 * u.val = u.val; rw [e5]; omega

end Cert.KernelIdeal.Hand

end
-- ==== Proof.KI.V0Cover.lean ====
/-
  The attention-reduction call: from the tiles written back to the whole arrays. Each output window writes its tile back
  only at the last entity tile of a mention tile (the points `t` with `t % 10 = 9`); the eight such points' tiles are the
  eight blocks of 512 rows, so they partition the 4096 rows. Hence, if at every such point the tile written back is the
  tile of one whole-array function `G`, the array ends holding `G`: row `ρ` is covered by the point `10 (ρ / 512) + 9`.
  The five input arrays are never written back and end as they were on entry.
-/
import proofs.«120323_j21741124452848_2_alg».proof.Proof.KI.R0Frame
import proofs.«120323_j21741124452848_2_alg».proof.Proof.KI.V0Blocks
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

variable (V : (c : Dev nD) → (b : Ref sig .tc) → Buf (Elt F) ((c : Thread nD τ).loc b))

/-! ## The inputs are as on entry -/

theorem arr0_0 (c : Dev nD) : (dat0 V c).arrAt 0 cfg0.N = V c (Pipeline.arrRef spec0 0) :=
  ((dat0 V c).arrAt_in 0 rfl _).trans (A_eq0 V c 0)
theorem arr0_1 (c : Dev nD) : (dat0 V c).arrAt 1 cfg0.N = V c (Pipeline.arrRef spec0 1) :=
  ((dat0 V c).arrAt_in 1 rfl _).trans (A_eq0 V c 1)
theorem arr0_2 (c : Dev nD) : (dat0 V c).arrAt 2 cfg0.N = V c (Pipeline.arrRef spec0 2) :=
  ((dat0 V c).arrAt_in 2 rfl _).trans (A_eq0 V c 2)
theorem arr0_3 (c : Dev nD) : (dat0 V c).arrAt 3 cfg0.N = V c (Pipeline.arrRef spec0 3) :=
  ((dat0 V c).arrAt_in 3 rfl _).trans (A_eq0 V c 3)
theorem arr0_4 (c : Dev nD) : (dat0 V c).arrAt 4 cfg0.N = V c (Pipeline.arrRef spec0 4) :=
  ((dat0 V c).arrAt_in 4 rfl _).trans (A_eq0 V c 4)

/-! ## The point that covers a row -/

/-- The last entity tile of the mention tile that holds row `ρ`. -/
def lastOf (ρ : ℕ) (hρ : ρ < 4096) : Fin cfg0.N :=
  ⟨10 * (ρ / 512) + 9, by show 10 * (ρ / 512) + 9 < grid0.N; have hN : grid0.N = 80 := N_0; omega⟩

theorem lastOf_val (ρ : ℕ) (hρ : ρ < 4096) : (lastOf ρ hρ).val = 10 * (ρ / 512) + 9 := rfl

theorem lastOf_mod (ρ : ℕ) (hρ : ρ < 4096) : (lastOf ρ hρ).val % 10 = 9 := by rw [lastOf_val]; omega

theorem lastOf_div (ρ : ℕ) (hρ : ρ < 4096) : (lastOf ρ hρ).val / 10 = ρ / 512 := by rw [lastOf_val]; omega

/-! ## Membership in an output tile, coordinate by coordinate -/

theorem mem_blk0_5 (t : Fin cfg0.N) (i : S4096x768.Idx) :
    i ∈ ((cfg0.win 5).blk t).view.set ↔ ∀ a : Fin 2, win0_5.index t a * S512x768.size a ≤ (i a).val ∧ (i a).val < win0_5.index t a * S512x768.size a + S512x768.size a := by
  show i ∈ ((View.whole main_v49_0).slice (win0_5.rect t)).set ↔ _
  rw [View.set_slice_whole, Rect.mem_set_unit]
  exact Iff.rfl

theorem mem_blk0_6 (t : Fin cfg0.N) (i : S4096x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v49_1).slice (win0_6.rect t)).set ↔ _
  rw [View.set_slice_whole, Rect.mem_set_unit]
  exact Iff.rfl

theorem mem_blk0_7 (t : Fin cfg0.N) (i : S4096x1.Idx) :
    i ∈ ((cfg0.win 7).blk t).view.set ↔ ∀ a : Fin 2, win0_7.index t a * S512x1.size a ≤ (i a).val ∧ (i a).val < win0_7.index t a * S512x1.size a + S512x1.size a := by
  show i ∈ ((View.whole main_v49_2).slice (win0_7.rect t)).set ↔ _
  rw [View.set_slice_whole, Rect.mem_set_unit]
  exact Iff.rfl

/-! ## The cover -/

theorem cover0_5 (i : S4096x768.Idx) : ∃ t : Fin cfg0.N, (cfg0.win 5).flush t = true ∧ i ∈ ((cfg0.win 5).blk t).view.set := by
  have hi0 : (i 0).val < 4096 := (i 0).isLt
  have hi1 : (i 1).val < 768 := (i 1).isLt
  refine ⟨lastOf (i 0).val hi0, (flush0_5 _).mpr (lastOf_mod _ hi0), ?_⟩
  rw [mem_blk0_5]
  obtain ⟨e0, e1, -⟩ := idx0_out (lastOf (i 0).val hi0)
  rw [lastOf_div] at e0
  intro a
  match a with
  | ⟨0, _⟩ =>
    show win0_5.index _ (0 : Fin 2) * 512 ≤ (i 0).val ∧ (i 0).val < win0_5.index _ (0 : Fin 2) * 512 + 512
    rw [e0]; omega
  | ⟨1, _⟩ =>
    show win0_5.index _ (1 : Fin 2) * 768 ≤ (i 1).val ∧ (i 1).val < win0_5.index _ (1 : Fin 2) * 768 + 768
    rw [e1]; omega

theorem cover0_6 (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  refine ⟨lastOf (i 0).val hi0, (flush0_6 _).mpr (lastOf_mod _ hi0), ?_⟩
  rw [mem_blk0_6]
  obtain ⟨-, -, e2, e3, -⟩ := idx0_out (lastOf (i 0).val hi0)
  rw [lastOf_div] at e2
  intro a
  match a with
  | ⟨0, _⟩ =>
    show win0_6.index _ (0 : Fin 2) * 512 ≤ (i 0).val ∧ (i 0).val < win0_6.index _ (0 : Fin 2) * 512 + 512
    rw [e2]; omega
  | ⟨1, _⟩ =>
    show win0_6.index _ (1 : Fin 2) * 1 ≤ (i 1).val ∧ (i 1).val < win0_6.index _ (1 : Fin 2) * 1 + 1
    rw [e3]; omega

theorem cover0_7 (i : S4096x1.Idx) : ∃ t : Fin cfg0.N, (cfg0.win 7).flush t = true ∧ i ∈ ((cfg0.win 7).blk t).view.set := by
  have hi0 : (i 0).val < 4096 := (i 0).isLt
  have hi1 : (i 1).val < 1 := (i 1).isLt
  refine ⟨lastOf (i 0).val hi0, (flush0_7 _).mpr (lastOf_mod _ hi0), ?_⟩
  rw [mem_blk0_7]
  obtain ⟨-, -, -, -, e4, e5⟩ := idx0_out (lastOf (i 0).val hi0)
  rw [lastOf_div] at e4
  intro a
  match a with
  | ⟨0, _⟩ =>
    show win0_7.index _ (0 : Fin 2) * 512 ≤ (i 0).val ∧ (i 0).val < win0_7.index _ (0 : Fin 2) * 512 + 512
    rw [e4]; omega
  | ⟨1, _⟩ =>
    show win0_7.index _ (1 : Fin 2) * 1 ≤ (i 1).val ∧ (i 1).val < win0_7.index _ (1 : Fin 2) * 1 + 1
    rw [e5]; omega

/-! ## The outputs: tiles of one function at the write-back points make the array that function -/

/-- The update array. -/
theorem arr0_5_of (c : Dev nD) (G : S4096x768.Idx → Elt F .f32)
    (hG : ∀ t : Fin cfg0.N, t.val % 10 = 9 → (dat0 V c).after 5 t = ((cfg0.win 5).blk t).view.read (Elt F) G) :
    (dat0 V c).arrAt 5 cfg0.N = G :=
  (dat0 V c).arrAt_eq_of_cover 5 G
    (fun t hf => by
      show (cfg0.win 5).cut (grid0.coords t) ((dat0 V c).after 5 t) = _
      rw [hG t ((flush0_5 t).mp hf)])
    cover0_5

/-- The running-maximum column. -/
theorem arr0_6_of (c : Dev nD) (G : S4096x1.Idx → Elt F .f32)
    (hG : ∀ t : Fin cfg0.N, t.val % 10 = 9 → (dat0 V c).after 6 t = ((cfg0.win 6).blk t).view.read (Elt F) G) :
    (dat0 V c).arrAt 6 cfg0.N = G :=
  (dat0 V c).arrAt_eq_of_cover 6 G
    (fun t hf => by
      show (cfg0.win 6).cut (grid0.coords t) ((dat0 V c).after 6 t) = _
      rw [hG t ((flush0_6 t).mp hf)])
    cover0_6

/-- The running-sum column. -/
theorem arr0_7_of (c : Dev nD) (G : S4096x1.Idx → Elt F .f32)
    (hG : ∀ t : Fin cfg0.N, t.val % 10 = 9 → (dat0 V c).after 7 t = ((cfg0.win 7).blk t).view.read (Elt F) G) :
    (dat0 V c).arrAt 7 cfg0.N = G :=
  (dat0 V c).arrAt_eq_of_cover 7 G
    (fun t hf => by
      show (cfg0.win 7).cut (grid0.coords t) ((dat0 V c).after 7 t) = _
      rw [hG t ((flush0_7 t).mp hf)])
    cover0_7

end Cert.KernelIdeal.Hand

end
-- ==== Proof.KI.Frame.lean ====
/-
  The frame of the kernel program: no host operation and no region writes an argument array (a region reads one through an
  input window, whose array it hands back as it found it, or does not touch it), so at the end of the run every argument
  holds its launch contents.
-/
import proofs.«120323_j21741124452848_2_alg».proof.Proof.KI.Run
import proofs.«120323_j21741124452848_2_alg».proof.Proof.KI.V0Cover
import proofs.«120323_j21741124452848_2_alg».proof.Proof.Gen.KernelIdeal.Regions

set_option maxRecDepth 16384

noncomputable section

namespace Cert.KernelIdeal.Hand

open Cert.KernelIdeal
open Cert.KernelIdeal.Gen (hostOps0 hostOps0_1 hostOps0_2 hostOps0_3 hostOps0_4 hostOps2 hostOps3 launch0 launch1 launch2 cellOf_inj)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A buffer a stretch of host operations does not write keeps its contents through it -/

theorem W1_of (c : Dev nD) (r : Ref sig .tc) (h : r ∉ Gen.hostOps0_W) : W1 m ρ c (Proc.devRef .tc r) = W0 m ρ c (Proc.devRef .tc r) :=
  StableHlo.after_of_writes_sub hostOps0 _ Gen.hostOps0_writes h
theorem W2_of (c : Dev nD) (r : Ref sig .tc) (h : r ∉ Gen.hostOps0_1_W) : W2 m ρ c (Proc.devRef .tc r) = W1 m ρ c (Proc.devRef .tc r) :=
  StableHlo.after_of_writes_sub hostOps0_1 _ Gen.hostOps0_1_writes h
theorem W3_of (c : Dev nD) (r : Ref sig .tc) (h : r ∉ Gen.hostOps0_2_W) : W3 m ρ c (Proc.devRef .tc r) = W2 m ρ c (Proc.devRef .tc r) :=
  StableHlo.after_of_writes_sub hostOps0_2 _ Gen.hostOps0_2_writes h
theorem W4_of (c : Dev nD) (r : Ref sig .tc) (h : r ∉ Gen.hostOps0_3_W) : W4 m ρ c (Proc.devRef .tc r) = W3 m ρ c (Proc.devRef .tc r) :=
  StableHlo.after_of_writes_sub hostOps0_3 _ Gen.hostOps0_3_writes h
theorem W5_of (c : Dev nD) (r : Ref sig .tc) (h : r ∉ Gen.hostOps0_4_W) : W5 m ρ c (Proc.devRef .tc r) = W4 m ρ c (Proc.devRef .tc r) :=
  StableHlo.after_of_writes_sub hostOps0_4 _ Gen.hostOps0_4_writes h
theorem W8_of (c : Dev nD) (r : Ref sig .tc) (h : r ∉ Gen.hostOps2_W) : W8 m ρ c (Proc.devRef .tc r) = W7 m ρ c (Proc.devRef .tc r) :=
  StableHlo.after_of_writes_sub hostOps2 _ Gen.hostOps2_writes h
theorem W10_of (c : Dev nD) (r : Ref sig .tc) (h : r ∉ Gen.hostOps3_W) : W10 m ρ c (Proc.devRef .tc r) = W9 m ρ c (Proc.devRef .tc r) :=
  StableHlo.after_of_writes_sub hostOps3 _ Gen.hostOps3_writes h

/-! ## Each argument, read back through the ten boundaries to the launch memory -/

theorem W10_main_arg0 (c : Dev nD) : W10 m ρ c (Proc.devRef .tc main_arg0) = m ((c : Thread nD τ).loc main_arg0) :=
  (W10_of m ρ c main_arg0 (by decide)).trans <| (W9_of_ne m ρ c main_arg0 (by decide)).trans <| (W8_of m ρ c main_arg0 (by decide)).trans <| (W7_of_ne m ρ c main_arg0 (by decide)).trans <|
    (W6_of_ne m ρ c main_arg0 (by decide)).trans <| (W5_of m ρ c main_arg0 (by decide)).trans <| (W4_of m ρ c main_arg0 (by decide)).trans <| (W3_of m ρ c main_arg0 (by decide)).trans <|
    (W2_of m ρ c main_arg0 (by decide)).trans <| (W1_of m ρ c main_arg0 (by decide)).trans rfl
theorem W10_main_arg1 (c : Dev nD) : W10 m ρ c (Proc.devRef .tc main_arg1) = m ((c : Thread nD τ).loc main_arg1) :=
  (W10_of m ρ c main_arg1 (by decide)).trans <| (W9_of_ne m ρ c main_arg1 (by decide)).trans <| (W8_of m ρ c main_arg1 (by decide)).trans <| (W7_of_ne m ρ c main_arg1 (by decide)).trans <|
    (W6_of_ne m ρ c main_arg1 (by decide)).trans <| (W5_of m ρ c main_arg1 (by decide)).trans <| (W4_of m ρ c main_arg1 (by decide)).trans <| (W3_of m ρ c main_arg1 (by decide)).trans <|
    (W2_of m ρ c main_arg1 (by decide)).trans <| (W1_of m ρ c main_arg1 (by decide)).trans rfl
theorem W10_main_arg2 (c : Dev nD) : W10 m ρ c (Proc.devRef .tc main_arg2) = m ((c : Thread nD τ).loc main_arg2) :=
  (W10_of m ρ c main_arg2 (by decide)).trans <| (W9_of_ne m ρ c main_arg2 (by decide)).trans <| (W8_of m ρ c main_arg2 (by decide)).trans <| (W7_of_ne m ρ c main_arg2 (by decide)).trans <|
    (W6_of_ne m ρ c main_arg2 (by decide)).trans <| (W5_of m ρ c main_arg2 (by decide)).trans <| (W4_of m ρ c main_arg2 (by decide)).trans <| (W3_of m ρ c main_arg2 (by decide)).trans <|
    (W2_of m ρ c main_arg2 (by decide)).trans <| (W1_of m ρ c main_arg2 (by decide)).trans rfl
theorem W10_main_arg3 (c : Dev nD) : W10 m ρ c (Proc.devRef .tc main_arg3) = m ((c : Thread nD τ).loc main_arg3) :=
  (W10_of m ρ c main_arg3 (by decide)).trans <| (W9_of_ne m ρ c main_arg3 (by decide)).trans <| (W8_of m ρ c main_arg3 (by decide)).trans <| (W7_of_ne m ρ c main_arg3 (by decide)).trans <|
    (W6_of_ne m ρ c main_arg3 (by decide)).trans <| (W5_of m ρ c main_arg3 (by decide)).trans <| (W4_of m ρ c main_arg3 (by decide)).trans <| (W3_of m ρ c main_arg3 (by decide)).trans <|
    (W2_of m ρ c main_arg3 (by decide)).trans <| (W1_of m ρ c main_arg3 (by decide)).trans rfl
theorem W10_main_arg4 (c : Dev nD) : W10 m ρ c (Proc.devRef .tc main_arg4) = m ((c : Thread nD τ).loc main_arg4) :=
  (W10_of m ρ c main_arg4 (by decide)).trans <| (W9_of_ne m ρ c main_arg4 (by decide)).trans <| (W8_of m ρ c main_arg4 (by decide)).trans <| (W7_of_ne m ρ c main_arg4 (by decide)).trans <|
    (W6_of_ne m ρ c main_arg4 (by decide)).trans <| (W5_of m ρ c main_arg4 (by decide)).trans <| (W4_of m ρ c main_arg4 (by decide)).trans <| (W3_of m ρ c main_arg4 (by decide)).trans <|
    (W2_of m ρ c main_arg4 (by decide)).trans <| (W1_of m ρ c main_arg4 (by decide)).trans rfl
theorem W10_main_arg5 (c : Dev nD) : W10 m ρ c (Proc.devRef .tc main_arg5) = m ((c : Thread nD τ).loc main_arg5) :=
  (W10_of m ρ c main_arg5 (by decide)).trans <| (W9_of_ne m ρ c main_arg5 (by decide)).trans <| (W8_of m ρ c main_arg5 (by decide)).trans <| (W7_of_ne m ρ c main_arg5 (by decide)).trans <|
    (W6_of_ne m ρ c main_arg5 (by decide)).trans <| (W5_of m ρ c main_arg5 (by decide)).trans <| (W4_of m ρ c main_arg5 (by decide)).trans <| (W3_of m ρ c main_arg5 (by decide)).trans <|
    (W2_of m ρ c main_arg5 (by decide)).trans <| (W1_of m ρ c main_arg5 (by decide)).trans rfl
theorem W10_main_arg6 (c : Dev nD) : W10 m ρ c (Proc.devRef .tc main_arg6) = m ((c : Thread nD τ).loc main_arg6) :=
  (W10_of m ρ c main_arg6 (by decide)).trans <| (W9_of_ne m ρ c main_arg6 (by decide)).trans <| (W8_of m ρ c main_arg6 (by decide)).trans <| (W7_of_ne m ρ c main_arg6 (by decide)).trans <|
    (W6_of_ne m ρ c main_arg6 (by decide)).trans <| (W5_of m ρ c main_arg6 (by decide)).trans <| (W4_of m ρ c main_arg6 (by decide)).trans <| (W3_of m ρ c main_arg6 (by decide)).trans <|
    (W2_of m ρ c main_arg6 (by decide)).trans <| (W1_of m ρ c main_arg6 (by decide)).trans rfl
theorem W10_main_arg7 (c : Dev nD) : W10 m ρ c (Proc.devRef .tc main_arg7) = m ((c : Thread nD τ).loc main_arg7) :=
  (W10_of m ρ c main_arg7 (by decide)).trans <| (W9_of_ne m ρ c main_arg7 (by decide)).trans <| (W8_of m ρ c main_arg7 (by decide)).trans <| (W7_of_ne m ρ c main_arg7 (by decide)).trans <|
    (W6_of_ne m ρ c main_arg7 (by decide)).trans <| (W5_of m ρ c main_arg7 (by decide)).trans <| (W4_of m ρ c main_arg7 (by decide)).trans <| (W3_of m ρ c main_arg7 (by decide)).trans <|
    (W2_of m ρ c main_arg7 (by decide)).trans <| (W1_of m ρ c main_arg7 (by decide)).trans rfl
theorem W10_main_arg8 (c : Dev nD) : W10 m ρ c (Proc.devRef .tc main_arg8) = m ((c : Thread nD τ).loc main_arg8) :=
  (W10_of m ρ c main_arg8 (by decide)).trans <| (W9_of_ne m ρ c main_arg8 (by decide)).trans <| (W8_of m ρ c main_arg8 (by decide)).trans <| (W7_of_ne m ρ c main_arg8 (by decide)).trans <|
    (W6_of_ne m ρ c main_arg8 (by decide)).trans <| (W5_of m ρ c main_arg8 (by decide)).trans <| (W4_of m ρ c main_arg8 (by decide)).trans <| (W3_of m ρ c main_arg8 (by decide)).trans <|
    (W2_of m ρ c main_arg8 (by decide)).trans <| (W1_of m ρ c main_arg8 (by decide)).trans rfl
theorem W10_main_arg9 (c : Dev nD) : W10 m ρ c (Proc.devRef .tc main_arg9) = m ((c : Thread nD τ).loc main_arg9) :=
  (W10_of m ρ c main_arg9 (by decide)).trans <| (W9_of_ne m ρ c main_arg9 (by decide)).trans <| (W8_of m ρ c main_arg9 (by decide)).trans <| (W7_of_ne m ρ c main_arg9 (by decide)).trans <|
    ((W6_arr m ρ c 3).trans (arr0_3 (V5 m ρ) c)).trans <| (W5_of m ρ c main_arg9 (by decide)).trans <| (W4_of m ρ c main_arg9 (by decide)).trans <| (W3_of m ρ c main_arg9 (by decide)).trans <|
    (W2_of m ρ c main_arg9 (by decide)).trans <| (W1_of m ρ c main_arg9 (by decide)).trans rfl
theorem W10_main_arg10 (c : Dev nD) : W10 m ρ c (Proc.devRef .tc main_arg10) = m ((c : Thread nD τ).loc main_arg10) :=
  (W10_of m ρ c main_arg10 (by decide)).trans <| ((W9_arr m ρ c 1).trans (((dat2 (V8 m ρ) c).arrAt_in 1 rfl _).trans (A_eq2 (V8 m ρ) c 1))).trans <| (W8_of m ρ c main_arg10 (by decide)).trans <| (W7_of_ne m ρ c main_arg10 (by decide)).trans <|
    (W6_of_ne m ρ c main_arg10 (by decide)).trans <| (W5_of m ρ c main_arg10 (by decide)).trans <| (W4_of m ρ c main_arg10 (by decide)).trans <| (W3_of m ρ c main_arg10 (by decide)).trans <|
    (W2_of m ρ c main_arg10 (by decide)).trans <| (W1_of m ρ c main_arg10 (by decide)).trans rfl
theorem W10_main_arg11 (c : Dev nD) : W10 m ρ c (Proc.devRef .tc main_arg11) = m ((c : Thread nD τ).loc main_arg11) :=
  (W10_of m ρ c main_arg11 (by decide)).trans <| ((W9_arr m ρ c 2).trans (((dat2 (V8 m ρ) c).arrAt_in 2 rfl _).trans (A_eq2 (V8 m ρ) c 2))).trans <| (W8_of m ρ c main_arg11 (by decide)).trans <| (W7_of_ne m ρ c main_arg11 (by decide)).trans <|
    (W6_of_ne m ρ c main_arg11 (by decide)).trans <| (W5_of m ρ c main_arg11 (by decide)).trans <| (W4_of m ρ c main_arg11 (by decide)).trans <| (W3_of m ρ c main_arg11 (by decide)).trans <|
    (W2_of m ρ c main_arg11 (by decide)).trans <| (W1_of m ρ c main_arg11 (by decide)).trans rfl

/-- THE FRAME: from any memory with zero counters every weakly fair execution of @main terminates, nothing faulting,
    and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c),
     (h c _ (mem_uc main_arg10 (by decide))).trans (W10_main_arg10 m ρ c),
     (h c _ (mem_uc main_arg11 (by decide))).trans (W10_main_arg11 m ρ c)⟩) (run_all m ρ)

end Cert.KernelIdeal.Hand

end
-- ==== Proof.Spec.lean ====
/-
  The four results of the entity-retrieval layer, written index by index as formulas on the extended reals,
  as functions of the mention encodings `q` (an array [4096, 256] taken as given: how it is gathered and projected is
  not opened here) and of the other argument arrays. The arrangement is the reference's own: a softmax with the row
  maximum subtracted, the attention-weighted sum of the entity table projected back to the hidden width and masked, a
  LayerNorm over the hidden axis with the mean subtracted twice (once for the variance, once for the output), and the
  cosine scores as the dot products divided first by the mention norm and then by the entity norm, each norm shifted
  by a small constant.

  Float literals stay the words the program prints (`Ideal.ofBits .f32 0x…#32`) and are never evaluated, with two
  exceptions proved below: the zero word, the initial value of every sum, is written `0` (`zeroWord`), and the word of
  −∞, the initial value of the row maximum, is shown to be `⊥` (`negInfWord`) for the proofs that need the maximum as a
  least upper bound. The three other words (768, and the two small shifts) are given their real values once, here, for
  the proofs that need them to be positive reals (`word768`, `epsWord`, `lnEpsWord`); the formulas keep the words.
  Indices are built from coordinates: `ix2 p e` with `p : Fin 4096` a mention, `e : Fin 32000` an entity,
  `k : Fin 256` an entity-embedding coordinate, `h : Fin 768` a hidden coordinate; `ix3 b t h` with `b : Fin 8` a
  batch row and `t : Fin 2048` a token.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## The two literals that are evaluated -/

/-- The f32 zero word is the extended real `0`. -/
theorem zeroWord : Ideal.ofBits .f32 0x00000000#32 = 0 := Ideal.ofBits_zero_f32

/-- The f32 word `0xFF800000` (sign set, exponent all ones, fraction zero) is `−∞`. -/
theorem negInfWord : Ideal.ofBits .f32 0xFF800000#32 = ⊥ := by simp [Ideal.ofBits, Ideal.ieee]

/-- The f32 word `0x44400000` is the real `768`, the length of the hidden axis. -/
theorem word768 : Ideal.ofBits .f32 0x44400000#32 = ((768 : ℝ) : EReal) := by
  simp [Ideal.ofBits, Ideal.ieee, -EReal.coe_mul]; norm_num

/-- The real the word `0x322BCC77` denotes (exponent field 100, fraction 2870391): the f32 nearest `1e-8`. -/
def epsR : ℝ := 11258999 / 2 ^ 50

theorem epsR_pos : 0 < epsR := by unfold epsR; positivity

theorem epsWord : Ideal.ofBits .f32 0x322BCC77#32 = ((epsR : ℝ) : EReal) := by
  simp [Ideal.ofBits, Ideal.ieee, -EReal.coe_mul, epsR]; norm_num

/-- The real the word `0x2B8CBCCC` denotes (exponent field 87, fraction 834764): the f32 nearest `1e-12`. -/
def lnEpsR : ℝ := 9223372 / 2 ^ 63

theorem lnEpsR_pos : 0 < lnEpsR := by unfold lnEpsR; positivity

theorem lnEpsWord : Ideal.ofBits .f32 0x2B8CBCCC#32 = ((lnEpsR : ℝ) : EReal) := by
  simp [Ideal.ofBits, Ideal.ieee, -EReal.coe_mul, lnEpsR]; norm_num

/-! ## Scores and the softmax over the entities -/

/-- The score of mention `p` against entity `e`: the dot product of the mention encoding with the entity's row. -/
def score (q : (⟨2, ![4096, 256]⟩ : Shape).Idx → EReal) (ent : (⟨2, ![32000, 256]⟩ : Shape).Idx → EReal)
    (p : Fin 4096) (e : Fin 32000) : EReal :=
  ∑ k : Fin 256, q (ix2 p k) * ent (ix2 e k)

/-- The row maximum the softmax subtracts, as the reference takes it: the maximum over the entities folded from the
    word of −∞, and then once more the maximum with that word. (The fold is `Finset.fold max` over `Fin 32000`, the
    form a one-axis maximum reduction has on the extended reals; `rowMax_eq_fold` below drops the two −∞.) -/
def rowMax (q : (⟨2, ![4096, 256]⟩ : Shape).Idx → EReal) (ent : (⟨2, ![32000, 256]⟩ : Shape).Idx → EReal)
    (p : Fin 4096) : EReal :=
  max (Ideal.ofBits .f32 0xFF800000#32)
    ((Finset.univ : Finset (Fin 32000)).fold max (Ideal.ofBits .f32 0xFF800000#32) (fun e => score q ent p e))

/-- The exponential of the shifted score. -/
def expo (q : (⟨2, ![4096, 256]⟩ : Shape).Idx → EReal) (ent : (⟨2, ![32000, 256]⟩ : Shape).Idx → EReal)
    (p : Fin 4096) (e : Fin 32000) : EReal :=
  Ideal.exp (score q ent p e - rowMax q ent p)

/-- The softmax denominator: the reference's sum starts from the zero word, written here as the literal `0 +`
    (`zeroWord`); `rowSum_eq_sum` drops it. -/
def rowSum (q : (⟨2, ![4096, 256]⟩ : Shape).Idx → EReal) (ent : (⟨2, ![32000, 256]⟩ : Shape).Idx → EReal)
    (p : Fin 4096) : EReal :=
  0 + ∑ e : Fin 32000, expo q ent p e

/-- The attention weight of mention `p` on entity `e` (the fourth result). -/
def attn (q : (⟨2, ![4096, 256]⟩ : Shape).Idx → EReal) (ent : (⟨2, ![32000, 256]⟩ : Shape).Idx → EReal)
    (p : Fin 4096) (e : Fin 32000) : EReal :=
  Ideal.div (expo q ent p e) (rowSum q ent p)

/-! ## The retrieved entity, projected to the hidden width and masked -/

/-- The attention-weighted sum of the entity rows, coordinate `k`. -/
def retrieved (q : (⟨2, ![4096, 256]⟩ : Shape).Idx → EReal) (ent : (⟨2, ![32000, 256]⟩ : Shape).Idx → EReal)
    (p : Fin 4096) (k : Fin 256) : EReal :=
  ∑ e : Fin 32000, attn q ent p e * ent (ix2 e k)

/-- The update added at mention `p`'s start position, hidden coordinate `h`: the retrieved entity times `we`, plus
    `be`, times the mention's mask. -/
def update (q : (⟨2, ![4096, 256]⟩ : Shape).Idx → EReal) (ent : (⟨2, ![32000, 256]⟩ : Shape).Idx → EReal)
    (we : (⟨2, ![256, 768]⟩ : Shape).Idx → EReal) (be : (⟨1, ![768]⟩ : Shape).Idx → EReal)
    (mask : (⟨1, ![4096]⟩ : Shape).Idx → EReal) (p : Fin 4096) (h : Fin 768) : EReal :=
  ((∑ k : Fin 256, retrieved q ent p k * we (ix2 k h)) + be (ix1 h)) * mask (ix1 p)

/-! ## Cosine scores -/

/-- The Euclidean norm of mention `p`'s encoding (the sum of squares starts from the zero word, written `0 +`). -/
def qNorm (q : (⟨2, ![4096, 256]⟩ : Shape).Idx → EReal) (p : Fin 4096) : EReal :=
  Ideal.sqrt (0 + ∑ k : Fin 256, q (ix2 p k) * q (ix2 p k))

/-- The Euclidean norm of entity `e`'s row. -/
def entNorm (ent : (⟨2, ![32000, 256]⟩ : Shape).Idx → EReal) (e : Fin 32000) : EReal :=
  Ideal.sqrt (0 + ∑ k : Fin 256, ent (ix2 e k) * ent (ix2 e k))

/-- The cosine score (the third result): the score divided by the shifted mention norm, then by the shifted entity
    norm; the shift is the f32 word nearest 1e-8, kept as printed. -/
def cosScore (q : (⟨2, ![4096, 256]⟩ : Shape).Idx → EReal) (ent : (⟨2, ![32000, 256]⟩ : Shape).Idx → EReal)
    (p : Fin 4096) (e : Fin 32000) : EReal :=
  Ideal.div (Ideal.div (score q ent p e) (Ideal.ofBits .f32 0x322BCC77#32 + qNorm q p))
    (Ideal.ofBits .f32 0x322BCC77#32 + entNorm ent e)

/-! ## LayerNorm over the hidden axis -/

/-- The mean of row `(b, t)`: the sum (from the zero word) divided by the word of 768. -/
def mean (y : (⟨3, ![8, 2048, 768]⟩ : Shape).Idx → EReal) (b : Fin 8) (t : Fin 2048) : EReal :=
  Ideal.div (0 + ∑ h' : Fin 768, y (ix3 b t h')) (Ideal.ofBits .f32 0x44400000#32)

/-- The variance of row `(b, t)`: the mean of the squared deviations. -/
def var (y : (⟨3, ![8, 2048, 768]⟩ : Shape).Idx → EReal) (b : Fin 8) (t : Fin 2048) : EReal :=
  Ideal.div (0 + ∑ h' : Fin 768, (y (ix3 b t h') - mean y b t) * (y (ix3 b t h') - mean y b t))
    (Ideal.ofBits .f32 0x44400000#32)

/-- The normalised row (the first result, of the array `y` the scatter-add leaves): the deviation times the
    reciprocal square root of the variance shifted by the word nearest 1e-12, times the scale, plus the bias. -/
def layerNorm (y : (⟨3, ![8, 2048, 768]⟩ : Shape).Idx → EReal) (scale bias : (⟨1, ![768]⟩ : Shape).Idx → EReal)
    (b : Fin 8) (t : Fin 2048) (h : Fin 768) : EReal :=
  (y (ix3 b t h) - mean y b t) * Ideal.rsqrt (var y b t + Ideal.ofBits .f32 0x2B8CBCCC#32) * scale (ix1 h)
    + bias (ix1 h)

/-! ## The same quantities without the neutral initial values -/

theorem rowSum_eq_sum (q : (⟨2, ![4096, 256]⟩ : Shape).Idx → EReal) (ent : (⟨2, ![32000, 256]⟩ : Shape).Idx → EReal)
    (p : Fin 4096) : rowSum q ent p = ∑ e : Fin 32000, expo q ent p e := zero_add _

/-- The row maximum is the fold of `max` from `⊥` over the entities. -/
theorem rowMax_eq_fold (q : (⟨2, ![4096, 256]⟩ : Shape).Idx → EReal) (ent : (⟨2, ![32000, 256]⟩ : Shape).Idx → EReal)
    (p : Fin 4096) :
    rowMax q ent p = (Finset.univ : Finset (Fin 32000)).fold max ⊥ (fun e => score q ent p e) := by
  unfold rowMax
  rw [negInfWord]
  exact max_eq_right bot_le

/-- Every score of the row is at most the row maximum. -/
theorem score_le_rowMax (q : (⟨2, ![4096, 256]⟩ : Shape).Idx → EReal) (ent : (⟨2, ![32000, 256]⟩ : Shape).Idx → EReal)
    (p : Fin 4096) (e : Fin 32000) : score q ent p e ≤ rowMax q ent p := by
  rw [rowMax_eq_fold]
  exact (Finset.le_fold_max (score q ent p e)).mpr (Or.inr ⟨e, Finset.mem_univ e, le_rfl⟩)

theorem qNorm_eq (q : (⟨2, ![4096, 256]⟩ : Shape).Idx → EReal) (p : Fin 4096) :
    qNorm q p = Ideal.sqrt (∑ k : Fin 256, q (ix2 p k) * q (ix2 p k)) := by unfold qNorm; rw [zero_add]

theorem entNorm_eq (ent : (⟨2, ![32000, 256]⟩ : Shape).Idx → EReal) (e : Fin 32000) :
    entNorm ent e = Ideal.sqrt (∑ k : Fin 256, ent (ix2 e k) * ent (ix2 e k)) := by unfold entNorm; rw [zero_add]

theorem mean_eq (y : (⟨3, ![8, 2048, 768]⟩ : Shape).Idx → EReal) (b : Fin 8) (t : Fin 2048) :
    mean y b t = Ideal.div (∑ h' : Fin 768, y (ix3 b t h')) (Ideal.ofBits .f32 0x44400000#32) := by
  unfold mean; rw [zero_add]

theorem var_eq (y : (⟨3, ![8, 2048, 768]⟩ : Shape).Idx → EReal) (b : Fin 8) (t : Fin 2048) :
    var y b t = Ideal.div (∑ h' : Fin 768, (y (ix3 b t h') - mean y b t) * (y (ix3 b t h') - mean y b t))
      (Ideal.ofBits .f32 0x44400000#32) := by
  unfold var; rw [zero_add]

end Cert.Spec

end
-- ==== Proof.KI.KHost.lean ====
/-
  The host stretches of the kernel program, read at the ideal values: what each run of host operations between the
  three kernels leaves in the buffers it writes, as a function of the contents it finds, and that it leaves every
  other buffer alone.

  Before the first kernel: the mention encodings (the same gathers, join, projection and bias as the reference's; the
  bf16 copies handed to the kernels are the same arrays, a change of format being the identity on the extended reals);
  the stretches that compute the norms and their shifted reciprocals are read elsewhere, and here only shown to leave
  every other buffer alone. Between the second and third kernels: the update rows scatter-added into the input at the normalised positions, flattened to rows. After the
  third: the rows folded back to [8, 2048, 768]. Row `2048·b + t` of the flat array is position `(b, t)`.
-/
import proofs.«120323_j21741124452848_2_alg».proof.Proof.Gen.KernelIdeal.Launch
import proofs.«120323_j21741124452848_2_alg».proof.Proof.Spec
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelIdeal.KHost

open Cert.KernelIdeal Cert.KernelIdeal.Gen Idealize.ShloMosaic Idealize.ShloMosaic.TcCoe Idealize.SL.Sem
  Idealize.ShloMosaic.StableHlo Idealize.ShloMosaic.ValueIdx

/-! ## The host computations as functions of arrays -/

section Terms

variable {F : FTy → Type} [FloatOps F]

/-- A position array with its negative entries wrapped by the axis length `n`. -/
def wrapIdx (x : (⟨S4096, .i32⟩ : BufTy).Contents (Elt F)) (n : BitVec 32) : (⟨S4096, .i32⟩ : BufTy).Contents (Elt F) :=
  select (cmpi .slt x (broadcastInDim S4096 ![] bcast_S_S4096 (constantI S_ 32 0#32)))
    (addi x (broadcastInDim S4096 ![] bcast_S_S4096 (constantI S_ 32 n))) x

/-- The (batch row, token) pairs the gathers and the scatter-add index by: the two wrapped position arrays as the
    columns of a [4096, 2] array. -/
def posIdx (xa xb : (⟨S4096, .i32⟩ : BufTy).Contents (Elt F)) : (⟨S4096x2, .i32⟩ : BufTy).Contents (Elt F) :=
  concatenate S4096x2 1 [⟨S4096x1, broadcastInDim S4096x1 ![0] bcast_S4096_S4096x1_0 (wrapIdx (F := F) xa 8#32)⟩,
    ⟨S4096x1, broadcastInDim S4096x1 ![0] bcast_S4096_S4096x1_0 (wrapIdx (F := F) xb 2048#32)⟩]
    concatenates_S4096x1_S4096x1_S4096x2_d1

/-- The token rows at the given positions. -/
def gatherRows (x0 : (⟨S8x2048x768, .f32⟩ : BufTy).Contents (Elt F)) (i : (⟨S4096x2, .i32⟩ : BufTy).Contents (Elt F)) :
    (⟨S4096x768, .f32⟩ : BufTy).Contents (Elt F) :=
  Host.gather gather_S8x2048x768_S4096x2_S4096x768_1_01_n_n_01_1_11768 x0 i

/-- The start and end token rows of every mention, side by side. -/
def spanRows (x0 : (⟨S8x2048x768, .f32⟩ : BufTy).Contents (Elt F)) (x1 x2 x3 : (⟨S4096, .i32⟩ : BufTy).Contents (Elt F)) :
    (⟨S4096x1536, .f32⟩ : BufTy).Contents (Elt F) :=
  concatenate S4096x1536 1 [⟨S4096x768, gatherRows (F := F) x0 (posIdx (F := F) x1 x2)⟩,
    ⟨S4096x768, gatherRows (F := F) x0 (posIdx (F := F) x1 x3)⟩] concatenates_S4096x768_S4096x768_S4096x1536_d1

/-- The span rows projected by `wq`. -/
def projected (x0 : (⟨S8x2048x768, .f32⟩ : BufTy).Contents (Elt F)) (x1 x2 x3 : (⟨S4096, .i32⟩ : BufTy).Contents (Elt F))
    (x6 : (⟨S1536x256, .f32⟩ : BufTy).Contents (Elt F)) : (⟨S4096x256, .f32⟩ : BufTy).Contents (Elt F) :=
  Host.dotGeneral dot_S4096x1536_S1536x256_S4096x256_1_0_0_1_n_n none (spanRows (F := F) x0 x1 x2 x3) x6

/-- `bq` laid along every mention. -/
def biasRows (x7 : (⟨S256, .f32⟩ : BufTy).Contents (Elt F)) : (⟨S4096x256, .f32⟩ : BufTy).Contents (Elt F) :=
  broadcastInDim S4096x256 ![0, 1] bcast_S1x256_S4096x256_0_1
    (broadcastInDim S1x256 ![1] bcast_S256_S1x256_1 x7 : (⟨S1x256, .f32⟩ : BufTy).Contents (Elt F))

/-- The mention encodings: the token rows at the start and end positions, joined, projected by `wq`, plus `bq`. -/
def queryOf (x0 : (⟨S8x2048x768, .f32⟩ : BufTy).Contents (Elt F)) (x1 x2 x3 : (⟨S4096, .i32⟩ : BufTy).Contents (Elt F))
    (x6 : (⟨S1536x256, .f32⟩ : BufTy).Contents (Elt F)) (x7 : (⟨S256, .f32⟩ : BufTy).Contents (Elt F)) :
    (⟨S4096x256, .f32⟩ : BufTy).Contents (Elt F) :=
  addf (projected (F := F) x0 x1 x2 x3 x6) (biasRows (F := F) x7)

/-- The input with the update rows scatter-added at the start positions. -/
def scatteredOf (x0 : (⟨S8x2048x768, .f32⟩ : BufTy).Contents (Elt F)) (x1 x2 : (⟨S4096, .i32⟩ : BufTy).Contents (Elt F))
    (u : (⟨S4096x768, .f32⟩ : BufTy).Contents (Elt F)) : (⟨S8x2048x768, .f32⟩ : BufTy).Contents (Elt F) :=
  Host.scatterAdd scatter_S8x2048x768_S4096x2_S4096x768_1_01_01_1 x0 (posIdx (F := F) x1 x2) u

end Terms

/-- A part of a joined array may be rewritten in place. -/
theorem part_congr {α : Type} {s : Shape} {a b : s.Idx → α} (h : a = b) :
    (Sigma.mk s a : (s : Shape) × (s.Idx → α)) = Sigma.mk s b := by rw [h]

attribute [local congr] part_congr

variable (W : Valuation τ sig (Elt Ideal))

/-! ## The stretch before the kernels: positions, gathers, projection, and the bf16 copies -/

theorem h0_v32 :
    StableHlo.after (hostOps0 (F := Ideal)) W (Proc.devRef .tc main_v32)
      = queryOf (F := Ideal) (W (Proc.devRef .tc main_arg0)) (W (Proc.devRef .tc main_arg1)) (W (Proc.devRef .tc main_arg2)) (W (Proc.devRef .tc main_arg3))
          (W (Proc.devRef .tc main_arg6)) (W (Proc.devRef .tc main_arg7)) := by
  show StableHlo.after hostOps0 _ (Proc.devRef .tc main_v32) = _
  after_results_simp
  rfl

/-- The bf16 copy of the mention encodings is the same array. -/
theorem h0_v33 :
    StableHlo.after (hostOps0 (F := Ideal)) W (Proc.devRef .tc main_v33)
      = queryOf (F := Ideal) (W (Proc.devRef .tc main_arg0)) (W (Proc.devRef .tc main_arg1)) (W (Proc.devRef .tc main_arg2)) (W (Proc.devRef .tc main_arg3))
          (W (Proc.devRef .tc main_arg6)) (W (Proc.devRef .tc main_arg7)) := by
  show StableHlo.after hostOps0 _ (Proc.devRef .tc main_v33) = _
  after_results_simp
  rfl

/-- The bf16 copy of the entity table is the entity table. -/
theorem h0_v34 : StableHlo.after (hostOps0 (F := Ideal)) W (Proc.devRef .tc main_v34) = W (Proc.devRef .tc main_arg5) := by
  show StableHlo.after hostOps0 _ (Proc.devRef .tc main_v34) = _
  after_results_simp
  rfl

/-- The bf16 copy of `we` is `we`. -/
theorem h0_v35 : StableHlo.after (hostOps0 (F := Ideal)) W (Proc.devRef .tc main_v35) = W (Proc.devRef .tc main_arg8) := by
  show StableHlo.after hostOps0 _ (Proc.devRef .tc main_v35) = _
  after_results_simp
  rfl

/-- The references `hostOps0` writes. -/
abbrev written_0 : List (Ref sig .tc) := [main_c, main_v0, main_v1, main_c_0, main_v2, main_v3, main_v4, main_c_1, main_v5, main_v6, main_c_2, main_v7, main_v8, main_v9, main_v10, main_v11, main_v12, main_v13, main_c_3, main_v14, main_v15, main_c_4, main_v16, main_v17, main_v18, main_c_5, main_v19, main_v20, main_c_6, main_v21, main_v22, main_v23, main_v24, main_v25, main_v26, main_v27, main_v28, main_v29, main_v30, main_v31, main_v32, main_v33, main_v34, main_v35]

theorem writes_0 : (hostOps0 (F := Ideal)).Forall fun op =>
    op.writes ⊆ ((written_0).map (Proc.devRef (τ := τ) .tc)).toFinset := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
  exact Finset.singleton_subset_iff.2 (List.mem_toFinset.2 (List.mem_map.2 ⟨_, by decide, rfl⟩))

/-- A reference `hostOps0` does not write keeps its contents. -/
theorem keep_0 (r : Ref sig .tc) (hr : r ∉ written_0) :
    StableHlo.after (hostOps0 (F := Ideal)) W (Proc.devRef .tc r) = W (Proc.devRef .tc r) :=
  StableHlo.after_of_writes_sub _ W (writes_0) hr

/-! ## The norm and reciprocal stretches leave every other buffer alone -/

/-- The references `hostOps0_1` writes. -/
abbrev written_0_1 : List (Ref sig .tc) := [main_call0_v0, main_call0_cst, main_call0_v1, main_v36]

theorem writes_0_1 : (hostOps0_1 (F := Ideal)).Forall fun op =>
    op.writes ⊆ ((written_0_1).map (Proc.devRef (τ := τ) .tc)).toFinset := by
  refine ⟨?_, ?_, ?_, ?_⟩ <;>
  exact Finset.singleton_subset_iff.2 (List.mem_toFinset.2 (List.mem_map.2 ⟨_, by decide, rfl⟩))

/-- A reference `hostOps0_1` does not write keeps its contents. -/
theorem keep_0_1 (r : Ref sig .tc) (hr : r ∉ written_0_1) :
    StableHlo.after (hostOps0_1 (F := Ideal)) W (Proc.devRef .tc r) = W (Proc.devRef .tc r) :=
  StableHlo.after_of_writes_sub _ W (writes_0_1) hr

/-- The references `hostOps0_2` writes. -/
abbrev written_0_2 : List (Ref sig .tc) := [main_v37]

theorem writes_0_2 : (hostOps0_2 (F := Ideal)).Forall fun op =>
    op.writes ⊆ ((written_0_2).map (Proc.devRef (τ := τ) .tc)).toFinset := by
  exact Finset.singleton_subset_iff.2 (List.mem_toFinset.2 (List.mem_map.2 ⟨_, by decide, rfl⟩))

/-- A reference `hostOps0_2` does not write keeps its contents. -/
theorem keep_0_2 (r : Ref sig .tc) (hr : r ∉ written_0_2) :
    StableHlo.after (hostOps0_2 (F := Ideal)) W (Proc.devRef .tc r) = W (Proc.devRef .tc r) :=
  StableHlo.after_of_writes_sub _ W (writes_0_2) hr

/-- The references `hostOps0_3` writes. -/
abbrev written_0_3 : List (Ref sig .tc) := [main_call1_v0, main_call1_cst, main_call1_v1, main_v38]

theorem writes_0_3 : (hostOps0_3 (F := Ideal)).Forall fun op =>
    op.writes ⊆ ((written_0_3).map (Proc.devRef (τ := τ) .tc)).toFinset := by
  refine ⟨?_, ?_, ?_, ?_⟩ <;>
  exact Finset.singleton_subset_iff.2 (List.mem_toFinset.2 (List.mem_map.2 ⟨_, by decide, rfl⟩))

/-- A reference `hostOps0_3` does not write keeps its contents. -/
theorem keep_0_3 (r : Ref sig .tc) (hr : r ∉ written_0_3) :
    StableHlo.after (hostOps0_3 (F := Ideal)) W (Proc.devRef .tc r) = W (Proc.devRef .tc r) :=
  StableHlo.after_of_writes_sub _ W (writes_0_3) hr

/-- The references `hostOps0_4` writes. -/
abbrev written_0_4 : List (Ref sig .tc) := [main_v39, main_cst, main_v40, main_v41, main_cst_7, main_v42, main_v43, main_cst_8, main_v44, main_v45, main_cst_9, main_v46, main_v47, main_v48]

theorem writes_0_4 : (hostOps0_4 (F := Ideal)).Forall fun op =>
    op.writes ⊆ ((written_0_4).map (Proc.devRef (τ := τ) .tc)).toFinset := by
  refine ⟨?_, ?_, ?_, ?_, ?_, ?_, ?_, ?_, ?_, ?_, ?_, ?_, ?_, ?_⟩ <;>
  exact Finset.singleton_subset_iff.2 (List.mem_toFinset.2 (List.mem_map.2 ⟨_, by decide, rfl⟩))

/-- A reference `hostOps0_4` does not write keeps its contents. -/
theorem keep_0_4 (r : Ref sig .tc) (hr : r ∉ written_0_4) :
    StableHlo.after (hostOps0_4 (F := Ideal)) W (Proc.devRef .tc r) = W (Proc.devRef .tc r) :=
  StableHlo.after_of_writes_sub _ W (writes_0_4) hr

/-! ## Between the second and third kernels: the scatter-add, flattened to rows -/

theorem h2_v64 :
    StableHlo.after (hostOps2 (F := Ideal)) W (Proc.devRef .tc main_v64)
      = scatteredOf (F := Ideal) (W (Proc.devRef .tc main_arg0)) (W (Proc.devRef .tc main_arg1)) (W (Proc.devRef .tc main_arg2)) (W (Proc.devRef .tc main_v49_0)) := by
  show StableHlo.after hostOps2 _ (Proc.devRef .tc main_v64) = _
  after_results_simp
  rfl

theorem h2_v65 :
    StableHlo.after (hostOps2 (F := Ideal)) W (Proc.devRef .tc main_v65)
      = shapeCast S16384x768 (scatteredOf (F := Ideal) (W (Proc.devRef .tc main_arg0)) (W (Proc.devRef .tc main_arg1)) (W (Proc.devRef .tc main_arg2))
          (W (Proc.devRef .tc main_v49_0))) shapeCasts_S8x2048x768_S16384x768 := by
  show StableHlo.after hostOps2 _ (Proc.devRef .tc main_v65) = _
  after_results_simp
  rfl

/-- Row `2048·b + t` of the flat array is position `(b, t)` of the scatter-added array. -/
theorem h2_v65_at (b : Fin 8) (t : Fin 2048) (h : Fin 768) :
    StableHlo.after (hostOps2 (F := Ideal)) W (Proc.devRef .tc main_v65) (ix2 (⟨2048 * b.val + t.val, by omega⟩ : Fin 16384) h)
      = scatteredOf (F := Ideal) (W (Proc.devRef .tc main_arg0)) (W (Proc.devRef .tc main_arg1)) (W (Proc.devRef .tc main_arg2)) (W (Proc.devRef .tc main_v49_0)) (ix3 b t h) := by
  rw [h2_v65]
  refine shapeCast_apply (s := S8x2048x768) (t := S16384x768) _ _ _ _ ?_
  rw [Shape.rowMajor_val_two, Shape.rowMajor_val_three]
  show (b.val * 2048 + t.val) * 768 + h.val = (2048 * b.val + t.val) * 768 + h.val
  omega

/-- The references `hostOps2` writes. -/
abbrev written_2 : List (Ref sig .tc) := [main_c_10, main_v51, main_v52, main_c_11, main_v53, main_v54, main_v55, main_c_12, main_v56, main_v57, main_c_13, main_v58, main_v59, main_v60, main_v61, main_v62, main_v63, main_v64, main_v65]

theorem writes_2 : (hostOps2 (F := Ideal)).Forall fun op =>
    op.writes ⊆ ((written_2).map (Proc.devRef (τ := τ) .tc)).toFinset := by
  refine ⟨?_, ?_, ?_, ?_, ?_, ?_, ?_, ?_, ?_, ?_, ?_, ?_, ?_, ?_, ?_, ?_, ?_, ?_, ?_⟩ <;>
  exact Finset.singleton_subset_iff.2 (List.mem_toFinset.2 (List.mem_map.2 ⟨_, by decide, rfl⟩))

/-- A reference `hostOps2` does not write keeps its contents. -/
theorem keep_2 (r : Ref sig .tc) (hr : r ∉ written_2) :
    StableHlo.after (hostOps2 (F := Ideal)) W (Proc.devRef .tc r) = W (Proc.devRef .tc r) :=
  StableHlo.after_of_writes_sub _ W (writes_2) hr

/-! ## After the third kernel: the rows folded back -/

theorem h3_v67 :
    StableHlo.after (hostOps3 (F := Ideal)) W (Proc.devRef .tc main_v67)
      = shapeCast S8x2048x768 (W (Proc.devRef .tc main_v66)) shapeCasts_S16384x768_S8x2048x768 := by
  show StableHlo.after hostOps3 _ (Proc.devRef .tc main_v67) = _
  after_results
  rfl

theorem h3_v67_at (b : Fin 8) (t : Fin 2048) (h : Fin 768) :
    StableHlo.after (hostOps3 (F := Ideal)) W (Proc.devRef .tc main_v67) (ix3 b t h)
      = W (Proc.devRef .tc main_v66) (ix2 (⟨2048 * b.val + t.val, by omega⟩ : Fin 16384) h) := by
  rw [h3_v67]
  refine shapeCast_apply (s := S16384x768) (t := S8x2048x768) _ _ _ _ ?_
  rw [Shape.rowMajor_val_two, Shape.rowMajor_val_three]
  show (2048 * b.val + t.val) * 768 + h.val = (b.val * 2048 + t.val) * 768 + h.val
  omega

/-- The references `hostOps3` writes. -/
abbrev written_3 : List (Ref sig .tc) := [main_v67]

theorem writes_3 : (hostOps3 (F := Ideal)).Forall fun op =>
    op.writes ⊆ ((written_3).map (Proc.devRef (τ := τ) .tc)).toFinset := by
  exact Finset.singleton_subset_iff.2 (List.mem_toFinset.2 (List.mem_map.2 ⟨_, by decide, rfl⟩))

/-- A reference `hostOps3` does not write keeps its contents. -/
theorem keep_3 (r : Ref sig .tc) (hr : r ∉ written_3) :
    StableHlo.after (hostOps3 (F := Ideal)) W (Proc.devRef .tc r) = W (Proc.devRef .tc r) :=
  StableHlo.after_of_writes_sub _ W (writes_3) hr

end Cert.KernelIdeal.KHost

end
-- ==== Proof.KI.Names.lean ====
/-
  Names for the three intermediate arrays the final statements are written over, as functions of the launch memory: the
  query array (the projected, biased concatenation of the gathered start and end token rows), the update (what the
  attention over the entity table retrieves, projected back to the hidden width and masked), and the hidden states after
  the update is scatter-added into them.
-/
import proofs.«120323_j21741124452848_2_alg».proof.Proof.KI.KHost
import proofs.«120323_j21741124452848_2_alg».proof.Proof.Spec

noncomputable section

namespace Cert.KernelIdeal.Hand

open Cert.KernelIdeal Idealize.ShloMosaic Idealize.ShloMosaic.TcCoe Idealize.SL.Sem

variable (m : (ℓ : Loc nD τ sig) → Buf (Elt Ideal) ℓ) (c : Dev nD)

/-- The query array. -/
def Qk : S4096x256.Idx → EReal :=
  KHost.queryOf (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg6)) (m ((c.tc : Thread nD τ).loc main_arg7))

/-- The update. -/
def Uk : S4096x768.Idx → EReal := fun i =>
  Cert.Spec.update (Qk m c) (m ((c.tc : Thread nD τ).loc main_arg5)) (m ((c.tc : Thread nD τ).loc main_arg8)) (m ((c.tc : Thread nD τ).loc main_arg9))
    (m ((c.tc : Thread nD τ).loc main_arg4)) (i 0) (i 1)

/-- The hidden states after the scatter-add. -/
def Yk : S8x2048x768.Idx → EReal :=
  KHost.scatteredOf (F := Ideal) (m ((c.tc : Thread nD τ).loc main_arg0)) (m ((c.tc : Thread nD τ).loc main_arg1)) (m ((c.tc : Thread nD τ).loc main_arg2)) (Uk m c)

end Cert.KernelIdeal.Hand

end
-- ==== Proof.LibTRef.lean ====
/-
  Contents moved to a typed reference's buffer type and back are the contents: the two transports along the reference's
  type equation cancel, whatever the reference.
-/
import Idealize.ShloMosaic.Lib.StableHlo

noncomputable section

namespace Cert.LibTRef

open Idealize.ShloMosaic Idealize.ShloMosaic.StableHlo

variable {sig : RefSig} {Val : EltTy → Type} {T : BufTy}

/-- From the value's type to the buffer's and back. -/
theorem ofBuf_toBuf (x : TRef sig T) (v : T.Contents Val) : x.ofBuf (x.toBuf v) = v := by
  obtain ⟨r, h, h2, h3⟩ := x
  subst h
  rfl

/-- From the buffer's type to the value's and back. -/
theorem toBuf_ofBuf (x : TRef sig T) (v : x.ref.ty.Contents Val) : x.toBuf (x.ofBuf v) = v := by
  obtain ⟨r, h, h2, h3⟩ := x
  subst h
  rfl

end Cert.LibTRef

end
-- ==== Proof.LibColBcast.lean ====
/-
  A column laid against the rows of a two-axis array: an a×1 array broadcast to a×b reads, at (p, q), the column at p;
  a length-a vector laid along the first axis (broadcast to a×1, then to a×b) reads, at (p, q), the vector at p; and a
  length-a vector reshaped to a×1 reads, at (p, 0), the vector at p.
-/
import Idealize.ShloMosaic.Lib.ValueIdx
import Idealize.ShloMosaic.Lib.Pipeline.Value

noncomputable section

namespace Cert.LibColBcast

open Idealize.ShloMosaic Idealize.ShloMosaic.ValueIdx

variable {α : Type}

/-- An a×1 array broadcast to a×b reads, at (p, q), the operand's row p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A length-a vector broadcast along axis 0 to a×1, read at (p, u). -/
theorem bcast_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- An a×1 array broadcast along both axes to a×b, read at (p, q), is its row p. -/
theorem bcast_ab_apply {a b : ℕ} (r : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h r (ix2 p q) = r (ix2 p (0 : Fin 1)) := by
  refine broadcastInDim_apply ![0, 1] h r (ix2 p q) (ix2 p (0 : Fin 1)) fun ax => ?_
  match ax with
  | ⟨0, _⟩ =>
    show p.val = if a = 1 then 0 else p.val
    split
    · have := p.isLt; omega
    · rfl
  | ⟨1, _⟩ => rfl

/-- The vector broadcast to a×1 and then to a×b reads, at (p, q), the vector at p. -/
theorem bcast_col_apply {a b : ℕ} (v : (⟨1, ![a]⟩ : Shape).Idx → α) (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [bcast_ab_apply, bcast_a1_apply]

/-- A length-a vector reshaped to a×1 reads, at (p, u), the vector at p. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cert.LibColBcast

end
-- ==== Proof.KI.KHostN.lean ====
/-
The four host stretches of the program that compute the norms and their shifted reciprocals, read at the exact
(extended-real) instance, from ANY buffer contents W they start from.

In order: the Euclidean norm of every row of the 32000 × 256 table (the squares, their row sums from the zero word,
the square root); that vector of norms laid out as a 1 × 32000 row; the Euclidean norm of every row of the 4096 × 256
array of queries, likewise; and last that vector laid out as a 4096 × 1 column, the entrywise reciprocal
1 / (ε + norm) of the row and of the column (ε the f32 word nearest 1e-8, 1 the word of one, both kept as printed),
and the mask vector laid out as a 4096 × 1 column.

A stretch rewrites only the buffers of its own results, so a buffer read three stretches later is found as it was
left.  Composing the stages gives the three facts the region that follows needs: the row holds 1 / (ε + ‖table row e‖)
at (0, e), the column holds 1 / (ε + ‖query p‖) at (p, 0), and the mask column holds the mask at p.
-/
import proofs.«120323_j21741124452848_2_alg».proof.Proof.Gen.KernelIdeal.Launch
import proofs.«120323_j21741124452848_2_alg».proof.Proof.Spec
import proofs.«120323_j21741124452848_2_alg».proof.Proof.LibTRef
import proofs.«120323_j21741124452848_2_alg».proof.Proof.LibColBcast
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.KernelIdeal.KHostN

open Cert.KernelIdeal Idealize.ShloMosaic Idealize.ShloMosaic.TcCoe Idealize.SL.Sem
  Idealize.ShloMosaic.StableHlo Idealize.ShloMosaic.ValueIdx
open Cert.KernelIdeal.Gen (hostOps0_1 hostOps0_2 hostOps0_3 hostOps0_4 h_S_ reducesTo_S32000x256_S32000_d1 reducesTo_S4096x256_S4096_d1
  shapeCasts_S32000_S1x32000 shapeCasts_S4096_S4096x1 bcast_S_S1x32000 bcast_S_S4096x1)

/-! ## The stages as functions of arrays -/

section Terms

variable {F : FTy → Type} [FloatOps F]

/-- The zero word as a scalar array: where a host sum starts. -/
def zeroN : (⟨S_, .f32⟩ : BufTy).Contents (Elt F) := constant S_ .f32 0x00000000#32

/-- The norms of the rows of a 32000 × 256 array: squares, row sums, square root. -/
def normsTab (x : (⟨S32000x256, .f32⟩ : BufTy).Contents (Elt F)) : (⟨S32000, .f32⟩ : BufTy).Contents (Elt F) :=
  Host.sqrt (Host.reduceAdd (mulf x x) (zeroN (F := F)) reducesTo_S32000x256_S32000_d1 h_S_)

/-- The norms of the rows of a 4096 × 256 array. -/
def normsQry (x : (⟨S4096x256, .f32⟩ : BufTy).Contents (Elt F)) : (⟨S4096, .f32⟩ : BufTy).Contents (Elt F) :=
  Host.sqrt (Host.reduceAdd (mulf x x) (zeroN (F := F)) reducesTo_S4096x256_S4096_d1 h_S_)

/-- 1 / (ε + v), entry by entry, for a 1 × 32000 row. -/
def recipRowN (v : (⟨S1x32000, .f32⟩ : BufTy).Contents (Elt F)) : (⟨S1x32000, .f32⟩ : BufTy).Contents (Elt F) :=
  Host.divf (broadcastInDim S1x32000 ![] bcast_S_S1x32000 (constant S_ .f32 0x3F800000#32 : (⟨S_, .f32⟩ : BufTy).Contents (Elt F))
      : (⟨S1x32000, .f32⟩ : BufTy).Contents (Elt F))
    (addf (broadcastInDim S1x32000 ![] bcast_S_S1x32000 (constant S_ .f32 0x322BCC77#32 : (⟨S_, .f32⟩ : BufTy).Contents (Elt F))
      : (⟨S1x32000, .f32⟩ : BufTy).Contents (Elt F)) v)

/-- 1 / (ε + v), entry by entry, for a 4096 × 1 column. -/
def recipColN (v : (⟨S4096x1, .f32⟩ : BufTy).Contents (Elt F)) : (⟨S4096x1, .f32⟩ : BufTy).Contents (Elt F) :=
  Host.divf (broadcastInDim S4096x1 ![] bcast_S_S4096x1 (constant S_ .f32 0x3F800000#32 : (⟨S_, .f32⟩ : BufTy).Contents (Elt F))
      : (⟨S4096x1, .f32⟩ : BufTy).Contents (Elt F))
    (addf (broadcastInDim S4096x1 ![] bcast_S_S4096x1 (constant S_ .f32 0x322BCC77#32 : (⟨S_, .f32⟩ : BufTy).Contents (Elt F))
      : (⟨S4096x1, .f32⟩ : BufTy).Contents (Elt F)) v)

end Terms

/-! ## The stages at an index -/

theorem redTabN : S32000x256.Reduces [1] S32000 := by decide
theorem redQryN : S4096x256.Reduces [1] S4096 := by decide

/-- A host row sum of a 32000 × 256 array at row e: the initial value plus the sum along the row. -/
theorem rowSumTab_at (y : FVec Ideal S32000x256 .f32) (c0 : S_.Idx → EReal) (e : Fin 32000) :
    Host.reduceAdd y c0 reducesTo_S32000x256_S32000_d1 h_S_ (ix1 e) = c0 (Shape.Idx.first h_S_) + ∑ k : Fin 256, y (ix2 e k) := by
  rw [hostReduceAdd_apply, Ideal.hostReduceAdd_single reducesTo_S32000x256_S32000_d1 redTabN]
  refine congrArg (_ + ·) (Finset.sum_congr rfl fun k _ => congrArg y ?_)
  exact funext fun a => Fin.ext (by match a with | ⟨0, _⟩ => rfl | ⟨1, _⟩ => rfl)

/-- The same for a 4096 × 256 array at row p. -/
theorem rowSumQry_at (y : FVec Ideal S4096x256 .f32) (c0 : S_.Idx → EReal) (p : Fin 4096) :
    Host.reduceAdd y c0 reducesTo_S4096x256_S4096_d1 h_S_ (ix1 p) = c0 (Shape.Idx.first h_S_) + ∑ k : Fin 256, y (ix2 p k) := by
  rw [hostReduceAdd_apply, Ideal.hostReduceAdd_single reducesTo_S4096x256_S4096_d1 redQryN]
  refine congrArg (_ + ·) (Finset.sum_congr rfl fun k _ => congrArg y ?_)
  exact funext fun a => Fin.ext (by match a with | ⟨0, _⟩ => rfl | ⟨1, _⟩ => rfl)

/-- The host's square root of a vector, at an entry. -/
theorem hostSqrtN_at {s : Shape} (v : FVec Ideal s .f32) (i : s.Idx) : Host.sqrt v i = Ideal.sqrt (v i) := rfl

/-- The sum the host takes along a row of squares, from the zero word, is the specification's. -/
theorem sumSqN (x : S_.Idx → EReal) (hx : x = zeroN (F := Ideal)) (f g : Fin 256 → EReal) (hfg : ∀ k, f k = g k * g k) :
    x (Shape.Idx.first h_S_) + ∑ k : Fin 256, f k = 0 + ∑ k : Fin 256, g k * g k := by
  subst hx
  exact congrArg₂ (· + ·) Ideal.ofBits_zero_f32 (Finset.sum_congr rfl fun k _ => hfg k)

/-- The table's row norms are the specification's. -/
theorem normsTab_at (x : (⟨S32000x256, .f32⟩ : BufTy).Contents (Elt Ideal)) (e : Fin 32000) :
    normsTab (F := Ideal) x (ix1 e) = Spec.entNorm x e := by
  unfold normsTab Spec.entNorm
  rw [hostSqrtN_at, rowSumTab_at]
  exact congrArg Ideal.sqrt (sumSqN _ rfl _ _ fun k => rfl)

/-- The queries' row norms are the specification's. -/
theorem normsQry_at (x : (⟨S4096x256, .f32⟩ : BufTy).Contents (Elt Ideal)) (p : Fin 4096) :
    normsQry (F := Ideal) x (ix1 p) = Spec.qNorm x p := by
  unfold normsQry Spec.qNorm
  rw [hostSqrtN_at, rowSumQry_at]
  exact congrArg Ideal.sqrt (sumSqN _ rfl _ _ fun k => rfl)

/-- The reciprocal row at an entry. -/
theorem recipRowN_at (v : (⟨S1x32000, .f32⟩ : BufTy).Contents (Elt Ideal)) (i : S1x32000.Idx) :
    recipRowN (F := Ideal) v i = Ideal.div (Ideal.ofBits .f32 0x3F800000#32) (Ideal.ofBits .f32 0x322BCC77#32 + v i) := rfl

/-- The reciprocal column at an entry. -/
theorem recipColN_at (v : (⟨S4096x1, .f32⟩ : BufTy).Contents (Elt Ideal)) (i : S4096x1.Idx) :
    recipColN (F := Ideal) v i = Ideal.div (Ideal.ofBits .f32 0x3F800000#32) (Ideal.ofBits .f32 0x322BCC77#32 + v i) := rfl

/-! ## Each stretch, from any contents -/

variable (X : Valuation τ sig (Elt Ideal))

set_option maxRecDepth 131072 in
/-- The first stretch leaves the table's row norms in its result. -/
theorem s1_norms : StableHlo.after (hostOps0_1 (F := Ideal)) X (Proc.devRef .tc main_v36)
    = normsTab (F := Ideal) (X (Proc.devRef .tc main_arg5)) := by
  show StableHlo.after hostOps0_1 _ (Proc.devRef .tc main_v36) = _
  after_results
  simp only [Cert.LibTRef.ofBuf_toBuf]
  rfl

abbrev wrote1 : List (Ref sig .tc) := [main_call0_v0, main_call0_cst, main_call0_v1, main_v36]

theorem s1_writes : (hostOps0_1 (F := Ideal)).Forall fun op =>
    op.writes ⊆ ((wrote1).map (Proc.devRef (τ := τ) .tc)).toFinset := by
  refine ⟨?_, ?_, ?_, ?_⟩ <;>
  exact Finset.singleton_subset_iff.2 (List.mem_toFinset.2 (List.mem_map.2 ⟨_, by decide, rfl⟩))

/-- … and every other buffer as it was. -/
theorem s1_keep (r : Ref sig .tc) (hr : r ∉ wrote1) :
    StableHlo.after (hostOps0_1 (F := Ideal)) X (Proc.devRef .tc r) = X (Proc.devRef .tc r) :=
  StableHlo.after_of_writes_sub _ X s1_writes hr

/-- The second stretch lays the norms out as a row. -/
theorem s2_row : StableHlo.after (hostOps0_2 (F := Ideal)) X (Proc.devRef .tc main_v37)
    = shapeCast S1x32000 (X (Proc.devRef .tc main_v36)) shapeCasts_S32000_S1x32000 := by
  show StableHlo.after hostOps0_2 _ (Proc.devRef .tc main_v37) = _
  after_results
  rfl

abbrev wrote2 : List (Ref sig .tc) := [main_v37]

theorem s2_writes : (hostOps0_2 (F := Ideal)).Forall fun op =>
    op.writes ⊆ ((wrote2).map (Proc.devRef (τ := τ) .tc)).toFinset := by
  exact Finset.singleton_subset_iff.2 (List.mem_toFinset.2 (List.mem_map.2 ⟨_, by decide, rfl⟩))

theorem s2_keep (r : Ref sig .tc) (hr : r ∉ wrote2) :
    StableHlo.after (hostOps0_2 (F := Ideal)) X (Proc.devRef .tc r) = X (Proc.devRef .tc r) :=
  StableHlo.after_of_writes_sub _ X s2_writes hr

set_option maxRecDepth 131072 in
/-- The third stretch leaves the queries' row norms in its result. -/
theorem s3_norms : StableHlo.after (hostOps0_3 (F := Ideal)) X (Proc.devRef .tc main_v38)
    = normsQry (F := Ideal) (X (Proc.devRef .tc main_v32)) := by
  show StableHlo.after hostOps0_3 _ (Proc.devRef .tc main_v38) = _
  after_results
  simp only [Cert.LibTRef.ofBuf_toBuf]
  rfl

abbrev wrote3 : List (Ref sig .tc) := [main_call1_v0, main_call1_cst, main_call1_v1, main_v38]

theorem s3_writes : (hostOps0_3 (F := Ideal)).Forall fun op =>
    op.writes ⊆ ((wrote3).map (Proc.devRef (τ := τ) .tc)).toFinset := by
  refine ⟨?_, ?_, ?_, ?_⟩ <;>
  exact Finset.singleton_subset_iff.2 (List.mem_toFinset.2 (List.mem_map.2 ⟨_, by decide, rfl⟩))

theorem s3_keep (r : Ref sig .tc) (hr : r ∉ wrote3) :
    StableHlo.after (hostOps0_3 (F := Ideal)) X (Proc.devRef .tc r) = X (Proc.devRef .tc r) :=
  StableHlo.after_of_writes_sub _ X s3_writes hr

/-- The fourth stretch: the reciprocal row, -/
theorem s4_row : StableHlo.after (hostOps0_4 (F := Ideal)) X (Proc.devRef .tc main_v43)
    = recipRowN (F := Ideal) (X (Proc.devRef .tc main_v37)) := by
  show StableHlo.after hostOps0_4 _ (Proc.devRef .tc main_v43) = _
  after_results
  rfl

/-- the reciprocal column of the norms stood up as a column, -/
theorem s4_col : StableHlo.after (hostOps0_4 (F := Ideal)) X (Proc.devRef .tc main_v47)
    = recipColN (F := Ideal) (shapeCast S4096x1 (X (Proc.devRef .tc main_v38)) shapeCasts_S4096_S4096x1) := by
  show StableHlo.after hostOps0_4 _ (Proc.devRef .tc main_v47) = _
  after_results
  rfl

/-- and the mask stood up as a column. -/
theorem s4_mask : StableHlo.after (hostOps0_4 (F := Ideal)) X (Proc.devRef .tc main_v48)
    = shapeCast S4096x1 (X (Proc.devRef .tc main_arg4)) shapeCasts_S4096_S4096x1 := by
  show StableHlo.after hostOps0_4 _ (Proc.devRef .tc main_v48) = _
  after_results
  rfl

/-! ## The four stretches composed -/

variable (W : Valuation τ sig (Elt Ideal))

/-- The row of reciprocals at (0, e): one over ε plus the norm of table row e. -/
theorem inv_e (e : Fin 32000) :
    (StableHlo.after (hostOps0_4 (F := Ideal)) (StableHlo.after (hostOps0_3 (F := Ideal)) (StableHlo.after (hostOps0_2 (F := Ideal))
        (StableHlo.after (hostOps0_1 (F := Ideal)) W))) (Proc.devRef .tc main_v43) : S1x32000.Idx → EReal) (ix2 (0 : Fin 1) e)
      = Ideal.div (Ideal.ofBits .f32 0x3F800000#32)
          (Ideal.ofBits .f32 0x322BCC77#32 + Cert.Spec.entNorm (W (Proc.devRef .tc main_arg5)) e) := by
  rw [s4_row, recipRowN_at, s3_keep _ main_v37 (by decide), s2_row]
  refine congrArg (fun z => Ideal.div (Ideal.ofBits .f32 0x3F800000#32) (Ideal.ofBits .f32 0x322BCC77#32 + z)) ?_
  refine (shapeCast_a_1a_apply _ shapeCasts_S32000_S1x32000 (0 : Fin 1) e).trans ?_
  rw [s1_norms]
  exact normsTab_at _ e

/-- The column of reciprocals at (p, 0): one over ε plus the norm of query p, the queries as the first stretch finds them. -/
theorem inv_m (p : Fin 4096) :
    (StableHlo.after (hostOps0_4 (F := Ideal)) (StableHlo.after (hostOps0_3 (F := Ideal)) (StableHlo.after (hostOps0_2 (F := Ideal))
        (StableHlo.after (hostOps0_1 (F := Ideal)) W))) (Proc.devRef .tc main_v47) : S4096x1.Idx → EReal) (ix2 p (0 : Fin 1))
      = Ideal.div (Ideal.ofBits .f32 0x3F800000#32)
          (Ideal.ofBits .f32 0x322BCC77#32 + Cert.Spec.qNorm (W (Proc.devRef .tc main_v32)) p) := by
  rw [s4_col, recipColN_at]
  refine congrArg (fun z => Ideal.div (Ideal.ofBits .f32 0x3F800000#32) (Ideal.ofBits .f32 0x322BCC77#32 + z)) ?_
  refine (Cert.LibColBcast.shapeCast_a_a1_apply _ shapeCasts_S4096_S4096x1 p (0 : Fin 1)).trans ?_
  rw [s3_norms, s2_keep _ main_v32 (by decide), s1_keep _ main_v32 (by decide)]
  exact normsQry_at _ p

/-- The mask column at (p, 0): the mask at p, as the first stretch finds it. -/
theorem mask_col (p : Fin 4096) :
    (StableHlo.after (hostOps0_4 (F := Ideal)) (StableHlo.after (hostOps0_3 (F := Ideal)) (StableHlo.after (hostOps0_2 (F := Ideal))
        (StableHlo.after (hostOps0_1 (F := Ideal)) W))) (Proc.devRef .tc main_v48) : S4096x1.Idx → EReal) (ix2 p (0 : Fin 1))
      = (W (Proc.devRef .tc main_arg4) : S4096.Idx → EReal) (ix1 p) := by
  rw [s4_mask]
  refine (Cert.LibColBcast.shapeCast_a_a1_apply _ shapeCasts_S4096_S4096x1 p (0 : Fin 1)).trans ?_
  rw [s3_keep _ main_arg4 (by decide), s2_keep _ main_arg4 (by decide), s1_keep _ main_arg4 (by decide)]

end Cert.KernelIdeal.KHostN

end
-- ==== Proof.LibQuot.lean ====
import Mathlib.Algebra.BigOperators.Fin
import Mathlib.Algebra.Order.BigOperators.Group.Finset
import Mathlib.Data.Fintype.BigOperators
import Idealize.ShloMosaic.PureOps.Ideal

/-!
# Quotients, reciprocals, norms and exponentials of reals, on the extended reals

The operations of the extended reals (`+`, `*`, the quotient `Ideal.div`, the square root
`Ideal.sqrt`, the exponential `Ideal.exp`) applied to coercions of reals give coercions of
reals, with the divisor not zero and the radicand not negative.  In particular a product with
two reciprocals is the iterated quotient, and `ε + √(∑ x²)` is a positive real for `ε > 0`.
-/

noncomputable section

namespace QuotLaws

open Idealize.ShloMosaic
open scoped BigOperators

/-! ### Being a real -/

/-- An extended real that is the coercion of a real. -/
def IsReal (x : EReal) : Prop := ∃ r : ℝ, x = (r : EReal)

/-- A coercion is a real. -/
theorem isReal_coe (r : ℝ) : IsReal (r : EReal) := ⟨r, rfl⟩

/-- Zero is a real. -/
theorem isReal_zero : IsReal 0 := ⟨0, rfl⟩

/-- One is a real. -/
theorem isReal_one : IsReal 1 := ⟨1, rfl⟩

/-- A sum of two reals is a real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- A difference of two reals is a real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- A product of two reals is a real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The larger of two reals is a real. -/
theorem IsReal.max {x y : EReal} (hx : IsReal x) (hy : IsReal y) : IsReal (max x y) := by
  rcases le_total x y with h | h
  · rwa [max_eq_right h]
  · rwa [max_eq_left h]

/-- The coercion of a finite sum of reals is the sum of the coercions. -/
theorem coe_sum {ι : Type*} (t : Finset ι) (f : ι → ℝ) :
    ((∑ i ∈ t, f i : ℝ) : EReal) = ∑ i ∈ t, (f i : EReal) := by
  classical
  refine Finset.induction_on t (by simp) ?_
  intro a t ha ih
  rw [Finset.sum_insert ha, Finset.sum_insert ha, EReal.coe_add, ih]

/-- A finite sum of reals is a real. -/
theorem isReal_sum {ι : Type*} (t : Finset ι) (f : ι → EReal) (h : ∀ i ∈ t, IsReal (f i)) :
    IsReal (∑ i ∈ t, f i) := by
  classical
  induction t using Finset.induction_on with
  | empty => exact ⟨0, by simp⟩
  | insert a t ha ih =>
    rw [Finset.sum_insert ha]
    exact (h a (Finset.mem_insert_self a t)).add
      (ih fun i hi => h i (Finset.mem_insert_of_mem hi))

/-- A finite sum of products of reals, as a real. -/
theorem sum_mul_coe {ι : Type*} (t : Finset ι) (f g : ι → ℝ) :
    (∑ i ∈ t, (f i : EReal) * (g i : EReal)) = ((∑ i ∈ t, f i * g i : ℝ) : EReal) := by
  rw [coe_sum]
  exact Finset.sum_congr rfl fun i _ => (EReal.coe_mul _ _).symm

/-! ### Quotients and reciprocals -/

/-- The quotient of two reals, the divisor not zero, is the real quotient. -/
theorem div_coe_coe (x : ℝ) {a : ℝ} (ha : a ≠ 0) :
    Ideal.div (x : EReal) (a : EReal) = ((x / a : ℝ) : EReal) := by
  rw [Ideal.div_coe ha, ← EReal.coe_mul, mul_one_div]

/-- The reciprocal of a real that is not zero. -/
theorem one_div_coe {a : ℝ} (ha : a ≠ 0) :
    Ideal.div 1 (a : EReal) = ((1 / a : ℝ) : EReal) := by
  rw [← EReal.coe_one, div_coe_coe 1 ha]

/-- A quotient of reals is a real. -/
theorem IsReal.div {x y : EReal} (hx : IsReal x) (hy : IsReal y) (h0 : y ≠ 0) :
    IsReal (Ideal.div x y) := by
  obtain ⟨a, rfl⟩ := hx; obtain ⟨b, rfl⟩ := hy
  exact ⟨a / b, div_coe_coe a (EReal.coe_ne_zero.1 h0)⟩

/-- **Two reciprocals against two quotients**: `x · (1/a) · (1/b) = (x / a) / b`. -/
theorem mul_recip_recip (x : ℝ) {a b : ℝ} (ha : a ≠ 0) (hb : b ≠ 0) :
    (x : EReal) * Ideal.div 1 (a : EReal) * Ideal.div 1 (b : EReal)
      = Ideal.div (Ideal.div (x : EReal) (a : EReal)) (b : EReal) := by
  rw [one_div_coe ha, one_div_coe hb, div_coe_coe x ha, div_coe_coe _ hb,
    ← EReal.coe_mul, ← EReal.coe_mul]
  congr 1
  ring

/-- Both sides of the law above as one real. -/
theorem div_div_coe (x : ℝ) {a b : ℝ} (ha : a ≠ 0) (hb : b ≠ 0) :
    Ideal.div (Ideal.div (x : EReal) (a : EReal)) (b : EReal) = ((x / a / b : ℝ) : EReal) := by
  rw [div_coe_coe x ha, div_coe_coe _ hb]

/-! ### Square roots and norms -/

/-- The square root of a real that is not negative. -/
theorem sqrt_coe_of_nonneg {r : ℝ} (h : 0 ≤ r) :
    Ideal.sqrt (r : EReal) = ((Real.sqrt r : ℝ) : EReal) := by
  rw [Ideal.sqrt_coe, if_neg (not_lt.2 h)]

/-- The square root of a nonnegative real is a nonnegative real. -/
theorem sqrt_isReal_nonneg {r : ℝ} (h : 0 ≤ r) :
    ∃ y : ℝ, 0 ≤ y ∧ Ideal.sqrt (r : EReal) = (y : EReal) :=
  ⟨Real.sqrt r, Real.sqrt_nonneg r, sqrt_coe_of_nonneg h⟩

/-- A sum of squares of reals is not negative. -/
theorem sum_sq_nonneg {ι : Type*} (t : Finset ι) (x : ι → ℝ) : 0 ≤ ∑ i ∈ t, x i * x i :=
  Finset.sum_nonneg fun i _ => mul_self_nonneg (x i)

/-- The Euclidean norm `√(∑ x²)` of a finite family of reals, on the extended reals. -/
theorem norm_coe {ι : Type*} (t : Finset ι) (x : ι → ℝ) :
    Ideal.sqrt (∑ i ∈ t, (x i : EReal) * (x i : EReal))
      = ((Real.sqrt (∑ i ∈ t, x i * x i) : ℝ) : EReal) := by
  rw [sum_mul_coe, sqrt_coe_of_nonneg (sum_sq_nonneg t x)]

/-- The same with the sum taken from the initial value zero. -/
theorem norm_coe' {ι : Type*} (t : Finset ι) (x : ι → ℝ) :
    Ideal.sqrt (0 + ∑ i ∈ t, (x i : EReal) * (x i : EReal))
      = ((Real.sqrt (∑ i ∈ t, x i * x i) : ℝ) : EReal) := by
  rw [zero_add, norm_coe]

/-- `ε + √(∑ x²)` on the extended reals is the real `ε + √(∑ x²)`. -/
theorem eps_add_norm_coe {ι : Type*} (t : Finset ι) (ε : ℝ) (x : ι → ℝ) :
    (ε : EReal) + Ideal.sqrt (∑ i ∈ t, (x i : EReal) * (x i : EReal))
      = ((ε + Real.sqrt (∑ i ∈ t, x i * x i) : ℝ) : EReal) := by
  rw [norm_coe, EReal.coe_add]

/-- For `ε > 0` the real `ε + √r` is positive. -/
theorem eps_add_sqrt_pos {ε : ℝ} (hε : 0 < ε) (r : ℝ) : 0 < ε + Real.sqrt r :=
  add_pos_of_pos_of_nonneg hε (Real.sqrt_nonneg r)

/-- For `ε > 0` the real `ε + √r` is not zero. -/
theorem eps_add_sqrt_ne_zero {ε : ℝ} (hε : 0 < ε) (r : ℝ) : ε + Real.sqrt r ≠ 0 :=
  (eps_add_sqrt_pos hε r).ne'

/-! ### Exponentials -/

/-- The exponential of a real is a positive real. -/
theorem exp_isReal_pos (r : ℝ) : ∃ y : ℝ, 0 < y ∧ Ideal.exp (r : EReal) = (y : EReal) :=
  ⟨Real.exp r, Real.exp_pos r, Ideal.exp_coe r⟩

/-- The exponential of a real is a real. -/
theorem IsReal.exp {x : EReal} (hx : IsReal x) : IsReal (Ideal.exp x) := by
  obtain ⟨a, rfl⟩ := hx
  exact ⟨Real.exp a, Ideal.exp_coe a⟩

end QuotLaws
-- ==== Proof.KI.Finite.lean ====
import proofs.«120323_j21741124452848_2_alg».proof.Defs
import proofs.«120323_j21741124452848_2_alg».proof.Proof.Gen.Pre_finite_inputs
import proofs.«120323_j21741124452848_2_alg».proof.Proof.Gen.KernelIdeal.Launch
import proofs.«120323_j21741124452848_2_alg».proof.Proof.LibQuot
import proofs.«120323_j21741124452848_2_alg».proof.Proof.Spec
import Idealize.ShloMosaic.Lib.ReduceAll
import Idealize.ShloMosaic.Lib.ValueIdx
import Idealize.ShloMosaic.PureOps.Ideal.Laws

/-!
# Every float input is a real, and so are the mention encodings

The precondition says of every float argument that all its entries have absolute value below
`+∞`.  On the extended reals that excludes `⊤` and `⊥`: every entry is the coercion of a real.
The mention encodings (two gathers of the hidden states, joined, times a matrix, plus a bias)
are finite sums of products of such entries, hence reals as well.
-/

noncomputable section

namespace Cert.KernelIdeal.Fin0

open Idealize.ShloMosaic Idealize.SL.Sem QuotLaws

/-- The pattern `0x7F800000` is `+∞`. -/
theorem ofBits_inf : Ideal.ofBits .f32 0x7F800000#32 = ⊤ := by
  simp [Ideal.ofBits, Ideal.ieee]

/-- An extended real whose absolute value is below `+∞` is a real. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- One conjunct of the precondition: if "all entries have absolute value below `+∞`" holds of
    an array, every entry is a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant Cert.Pre_finite_inputs.S_ .f32 0x7F800000#32)))
          (constantI Cert.Pre_finite_inputs.S_ 1 1#1) hr hu ValueIdx.ix0 = 1#1)
    (i : s.Idx) : IsReal (x i) :=
  isReal_of_abs_lt_inf (x i) (Host.reduce_andi_all _ _ hr hu _ e i)

section Args
variable (m : (ℓ : Loc nD τ sig) → Buf (Elt Ideal) ℓ) (h : Cert.Pre_KernelIdeal m) (c : Dev nD)
include h

/-- The precondition, conjunct by conjunct: every entry of each of the nine float arguments is
    a real. -/
theorem args_real :
    (∀ i, IsReal ((m ((c.tc : Thread nD τ).loc main_arg0) : FVec Ideal Cert.Pre_finite_inputs.S8x2048x768 .f32) i))
    ∧ (∀ i, IsReal ((m ((c.tc : Thread nD τ).loc main_arg4) : FVec Ideal Cert.Pre_finite_inputs.S4096 .f32) i))
    ∧ (∀ i, IsReal ((m ((c.tc : Thread nD τ).loc main_arg5) : FVec Ideal Cert.Pre_finite_inputs.S32000x256 .f32) i))
    ∧ (∀ i, IsReal ((m ((c.tc : Thread nD τ).loc main_arg6) : FVec Ideal Cert.Pre_finite_inputs.S1536x256 .f32) i))
    ∧ (∀ i, IsReal ((m ((c.tc : Thread nD τ).loc main_arg7) : FVec Ideal Cert.Pre_finite_inputs.S256 .f32) i))
    ∧ (∀ i, IsReal ((m ((c.tc : Thread nD τ).loc main_arg8) : FVec Ideal Cert.Pre_finite_inputs.S256x768 .f32) i))
    ∧ (∀ i, IsReal ((m ((c.tc : Thread nD τ).loc main_arg9) : FVec Ideal Cert.Pre_finite_inputs.S768 .f32) i))
    ∧ (∀ i, IsReal ((m ((c.tc : Thread nD τ).loc main_arg10) : FVec Ideal Cert.Pre_finite_inputs.S768 .f32) i))
    ∧ (∀ i, IsReal ((m ((c.tc : Thread nD τ).loc main_arg11) : FVec Ideal Cert.Pre_finite_inputs.S768 .f32) i)) := by
  have h0 := congrFun (h c) ValueIdx.ix0
  dsimp only [Cert.Pre_finite_inputs.fn, Cert.Pre_finite_inputs.fn_part1, Cert.Pre_finite_inputs.fn_part2,
    Idealize.ShloMosaic.andi] at h0
  simp only [IntOp.andi_eq_one] at h0
  obtain ⟨⟨⟨⟨⟨⟨⟨⟨e0, e4⟩, e5⟩, e6⟩, e7⟩, e8⟩, e9⟩, e10⟩, e11⟩ := h0
  exact ⟨all_real _ _ _ _ e0, all_real _ _ _ _ e4, all_real _ _ _ _ e5, all_real _ _ _ _ e6,
    all_real _ _ _ _ e7, all_real _ _ _ _ e8, all_real _ _ _ _ e9, all_real _ _ _ _ e10,
    all_real _ _ _ _ e11⟩

end Args

/-! ### Operations that keep reals real -/

/-- Every entry of a concatenation is an entry of one of its operands. -/
theorem concatenate_forall {α : Type} (P : α → Prop) (t : Shape) (a : Fin t.rank)
    (xs : List ((s : Shape) × (s.Idx → α))) (hc : Shape.Concatenates (xs.map (·.1)) t a)
    (hP : ∀ p ∈ xs, ∀ i, P (p.2 i)) (j : t.Idx) : P (concatenate t a xs hc j) := by
  unfold concatenate
  exact hP _ (List.getElem_mem _) _

/-- Every entry of a gather's result is an entry of its operand. -/
theorem gather_forall {α : Type} {w : Nat} (P : α → Prop) {s si t : Shape} (d : GatherDims s si t)
    (x : s.Idx → α) (idx : IVec si w) (hP : ∀ i, P (x i)) (j : t.Idx) : P (Host.gather d x idx j) :=
  hP _

/-- An entry of a product of two arrays of reals is a finite sum of products of reals: a real. -/
theorem dotGeneral_real {sl sr so : Shape} (d : DotDims sl sr so) (l : FVec Ideal sl .f32)
    (r : FVec Ideal sr .f32) (hl : ∀ i, IsReal (l i)) (hr : ∀ i, IsReal (r i)) (j : so.Idx) :
    IsReal (Host.dotGeneral d none l r j) := by
  refine (congrArg IsReal (Ideal.dotGeneral_apply d none .single l r j)).mpr ?_
  exact isReal_sum _ _ fun k _ => (hl _).mul (hr _)

/-! ### The first host stretch -/

/-- What the device's buffers hold after @main's first host stretch, from the launch contents. -/
def Vh (m : (ℓ : Loc nD τ sig) → Buf (Elt Ideal) ℓ) (c : Dev nD) : Valuation τ sig (Elt Ideal) :=
  StableHlo.after (Gen.hostOps0 (F := Ideal)) (fun b => m (c, b))

/-- The mention encodings as a term of the hidden states, two index arrays, the projection matrix
    and its bias: rows gathered twice, joined, multiplied, biased. -/
def enc (a0 : FVec Ideal S8x2048x768 .f32) (I1 I2 : IVec S4096x2 32) (a6 : FVec Ideal S1536x256 .f32)
    (a7 : FVec Ideal S256 .f32) : FVec Ideal S4096x256 .f32 :=
  addf (Host.dotGeneral dot_S4096x1536_S1536x256_S4096x256_1_0_0_1_n_n none
      (concatenate S4096x1536 1
        [⟨S4096x768, Host.gather gather_S8x2048x768_S4096x2_S4096x768_1_01_n_n_01_1_11768 a0 I1⟩,
         ⟨S4096x768, Host.gather gather_S8x2048x768_S4096x2_S4096x768_1_01_n_n_01_1_11768 a0 I2⟩]
        Gen.concatenates_S4096x768_S4096x768_S4096x1536_d1) a6)
    (broadcastInDim S4096x256 ![0, 1] Gen.bcast_S1x256_S4096x256_0_1
      (broadcastInDim S1x256 ![1] Gen.bcast_S256_S1x256_1 a7))

/-- The mention encodings of real inputs are reals, whatever the index arrays. -/
theorem enc_real (a0 : FVec Ideal S8x2048x768 .f32) (I1 I2 : IVec S4096x2 32)
    (a6 : FVec Ideal S1536x256 .f32) (a7 : FVec Ideal S256 .f32)
    (h0 : ∀ i, IsReal (a0 i)) (h6 : ∀ i, IsReal (a6 i)) (h7 : ∀ i, IsReal (a7 i)) (i : S4096x256.Idx) :
    IsReal (enc a0 I1 I2 a6 a7 i) := by
  unfold enc
  refine IsReal.add (dotGeneral_real _ _ _ (fun i' => ?_) h6 i) (h7 _)
  refine concatenate_forall IsReal _ _ _ _ (fun p hp i'' => ?_) i'
  rcases List.mem_cons.1 hp with rfl | hp
  · exact gather_forall IsReal _ _ _ h0 i''
  · rcases List.mem_cons.1 hp with rfl | hp
    · exact gather_forall IsReal _ _ _ h0 i''
    · exact absurd hp (List.not_mem_nil)

section Stretch
variable (m : (ℓ : Loc nD τ sig) → Buf (Elt Ideal) ℓ) (c : Dev nD)

set_option maxHeartbeats 4000000 in
/-- After the first host stretch the encodings buffer holds `enc` of the arguments at two index
    arrays. -/
theorem Vh_v32 : ∃ I1 I2 : IVec S4096x2 32,
    Vh m c (Proc.devRef .tc main_v32)
      = enc (m ((c.tc : Thread nD τ).loc main_arg0)) I1 I2 (m ((c.tc : Thread nD τ).loc main_arg6))
          (m ((c.tc : Thread nD τ).loc main_arg7)) := by
  refine ⟨?_, ?_, ?_⟩
  rotate_left 2
  · show StableHlo.after Gen.hostOps0 _ (Proc.devRef .tc main_v32) = _
    after_results_simp
    rfl

end Stretch

section Stretch2
variable (m : (ℓ : Loc nD τ sig) → Buf (Elt Ideal) ℓ) (c : Dev nD)

set_option maxHeartbeats 4000000 in
/-- The narrowed copy of the encodings is the encodings: a change of format is the identity on
    the extended reals. -/
theorem Vh_v33 :
    (Vh m c (Proc.devRef .tc main_v33) : S4096x256.Idx → EReal) = Vh m c (Proc.devRef .tc main_v32) := by
  unfold Vh
  after_results_simp
  rfl

set_option maxHeartbeats 4000000 in
/-- The narrowed copy of the entity table is the entity table. -/
theorem Vh_v34 :
    (Vh m c (Proc.devRef .tc main_v34) : S32000x256.Idx → EReal)
      = m ((c.tc : Thread nD τ).loc main_arg5) := by
  show StableHlo.after Gen.hostOps0 _ (Proc.devRef .tc main_v34) = _
  after_results_simp
  rfl

set_option maxHeartbeats 4000000 in
/-- The narrowed copy of the output projection is the output projection. -/
theorem Vh_v35 :
    (Vh m c (Proc.devRef .tc main_v35) : S256x768.Idx → EReal)
      = m ((c.tc : Thread nD τ).loc main_arg8) := by
  show StableHlo.after Gen.hostOps0 _ (Proc.devRef .tc main_v35) = _
  after_results_simp
  rfl

/-- Under the precondition every entry of the mention encodings is a real. -/
theorem q_real (h : Cert.Pre_KernelIdeal m) (i : S4096x256.Idx) :
    IsReal ((Vh m c (Proc.devRef .tc main_v33) : S4096x256.Idx → EReal) i) := by
  obtain ⟨I1, I2, e⟩ := Vh_v32 m c
  rw [Vh_v33, e]
  have hr := args_real m h c
  exact enc_real _ I1 I2 _ _ hr.1 hr.2.2.2.1 hr.2.2.2.2.1 i

/-- The same for the wide copy. -/
theorem q32_real (h : Cert.Pre_KernelIdeal m) (i : S4096x256.Idx) :
    IsReal ((Vh m c (Proc.devRef .tc main_v32) : S4096x256.Idx → EReal) i) := by
  rw [← Vh_v33]; exact q_real m c h i

end Stretch2

/-! ### Real-valued witnesses -/

/-- A family of reals on the extended reals is the coercion of a real-valued family. -/
theorem exists_real_fun {ι : Type*} (f : ι → EReal) (h : ∀ i, IsReal (f i)) :
    ∃ g : ι → ℝ, f = fun i => (g i : EReal) :=
  ⟨fun i => Classical.choose (h i), funext fun i => Classical.choose_spec (h i)⟩

/-- The score of real encodings against a real entity table is the real dot product. -/
theorem score_coe (qr : (⟨2, ![4096, 256]⟩ : Shape).Idx → ℝ) (er : (⟨2, ![32000, 256]⟩ : Shape).Idx → ℝ)
    (p : Fin 4096) (e : Fin 32000) :
    Cert.Spec.score (fun i => (qr i : EReal)) (fun i => (er i : EReal)) p e
      = ((∑ k : Fin 256, qr (ValueIdx.ix2 p k) * er (ValueIdx.ix2 e k) : ℝ) : EReal) := by
  unfold Cert.Spec.score
  exact sum_mul_coe Finset.univ (fun k => qr (ValueIdx.ix2 p k)) (fun k => er (ValueIdx.ix2 e k))

/-- Real encodings and a real entity table are coercions of real-valued arrays, and every score is
    the real dot product of their rows. -/
theorem score_real (q : (⟨2, ![4096, 256]⟩ : Shape).Idx → EReal) (ent : (⟨2, ![32000, 256]⟩ : Shape).Idx → EReal)
    (hq : ∀ i, IsReal (q i)) (he : ∀ i, IsReal (ent i)) :
    ∃ (qr : (⟨2, ![4096, 256]⟩ : Shape).Idx → ℝ) (er : (⟨2, ![32000, 256]⟩ : Shape).Idx → ℝ),
      q = (fun i => (qr i : EReal)) ∧ ent = (fun i => (er i : EReal))
      ∧ ∀ p e, Cert.Spec.score q ent p e
          = ((∑ k : Fin 256, qr (ValueIdx.ix2 p k) * er (ValueIdx.ix2 e k) : ℝ) : EReal) := by
  obtain ⟨qr, rfl⟩ := exists_real_fun q hq
  obtain ⟨er, rfl⟩ := exists_real_fun ent he
  exact ⟨qr, er, rfl, rfl, fun p e => score_coe qr er p e⟩

end Cert.KernelIdeal.Fin0
-- ==== Proof.KI.R0Pieces.lean ====
/-
  Region 0: what each case's stores leave, as the skeleton's payloads of the input blocks and of the scratch contents the
  point finds. Every case folds one entity tile into the three accumulators by the same function; the first case starts
  from the reset values, the last case also stores the three outputs.
-/
import proofs.«120323_j21741124452848_2_alg».proof.Proof.KI.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a; rfl

/-- The reset values: weighted sum 0, maximum −∞, sum 0. -/
def init0 : Sc0 F := (k0_pay6, k0_pay4, k0_pay5)

/-- One entity tile folded into the accumulators `s = (weighted sum, maximum, sum)`: the new maximum is the old one
    against the tile's row maxima; the old sum and weighted sum are rescaled by exp (old max − new max) and the tile's
    exponentials, and their products with the entity rows, are added. -/
def fold0 (x0 : Vec F S512x256 .bf16) (x1 : Vec F S3200x256 .bf16) (s : Sc0 F) : Sc0 F :=
  (k0_pay1 (k0_pay13 x0 x1 s.2.1 s.2.1 s.1), k0_pay2 (k0_pay9 x0 x1 s.2.1), k0_pay12 x0 x1 s.2.1 s.2.1 s.2.2)

/-- What the last tile stores into the three outputs from the folded accumulators `s`: the quotient of the weighted sum
    by the sum, projected, biased and masked; the maximum; the sum. -/
def emit0 (x2 : Vec F S256x768 .bf16) (x3 : Vec F S768 .f32) (x4 : Vec F S512x1 .f32) (s : Sc0 F) : Ou0 F :=
  (k0_pay3 s.1 s.2.2 x2 x3 x4, s.2.1, s.2.2)

set_option maxHeartbeats 2000000 in
theorem sout0_B_eq (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i)
    (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) :
    sout0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = fold0 x0 x1 (xs0, xs1, xs2) := by
  unfold sout0_B fold0
  refine Prod.ext ?_ (Prod.ext ?_ ?_)
  · dsimp only
    rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
    unfold kernelRun0_B
    dsimp only
    sl_unfold_words
    first
      | rw [View.canon_unit_zero hz2]
      | rw [View.canon_cons_unit_zero hz2]
    try simp only [View.readCov_unit_zero (S := S512x256) _ hz2, View.readCov_unit_zero (S := S512x1) _ hz2, View.readCov_unit_zero (S := S512x768) _ hz2]
    simp only [View.readAt_eq_ld, harg2.read_unread, harg3.read_unread, harg4.read_unread, harg5.read_unread, harg6.read_unread, harg10.read_unread, harg11.read_unread, harg12.read_unread, View.ld_unit_zero (S := S512x256) hz2, View.ld_unit_zero (S := S3200x256) hz2, View.ld_unit_zero (S := S256x768) hz2, View.ld_unit_zero (S := S512x1) hz2, View.ld_unit_zero (S := S768) hz1]
    try rfl
  · dsimp only
    rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
    unfold kernelRun0_B
    dsimp only
    sl_unfold_words
    first
      | rw [View.canon_unit_zero hz2]
      | rw [View.canon_cons_unit_zero hz2]
    try simp only [View.readCov_unit_zero (S := S512x256) _ hz2, View.readCov_unit_zero (S := S512x1) _ hz2, View.readCov_unit_zero (S := S512x768) _ hz2]
    simp only [View.readAt_eq_ld, harg2.read_unread, harg3.read_unread, harg4.read_unread, harg5.read_unread, harg6.read_unread, harg10.read_unread, harg11.read_unread, harg12.read_unread, View.ld_unit_zero (S := S512x256) hz2, View.ld_unit_zero (S := S3200x256) hz2, View.ld_unit_zero (S := S256x768) hz2, View.ld_unit_zero (S := S512x1) hz2, View.ld_unit_zero (S := S768) hz1]
    try rfl
  · dsimp only
    rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
    unfold kernelRun0_B
    dsimp only
    sl_unfold_words
    first
      | rw [View.canon_unit_zero hz2]
      | rw [View.canon_cons_unit_zero hz2]
    try simp only [View.readCov_unit_zero (S := S512x256) _ hz2, View.readCov_unit_zero (S := S512x1) _ hz2, View.readCov_unit_zero (S := S512x768) _ hz2]
    simp only [View.readAt_eq_ld, harg2.read_unread, harg3.read_unread, harg4.read_unread, harg5.read_unread, harg6.read_unread, harg10.read_unread, harg11.read_unread, harg12.read_unread, View.ld_unit_zero (S := S512x256) hz2, View.ld_unit_zero (S := S3200x256) hz2, View.ld_unit_zero (S := S256x768) hz2, View.ld_unit_zero (S := S512x1) hz2, View.ld_unit_zero (S := S768) hz1]
    try rfl

set_option maxHeartbeats 2000000 in
theorem sout0_C_eq (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) :
    sout0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = fold0 x0 x1 (xs0, xs1, xs2) := by
  unfold sout0_C fold0
  refine Prod.ext ?_ (Prod.ext ?_ ?_)
  · dsimp only
    rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
    unfold kernelRun0_C
    dsimp only
    sl_unfold_words
    first
      | rw [View.canon_unit_zero hz2]
      | rw [View.canon_cons_unit_zero hz2]
    try simp only [View.readCov_unit_zero (S := S512x256) _ hz2, View.readCov_unit_zero (S := S512x1) _ hz2, View.readCov_unit_zero (S := S512x768) _ hz2]
    simp only [View.readAt_eq_ld, harg2.read_unread, harg3.read_unread, harg4.read_unread, harg5.read_unread, harg6.read_unread, harg10.read_unread, harg11.read_unread, harg12.read_unread, View.ld_unit_zero (S := S512x256) hz2, View.ld_unit_zero (S := S3200x256) hz2, View.ld_unit_zero (S := S256x768) hz2, View.ld_unit_zero (S := S512x1) hz2, View.ld_unit_zero (S := S768) hz1]
    try rfl
  · dsimp only
    rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
    unfold kernelRun0_C
    dsimp only
    sl_unfold_words
    first
      | rw [View.canon_unit_zero hz2]
      | rw [View.canon_cons_unit_zero hz2]
    try simp only [View.readCov_unit_zero (S := S512x256) _ hz2, View.readCov_unit_zero (S := S512x1) _ hz2, View.readCov_unit_zero (S := S512x768) _ hz2]
    simp only [View.readAt_eq_ld, harg2.read_unread, harg3.read_unread, harg4.read_unread, harg5.read_unread, harg6.read_unread, harg10.read_unread, harg11.read_unread, harg12.read_unread, View.ld_unit_zero (S := S512x256) hz2, View.ld_unit_zero (S := S3200x256) hz2, View.ld_unit_zero (S := S256x768) hz2, View.ld_unit_zero (S := S512x1) hz2, View.ld_unit_zero (S := S768) hz1]
    try rfl
  · dsimp only
    rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
    unfold kernelRun0_C
    dsimp only
    sl_unfold_words
    first
      | rw [View.canon_unit_zero hz2]
      | rw [View.canon_cons_unit_zero hz2]
    try simp only [View.readCov_unit_zero (S := S512x256) _ hz2, View.readCov_unit_zero (S := S512x1) _ hz2, View.readCov_unit_zero (S := S512x768) _ hz2]
    simp only [View.readAt_eq_ld, harg2.read_unread, harg3.read_unread, harg4.read_unread, harg5.read_unread, harg6.read_unread, harg10.read_unread, harg11.read_unread, harg12.read_unread, View.ld_unit_zero (S := S512x256) hz2, View.ld_unit_zero (S := S3200x256) hz2, View.ld_unit_zero (S := S256x768) hz2, View.ld_unit_zero (S := S512x1) hz2, View.ld_unit_zero (S := S768) hz1]
    try rfl

set_option maxHeartbeats 2000000 in
theorem out0_C_eq (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 : Vec F S512x256 .bf16) (x1 : Vec F S3200x256 .bf16) (x2 : Vec F S256x768 .bf16) (x3 : Vec F S768 .f32) (x4 : Vec F S512x1 .f32) (xs0 : Vec F S512x256 .f32) (xs1 : Vec F S512x1 .f32) (xs2 : Vec F S512x1 .f32) :
    out0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = emit0 x2 x3 x4 (fold0 x0 x1 (xs0, xs1, xs2)) := by
  unfold out0_C emit0 fold0
  refine Prod.ext ?_ (Prod.ext ?_ ?_)
  · dsimp only
    rw [View.read_writes_eq_canon _ _ _ (cover0_C_5 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
    unfold kernelRun0_C
    dsimp only
    sl_unfold_words
    first
      | rw [View.canon_unit_zero hz2]
      | rw [View.canon_cons_unit_zero hz2]
    try simp only [View.readCov_unit_zero (S := S512x256) _ hz2, View.readCov_unit_zero (S := S512x1) _ hz2, View.readCov_unit_zero (S := S512x768) _ hz2]
    simp only [View.readAt_eq_ld, harg2.read_unread, harg3.read_unread, harg4.read_unread, harg5.read_unread, harg6.read_unread, harg10.read_unread, harg11.read_unread, harg12.read_unread, View.ld_unit_zero (S := S512x256) hz2, View.ld_unit_zero (S := S3200x256) hz2, View.ld_unit_zero (S := S256x768) hz2, View.ld_unit_zero (S := S512x1) hz2, View.ld_unit_zero (S := S768) hz1]
    try rfl
  · dsimp only
    rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
    unfold kernelRun0_C
    dsimp only
    sl_unfold_words
    first
      | rw [View.canon_unit_zero hz2]
      | rw [View.canon_cons_unit_zero hz2]
    try simp only [View.readCov_unit_zero (S := S512x256) _ hz2, View.readCov_unit_zero (S := S512x1) _ hz2, View.readCov_unit_zero (S := S512x768) _ hz2]
    simp only [View.readAt_eq_ld, harg2.read_unread, harg3.read_unread, harg4.read_unread, harg5.read_unread, harg6.read_unread, harg10.read_unread, harg11.read_unread, harg12.read_unread, View.ld_unit_zero (S := S512x256) hz2, View.ld_unit_zero (S := S3200x256) hz2, View.ld_unit_zero (S := S256x768) hz2, View.ld_unit_zero (S := S512x1) hz2, View.ld_unit_zero (S := S768) hz1]
    try rfl
  · dsimp only
    rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
    unfold kernelRun0_C
    dsimp only
    sl_unfold_words
    first
      | rw [View.canon_unit_zero hz2]
      | rw [View.canon_cons_unit_zero hz2]
    try simp only [View.readCov_unit_zero (S := S512x256) _ hz2, View.readCov_unit_zero (S := S512x1) _ hz2, View.readCov_unit_zero (S := S512x768) _ hz2]
    simp only [View.readAt_eq_ld, harg2.read_unread, harg3.read_unread, harg4.read_unread, harg5.read_unread, harg6.read_unread, harg10.read_unread, harg11.read_unread, harg12.read_unread, View.ld_unit_zero (S := S512x256) hz2, View.ld_unit_zero (S := S3200x256) hz2, View.ld_unit_zero (S := S256x768) hz2, View.ld_unit_zero (S := S512x1) hz2, View.ld_unit_zero (S := S768) hz1]
    try rfl

set_option maxHeartbeats 2000000 in
theorem sout0_A_eq (c : Dev nD) (i : grid0.Coords) (arg2 : Memref sig .tc .vmem S512x256 .bf16) (harg2 : arg2.IsWhole) (arg3 : Memref sig .tc .vmem S3200x256 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S512x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i)
    (x0 : Vec F S512x256 .bf16) (x1 : Vec F S3200x256 .bf16) (x2 : Vec F S256x768 .bf16) (x3 : Vec F S768 .f32) (x4 : Vec F S512x1 .f32) :
    sout0_A c i arg2 harg2 arg3 harg3 arg4 harg4 arg5 harg5 arg6 harg6 arg7 harg7 arg8 harg8 arg9 harg9 arg10 harg10 arg11 harg11 arg12 harg12 hc0 hc1 x0 x1 x2 x3 x4 = fold0 x0 x1 (init0 (F := F)) := by
  unfold sout0_A fold0 init0
  refine Prod.ext ?_ (Prod.ext ?_ ?_)
  · dsimp only
    rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4)]
    unfold kernelRun0_A
    dsimp only
    sl_unfold_words
    first
      | rw [View.canon_unit_zero hz2]
      | rw [View.canon_cons_unit_zero hz2]
    try simp only [View.readCov_unit_zero (S := S512x256) _ hz2, View.readCov_unit_zero (S := S512x1) _ hz2, View.readCov_unit_zero (S := S512x768) _ hz2]
    simp only [View.readAt_eq_ld, harg2.read_unread, harg3.read_unread, harg4.read_unread, harg5.read_unread, harg6.read_unread, harg10.read_unread, harg11.read_unread, harg12.read_unread, View.ld_unit_zero (S := S512x256) hz2, View.ld_unit_zero (S := S3200x256) hz2, View.ld_unit_zero (S := S256x768) hz2, View.ld_unit_zero (S := S512x1) hz2, View.ld_unit_zero (S := S768) hz1]
    try rfl
  · dsimp only
    rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4)]
    unfold kernelRun0_A
    dsimp only
    sl_unfold_words
    first
      | rw [View.canon_unit_zero hz2]
      | rw [View.canon_cons_unit_zero hz2]
    try simp only [View.readCov_unit_zero (S := S512x256) _ hz2, View.readCov_unit_zero (S := S512x1) _ hz2, View.readCov_unit_zero (S := S512x768) _ hz2]
    simp only [View.readAt_eq_ld, harg2.read_unread, harg3.read_unread, harg4.read_unread, harg5.read_unread, harg6.read_unread, harg10.read_unread, harg11.read_unread, harg12.read_unread, View.ld_unit_zero (S := S512x256) hz2, View.ld_unit_zero (S := S3200x256) hz2, View.ld_unit_zero (S := S256x768) hz2, View.ld_unit_zero (S := S512x1) hz2, View.ld_unit_zero (S := S768) hz1]
    try rfl
  · dsimp only
    rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4)]
    unfold kernelRun0_A
    dsimp only
    sl_unfold_words
    first
      | rw [View.canon_unit_zero hz2]
      | rw [View.canon_cons_unit_zero hz2]
    try simp only [View.readCov_unit_zero (S := S512x256) _ hz2, View.readCov_unit_zero (S := S512x1) _ hz2, View.readCov_unit_zero (S := S512x768) _ hz2]
    simp only [View.readAt_eq_ld, harg2.read_unread, harg3.read_unread, harg4.read_unread, harg5.read_unread, harg6.read_unread, harg10.read_unread, harg11.read_unread, harg12.read_unread, View.ld_unit_zero (S := S512x256) hz2, View.ld_unit_zero (S := S3200x256) hz2, View.ld_unit_zero (S := S256x768) hz2, View.ld_unit_zero (S := S512x1) hz2, View.ld_unit_zero (S := S768) hz1]
    try rfl

end Cert.KernelIdeal.Hand

end
-- ==== Proof.KI.V0Pay.lean ====
/-
Region 0's body at the exact (extended-real) instance, one element at a time: each pure value the body computes from
the blocks it loaded, read at an index, over variables of the blocks' literal types.

Region 0 is a running softmax over tiles of table rows.  At a step the body holds a block x0 of 512 query rows and a
block x1 of 3200 table rows, and carries per query row a running maximum mx, a running denominator l and a running
numerator row acc.  With S r e = ∑ₖ x0 (r, k) · x1 (e, k) the score of query row r against table row e of the tile,
and mx' r = max (mx r) (supₑ S r e) the new maximum, the step computes
  the rescaling factor  exp (mx r − mx' r),
  the tile's weights    exp (S r e − mx' r),
  the new denominator   exp (mx r − mx' r) · l r + ∑ₑ exp (S r e − mx' r),
  the new numerator     exp (mx r − mx' r) · acc (r, d) + ∑ₑ exp (S r e − mx' r) · x1 (e, d).
At the last step it divides the numerator by the denominator, multiplies by the 256 × 768 projection, adds the bias
row and multiplies by the row's mask.  At the first step the carried values start at −∞, 0 and 0.

A maximum over a tile's 3200 lanes starts from the word of −∞, which is ⊥, so it is the supremum over the lanes; a
lane sum is the plain sum (its zero accumulator is not added); a product into the zero accumulator is the sum over
the contracted coordinate; a column or a row laid against a tile reads the column at the row, the row at the column;
a change of float format is the identity.
-/
import proofs.«120323_j21741124452848_2_alg».proof.Proof.Gen.KernelIdeal.Skeleton
import proofs.«120323_j21741124452848_2_alg».proof.Proof.LibColBcast
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The step's two scalars per row -/

/-- The score of query row r of the block against table row e of the tile. -/
abbrev score0 (x0 : Vec Ideal S512x256 .bf16) (x1 : Vec Ideal S3200x256 .bf16) (r : Fin 512) (e : Fin 3200) : EReal :=
  ∑ k : Fin 256, x0 (ix2 r k) * x1 (ix2 e k)

/-- The running maximum after the step: the carried maximum against the tile's largest score. -/
abbrev newMax0 (x0 : Vec Ideal S512x256 .bf16) (x1 : Vec Ideal S3200x256 .bf16) (mx : Vec Ideal S512x1 .f32) (r : Fin 512) : EReal :=
  max (mx (ix2 r (0 : Fin 1))) ((Finset.univ : Finset (Fin 3200)).sup fun e => score0 x0 x1 r e)

/-! ## The two literal words that are evaluated -/

/-- The f32 word with sign set, exponent all ones and fraction zero is −∞. -/
theorem negInfWord0 : Ideal.ofBits .f32 0xFF800000#32 = (⊥ : EReal) := by simp [Ideal.ofBits, Ideal.ieee]

/-! ## The three contractions -/

/-- Scores: the query block's second axis against the table tile's second axis. -/
abbrev dotS0 := dot_S512x256_S3200x256_S512x3200_1_1_0_0_n_n
/-- Numerator: the weights' second axis (the tile's rows) against the table tile's first axis. -/
abbrev dotN0 := dot_S512x3200_S3200x256_S512x256_1_0_0_1_n_n
/-- Projection: the retrieved row's coordinates against the projection's first axis. -/
abbrev dotP0 := dot_S512x256_S256x768_S512x768_1_0_0_1_n_n

theorem dotS0_lhs0 (i : S512x3200.Idx) (u : dotS0.contr.Idx) : (dotS0.lhsIdx i u 0).val = (i 0).val := by
  unfold DotDims.lhsIdx
  rw [dif_neg (show ¬(0 : Fin S512x256.rank) ∈ dotS0.lhsBatch by decide), dif_pos (show (0 : Fin S512x256.rank) ∈ dotS0.lhsNonContracting by decide)]
  rfl
theorem dotS0_lhs1 (i : S512x3200.Idx) (u : dotS0.contr.Idx) : (dotS0.lhsIdx i u 1).val = (u ⟨0, by decide⟩).val :=
  dotS0.lhsIdx_val_of_single rfl i u
theorem dotS0_rhs0 (i : S512x3200.Idx) (u : dotS0.contr.Idx) : (dotS0.rhsIdx i u 0).val = (i 1).val := by
  unfold DotDims.rhsIdx
  rw [dif_neg (show ¬(0 : Fin S3200x256.rank) ∈ dotS0.rhsBatch by decide), dif_pos (show (0 : Fin S3200x256.rank) ∈ dotS0.rhsNonContracting by decide)]
  rfl
theorem dotS0_rhs1 (i : S512x3200.Idx) (u : dotS0.contr.Idx) : (dotS0.rhsIdx i u 1).val = (u ⟨0, by decide⟩).val :=
  dotS0.rhsIdx_val_of_single rfl i u

theorem dotN0_lhs0 (i : S512x256.Idx) (u : dotN0.contr.Idx) : (dotN0.lhsIdx i u 0).val = (i 0).val := by
  unfold DotDims.lhsIdx
  rw [dif_neg (show ¬(0 : Fin S512x3200.rank) ∈ dotN0.lhsBatch by decide), dif_pos (show (0 : Fin S512x3200.rank) ∈ dotN0.lhsNonContracting by decide)]
  rfl
theorem dotN0_lhs1 (i : S512x256.Idx) (u : dotN0.contr.Idx) : (dotN0.lhsIdx i u 1).val = (u ⟨0, by decide⟩).val :=
  dotN0.lhsIdx_val_of_single rfl i u
theorem dotN0_rhs0 (i : S512x256.Idx) (u : dotN0.contr.Idx) : (dotN0.rhsIdx i u 0).val = (u ⟨0, by decide⟩).val :=
  dotN0.rhsIdx_val_of_single rfl i u
theorem dotN0_rhs1 (i : S512x256.Idx) (u : dotN0.contr.Idx) : (dotN0.rhsIdx i u 1).val = (i 1).val := by
  unfold DotDims.rhsIdx
  rw [dif_neg (show ¬(1 : Fin S3200x256.rank) ∈ dotN0.rhsBatch by decide), dif_pos (show (1 : Fin S3200x256.rank) ∈ dotN0.rhsNonContracting by decide)]
  rfl

theorem dotP0_lhs0 (i : S512x768.Idx) (u : dotP0.contr.Idx) : (dotP0.lhsIdx i u 0).val = (i 0).val := by
  unfold DotDims.lhsIdx
  rw [dif_neg (show ¬(0 : Fin S512x256.rank) ∈ dotP0.lhsBatch by decide), dif_pos (show (0 : Fin S512x256.rank) ∈ dotP0.lhsNonContracting by decide)]
  rfl
theorem dotP0_lhs1 (i : S512x768.Idx) (u : dotP0.contr.Idx) : (dotP0.lhsIdx i u 1).val = (u ⟨0, by decide⟩).val :=
  dotP0.lhsIdx_val_of_single rfl i u
theorem dotP0_rhs0 (i : S512x768.Idx) (u : dotP0.contr.Idx) : (dotP0.rhsIdx i u 0).val = (u ⟨0, by decide⟩).val :=
  dotP0.rhsIdx_val_of_single rfl i u
theorem dotP0_rhs1 (i : S512x768.Idx) (u : dotP0.contr.Idx) : (dotP0.rhsIdx i u 1).val = (i 1).val := by
  unfold DotDims.rhsIdx
  rw [dif_neg (show ¬(1 : Fin S256x768.rank) ∈ dotP0.rhsBatch by decide), dif_pos (show (1 : Fin S256x768.rank) ∈ dotP0.rhsNonContracting by decide)]
  rfl

/-- The score product at (r, e), for any operands. -/
theorem dotS0_apply (a : FVec Ideal S512x256 .bf16) (b : FVec Ideal S3200x256 .bf16) (r : Fin 512) (e : Fin 3200) :
    matmul dotS0 none a b (constant S512x3200 .f32 0x00000000#32) (ix2 r e) = ∑ k : Fin 256, a (ix2 r k) * b (ix2 e k) := by
  refine (Ideal.matmul_constant_zero_apply (φ₁ := .bf16) (φ₂ := .bf16) dotS0 none a b (ix2 r e)).trans ?_
  rw [← Equiv.sum_comp (contrEquiv1 dotS0 256 rfl rfl).symm]
  refine Finset.sum_congr rfl fun k _ => ?_
  have hk := contrEquiv1_symm_val dotS0 256 rfl rfl k
  have el : dotS0.lhsIdx (ix2 r e) ((contrEquiv1 dotS0 256 rfl rfl).symm k) = ix2 r k := funext fun a => Fin.ext (by
    match a with
    | ⟨0, _⟩ => exact dotS0_lhs0 _ _
    | ⟨1, _⟩ => exact (dotS0_lhs1 _ _).trans hk)
  have er : dotS0.rhsIdx (ix2 r e) ((contrEquiv1 dotS0 256 rfl rfl).symm k) = ix2 e k := funext fun a => Fin.ext (by
    match a with
    | ⟨0, _⟩ => exact dotS0_rhs0 _ _
    | ⟨1, _⟩ => exact (dotS0_rhs1 _ _).trans hk)
  rw [el, er]

/-- The numerator product at (r, d): the sum over the tile's 3200 rows. -/
theorem dotN0_apply (a : FVec Ideal S512x3200 .bf16) (b : FVec Ideal S3200x256 .bf16) (r : Fin 512) (d : Fin 256) :
    matmul dotN0 none a b (constant S512x256 .f32 0x00000000#32) (ix2 r d) = ∑ e : Fin 3200, a (ix2 r e) * b (ix2 e d) := by
  refine (Ideal.matmul_constant_zero_apply (φ₁ := .bf16) (φ₂ := .bf16) dotN0 none a b (ix2 r d)).trans ?_
  rw [← Equiv.sum_comp (contrEquiv1 dotN0 3200 rfl rfl).symm]
  refine Finset.sum_congr rfl fun k _ => ?_
  have hk := contrEquiv1_symm_val dotN0 3200 rfl rfl k
  have el : dotN0.lhsIdx (ix2 r d) ((contrEquiv1 dotN0 3200 rfl rfl).symm k) = ix2 r k := funext fun a => Fin.ext (by
    match a with
    | ⟨0, _⟩ => exact dotN0_lhs0 _ _
    | ⟨1, _⟩ => exact (dotN0_lhs1 _ _).trans hk)
  have er : dotN0.rhsIdx (ix2 r d) ((contrEquiv1 dotN0 3200 rfl rfl).symm k) = ix2 k d := funext fun a => Fin.ext (by
    match a with
    | ⟨0, _⟩ => exact (dotN0_rhs0 _ _).trans hk
    | ⟨1, _⟩ => exact dotN0_rhs1 _ _)
  rw [el, er]

/-- The projection product at (r, h): the sum over the 256 retrieved coordinates. -/
theorem dotP0_apply (a : FVec Ideal S512x256 .bf16) (b : FVec Ideal S256x768 .bf16) (r : Fin 512) (h : Fin 768) :
    matmul dotP0 none a b (constant S512x768 .f32 0x00000000#32) (ix2 r h) = ∑ k : Fin 256, a (ix2 r k) * b (ix2 k h) := by
  refine (Ideal.matmul_constant_zero_apply (φ₁ := .bf16) (φ₂ := .bf16) dotP0 none a b (ix2 r h)).trans ?_
  rw [← Equiv.sum_comp (contrEquiv1 dotP0 256 rfl rfl).symm]
  refine Finset.sum_congr rfl fun k _ => ?_
  have hk := contrEquiv1_symm_val dotP0 256 rfl rfl k
  have el : dotP0.lhsIdx (ix2 r h) ((contrEquiv1 dotP0 256 rfl rfl).symm k) = ix2 r k := funext fun a => Fin.ext (by
    match a with
    | ⟨0, _⟩ => exact dotP0_lhs0 _ _
    | ⟨1, _⟩ => exact (dotP0_lhs1 _ _).trans hk)
  have er : dotP0.rhsIdx (ix2 r h) ((contrEquiv1 dotP0 256 rfl rfl).symm k) = ix2 k h := funext fun a => Fin.ext (by
    match a with
    | ⟨0, _⟩ => exact (dotP0_rhs0 _ _).trans hk
    | ⟨1, _⟩ => exact dotP0_rhs1 _ _)
  rw [el, er]

/-! ## The two lane reductions of a 512 × 3200 tile -/

/-- The index the reduction reads at row r, lane e. -/
theorem lane0_lift (hr : S512x3200.Reduces [1] S512) (r : Fin 512) (e : Fin 3200) :
    hr.lift (ix1 r) e = (ix2 r e : S512x3200.Idx) :=
  funext fun a => Fin.ext (by match a with | ⟨0, _⟩ => rfl | ⟨1, _⟩ => rfl)

/-- Folding max from ⊥ over a finite set is the supremum over it. -/
theorem foldMaxBot0 {ι : Type} (t : Finset ι) (f : ι → EReal) : t.fold max ⊥ f = t.sup f := rfl

/-- A row's maximum over the lanes, from the word of −∞: the supremum of the row. -/
theorem laneMax0_apply (src : FVec Ideal S512x3200 .f32) (hr : S512x3200.Reduces [1] S512) (hφ : FKind.Formats .f32)
    (hacc : (0xFF800000#32 : BitVec 32) = 0xFF800000#32) (r : Fin 512) :
    multiReduction (F := Ideal) .maximumf [1] S512 src 0xFF800000#32 hr hφ hacc (ix1 r)
      = (Finset.univ : Finset (Fin 3200)).sup fun e => src (ix2 r e) := by
  refine (Ideal.multiReduction_maximumf_single src 0xFF800000#32 hr hφ hacc (ix1 r)).trans ?_
  show (Finset.univ : Finset (Fin 3200)).fold max (Ideal.ofBits .f32 0xFF800000#32) (fun e => src (hr.lift (ix1 r) e)) = _
  rw [negInfWord0]
  have hf : (fun e : Fin 3200 => src (hr.lift (ix1 r) e)) = fun e => src (ix2 r e) :=
    funext fun e => congrArg src (lane0_lift hr r e)
  exact (congrArg (fun f => (Finset.univ : Finset (Fin 3200)).fold max (⊥ : EReal) f) hf).trans (foldMaxBot0 _ _)

/-- A row's sum over the lanes. -/
theorem laneSum0_apply (src : FVec Ideal S512x3200 .f32) (hr : S512x3200.Reduces [1] S512) (hφ : FKind.Formats .f32)
    (hacc : (0x00000000#32 : BitVec 32) = 0x00000000#32) (r : Fin 512) :
    multiReduction (F := Ideal) .add [1] S512 src 0x00000000#32 hr hφ hacc (ix1 r) = ∑ e : Fin 3200, src (ix2 r e) := by
  refine (Ideal.multiReduction_add_single src 0x00000000#32 hr hφ hacc (ix1 r)).trans ?_
  show ∑ e : Fin 3200, src (hr.lift (ix1 r) e) = _
  exact Finset.sum_congr rfl fun e _ => congrArg src (lane0_lift hr r e)

/-! ## Pointwise shapes of the step, over variables

Each lemma reads one arrangement of columns, rows and tiles at an index with the large operand (a lane reduction or
a product) left as a variable, so that reading it never opens that operand. -/

/-- A column against a vector stood up as a column: at row r, the maximum of the two entries. -/
theorem colMax0_apply (mx : Vec Ideal S512x1 .f32) (v : FVec Ideal S512 .f32) (hc : S512.ShapeCasts S512x1) (r : Fin 512) :
    maximumf mx (shapeCast S512x1 v hc) (ix2 r (0 : Fin 1)) = max (mx (ix2 r (0 : Fin 1))) (v (ix1 r)) := by
  show max (mx (ix2 r (0 : Fin 1))) (shapeCast S512x1 v hc (ix2 r (0 : Fin 1))) = _
  rw [Cert.LibColBcast.shapeCast_a_a1_apply]

/-- A column plus a vector stood up as a column: at row r, the sum of the two entries. -/
theorem colAdd0_apply (a : FVec Ideal S512x1 .f32) (v : FVec Ideal S512 .f32) (hc : S512.ShapeCasts S512x1) (r : Fin 512) :
    addf a (shapeCast S512x1 v hc) (ix2 r (0 : Fin 1)) = a (ix2 r (0 : Fin 1)) + v (ix1 r) := by
  show a (ix2 r (0 : Fin 1)) + shapeCast S512x1 v hc (ix2 r (0 : Fin 1)) = _
  rw [Cert.LibColBcast.shapeCast_a_a1_apply]

/-- A tile rescaled row by row by a column, plus another tile. -/
theorem rescaleAdd0_apply (f : FVec Ideal S512x1 .f32) (acc m : FVec Ideal S512x256 .f32) (hb : S512x1.Broadcasts S512x256)
    (r : Fin 512) (d : Fin 256) :
    addf (mulf (broadcastTo S512x256 f hb) acc) m (ix2 r d) = f (ix2 r (0 : Fin 1)) * acc (ix2 r d) + m (ix2 r d) := by
  show broadcastTo S512x256 f hb (ix2 r d) * acc (ix2 r d) + m (ix2 r d) = _
  rw [Cert.LibColBcast.broadcastTo_a1_ab_apply]

/-- A tile plus a vector laid along its rows, times a column laid along its columns. -/
theorem biasMask0_apply (m : FVec Ideal S512x768 .f32) (x3 : FVec Ideal S768 .f32) (x4 : FVec Ideal S512x1 .f32)
    (hc : S768.ShapeCasts S1x768) (hb1 : S1x768.Broadcasts S512x768) (hb2 : S512x1.Broadcasts S512x768) (r : Fin 512) (h : Fin 768) :
    mulf (addf m (broadcastTo S512x768 (shapeCast S1x768 x3 hc) hb1)) (broadcastTo S512x768 x4 hb2) (ix2 r h)
      = (m (ix2 r h) + x3 (ix1 h)) * x4 (ix2 r (0 : Fin 1)) := by
  show (m (ix2 r h) + broadcastTo S512x768 (shapeCast S1x768 x3 hc) hb1 (ix2 r h)) * broadcastTo S512x768 x4 hb2 (ix2 r h) = _
  rw [Cert.LibColBcast.broadcastTo_a1_ab_apply, broadcastTo_1b_ab_apply, shapeCast_a_1a_apply]

/-! ## The payloads at an index -/

/-- The numerator and the maximum are stored as computed. -/
theorem pay1_at (v : FVec Ideal S512x256 .f32) : k0_pay1 v = v := by unfold k0_pay1; simp only [shapeCast_self]
theorem pay2_at (v : FVec Ideal S512x1 .f32) : k0_pay2 v = v := by unfold k0_pay2; simp only [shapeCast_self]

/-- The first step's starting values: −∞ for the maximum, 0 for the denominator and the numerator. -/
theorem pay4_at (r : Fin 512) : k0_pay4 (F := Ideal) (ix2 r (0 : Fin 1)) = (⊥ : EReal) := by
  unfold k0_pay4; simp only [shapeCast_self]; exact negInfWord0
theorem pay5_at (r : Fin 512) : k0_pay5 (F := Ideal) (ix2 r (0 : Fin 1)) = (0 : EReal) := by
  unfold k0_pay5; simp only [shapeCast_self]; exact Ideal.ofBits_zero_f32
theorem pay6_at (r : Fin 512) (d : Fin 256) : k0_pay6 (F := Ideal) (ix2 r d) = (0 : EReal) := by
  unfold k0_pay6; simp only [shapeCast_self]; exact Ideal.ofBits_zero_f32

/-- The tile's scores. -/
theorem pay8_at (x0 : Vec Ideal S512x256 .bf16) (x1 : Vec Ideal S3200x256 .bf16) (r : Fin 512) (e : Fin 3200) :
    k0_pay8 x0 x1 (ix2 r e) = score0 x0 x1 r e := by
  unfold k0_pay8 k0_pay7
  simp only [shapeCast_self]
  exact dotS0_apply x0 x1 r e

/-- The new running maximum. -/
theorem pay9_at (x0 : Vec Ideal S512x256 .bf16) (x1 : Vec Ideal S3200x256 .bf16) (mx : Vec Ideal S512x1 .f32) (r : Fin 512) :
    k0_pay9 x0 x1 mx (ix2 r (0 : Fin 1)) = newMax0 x0 x1 mx r := by
  unfold k0_pay9
  dsimp only
  refine (colMax0_apply mx _ shapeCasts_S512_S512x1 r).trans ?_
  refine congrArg (max (mx (ix2 r (0 : Fin 1)))) ?_
  refine (laneMax0_apply (k0_pay8 x0 x1) reduces_S512x3200_S512 (.inl rfl) rfl r).trans ?_
  exact congrArg (fun f => (Finset.univ : Finset (Fin 3200)).sup f) (funext fun e => pay8_at x0 x1 r e)

/-- The factor that rescales what was carried. -/
theorem pay10_at (x0 : Vec Ideal S512x256 .bf16) (x1 : Vec Ideal S3200x256 .bf16) (mx : Vec Ideal S512x1 .f32) (r : Fin 512) :
    k0_pay10 x0 x1 mx mx (ix2 r (0 : Fin 1)) = Ideal.exp (mx (ix2 r (0 : Fin 1)) - newMax0 x0 x1 mx r) := by
  unfold k0_pay10
  show Ideal.exp (mx (ix2 r (0 : Fin 1)) - k0_pay9 x0 x1 mx (ix2 r (0 : Fin 1))) = _
  rw [pay9_at]

/-- The tile's weights. -/
theorem pay11_at (x0 : Vec Ideal S512x256 .bf16) (x1 : Vec Ideal S3200x256 .bf16) (mx : Vec Ideal S512x1 .f32) (r : Fin 512) (e : Fin 3200) :
    k0_pay11 x0 x1 mx (ix2 r e) = Ideal.exp (score0 x0 x1 r e - newMax0 x0 x1 mx r) := by
  unfold k0_pay11
  show Ideal.exp (k0_pay8 x0 x1 (ix2 r e) - broadcastTo S512x3200 (k0_pay9 x0 x1 mx) broadcasts_S512x1_S512x3200 (ix2 r e)) = _
  rw [pay8_at, Cert.LibColBcast.broadcastTo_a1_ab_apply, pay9_at]

/-- The new running denominator. -/
theorem pay12_at (x0 : Vec Ideal S512x256 .bf16) (x1 : Vec Ideal S3200x256 .bf16) (mx l : Vec Ideal S512x1 .f32) (r : Fin 512) :
    k0_pay12 x0 x1 mx mx l (ix2 r (0 : Fin 1))
      = Ideal.exp (mx (ix2 r (0 : Fin 1)) - newMax0 x0 x1 mx r) * l (ix2 r (0 : Fin 1))
        + ∑ e : Fin 3200, Ideal.exp (score0 x0 x1 r e - newMax0 x0 x1 mx r) := by
  unfold k0_pay12
  simp only [shapeCast_self]
  refine (colAdd0_apply _ _ shapeCasts_S512_S512x1 r).trans ?_
  refine congrArg₂ (· + ·) ?_ ?_
  · show k0_pay10 x0 x1 mx mx (ix2 r (0 : Fin 1)) * l (ix2 r (0 : Fin 1)) = _
    rw [pay10_at]
  · refine (laneSum0_apply (k0_pay11 x0 x1 mx) reduces_S512x3200_S512 (.inl rfl) rfl r).trans ?_
    exact Finset.sum_congr rfl fun e _ => pay11_at x0 x1 mx r e

/-- The new running numerator. -/
theorem pay13_at (x0 : Vec Ideal S512x256 .bf16) (x1 : Vec Ideal S3200x256 .bf16) (mx : Vec Ideal S512x1 .f32) (acc : Vec Ideal S512x256 .f32)
    (r : Fin 512) (d : Fin 256) :
    k0_pay13 x0 x1 mx mx acc (ix2 r d)
      = Ideal.exp (mx (ix2 r (0 : Fin 1)) - newMax0 x0 x1 mx r) * acc (ix2 r d)
        + ∑ e : Fin 3200, Ideal.exp (score0 x0 x1 r e - newMax0 x0 x1 mx r) * x1 (ix2 e d) := by
  unfold k0_pay13 k0_pay7
  simp only [shapeCast_self]
  refine (rescaleAdd0_apply _ acc _ broadcasts_S512x1_S512x256 r d).trans ?_
  refine congrArg₂ (· + ·) ?_ ?_
  · rw [pay10_at]
  · refine (dotN0_apply _ x1 r d).trans ?_
    refine Finset.sum_congr rfl fun e _ => ?_
    show k0_pay11 x0 x1 mx (ix2 r e) * x1 (ix2 e d) = _
    rw [pay11_at]

/-- The last step's result: the retrieved row (numerator over denominator) projected, the bias added, the mask applied. -/
theorem pay3_at (acc : Vec Ideal S512x256 .f32) (l : Vec Ideal S512x1 .f32) (x2 : Vec Ideal S256x768 .bf16) (x3 : Vec Ideal S768 .f32)
    (x4 : Vec Ideal S512x1 .f32) (r : Fin 512) (h : Fin 768) :
    k0_pay3 acc l x2 x3 x4 (ix2 r h)
      = ((∑ k : Fin 256, Ideal.div (acc (ix2 r k)) (l (ix2 r (0 : Fin 1))) * x2 (ix2 k h)) + x3 (ix1 h)) * x4 (ix2 r (0 : Fin 1)) := by
  unfold k0_pay3
  simp only [shapeCast_self]
  refine (biasMask0_apply _ x3 x4 shapeCasts_S768_S1x768 broadcasts_S1x768_S512x768 broadcasts_S512x1_S512x768 r h).trans ?_
  refine congrArg (fun z => (z + x3 (ix1 h)) * x4 (ix2 r (0 : Fin 1))) ?_
  refine (dotP0_apply _ x2 r h).trans ?_
  refine Finset.sum_congr rfl fun k _ => ?_
  show Ideal.div (acc (ix2 r k)) (broadcastTo S512x256 l broadcasts_S512x1_S512x256 (ix2 r k)) * x2 (ix2 k h) = _
  rw [Cert.LibColBcast.broadcastTo_a1_ab_apply]

end Cert.KernelIdeal.Hand

end
-- ==== Proof.LibOnlineSoftmax.lean ====
import Mathlib.Algebra.BigOperators.Fin
import Mathlib.Algebra.Order.BigOperators.Group.Finset
import Mathlib.Data.Fintype.BigOperators
import Mathlib.Order.Interval.Finset.Fin
import Idealize.ShloMosaic.PureOps.Ideal

/-!
# Online (tile by tile, rescaled) softmax against the whole-row softmax, on the extended reals

A row of real scores is cut into `n` tiles indexed by `E`.  The online algorithm keeps a
running maximum `m`, a running denominator `l` and running numerators `acc d`, all extended
reals, starting from `m = ⊥`, `l = 0`, `acc = 0`; at every tile it raises the maximum and
rescales what it has by `exp (m - m')`.  This file shows that after the tiles `0 … j` the state
is the real maximum over those tiles, the real sum of `exp (s - max)` over them, and the real
sum of `exp (s - max) * v`; that the final quotients are the softmax weights and the weighted
sum of the values; and that these are the values the whole-row computation (maximum, exponentials,
sum, quotient, weighted sum) gives on the row re-indexed along any bijection.
-/

noncomputable section

namespace OnlineSoftmax

open Idealize.ShloMosaic
open scoped BigOperators

/-! ### Small facts on the extended reals -/

/-- The coercion of a finite sum of reals is the sum of the coercions. -/
theorem coe_sum {ι : Type*} (t : Finset ι) (f : ι → ℝ) :
    ((∑ i ∈ t, f i : ℝ) : EReal) = ∑ i ∈ t, (f i : EReal) := by
  classical
  refine Finset.induction_on t (by simp) ?_
  intro a t ha ih
  rw [Finset.sum_insert ha, Finset.sum_insert ha, EReal.coe_add, ih]

/-- The coercion of the larger of two reals is the larger of the coercions. -/
theorem coe_max (a b : ℝ) : ((max a b : ℝ) : EReal) = max (a : EReal) (b : EReal) :=
  Monotone.map_max fun _ _ h => EReal.coe_le_coe_iff.2 h

/-- The exponential of a difference of two reals, taken on the extended reals. -/
theorem exp_coe_sub (x y : ℝ) :
    Ideal.exp ((x : EReal) - (y : EReal)) = ((Real.exp (x - y) : ℝ) : EReal) := by
  rw [← EReal.coe_sub, Ideal.exp_coe]

/-- From `-∞` the exponential of the difference is zero. -/
theorem exp_bot_sub (x : EReal) : Ideal.exp (⊥ - x) = 0 := by
  rw [EReal.bot_sub, Ideal.exp_bot]

/-- The quotient of two reals, the divisor not zero, is the real quotient. -/
theorem div_coe_coe (x : ℝ) {a : ℝ} (ha : a ≠ 0) :
    Ideal.div (x : EReal) (a : EReal) = ((x / a : ℝ) : EReal) := by
  rw [Ideal.div_coe ha, ← EReal.coe_mul, mul_one_div]

/-- Folding `max` from `⊥` over a finite family is its supremum. -/
theorem fold_max_bot_eq_sup {ι : Type*} (t : Finset ι) (f : ι → EReal) :
    t.fold max ⊥ f = t.sup f := rfl

section Max
variable {ι : Type*} [Fintype ι] [Nonempty ι]

/-- The supremum, on the extended reals, of a nonempty finite family of reals is the coercion
    of its real maximum. -/
theorem sup_coe (f : ι → ℝ) :
    (Finset.univ.sup fun i => (f i : EReal))
      = ((Finset.univ.sup' Finset.univ_nonempty f : ℝ) : EReal) := by
  apply le_antisymm
  · exact Finset.sup_le fun i _ => EReal.coe_le_coe_iff.2 (Finset.le_sup' f (Finset.mem_univ i))
  · obtain ⟨i, _, hi⟩ := Finset.exists_mem_eq_sup' Finset.univ_nonempty f
    rw [hi]
    exact Finset.le_sup (f := fun i => (f i : EReal)) (Finset.mem_univ i)

/-- The same for the fold of `max` from `⊥`. -/
theorem fold_max_coe (f : ι → ℝ) :
    (Finset.univ.fold max ⊥ fun i => (f i : EReal))
      = ((Finset.univ.sup' Finset.univ_nonempty f : ℝ) : EReal) :=
  sup_coe f

end Max

/-! ### The state and one step -/

universe u v
variable {E : Type u} {D : Type v} [Fintype E] [Fintype D]

/-- The state carried from tile to tile: running maximum, running denominator, running
    numerators. -/
abbrev St (D : Type v) : Type v := EReal × EReal × (D → EReal)

/-- The state before the first tile: maximum `-∞`, sums zero. -/
def init (D : Type v) : St D := (⊥, 0, fun _ => 0)

/-- One tile of the online algorithm, on a tile `sj` of scores and a tile `vj` of values:
    the maximum is raised to `m' = max m (sup sj)`, the old sums are rescaled by `exp (m - m')`
    and the tile's `exp (sj e - m')` (times the values, for the numerators) are added. -/
def step (sj : E → ℝ) (vj : E → D → ℝ) (st : St D) : St D :=
  let m' := max st.1 (Finset.univ.sup fun e => (sj e : EReal))
  (m',
   Ideal.exp (st.1 - m') * st.2.1 + ∑ e, Ideal.exp ((sj e : EReal) - m'),
   fun d => Ideal.exp (st.1 - m') * st.2.2 d + ∑ e, Ideal.exp ((sj e : EReal) - m') * (vj e d : EReal))

/-- The new maximum of a step. -/
theorem step_max (sj : E → ℝ) (vj : E → D → ℝ) (st : St D) :
    (step sj vj st).1 = max st.1 (Finset.univ.sup fun e => (sj e : EReal)) := rfl

/-- The new denominator of a step, in terms of the new maximum. -/
theorem step_den (sj : E → ℝ) (vj : E → D → ℝ) (st : St D) :
    (step sj vj st).2.1
      = Ideal.exp (st.1 - (step sj vj st).1) * st.2.1
        + ∑ e, Ideal.exp ((sj e : EReal) - (step sj vj st).1) := rfl

/-- The new numerators of a step, in terms of the new maximum. -/
theorem step_num (sj : E → ℝ) (vj : E → D → ℝ) (st : St D) (d : D) :
    (step sj vj st).2.2 d
      = Ideal.exp (st.1 - (step sj vj st).1) * st.2.2 d
        + ∑ e, Ideal.exp ((sj e : EReal) - (step sj vj st).1) * (vj e d : EReal) := rfl

/-- The real maximum of one tile. -/
def tileMax [Nonempty E] (sj : E → ℝ) : ℝ := Finset.univ.sup' Finset.univ_nonempty sj

/-- Every score of a tile is at most the tile's maximum. -/
theorem le_tileMax [Nonempty E] (sj : E → ℝ) (e : E) : sj e ≤ tileMax sj :=
  Finset.le_sup' sj (Finset.mem_univ e)

/-- The tile's maximum is one of its scores. -/
theorem exists_eq_tileMax [Nonempty E] (sj : E → ℝ) : ∃ e, sj e = tileMax sj := by
  obtain ⟨e, _, he⟩ := Finset.exists_mem_eq_sup' Finset.univ_nonempty sj
  exact ⟨e, he.symm⟩

/-- The supremum of a tile's scores on the extended reals is the tile's real maximum. -/
theorem sup_tile [Nonempty E] (sj : E → ℝ) :
    (Finset.univ.sup fun e => (sj e : EReal)) = ((tileMax sj : ℝ) : EReal) := sup_coe sj

section FirstStep
variable [Nonempty E] (sj : E → ℝ) (vj : E → D → ℝ)

/-- The first step's maximum is the tile's. -/
theorem step_init_max : (step sj vj (init D)).1 = ((tileMax sj : ℝ) : EReal) := by
  rw [step_max]
  show max (⊥ : EReal) _ = _
  rw [max_eq_right bot_le, sup_tile]

/-- The first step's denominator: the rescaling factor is `exp (-∞) = 0`, the sum is the
    tile's alone. -/
theorem step_init_den :
    (step sj vj (init D)).2.1 = ((∑ e, Real.exp (sj e - tileMax sj) : ℝ) : EReal) := by
  rw [step_den, step_init_max]
  show Ideal.exp (⊥ - ((tileMax sj : ℝ) : EReal)) * 0 + _ = _
  simp only [mul_zero, zero_add, coe_sum, exp_coe_sub]

/-- The first step's numerators. -/
theorem step_init_num (d : D) :
    (step sj vj (init D)).2.2 d = ((∑ e, Real.exp (sj e - tileMax sj) * vj e d : ℝ) : EReal) := by
  rw [step_num, step_init_max]
  show Ideal.exp (⊥ - ((tileMax sj : ℝ) : EReal)) * 0 + _ = _
  simp only [mul_zero, zero_add, coe_sum, exp_coe_sub, EReal.coe_mul]

/-- The first step, from the initial state. -/
theorem step_init :
    step sj vj (init D)
      = (((tileMax sj : ℝ) : EReal),
         ((∑ e, Real.exp (sj e - tileMax sj) : ℝ) : EReal),
         fun d => ((∑ e, Real.exp (sj e - tileMax sj) * vj e d : ℝ) : EReal)) :=
  Prod.ext (step_init_max sj vj) (Prod.ext (step_init_den sj vj) (funext (step_init_num sj vj)))

end FirstStep

section RealStep
variable [Nonempty E] (sj : E → ℝ) (vj : E → D → ℝ) (Mp Lp : ℝ) (Ap : D → ℝ)

/-- A step from a real maximum `Mp` raises it to `max Mp (tileMax sj)`. -/
theorem step_coe_max :
    (step sj vj ((Mp : EReal), (Lp : EReal), fun d => (Ap d : EReal))).1
      = ((max Mp (tileMax sj) : ℝ) : EReal) := by
  rw [step_max]
  show max (Mp : EReal) _ = _
  rw [sup_tile, coe_max]

/-- A step from real sums: the old denominator is rescaled by `exp (Mp - M')`, the tile's
    exponentials are added. -/
theorem step_coe_den :
    (step sj vj ((Mp : EReal), (Lp : EReal), fun d => (Ap d : EReal))).2.1
      = ((Real.exp (Mp - max Mp (tileMax sj)) * Lp
            + ∑ e, Real.exp (sj e - max Mp (tileMax sj)) : ℝ) : EReal) := by
  rw [step_den, step_coe_max]
  show Ideal.exp ((Mp : EReal) - _) * (Lp : EReal) + _ = _
  simp only [EReal.coe_add, EReal.coe_mul, coe_sum, exp_coe_sub]

/-- A step from real sums: the numerators. -/
theorem step_coe_num (d : D) :
    (step sj vj ((Mp : EReal), (Lp : EReal), fun d => (Ap d : EReal))).2.2 d
      = ((Real.exp (Mp - max Mp (tileMax sj)) * Ap d
            + ∑ e, Real.exp (sj e - max Mp (tileMax sj)) * vj e d : ℝ) : EReal) := by
  rw [step_num, step_coe_max]
  show Ideal.exp ((Mp : EReal) - _) * (Ap d : EReal) + _ = _
  simp only [EReal.coe_add, EReal.coe_mul, coe_sum, exp_coe_sub]

/-- A step from a state of reals is a state of reals. -/
theorem step_coe :
    step sj vj ((Mp : EReal), (Lp : EReal), fun d => (Ap d : EReal))
      = (((max Mp (tileMax sj) : ℝ) : EReal),
         ((Real.exp (Mp - max Mp (tileMax sj)) * Lp
            + ∑ e, Real.exp (sj e - max Mp (tileMax sj)) : ℝ) : EReal),
         fun d => ((Real.exp (Mp - max Mp (tileMax sj)) * Ap d
            + ∑ e, Real.exp (sj e - max Mp (tileMax sj)) * vj e d : ℝ) : EReal)) :=
  Prod.ext (step_coe_max sj vj Mp Lp Ap)
    (Prod.ext (step_coe_den sj vj Mp Lp Ap) (funext (step_coe_num sj vj Mp Lp Ap)))

end RealStep

/-! ### The run over tiles numbered by the naturals -/

/-- The state after the tiles `0 … j - 1`, the tiles numbered by the naturals. -/
def stateN (s : ℕ → E → ℝ) (v : ℕ → E → D → ℝ) : ℕ → St D
  | 0 => init D
  | j + 1 => step (s j) (v j) (stateN s v j)

/-- Before the first tile. -/
theorem stateN_zero (s : ℕ → E → ℝ) (v : ℕ → E → D → ℝ) : stateN s v 0 = init D := rfl

/-- One more tile. -/
theorem stateN_succ (s : ℕ → E → ℝ) (v : ℕ → E → D → ℝ) (j : ℕ) :
    stateN s v (j + 1) = step (s j) (v j) (stateN s v j) := rfl

/-- The real maximum over the tiles `0 … j`. -/
def runMax [Nonempty E] (s : ℕ → E → ℝ) : ℕ → ℝ
  | 0 => tileMax (s 0)
  | j + 1 => max (runMax s j) (tileMax (s (j + 1)))

/-- The running maximum after the first tile is that tile's maximum. -/
theorem runMax_zero [Nonempty E] (s : ℕ → E → ℝ) : runMax s 0 = tileMax (s 0) := rfl

/-- One more tile: the running maximum is raised to the tile's maximum. -/
theorem runMax_succ [Nonempty E] (s : ℕ → E → ℝ) (j : ℕ) :
    runMax s (j + 1) = max (runMax s j) (tileMax (s (j + 1))) := rfl

/-- Every score of the tiles `0 … j` is at most their running maximum. -/
theorem le_runMax [Nonempty E] (s : ℕ → E → ℝ) {j' j : ℕ} (h : j' ≤ j) (e : E) :
    s j' e ≤ runMax s j := by
  induction j with
  | zero =>
    obtain rfl : j' = 0 := Nat.le_zero.1 h
    exact le_tileMax _ e
  | succ j ih =>
    rw [runMax_succ]
    rcases Nat.lt_or_ge j' (j + 1) with h' | h'
    · exact (ih (Nat.lt_succ_iff.1 h')).trans (le_max_left _ _)
    · obtain rfl : j' = j + 1 := le_antisymm h h'
      exact (le_tileMax _ e).trans (le_max_right _ _)

/-- The running maximum is one of the scores of the tiles `0 … j`. -/
theorem exists_eq_runMax [Nonempty E] (s : ℕ → E → ℝ) (j : ℕ) :
    ∃ j', j' ≤ j ∧ ∃ e, s j' e = runMax s j := by
  induction j with
  | zero =>
    obtain ⟨e, he⟩ := exists_eq_tileMax (s 0)
    exact ⟨0, le_rfl, e, he⟩
  | succ j ih =>
    rw [runMax_succ]
    rcases le_total (runMax s j) (tileMax (s (j + 1))) with h | h
    · obtain ⟨e, he⟩ := exists_eq_tileMax (s (j + 1))
      exact ⟨j + 1, le_rfl, e, by rw [he, max_eq_right h]⟩
    · obtain ⟨j', hj', e, he⟩ := ih
      exact ⟨j', Nat.le_succ_of_le hj', e, by rw [he, max_eq_left h]⟩

/-- Rescaling: `exp (M - M') * exp (x - M) = exp (x - M')`. -/
theorem exp_rescale (M M' x : ℝ) : Real.exp (M - M') * Real.exp (x - M) = Real.exp (x - M') := by
  rw [← Real.exp_add]; congr 1; ring

/-- **The invariant.**  After the tiles `0 … j` the state is: the real maximum `M` of their
    scores; the real sum of `exp (s - M)` over them; the real sums of `exp (s - M) * v`. -/
theorem stateN_succ_eq [Nonempty E] (s : ℕ → E → ℝ) (v : ℕ → E → D → ℝ) (j : ℕ) :
    stateN s v (j + 1)
      = (((runMax s j : ℝ) : EReal),
         ((∑ j' ∈ Finset.range (j + 1), ∑ e, Real.exp (s j' e - runMax s j) : ℝ) : EReal),
         fun d => ((∑ j' ∈ Finset.range (j + 1), ∑ e,
                      Real.exp (s j' e - runMax s j) * v j' e d : ℝ) : EReal)) := by
  induction j with
  | zero =>
    rw [stateN_succ, stateN_zero, step_init]
    simp only [zero_add, Finset.range_one, Finset.sum_singleton, runMax_zero]
  | succ j ih =>
    rw [stateN_succ, ih, step_coe, ← runMax_succ]
    refine Prod.ext rfl (Prod.ext ?_ (funext fun d => ?_))
    · show ((_ : ℝ) : EReal) = ((_ : ℝ) : EReal)
      congr 1
      rw [Finset.sum_range_succ _ (j + 1), Finset.mul_sum]
      congr 1
      refine Finset.sum_congr rfl fun j' _ => ?_
      rw [Finset.mul_sum]
      exact Finset.sum_congr rfl fun e _ => exp_rescale _ _ _
    · show ((_ : ℝ) : EReal) = ((_ : ℝ) : EReal)
      congr 1
      rw [Finset.sum_range_succ _ (j + 1), Finset.mul_sum]
      congr 1
      refine Finset.sum_congr rfl fun j' _ => ?_
      rw [Finset.mul_sum]
      exact Finset.sum_congr rfl fun e _ => by rw [← mul_assoc, exp_rescale]

/-! ### Tiles numbered by `Fin n` -/

/-- A family indexed by `Fin n`, continued by a default value from `n` on. -/
def extendFin {α : Type*} {n : ℕ} (z : α) (f : Fin n → α) : ℕ → α :=
  fun j => if h : j < n then f ⟨j, h⟩ else z

/-- Below `n` the continued family is the family. -/
theorem extendFin_of_lt {α : Type*} {n : ℕ} (z : α) (f : Fin n → α) {j : ℕ} (h : j < n) :
    extendFin z f j = f ⟨j, h⟩ := dif_pos h

/-- At the value of an index the continued family is the family. -/
theorem extendFin_val {α : Type*} {n : ℕ} (z : α) (f : Fin n → α) (j : Fin n) :
    extendFin z f j.val = f j := by
  rw [extendFin_of_lt z f j.isLt]

variable {n : ℕ}

/-- The state after the tiles `0 … j - 1` of the `n` tiles `s 0, …, s (n-1)` (and their
    values `v`): `state s v 0` is the initial state, `state s v n` the final one. -/
def state (s : Fin n → E → ℝ) (v : Fin n → E → D → ℝ) (j : ℕ) : St D :=
  stateN (extendFin (fun _ => 0) s) (extendFin (fun _ _ => 0) v) j

/-- Before the first tile. -/
theorem state_zero (s : Fin n → E → ℝ) (v : Fin n → E → D → ℝ) : state s v 0 = init D := rfl

/-- Tile `j` takes the state after `j` tiles to the state after `j + 1`. -/
theorem state_succ (s : Fin n → E → ℝ) (v : Fin n → E → D → ℝ) {j : ℕ} (h : j < n) :
    state s v (j + 1) = step (s ⟨j, h⟩) (v ⟨j, h⟩) (state s v j) := by
  unfold state
  rw [stateN_succ, extendFin_of_lt _ s h, extendFin_of_lt _ v h]

/-- The real maximum over the tiles `0 … j` of `n` tiles. -/
def partMax [Nonempty E] (s : Fin n → E → ℝ) (j : ℕ) : ℝ :=
  runMax (extendFin (fun _ => 0) s) j

/-- Every score of the tiles `0 … j` is at most `partMax s j`. -/
theorem le_partMax [Nonempty E] (s : Fin n → E → ℝ) {j : ℕ} (j' : Fin n) (h : j'.val ≤ j) (e : E) :
    s j' e ≤ partMax s j := by
  have := le_runMax (extendFin (fun _ => 0) s) h e
  rwa [extendFin_val] at this

/-- `partMax s j` is one of the scores of the tiles `0 … j` (for `j < n`). -/
theorem exists_eq_partMax [Nonempty E] (s : Fin n → E → ℝ) {j : ℕ} (hj : j < n) :
    ∃ j' : Fin n, j'.val ≤ j ∧ ∃ e, s j' e = partMax s j := by
  obtain ⟨j', hj', e, he⟩ := exists_eq_runMax (extendFin (fun _ => 0) s) j
  refine ⟨⟨j', lt_of_le_of_lt hj' hj⟩, hj', e, ?_⟩
  rw [← extendFin_of_lt (fun _ => 0) s (lt_of_le_of_lt hj' hj)]
  exact he

/-- **The invariant, for `n` tiles** (tiles `0 … j` done): the maximum is the real
    `partMax s j`; the denominator and the numerators are the real sums over those tiles
    (a tile `j' < n` of the continued family is `s ⟨j', _⟩`: `extendFin_of_lt`). -/
theorem state_succ_eq [Nonempty E] (s : Fin n → E → ℝ) (v : Fin n → E → D → ℝ) (j : ℕ) :
    state s v (j + 1)
      = (((partMax s j : ℝ) : EReal),
         ((∑ j' ∈ Finset.range (j + 1), ∑ e,
              Real.exp (extendFin (fun _ => 0) s j' e - partMax s j) : ℝ) : EReal),
         fun d => ((∑ j' ∈ Finset.range (j + 1), ∑ e,
              Real.exp (extendFin (fun _ => 0) s j' e - partMax s j)
                * extendFin (fun _ _ => 0) v j' e d : ℝ) : EReal)) :=
  stateN_succ_eq _ _ j

/-- The real maximum of all the scores. -/
def rowMax [NeZero n] [Nonempty E] (s : Fin n → E → ℝ) : ℝ :=
  Finset.univ.sup' ⟨((0 : Fin n), Classical.arbitrary E), Finset.mem_univ _⟩
    fun p : Fin n × E => s p.1 p.2

/-- Every score is at most `rowMax`. -/
theorem le_rowMax [NeZero n] [Nonempty E] (s : Fin n → E → ℝ) (j : Fin n) (e : E) :
    s j e ≤ rowMax s :=
  Finset.le_sup' (fun p : Fin n × E => s p.1 p.2) (Finset.mem_univ (j, e))

/-- `rowMax` is one of the scores. -/
theorem exists_eq_rowMax [NeZero n] [Nonempty E] (s : Fin n → E → ℝ) :
    ∃ j e, s j e = rowMax s := by
  obtain ⟨p, _, hp⟩ := Finset.exists_mem_eq_sup'
    (⟨((0 : Fin n), Classical.arbitrary E), Finset.mem_univ _⟩ : (Finset.univ : Finset (Fin n × E)).Nonempty)
    fun p : Fin n × E => s p.1 p.2
  exact ⟨p.1, p.2, hp.symm⟩

/-- After all the tiles the running maximum is the maximum of all the scores. -/
theorem partMax_last [NeZero n] [Nonempty E] (s : Fin n → E → ℝ) {k : ℕ} (hk : k + 1 = n) :
    partMax s k = rowMax s := by
  apply le_antisymm
  · obtain ⟨j', _, e, he⟩ := exists_eq_partMax s (show k < n by omega)
    rw [← he]
    exact le_rowMax s j' e
  · obtain ⟨j, e, he⟩ := exists_eq_rowMax s
    rw [← he]
    exact le_partMax s j (by have := j.isLt; omega) e

/-- The real denominator: the sum of `exp (s - rowMax)` over all the scores. -/
def rowSum [NeZero n] [Nonempty E] (s : Fin n → E → ℝ) : ℝ :=
  ∑ j, ∑ e, Real.exp (s j e - rowMax s)

/-- The denominator is at least one (the maximum contributes `exp 0`). -/
theorem one_le_rowSum [NeZero n] [Nonempty E] (s : Fin n → E → ℝ) : 1 ≤ rowSum s := by
  obtain ⟨j, e, he⟩ := exists_eq_rowMax s
  have h1 : Real.exp (s j e - rowMax s) ≤ ∑ e', Real.exp (s j e' - rowMax s) :=
    Finset.single_le_sum (f := fun e' => Real.exp (s j e' - rowMax s))
      (fun _ _ => (Real.exp_pos _).le) (Finset.mem_univ e)
  have h2 : (∑ e', Real.exp (s j e' - rowMax s)) ≤ rowSum s :=
    Finset.single_le_sum (f := fun j' => ∑ e', Real.exp (s j' e' - rowMax s))
      (fun _ _ => Finset.sum_nonneg fun _ _ => (Real.exp_pos _).le) (Finset.mem_univ j)
  rw [he, sub_self, Real.exp_zero] at h1
  exact h1.trans h2

/-- The denominator is positive. -/
theorem rowSum_pos [NeZero n] [Nonempty E] (s : Fin n → E → ℝ) : 0 < rowSum s :=
  lt_of_lt_of_le one_pos (one_le_rowSum s)

/-- The denominator is not zero. -/
theorem rowSum_ne_zero [NeZero n] [Nonempty E] (s : Fin n → E → ℝ) : rowSum s ≠ 0 :=
  (rowSum_pos s).ne'

/-- **The final state**: the maximum of all the scores, the sum of `exp (s - max)` over all
    of them, the sums of `exp (s - max) * v`. -/
theorem state_final [NeZero n] [Nonempty E] (s : Fin n → E → ℝ) (v : Fin n → E → D → ℝ) :
    state s v n
      = (((rowMax s : ℝ) : EReal),
         ((rowSum s : ℝ) : EReal),
         fun d => ((∑ j, ∑ e, Real.exp (s j e - rowMax s) * v j e d : ℝ) : EReal)) := by
  obtain ⟨k, hk⟩ : ∃ k, k + 1 = n := ⟨n - 1, Nat.sub_add_cancel (NeZero.pos n)⟩
  have h := state_succ_eq s v k
  rw [partMax_last s hk, hk] at h
  rw [h]
  refine Prod.ext rfl (Prod.ext ?_ (funext fun d => ?_))
  · show ((_ : ℝ) : EReal) = ((_ : ℝ) : EReal)
    congr 1
    rw [Finset.sum_range fun j' => ∑ e, Real.exp (extendFin (fun _ => 0) s j' e - rowMax s)]
    exact Finset.sum_congr rfl fun j' _ => by rw [extendFin_val]
  · show ((_ : ℝ) : EReal) = ((_ : ℝ) : EReal)
    congr 1
    rw [Finset.sum_range fun j' => ∑ e, Real.exp (extendFin (fun _ => 0) s j' e - rowMax s)
          * extendFin (fun _ _ => 0) v j' e d]
    exact Finset.sum_congr rfl fun j' _ => by rw [extendFin_val, extendFin_val]

section Final
variable [NeZero n] [Nonempty E] (s : Fin n → E → ℝ) (v : Fin n → E → D → ℝ)

/-- The final maximum. -/
theorem final_max : (state s v n).1 = ((rowMax s : ℝ) : EReal) := by rw [state_final]

/-- The final denominator. -/
theorem final_den : (state s v n).2.1 = ((rowSum s : ℝ) : EReal) := by rw [state_final]

/-- The final numerators. -/
theorem final_num (d : D) :
    (state s v n).2.2 d = ((∑ j, ∑ e, Real.exp (s j e - rowMax s) * v j e d : ℝ) : EReal) := by
  rw [state_final]

/-- **The final quotient of the numerators by the denominator** is the weighted sum of the
    values, the weights `exp (s - max) / sum`. -/
theorem final_retrieved (d : D) :
    Ideal.div ((state s v n).2.2 d) (state s v n).2.1
      = ((∑ j, ∑ e, Real.exp (s j e - rowMax s) / rowSum s * v j e d : ℝ) : EReal) := by
  rw [final_num, final_den, div_coe_coe _ (rowSum_ne_zero s)]
  congr 1
  rw [Finset.sum_div]
  refine Finset.sum_congr rfl fun j _ => ?_
  rw [Finset.sum_div]
  exact Finset.sum_congr rfl fun e _ => by ring

/-- **The weights recomputed from the final maximum and denominator** are
    `exp (s - max) / sum`. -/
theorem final_weight (j : Fin n) (e : E) :
    Ideal.div (Ideal.exp ((s j e : EReal) - (state s v n).1)) (state s v n).2.1
      = ((Real.exp (s j e - rowMax s) / rowSum s : ℝ) : EReal) := by
  rw [final_max, final_den, exp_coe_sub, div_coe_coe _ (rowSum_ne_zero s)]

end Final

/-! ### The whole-row softmax -/

section Reference
variable {I : Type*} [Fintype I] [Nonempty I]

/-- The real maximum of a whole row. -/
def refMax (S : I → ℝ) : ℝ := Finset.univ.sup' Finset.univ_nonempty S

/-- The real denominator of a whole row. -/
def refSum (S : I → ℝ) : ℝ := ∑ i, Real.exp (S i - refMax S)

/-- Every score of the row is at most its maximum. -/
theorem le_refMax (S : I → ℝ) (i : I) : S i ≤ refMax S :=
  Finset.le_sup' S (Finset.mem_univ i)

/-- The row's maximum is one of its scores. -/
theorem exists_eq_refMax (S : I → ℝ) : ∃ i, S i = refMax S := by
  obtain ⟨i, _, hi⟩ := Finset.exists_mem_eq_sup' Finset.univ_nonempty S
  exact ⟨i, hi.symm⟩

/-- The row's denominator is at least one. -/
theorem one_le_refSum (S : I → ℝ) : 1 ≤ refSum S := by
  obtain ⟨i, hi⟩ := exists_eq_refMax S
  have h1 : Real.exp (S i - refMax S) ≤ refSum S :=
    Finset.single_le_sum (f := fun i' => Real.exp (S i' - refMax S))
      (fun _ _ => (Real.exp_pos _).le) (Finset.mem_univ i)
  rwa [hi, sub_self, Real.exp_zero] at h1

/-- The row's denominator is positive. -/
theorem refSum_pos (S : I → ℝ) : 0 < refSum S := lt_of_lt_of_le one_pos (one_le_refSum S)

/-- The row's denominator is not zero. -/
theorem refSum_ne_zero (S : I → ℝ) : refSum S ≠ 0 := (refSum_pos S).ne'

/-- The row's maximum on the extended reals, as a supremum. -/
theorem ref_max_sup (S : I → ℝ) :
    (Finset.univ.sup fun i => (S i : EReal)) = ((refMax S : ℝ) : EReal) := sup_coe S

/-- The row's maximum on the extended reals, as a fold of `max` from `⊥`. -/
theorem ref_max_fold (S : I → ℝ) :
    (Finset.univ.fold max ⊥ fun i => (S i : EReal)) = ((refMax S : ℝ) : EReal) := sup_coe S

/-- The same, with one more `max` against `⊥` in front. -/
theorem ref_max_fold' (S : I → ℝ) :
    max ⊥ (Finset.univ.fold max ⊥ fun i => (S i : EReal)) = ((refMax S : ℝ) : EReal) := by
  rw [max_eq_right bot_le, ref_max_fold]

/-- The row's exponentials, on the extended reals. -/
theorem ref_exp (S : I → ℝ) (i : I) :
    Ideal.exp ((S i : EReal) - ((refMax S : ℝ) : EReal))
      = ((Real.exp (S i - refMax S) : ℝ) : EReal) := exp_coe_sub _ _

/-- The row's denominator, on the extended reals. -/
theorem ref_sum (S : I → ℝ) :
    (∑ i, Ideal.exp ((S i : EReal) - ((refMax S : ℝ) : EReal))) = ((refSum S : ℝ) : EReal) := by
  unfold refSum
  rw [coe_sum]
  exact Finset.sum_congr rfl fun i _ => ref_exp S i

/-- The row's denominator summed from the initial value zero. -/
theorem ref_sum' (S : I → ℝ) :
    0 + (∑ i, Ideal.exp ((S i : EReal) - ((refMax S : ℝ) : EReal))) = ((refSum S : ℝ) : EReal) := by
  rw [zero_add, ref_sum]

/-- The row's weights, on the extended reals. -/
theorem ref_weight (S : I → ℝ) (i : I) :
    Ideal.div (Ideal.exp ((S i : EReal) - ((refMax S : ℝ) : EReal))) ((refSum S : ℝ) : EReal)
      = ((Real.exp (S i - refMax S) / refSum S : ℝ) : EReal) := by
  rw [ref_exp, div_coe_coe _ (refSum_ne_zero S)]

/-- The weighted sum of real values with real weights, on the extended reals. -/
theorem ref_retrieved {D : Type*} (S : I → ℝ) (w : I → D → ℝ) (d : D) :
    (∑ i, ((Real.exp (S i - refMax S) / refSum S : ℝ) : EReal) * (w i d : EReal))
      = ((∑ i, Real.exp (S i - refMax S) / refSum S * w i d : ℝ) : EReal) := by
  rw [coe_sum]
  exact Finset.sum_congr rfl fun i _ => (EReal.coe_mul _ _).symm

/-- The same summed from the initial value zero. -/
theorem ref_retrieved' {D : Type*} (S : I → ℝ) (w : I → D → ℝ) (d : D) :
    0 + (∑ i, ((Real.exp (S i - refMax S) / refSum S : ℝ) : EReal) * (w i d : EReal))
      = ((∑ i, Real.exp (S i - refMax S) / refSum S * w i d : ℝ) : EReal) := by
  rw [zero_add, ref_retrieved]

end Reference

/-! ### The join: the online results are the whole-row results -/

section Join
variable {I : Type*} [Fintype I] [Nonempty I] [NeZero n] [Nonempty E]
variable (φ : Fin n × E ≃ I) (s : Fin n → E → ℝ) (S : I → ℝ)

/-- A sum over the row is the sum over the tiles of the sums inside each tile. -/
theorem sum_tiles (φ : Fin n × E ≃ I) (g : I → ℝ) : (∑ j, ∑ e, g (φ (j, e))) = ∑ i, g i := by
  rw [← Fintype.sum_prod_type' (f := fun j e => g (φ (j, e)))]
  exact Equiv.sum_comp φ g

variable (hS : ∀ j e, S (φ (j, e)) = s j e)
include hS

/-- Same maximum. -/
theorem rowMax_eq_refMax : rowMax s = refMax S := by
  apply le_antisymm
  · obtain ⟨j, e, he⟩ := exists_eq_rowMax s
    rw [← he, ← hS]
    exact le_refMax S _
  · obtain ⟨i, hi⟩ := exists_eq_refMax S
    rw [← hi, ← φ.apply_symm_apply i]
    have := hS (φ.symm i).1 (φ.symm i).2
    rw [Prod.mk.eta] at this
    rw [this]
    exact le_rowMax s _ _

/-- Same denominator. -/
theorem rowSum_eq_refSum : rowSum s = refSum S := by
  unfold rowSum refSum
  rw [rowMax_eq_refMax φ s S hS, ← sum_tiles φ fun i => Real.exp (S i - refMax S)]
  exact Finset.sum_congr rfl fun j _ => Finset.sum_congr rfl fun e _ => by rw [hS]

/-- Same weights, at corresponding indices. -/
theorem weight_eq (j : Fin n) (e : E) :
    Real.exp (s j e - rowMax s) / rowSum s = Real.exp (S (φ (j, e)) - refMax S) / refSum S := by
  rw [rowMax_eq_refMax φ s S hS, rowSum_eq_refSum φ s S hS, hS]

/-- Same weighted sum of the values. -/
theorem retrieved_eq (v : Fin n → E → D → ℝ) (w : I → D → ℝ)
    (hv : ∀ j e d, w (φ (j, e)) d = v j e d) (d : D) :
    (∑ j, ∑ e, Real.exp (s j e - rowMax s) / rowSum s * v j e d)
      = ∑ i, Real.exp (S i - refMax S) / refSum S * w i d := by
  rw [← sum_tiles φ fun i => Real.exp (S i - refMax S) / refSum S * w i d]
  exact Finset.sum_congr rfl fun j _ => Finset.sum_congr rfl fun e _ => by
    rw [weight_eq φ s S hS, hv]

/-- **Join, maximum**: the online final maximum is the whole row's. -/
theorem final_max_eq_ref (v : Fin n → E → D → ℝ) :
    (state s v n).1 = ((refMax S : ℝ) : EReal) := by
  rw [final_max, rowMax_eq_refMax φ s S hS]

/-- **Join, denominator**: the online final denominator is the whole row's. -/
theorem final_den_eq_ref (v : Fin n → E → D → ℝ) :
    (state s v n).2.1 = ((refSum S : ℝ) : EReal) := by
  rw [final_den, rowSum_eq_refSum φ s S hS]

/-- **Join, weights**: the weight recomputed from the online maximum and denominator at
    `(j, e)` is the whole row's weight at `φ (j, e)`. -/
theorem final_weight_eq_ref (v : Fin n → E → D → ℝ) (j : Fin n) (e : E) :
    Ideal.div (Ideal.exp ((s j e : EReal) - (state s v n).1)) (state s v n).2.1
      = Ideal.div (Ideal.exp ((S (φ (j, e)) : EReal) - ((refMax S : ℝ) : EReal)))
          ((refSum S : ℝ) : EReal) := by
  rw [final_weight, ref_weight, weight_eq φ s S hS]

/-- **Join, weighted sum**: the online quotient of numerators by denominator is the whole
    row's weighted sum of the values. -/
theorem final_retrieved_eq_ref (v : Fin n → E → D → ℝ) (w : I → D → ℝ)
    (hv : ∀ j e d, w (φ (j, e)) d = v j e d) (d : D) :
    Ideal.div ((state s v n).2.2 d) (state s v n).2.1
      = ∑ i, Ideal.div (Ideal.exp ((S i : EReal) - ((refMax S : ℝ) : EReal)))
              ((refSum S : ℝ) : EReal) * (w i d : EReal) := by
  rw [final_retrieved, retrieved_eq φ s S hS v w hv d, ← ref_retrieved]
  exact Finset.sum_congr rfl fun i _ => by rw [ref_weight]

end Join

end OnlineSoftmax
-- ==== Proof.RefBridge.lean ====
/-
  On real arguments the formulas of `Cert.Spec` are real numbers.

  With the mention encodings, the entity table and the projection arrays all coercions of real arrays, every sum,
  maximum, exponential, quotient and square root in the formulas is taken of reals with a nonzero divisor and a
  nonnegative radicand, so each formula is the coercion of the corresponding real expression: the softmax weight
  `exp (S p e − max_e S p e) / ∑_e exp (S p e − max)` with `S p e` the real dot product, the weighted sum of entity rows,
  the projected and masked update, and the cosine score `S p e / (ε + ‖q_p‖) / (ε + ‖ent_e‖)` with `ε` the positive real the
  shift word denotes. The row's denominator is at least one (the maximal score contributes `exp 0`), hence not zero;
  the shifted norms are positive.
-/
import proofs.«120323_j21741124452848_2_alg».proof.Proof.Spec
import proofs.«120323_j21741124452848_2_alg».proof.Proof.LibOnlineSoftmax
import proofs.«120323_j21741124452848_2_alg».proof.Proof.LibQuot

noncomputable section

open scoped BigOperators

namespace Cert.RefBridge

open Idealize.ShloMosaic Idealize.ShloMosaic.ValueIdx Cert.Spec

variable (qr : (⟨2, ![4096, 256]⟩ : Shape).Idx → ℝ) (er : (⟨2, ![32000, 256]⟩ : Shape).Idx → ℝ)

/-- The real score of mention `p` against entity `e`. -/
def S (p : Fin 4096) (e : Fin 32000) : ℝ := ∑ k : Fin 256, qr (ix2 p k) * er (ix2 e k)

/-- The real softmax weight. -/
def attnR (p : Fin 4096) (e : Fin 32000) : ℝ :=
  Real.exp (S qr er p e - OnlineSoftmax.refMax (S qr er p)) / OnlineSoftmax.refSum (S qr er p)

/-- The real attention-weighted entity. -/
def retrR (p : Fin 4096) (k : Fin 256) : ℝ := ∑ e : Fin 32000, attnR qr er p e * er (ix2 e k)

/-- The real update. -/
def updateR (wer : (⟨2, ![256, 768]⟩ : Shape).Idx → ℝ) (ber : (⟨1, ![768]⟩ : Shape).Idx → ℝ)
    (mr : (⟨1, ![4096]⟩ : Shape).Idx → ℝ) (p : Fin 4096) (h : Fin 768) : ℝ :=
  ((∑ k : Fin 256, retrR qr er p k * wer (ix2 k h)) + ber (ix1 h)) * mr (ix1 p)

/-- The real cosine score, for a shift `ε`. -/
def cosR (ε : ℝ) (p : Fin 4096) (e : Fin 32000) : ℝ :=
  S qr er p e / (ε + Real.sqrt (∑ k : Fin 256, qr (ix2 p k) * qr (ix2 p k)))
    / (ε + Real.sqrt (∑ k : Fin 256, er (ix2 e k) * er (ix2 e k)))

theorem score_coe (p : Fin 4096) (e : Fin 32000) :
    score (fun i => (qr i : EReal)) (fun i => (er i : EReal)) p e = ((S qr er p e : ℝ) : EReal) := by
  unfold score S
  exact QuotLaws.sum_mul_coe Finset.univ (fun k => qr (ix2 p k)) (fun k => er (ix2 e k))

theorem rowMax_coe (p : Fin 4096) :
    rowMax (fun i => (qr i : EReal)) (fun i => (er i : EReal)) p
      = ((OnlineSoftmax.refMax (S qr er p) : ℝ) : EReal) := by
  rw [rowMax_eq_fold]
  simp only [score_coe]
  exact OnlineSoftmax.ref_max_fold (S qr er p)

theorem expo_coe (p : Fin 4096) (e : Fin 32000) :
    expo (fun i => (qr i : EReal)) (fun i => (er i : EReal)) p e
      = ((Real.exp (S qr er p e - OnlineSoftmax.refMax (S qr er p)) : ℝ) : EReal) := by
  unfold expo
  rw [score_coe, rowMax_coe]
  exact OnlineSoftmax.ref_exp (S qr er p) e

theorem rowSum_coe (p : Fin 4096) :
    rowSum (fun i => (qr i : EReal)) (fun i => (er i : EReal)) p
      = ((OnlineSoftmax.refSum (S qr er p) : ℝ) : EReal) := by
  rw [rowSum_eq_sum]
  simp only [expo_coe]
  exact (QuotLaws.coe_sum Finset.univ
    (fun e : Fin 32000 => Real.exp (S qr er p e - OnlineSoftmax.refMax (S qr er p)))).symm

/-- The attention weight is the real softmax weight. -/
theorem attn_coe (p : Fin 4096) (e : Fin 32000) :
    attn (fun i => (qr i : EReal)) (fun i => (er i : EReal)) p e = ((attnR qr er p e : ℝ) : EReal) := by
  unfold attn attnR
  rw [expo_coe, rowSum_coe]
  exact QuotLaws.div_coe_coe _ (OnlineSoftmax.refSum_ne_zero _)

/-- The attention-weighted entity is the real weighted sum. -/
theorem retrieved_coe (p : Fin 4096) (k : Fin 256) :
    retrieved (fun i => (qr i : EReal)) (fun i => (er i : EReal)) p k = ((retrR qr er p k : ℝ) : EReal) := by
  unfold retrieved retrR
  simp only [attn_coe]
  exact QuotLaws.sum_mul_coe Finset.univ (fun e => attnR qr er p e) (fun e => er (ix2 e k))

/-- The update is the real update. -/
theorem update_coe (wer : (⟨2, ![256, 768]⟩ : Shape).Idx → ℝ) (ber : (⟨1, ![768]⟩ : Shape).Idx → ℝ)
    (mr : (⟨1, ![4096]⟩ : Shape).Idx → ℝ) (p : Fin 4096) (h : Fin 768) :
    update (fun i => (qr i : EReal)) (fun i => (er i : EReal)) (fun i => (wer i : EReal)) (fun i => (ber i : EReal))
        (fun i => (mr i : EReal)) p h
      = ((updateR qr er wer ber mr p h : ℝ) : EReal) := by
  unfold update updateR
  simp only [retrieved_coe]
  rw [QuotLaws.sum_mul_coe Finset.univ (fun k => retrR qr er p k) (fun k => wer (ix2 k h)), ← EReal.coe_add,
    ← EReal.coe_mul]

/-- The cosine score is the real cosine score, for any positive real the shift word denotes. -/
theorem cosScore_coe' {ε : ℝ} (hε : 0 < ε) (hw : Ideal.ofBits .f32 0x322BCC77#32 = ((ε : ℝ) : EReal))
    (p : Fin 4096) (e : Fin 32000) :
    cosScore (fun i => (qr i : EReal)) (fun i => (er i : EReal)) p e = ((cosR qr er ε p e : ℝ) : EReal) := by
  unfold cosScore qNorm entNorm cosR
  rw [hw, score_coe]
  beta_reduce
  rw [QuotLaws.norm_coe' Finset.univ (fun k => qr (ix2 p k)), QuotLaws.norm_coe' Finset.univ (fun k => er (ix2 e k)),
    ← EReal.coe_add, ← EReal.coe_add]
  exact QuotLaws.div_div_coe _ (QuotLaws.eps_add_sqrt_ne_zero hε _) (QuotLaws.eps_add_sqrt_ne_zero hε _)

/-- The cosine score with the shift word's own value. -/
theorem cosScore_coe (p : Fin 4096) (e : Fin 32000) :
    cosScore (fun i => (qr i : EReal)) (fun i => (er i : EReal)) p e = ((cosR qr er epsR p e : ℝ) : EReal) :=
  cosScore_coe' qr er epsR_pos epsWord p e

end Cert.RefBridge

end
-- ==== Proof.KI.V0Math.lean ====
import proofs.«120323_j21741124452848_2_alg».proof.Proof.LibOnlineSoftmax
import proofs.«120323_j21741124452848_2_alg».proof.Proof.LibQuot
import proofs.«120323_j21741124452848_2_alg».proof.Proof.Spec
import proofs.«120323_j21741124452848_2_alg».proof.Proof.RefBridge
import Idealize.ShloMosaic.Lib.ValueIdx

/-!
# The tile-by-tile softmax over ten tiles of 3200 entities is the softmax over the 32000

The 32000 entities are cut into ten consecutive tiles of 3200; entity `3200 * j + e` is row `e`
of tile `j`.  For one mention `p`, with real encodings `qr` and a real entity table `er`, the
online state after the ten tiles (running maximum, running denominator, running numerators) has
as its maximum the row maximum of the scores, as its denominator the softmax denominator, and
its quotients are the attention weights and the attention-weighted entity row of the
whole-row formulas.  The cosine score with two reciprocals is the cosine score with two
quotients.
-/

noncomputable section

open scoped BigOperators

namespace Cert.KernelIdeal.Tile

open Idealize.ShloMosaic Idealize.ShloMosaic.ValueIdx

variable (qr : (⟨2, ![4096, 256]⟩ : Shape).Idx → ℝ) (er : (⟨2, ![32000, 256]⟩ : Shape).Idx → ℝ)

/-- The entity that row `e` of tile `j` is. -/
def entIdx (j : Fin 10) (e : Fin 3200) : Fin 32000 :=
  ⟨3200 * j.val + e.val, by have := j.isLt; have := e.isLt; omega⟩

/-- Its number. -/
theorem entIdx_val (j : Fin 10) (e : Fin 3200) : (entIdx j e).val = 3200 * j.val + e.val := rfl

/-- The scores of mention `p`, tile by tile. -/
def sT (p : Fin 4096) : Fin 10 → Fin 3200 → ℝ :=
  fun j e => ∑ k : Fin 256, qr (ix2 p k) * er (ix2 (entIdx j e) k)

/-- The entity rows, tile by tile. -/
def vT : Fin 10 → Fin 3200 → Fin 256 → ℝ := fun j e d => er (ix2 (entIdx j e) d)

/-- Tiles and rows against entities: a bijection. -/
def tileEquiv : Fin 10 × Fin 3200 ≃ Fin 32000 where
  toFun x := entIdx x.1 x.2
  invFun i := (⟨i.val / 3200, by have := i.isLt; omega⟩, ⟨i.val % 3200, by omega⟩)
  left_inv := by
    rintro ⟨j, e⟩
    have hj := j.isLt
    have he := e.isLt
    refine Prod.ext (Fin.ext ?_) (Fin.ext ?_)
    · show (3200 * j.val + e.val) / 3200 = j.val
      omega
    · show (3200 * j.val + e.val) % 3200 = e.val
      omega
  right_inv := by
    intro i
    refine Fin.ext ?_
    show 3200 * (i.val / 3200) + i.val % 3200 = i.val
    omega

/-- The bijection at a tile and a row. -/
theorem tileEquiv_apply (j : Fin 10) (e : Fin 3200) : tileEquiv (j, e) = entIdx j e := rfl

/-- The tile's score is the row's score at the entity. -/
theorem sT_eq (p : Fin 4096) (j : Fin 10) (e : Fin 3200) :
    Cert.RefBridge.S qr er p (tileEquiv (j, e)) = sT qr er p j e := rfl

/-! ### The state, tile by tile -/

/-- Before the first tile. -/
theorem stateT_zero (p : Fin 4096) :
    OnlineSoftmax.state (sT qr er p) (vT er) 0 = OnlineSoftmax.init (Fin 256) := rfl

/-- Tile `j` takes the state after `j` tiles to the state after `j + 1`. -/
theorem stateT_succ (p : Fin 4096) (j : ℕ) (h : j < 10) :
    OnlineSoftmax.state (sT qr er p) (vT er) (j + 1)
      = OnlineSoftmax.step (sT qr er p ⟨j, h⟩) (vT er ⟨j, h⟩) (OnlineSoftmax.state (sT qr er p) (vT er) j) :=
  OnlineSoftmax.state_succ (sT qr er p) (vT er) h

/-! ### The final state against the whole-row formulas -/

/-- The final maximum is the row maximum. -/
theorem final_max (p : Fin 4096) :
    (OnlineSoftmax.state (sT qr er p) (vT er) 10).1
      = Cert.Spec.rowMax (fun i => (qr i : EReal)) (fun i => (er i : EReal)) p :=
  (OnlineSoftmax.final_max_eq_ref tileEquiv (sT qr er p) (Cert.RefBridge.S qr er p)
      (fun j e => sT_eq qr er p j e) (vT er)).trans (Cert.RefBridge.rowMax_coe qr er p).symm

/-- The final denominator is the softmax denominator. -/
theorem final_den (p : Fin 4096) :
    (OnlineSoftmax.state (sT qr er p) (vT er) 10).2.1
      = Cert.Spec.rowSum (fun i => (qr i : EReal)) (fun i => (er i : EReal)) p :=
  (OnlineSoftmax.final_den_eq_ref tileEquiv (sT qr er p) (Cert.RefBridge.S qr er p)
      (fun j e => sT_eq qr er p j e) (vT er)).trans (Cert.RefBridge.rowSum_coe qr er p).symm

/-- The weights recomputed from the final maximum and denominator are the attention weights. -/
theorem final_attn (p : Fin 4096) (e : Fin 32000) :
    Ideal.div (Ideal.exp (Cert.Spec.score (fun i => (qr i : EReal)) (fun i => (er i : EReal)) p e
          - (OnlineSoftmax.state (sT qr er p) (vT er) 10).1))
        (OnlineSoftmax.state (sT qr er p) (vT er) 10).2.1
      = Cert.Spec.attn (fun i => (qr i : EReal)) (fun i => (er i : EReal)) p e := by
  rw [final_max, final_den]
  rfl

/-- The final numerators over the final denominator are the attention-weighted entity row. -/
theorem final_retrieved (p : Fin 4096) (k : Fin 256) :
    Ideal.div ((OnlineSoftmax.state (sT qr er p) (vT er) 10).2.2 k)
        (OnlineSoftmax.state (sT qr er p) (vT er) 10).2.1
      = Cert.Spec.retrieved (fun i => (qr i : EReal)) (fun i => (er i : EReal)) p k := by
  rw [OnlineSoftmax.final_retrieved_eq_ref tileEquiv (sT qr er p) (Cert.RefBridge.S qr er p)
      (fun j e => sT_eq qr er p j e) (vT er) (fun i d => er (ix2 i d)) (fun _ _ _ => rfl) k]
  unfold Cert.Spec.retrieved
  refine Finset.sum_congr rfl fun i _ => ?_
  rw [Cert.RefBridge.attn_coe, OnlineSoftmax.ref_weight]
  rfl

/-! ### The cosine score -/

/-- The word `0x3F800000` is `1`. -/
theorem oneWord : Ideal.ofBits .f32 0x3F800000#32 = 1 := by
  simp [Ideal.ofBits, Ideal.ieee, -EReal.coe_mul]; norm_num

/-- The shifted norm of mention `p`'s encoding is a positive real. -/
theorem eps_add_qNorm (p : Fin 4096) :
    Ideal.ofBits .f32 0x322BCC77#32 + Cert.Spec.qNorm (fun i => (qr i : EReal)) p
      = ((Cert.Spec.epsR + Real.sqrt (∑ k : Fin 256, qr (ix2 p k) * qr (ix2 p k)) : ℝ) : EReal) := by
  unfold Cert.Spec.qNorm
  rw [Cert.Spec.epsWord]
  beta_reduce
  rw [QuotLaws.norm_coe' Finset.univ (fun k => qr (ix2 p k)), ← EReal.coe_add]

/-- The shifted norm of entity `e`'s row is a positive real. -/
theorem eps_add_entNorm (e : Fin 32000) :
    Ideal.ofBits .f32 0x322BCC77#32 + Cert.Spec.entNorm (fun i => (er i : EReal)) e
      = ((Cert.Spec.epsR + Real.sqrt (∑ k : Fin 256, er (ix2 e k) * er (ix2 e k)) : ℝ) : EReal) := by
  unfold Cert.Spec.entNorm
  rw [Cert.Spec.epsWord]
  beta_reduce
  rw [QuotLaws.norm_coe' Finset.univ (fun k => er (ix2 e k)), ← EReal.coe_add]

/-- The score times the two reciprocals of the shifted norms is the cosine score (the
    score divided by the one, then by the other). -/
theorem cos_recip (p : Fin 4096) (e : Fin 32000) :
    Cert.Spec.score (fun i => (qr i : EReal)) (fun i => (er i : EReal)) p e
        * Ideal.div (Ideal.ofBits .f32 0x3F800000#32)
            (Ideal.ofBits .f32 0x322BCC77#32 + Cert.Spec.qNorm (fun i => (qr i : EReal)) p)
        * Ideal.div (Ideal.ofBits .f32 0x3F800000#32)
            (Ideal.ofBits .f32 0x322BCC77#32 + Cert.Spec.entNorm (fun i => (er i : EReal)) e)
      = Cert.Spec.cosScore (fun i => (qr i : EReal)) (fun i => (er i : EReal)) p e := by
  unfold Cert.Spec.cosScore
  rw [oneWord, eps_add_qNorm, eps_add_entNorm, Cert.RefBridge.score_coe]
  exact QuotLaws.mul_recip_recip _ (QuotLaws.eps_add_sqrt_ne_zero Cert.Spec.epsR_pos _)
    (QuotLaws.eps_add_sqrt_ne_zero Cert.Spec.epsR_pos _)

end Cert.KernelIdeal.Tile
-- ==== Proof.KI.V0State.lean ====
/-
  Region 0 at the exact extended reals: row r of the three scratch accumulators after a grid point is the online-softmax
  state of the query row that r is, after the entity tiles of its mention tile seen so far. At the last entity tile the
  three outputs' blocks are the projected update, the row maximum and the row sum of the whole softmax.
-/
import proofs.«120323_j21741124452848_2_alg».proof.Proof.KI.R0Pieces
import proofs.«120323_j21741124452848_2_alg».proof.Proof.KI.V0Pay
import proofs.«120323_j21741124452848_2_alg».proof.Proof.KI.V0Blocks
import proofs.«120323_j21741124452848_2_alg».proof.Proof.KI.V0Math
import proofs.«120323_j21741124452848_2_alg».proof.Proof.LibOnlineSoftmax
import proofs.«120323_j21741124452848_2_alg».proof.Proof.LibQuot
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx OnlineSoftmax Cert.KernelIdeal.Tile

variable (V : (c : Dev nD) → (b : Ref sig .tc) → Buf (Elt Ideal) ((c : Thread nD τ).loc b))

/-- Row `r` of the scratch contents as that row's running state: maximum, sum, weighted sums. -/
def rowState (s : Sc0 Ideal) (r : Fin 512) : St (Fin 256) :=
  ((s.2.1 : S512x1.Idx → EReal) (ix2 r (0 : Fin 1)), (s.2.2 : S512x1.Idx → EReal) (ix2 r (0 : Fin 1)), fun d => (s.1 : S512x256.Idx → EReal) (ix2 r d))

/-- The reset values are the state before the first tile. -/
theorem rowState_init0 (r : Fin 512) : rowState (init0 (F := Ideal)) r = OnlineSoftmax.init (Fin 256) := by
  unfold rowState init0 OnlineSoftmax.init
  refine Prod.ext ?_ (Prod.ext ?_ (funext fun d => ?_))
  · exact pay4_at r
  · exact pay5_at r
  · exact pay6_at r d

/-- Folding one entity tile into the accumulators is one step of the online softmax on every row, the tile's scores the
    products of the query row with the tile's entity rows, its values the entity rows. -/
theorem rowState_fold0 (x0 : Vec Ideal S512x256 .bf16) (x1 : Vec Ideal S3200x256 .bf16)
    (x0r : S512x256.Idx → ℝ) (x1r : S3200x256.Idx → ℝ)
    (h0 : ∀ i, (x0 : S512x256.Idx → EReal) i = (x0r i : EReal)) (h1 : ∀ i, (x1 : S3200x256.Idx → EReal) i = (x1r i : EReal))
    (s : Sc0 Ideal) (r : Fin 512) :
    rowState (fold0 x0 x1 s) r
      = step (fun e : Fin 3200 => ∑ k : Fin 256, x0r (ix2 r k) * x1r (ix2 e k)) (fun (e : Fin 3200) (d : Fin 256) => x1r (ix2 e d)) (rowState s r) := by
  have hS : ∀ e : Fin 3200, score0 x0 x1 r e = ((∑ k : Fin 256, x0r (ix2 r k) * x1r (ix2 e k) : ℝ) : EReal) := fun e => by
    dsimp only [score0]; simp only [h0, h1]; exact QuotLaws.sum_mul_coe _ _ _
  unfold rowState fold0
  refine Prod.ext ?_ (Prod.ext ?_ (funext fun d => ?_))
  · dsimp only
    rw [pay2_at, pay9_at, step_max]
    dsimp only [newMax0]
    simp only [hS]
  · dsimp only
    rw [pay12_at, step_den, step_max]
    dsimp only [newMax0]
    simp only [hS]
  · dsimp only
    rw [pay1_at, pay13_at, step_num, step_max]
    dsimp only [newMax0]
    simp only [hS, h1]

section Induction

variable (c : Dev nD) (qr : (⟨2, ![4096, 256]⟩ : Shape).Idx → ℝ) (er : (⟨2, ![32000, 256]⟩ : Shape).Idx → ℝ)
  (hq : ∀ i, (V c main_v33 : S4096x256.Idx → EReal) i = (qr i : EReal))
  (he : ∀ i, (V c main_v34 : S32000x256.Idx → EReal) i = (er i : EReal))

include hq he

/-- The entity row a point's tile row is, as the tile decomposition names it. -/
theorem entOf_eq (t : Fin cfg0.N) (e : Fin 3200) : entOf t e = entIdx ⟨t.val % 10, Nat.mod_lt _ (by decide)⟩ e :=
  Fin.ext (by rw [entOf_val, entIdx_val])

/-- One point's fold, on row `r`: a step on tile `t % 10` of the query row `rowOf t r`. -/
theorem rowState_fold_at (t : Fin cfg0.N) (s : Sc0 Ideal) (r : Fin 512) :
    rowState (fold0 (iblk0 V c 0 t) (iblk0 V c 1 t) s) r
      = step (sT qr er (rowOf t r) ⟨t.val % 10, Nat.mod_lt _ (by decide)⟩) (vT er ⟨t.val % 10, Nat.mod_lt _ (by decide)⟩) (rowState s r) := by
  rw [rowState_fold0 (iblk0 V c 0 t) (iblk0 V c 1 t) (fun i => qr (ix2 (rowOf t ⟨(i 0).val, (i 0).isLt⟩) ⟨(i 1).val, (i 1).isLt⟩))
    (fun i => er (ix2 (entOf t ⟨(i 0).val, (i 0).isLt⟩) ⟨(i 1).val, (i 1).isLt⟩))
    (fun i => by obtain ⟨a, b, rfl⟩ : ∃ (a : Fin 512) (b : Fin 256), i = ix2 a b := ⟨i 0, i 1, eq_ix2 i⟩
                 rw [blk0_0_apply V c t a b, hq])
    (fun i => by obtain ⟨a, b, rfl⟩ : ∃ (a : Fin 3200) (b : Fin 256), i = ix2 a b := ⟨i 0, i 1, eq_ix2 i⟩
                 rw [blk0_1_apply V c t a b, he])
    s r]
  rfl

/-- THE INVARIANT: after the point at position `n` (mention tile `n / 10`, entity tile `n % 10`) row `r` of the scratch
    accumulators is the online-softmax state of query row `512 (n / 10) + r` after the entity tiles `0 … n % 10`. -/
theorem rowState_outsAt0 : ∀ (n : ℕ) (hn : n < cfg0.N) (r : Fin 512),
    rowState (outsAt0 V c n hn).2 r = state (sT qr er (rowOf ⟨n, hn⟩ r)) (vT er) (n % 10 + 1) := by
  intro n
  induction n with
  | zero =>
    intro hn r
    have hA := outsAt0_A V c ⟨0, hn⟩ (Nat.zero_mod _) (show ¬ (0 : ℕ) % 10 = 9 by decide)
    rw [show outsAt0 V c 0 hn = outsAt0 V c (⟨0, hn⟩ : Fin cfg0.N).val (⟨0, hn⟩ : Fin cfg0.N).isLt from rfl, hA]
    dsimp only
    rw [sout0_A_eq, rowState_fold_at V c qr er hq he, rowState_init0, ← state_zero (sT qr er (rowOf ⟨0, hn⟩ r)) (vT er)]
    exact (state_succ _ _ (by decide : 0 < 10)).symm
  | succ n ih =>
    intro hn r
    have hN : n + 1 < 80 := lt_of_lt_of_eq hn (show cfg0.N = 80 from N_0)
    by_cases h0 : (n + 1) % 10 = 0
    · have hA := outsAt0_A V c ⟨n + 1, hn⟩ h0 (by dsimp only; omega)
      rw [show outsAt0 V c (n + 1) hn = outsAt0 V c (⟨n + 1, hn⟩ : Fin cfg0.N).val (⟨n + 1, hn⟩ : Fin cfg0.N).isLt from rfl, hA]
      dsimp only
      rw [sout0_A_eq, rowState_fold_at V c qr er hq he, rowState_init0, ← state_zero (sT qr er (rowOf ⟨n + 1, hn⟩ r)) (vT er)]
      have e0 : (⟨(n + 1) % 10, Nat.mod_lt _ (by decide)⟩ : Fin 10) = ⟨0, by decide⟩ := Fin.ext h0
      dsimp only at e0 ⊢
      rw [e0, h0]
      exact (state_succ _ _ (by decide : 0 < 10)).symm
    · have hprev := ih (Nat.lt_of_succ_lt hn) r
      have hrow : rowOf ⟨n + 1, hn⟩ r = rowOf ⟨n, Nat.lt_of_succ_lt hn⟩ r := Fin.ext (by rw [rowOf_val, rowOf_val]; dsimp only; omega)
      have hmod : (n + 1) % 10 = n % 10 + 1 := by omega
      have hlt : n % 10 + 1 < 10 := by omega
      have hfold : (outsAt0 V c (n + 1) hn).2 = fold0 (iblk0 V c 0 ⟨n + 1, hn⟩) (iblk0 V c 1 ⟨n + 1, hn⟩) (outsAt0 V c n (Nat.lt_of_succ_lt hn)).2 := by
        by_cases h1 : (n + 1) % 10 = 9
        · have hC := outsAt0_C V c ⟨n + 1, hn⟩ h0 h1
          rw [show outsAt0 V c (n + 1) hn = outsAt0 V c (⟨n + 1, hn⟩ : Fin cfg0.N).val (⟨n + 1, hn⟩ : Fin cfg0.N).isLt from rfl, hC]
          dsimp only
          rw [sout0_C_eq]
          rfl
        · have hB := outsAt0_B V c ⟨n + 1, hn⟩ h0 h1
          rw [show outsAt0 V c (n + 1) hn = outsAt0 V c (⟨n + 1, hn⟩ : Fin cfg0.N).val (⟨n + 1, hn⟩ : Fin cfg0.N).isLt from rfl, hB]
          dsimp only
          rw [sout0_B_eq]
          rfl
      rw [hfold, rowState_fold_at V c qr er hq he, hprev, hrow]
      have e1 : (⟨(n + 1) % 10, Nat.mod_lt _ (by decide)⟩ : Fin 10) = ⟨n % 10 + 1, hlt⟩ := Fin.ext hmod
      dsimp only at e1 ⊢
      rw [e1, hmod]
      exact (state_succ _ _ hlt).symm

/-- At a last entity tile the three outputs' staging buffers hold what the folded accumulators give. -/
theorem outs_at_last (t : Fin cfg0.N) (h9 : t.val % 10 = 9) :
    (outsAt0 V c t.val t.isLt).1 = emit0 (iblk0 V c 2 t) (iblk0 V c 3 t) (iblk0 V c 4 t) (outsAt0 V c t.val t.isLt).2 := by
  have hC := outsAt0_C V c t (by omega) h9
  rw [hC]
  dsimp only
  rw [out0_C_eq, sout0_C_eq]

end Induction

end Cert.KernelIdeal.Hand

end
-- ==== Proof.KI.V0Emit.lean ====
/-
  What the last entity tile stores, row by row, against the whole-row formulas: with row `r` of the scratch
  accumulators the final online-softmax state of mention `p`, the stored maximum and sum are the row maximum and the
  softmax denominator of `p`'s scores, and the stored update is the attention-weighted entity row, projected, biased
  and masked.
-/
import proofs.«120323_j21741124452848_2_alg».proof.Proof.KI.R0Pieces
import proofs.«120323_j21741124452848_2_alg».proof.Proof.KI.V0State
import proofs.«120323_j21741124452848_2_alg».proof.Proof.KI.V0Pay
import proofs.«120323_j21741124452848_2_alg».proof.Proof.KI.V0Math
import Idealize.ShloMosaic.Lib.ValueIdx

noncomputable section

namespace Cert.KernelIdeal.Hand

open Cert.KernelIdeal Cert.KernelIdeal.Gen
open Idealize.ShloMosaic Idealize.ShloMosaic.ValueIdx OnlineSoftmax Cert.KernelIdeal.Tile

/-- The maximum of a row's state. -/
theorem rowState_max (s : Sc0 Ideal) (r : Fin 512) {st : St (Fin 256)} (hs : rowState s r = st) :
    (s.2.1 : S512x1.Idx → EReal) (ix2 r (0 : Fin 1)) = st.1 := congrArg Prod.fst hs

/-- The denominator of a row's state. -/
theorem rowState_den (s : Sc0 Ideal) (r : Fin 512) {st : St (Fin 256)} (hs : rowState s r = st) :
    (s.2.2 : S512x1.Idx → EReal) (ix2 r (0 : Fin 1)) = st.2.1 := congrArg (fun x => x.2.1) hs

/-- The numerators of a row's state. -/
theorem rowState_num (s : Sc0 Ideal) (r : Fin 512) {st : St (Fin 256)} (hs : rowState s r = st) (d : Fin 256) :
    (s.1 : S512x256.Idx → EReal) (ix2 r d) = st.2.2 d := congrFun (congrArg (fun x => x.2.2) hs) d

section Emit
variable (qr : (⟨2, ![4096, 256]⟩ : Shape).Idx → ℝ) (er : (⟨2, ![32000, 256]⟩ : Shape).Idx → ℝ)
  (x2 : Vec Ideal S256x768 .bf16) (x3 : Vec Ideal S768 .f32) (x4 : Vec Ideal S512x1 .f32)
  (s : Sc0 Ideal) (r : Fin 512) (p : Fin 4096)
  (hs : rowState s r = state (sT qr er p) (vT er) 10)
include hs

/-- The stored maximum of row `r` is the row maximum of mention `p`'s scores. -/
theorem emit_max :
    ((emit0 x2 x3 x4 s).2.1 : S512x1.Idx → EReal) (ix2 r (0 : Fin 1))
      = Cert.Spec.rowMax (fun i => (qr i : EReal)) (fun i => (er i : EReal)) p :=
  (rowState_max s r hs).trans (Cert.KernelIdeal.Tile.final_max qr er p)

/-- The stored sum of row `r` is the softmax denominator of mention `p`. -/
theorem emit_sum :
    ((emit0 x2 x3 x4 s).2.2 : S512x1.Idx → EReal) (ix2 r (0 : Fin 1))
      = Cert.Spec.rowSum (fun i => (qr i : EReal)) (fun i => (er i : EReal)) p :=
  (rowState_den s r hs).trans (Cert.KernelIdeal.Tile.final_den qr er p)

/-- The stored update of row `r`, hidden coordinate `h`: the attention-weighted entity row of
    mention `p`, projected, biased and masked. -/
theorem emit_upd  (h : Fin 768) :
    ((emit0 x2 x3 x4 s).1 : S512x768.Idx → EReal) (ix2 r h)
      = ((∑ k : Fin 256, Cert.Spec.retrieved (fun i => (qr i : EReal)) (fun i => (er i : EReal)) p k
              * (x2 : S256x768.Idx → EReal) (ix2 k h))
          + (x3 : S768.Idx → EReal) (ix1 h)) * (x4 : S512x1.Idx → EReal) (ix2 r (0 : Fin 1)) := by
  show k0_pay3 s.1 s.2.2 x2 x3 x4 (ix2 r h) = _
  rw [pay3_at]
  simp only [rowState_num s r hs, rowState_den s r hs, Cert.KernelIdeal.Tile.final_retrieved]

/-- The same spelt as the update formula: with the projection, the bias and the mask of the
    whole-row formulas. -/
theorem emit_update  (we : (⟨2, ![256, 768]⟩ : Shape).Idx → EReal) (be : (⟨1, ![768]⟩ : Shape).Idx → EReal)
    (mask : (⟨1, ![4096]⟩ : Shape).Idx → EReal)
    (h2 : (x2 : S256x768.Idx → EReal) = we) (h3 : (x3 : S768.Idx → EReal) = be)
    (h4 : (x4 : S512x1.Idx → EReal) (ix2 r (0 : Fin 1)) = mask (ix1 p)) (h : Fin 768) :
    ((emit0 x2 x3 x4 s).1 : S512x768.Idx → EReal) (ix2 r h)
      = Cert.Spec.update (fun i => (qr i : EReal)) (fun i => (er i : EReal)) we be mask p h := by
  rw [emit_upd qr er x2 x3 x4 s r p hs h, h4, h2, h3]
  rfl

end Emit

end Cert.KernelIdeal.Hand
-- ==== Proof.KI.V0Out.lean ====
/-
  The attention-reduction call at the extended reals: its three output arrays as the whole-row formulas.

  With the query and entity arrays real-valued on entry, row `r` of the scratch accumulators at the last entity tile of
  a mention tile is the online-softmax state of mention `512 (t / 10) + r` after all ten entity tiles; what that point
  stores is, row by row, the row maximum, the softmax denominator and the projected, biased and masked retrieved
  entity of that mention. Those tiles are the tiles of three whole-array functions, and the eight write-back points
  cover the 4096 rows, so the arrays end holding those functions.
-/
import proofs.«120323_j21741124452848_2_alg».proof.Proof.KI.V0Cover
import proofs.«120323_j21741124452848_2_alg».proof.Proof.KI.V0Blocks
import proofs.«120323_j21741124452848_2_alg».proof.Proof.KI.V0State
import proofs.«120323_j21741124452848_2_alg».proof.Proof.KI.V0Emit
import proofs.«120323_j21741124452848_2_alg».proof.Proof.KI.V0Math
import proofs.«120323_j21741124452848_2_alg».proof.Proof.Spec
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx OnlineSoftmax Cert.KernelIdeal.Tile
open Idealize.SL.Sem
open Idealize.ShloMosaic.Pipeline (Dat)

variable (V : (c : Dev nD) → (b : Ref sig .tc) → Buf (Elt Ideal) ((c : Thread nD τ).loc b))

/-! ## The three whole-array functions -/

/-- The row maxima as a [4096, 1] column. -/
def maxCol (q : (⟨2, ![4096, 256]⟩ : Shape).Idx → EReal) (e : (⟨2, ![32000, 256]⟩ : Shape).Idx → EReal) :
    (⟨2, ![4096, 1]⟩ : Shape).Idx → EReal :=
  fun i => Cert.Spec.rowMax q e ⟨(i 0).val, idx2_lt0 i⟩

/-- The softmax denominators as a [4096, 1] column. -/
def sumCol (q : (⟨2, ![4096, 256]⟩ : Shape).Idx → EReal) (e : (⟨2, ![32000, 256]⟩ : Shape).Idx → EReal) :
    (⟨2, ![4096, 1]⟩ : Shape).Idx → EReal :=
  fun i => Cert.Spec.rowSum q e ⟨(i 0).val, idx2_lt0 i⟩

/-- The updates as a [4096, 768] array. -/
def updArr (q : (⟨2, ![4096, 256]⟩ : Shape).Idx → EReal) (e : (⟨2, ![32000, 256]⟩ : Shape).Idx → EReal)
    (we : (⟨2, ![256, 768]⟩ : Shape).Idx → EReal) (be : (⟨1, ![768]⟩ : Shape).Idx → EReal)
    (mask : (⟨1, ![4096]⟩ : Shape).Idx → EReal) : (⟨2, ![4096, 768]⟩ : Shape).Idx → EReal :=
  fun i => Cert.Spec.update q e we be mask ⟨(i 0).val, idx2_lt0 i⟩ ⟨(i 1).val, idx2_lt1 i⟩

theorem maxCol_ix2 (q : (⟨2, ![4096, 256]⟩ : Shape).Idx → EReal) (e : (⟨2, ![32000, 256]⟩ : Shape).Idx → EReal)
    (p : Fin 4096) (u : Fin 1) : maxCol q e (ix2 p u) = Cert.Spec.rowMax q e p := rfl

theorem sumCol_ix2 (q : (⟨2, ![4096, 256]⟩ : Shape).Idx → EReal) (e : (⟨2, ![32000, 256]⟩ : Shape).Idx → EReal)
    (p : Fin 4096) (u : Fin 1) : sumCol q e (ix2 p u) = Cert.Spec.rowSum q e p := rfl

theorem updArr_ix2 (q : (⟨2, ![4096, 256]⟩ : Shape).Idx → EReal) (e : (⟨2, ![32000, 256]⟩ : Shape).Idx → EReal)
    (we : (⟨2, ![256, 768]⟩ : Shape).Idx → EReal) (be : (⟨1, ![768]⟩ : Shape).Idx → EReal)
    (mask : (⟨1, ![4096]⟩ : Shape).Idx → EReal) (p : Fin 4096) (h : Fin 768) :
    updArr q e we be mask (ix2 p h) = Cert.Spec.update q e we be mask p h := rfl

section Real

variable (c : Dev nD) (qr : (⟨2, ![4096, 256]⟩ : Shape).Idx → ℝ) (er : (⟨2, ![32000, 256]⟩ : Shape).Idx → ℝ)
  (hq : ∀ i, (V c main_v33 : S4096x256.Idx → EReal) i = (qr i : EReal))
  (he : ∀ i, (V c main_v34 : S32000x256.Idx → EReal) i = (er i : EReal))

include hq he

/-- At the last entity tile of a mention tile, row `r` of the accumulators is the state of its mention after all ten
    entity tiles. -/
theorem lastState (t : Fin cfg0.N) (h9 : t.val % 10 = 9) (r : Fin 512) :
    rowState (outsAt0 V c t.val t.isLt).2 r = state (sT qr er (rowOf t r)) (vT er) 10 := by
  have h := rowState_outsAt0 V c qr er hq he t.val t.isLt r
  rw [h9] at h
  exact h

/-! ## What a write-back point stores is the tile of the function -/

theorem max_point (t : Fin cfg0.N) (h9 : t.val % 10 = 9) (j : S512x1.Idx) :
    ((outsAt0 V c t.val t.isLt).1.2.1 : S512x1.Idx → EReal) j
      = (((cfg0.win 6).blk t).view.read (Elt Ideal) (maxCol (fun i => (qr i : EReal)) (fun i => (er i : EReal))) : S512x1.Idx → EReal) j := by
  obtain ⟨r, u, rfl⟩ : ∃ (r : Fin 512) (u : Fin 1), j = ix2 r u := ⟨j 0, j 1, eq_ix2 j⟩
  obtain rfl : u = 0 := Subsingleton.elim _ _
  rw [blk0_6_apply (F := Ideal) t (maxCol (fun i => (qr i : EReal)) (fun i => (er i : EReal))) r 0, maxCol_ix2,
    outs_at_last V c qr er hq he t h9]
  exact emit_max qr er (iblk0 V c 2 t) (iblk0 V c 3 t) (iblk0 V c 4 t) (outsAt0 V c t.val t.isLt).2 r (rowOf t r)
    (lastState V c qr er hq he t h9 r)

theorem sum_point (t : Fin cfg0.N) (h9 : t.val % 10 = 9) (j : S512x1.Idx) :
    ((outsAt0 V c t.val t.isLt).1.2.2 : S512x1.Idx → EReal) j
      = (((cfg0.win 7).blk t).view.read (Elt Ideal) (sumCol (fun i => (qr i : EReal)) (fun i => (er i : EReal))) : S512x1.Idx → EReal) j := by
  obtain ⟨r, u, rfl⟩ : ∃ (r : Fin 512) (u : Fin 1), j = ix2 r u := ⟨j 0, j 1, eq_ix2 j⟩
  obtain rfl : u = 0 := Subsingleton.elim _ _
  rw [blk0_7_apply (F := Ideal) t (sumCol (fun i => (qr i : EReal)) (fun i => (er i : EReal))) r 0, sumCol_ix2,
    outs_at_last V c qr er hq he t h9]
  exact emit_sum qr er (iblk0 V c 2 t) (iblk0 V c 3 t) (iblk0 V c 4 t) (outsAt0 V c t.val t.isLt).2 r (rowOf t r)
    (lastState V c qr er hq he t h9 r)

theorem upd_point (we : (⟨2, ![256, 768]⟩ : Shape).Idx → EReal) (be : (⟨1, ![768]⟩ : Shape).Idx → EReal)
    (mask : (⟨1, ![4096]⟩ : Shape).Idx → EReal)
    (hwe : (V c main_v35 : S256x768.Idx → EReal) = we) (hbe : (V c main_arg9 : S768.Idx → EReal) = be)
    (hmask : ∀ p : Fin 4096, (V c main_v48 : S4096x1.Idx → EReal) (ix2 p (0 : Fin 1)) = mask (ix1 p))
    (t : Fin cfg0.N) (h9 : t.val % 10 = 9) (j : S512x768.Idx) :
    ((outsAt0 V c t.val t.isLt).1.1 : S512x768.Idx → EReal) j
      = (((cfg0.win 5).blk t).view.read (Elt Ideal)
          (updArr (fun i => (qr i : EReal)) (fun i => (er i : EReal)) we be mask) : S512x768.Idx → EReal) j := by
  obtain ⟨r, h, rfl⟩ : ∃ (r : Fin 512) (h : Fin 768), j = ix2 r h := ⟨j 0, j 1, eq_ix2 j⟩
  rw [blk0_5_apply (F := Ideal) t (updArr (fun i => (qr i : EReal)) (fun i => (er i : EReal)) we be mask) r h, updArr_ix2,
    outs_at_last V c qr er hq he t h9]
  exact emit_update qr er (iblk0 V c 2 t) (iblk0 V c 3 t) (iblk0 V c 4 t) (outsAt0 V c t.val t.isLt).2 r (rowOf t r)
    (lastState V c qr er hq he t h9 r) we be mask
    ((blk0_2_eq V c t).trans hwe) ((blk0_3_eq V c t).trans hbe)
    ((blk0_4_apply V c t r 0).trans (hmask (rowOf t r))) h

/-! ## The three arrays after the call -/

/-- The running-maximum array ends holding every mention's row maximum. -/
theorem region0_max :
    ((dat0 V c).arrAt 6 cfg0.N : S4096x1.Idx → EReal) = maxCol (fun i => (qr i : EReal)) (fun i => (er i : EReal)) :=
  arr0_6_of V c (maxCol (fun i => (qr i : EReal)) (fun i => (er i : EReal))) fun t h9 => by
    rw [after0_6]
    funext j
    exact max_point V c qr er hq he t h9 j

theorem region0_max_apply (p : Fin 4096) (u : Fin 1) :
    ((dat0 V c).arrAt 6 cfg0.N : S4096x1.Idx → EReal) (ix2 p u)
      = Cert.Spec.rowMax (fun i => (qr i : EReal)) (fun i => (er i : EReal)) p := by
  rw [region0_max V c qr er hq he, maxCol_ix2]

/-- The running-sum array ends holding every mention's softmax denominator. -/
theorem region0_sum :
    ((dat0 V c).arrAt 7 cfg0.N : S4096x1.Idx → EReal) = sumCol (fun i => (qr i : EReal)) (fun i => (er i : EReal)) :=
  arr0_7_of V c (sumCol (fun i => (qr i : EReal)) (fun i => (er i : EReal))) fun t h9 => by
    rw [after0_7]
    funext j
    exact sum_point V c qr er hq he t h9 j

theorem region0_sum_apply (p : Fin 4096) (u : Fin 1) :
    ((dat0 V c).arrAt 7 cfg0.N : S4096x1.Idx → EReal) (ix2 p u)
      = Cert.Spec.rowSum (fun i => (qr i : EReal)) (fun i => (er i : EReal)) p := by
  rw [region0_sum V c qr er hq he, sumCol_ix2]

/-- The update array ends holding every mention's projected, biased and masked retrieved entity. -/
theorem region0_upd (we : (⟨2, ![256, 768]⟩ : Shape).Idx → EReal) (be : (⟨1, ![768]⟩ : Shape).Idx → EReal)
    (mask : (⟨1, ![4096]⟩ : Shape).Idx → EReal)
    (hwe : (V c main_v35 : S256x768.Idx → EReal) = we) (hbe : (V c main_arg9 : S768.Idx → EReal) = be)
    (hmask : ∀ p : Fin 4096, (V c main_v48 : S4096x1.Idx → EReal) (ix2 p (0 : Fin 1)) = mask (ix1 p)) :
    ((dat0 V c).arrAt 5 cfg0.N : S4096x768.Idx → EReal)
      = updArr (fun i => (qr i : EReal)) (fun i => (er i : EReal)) we be mask :=
  arr0_5_of V c (updArr (fun i => (qr i : EReal)) (fun i => (er i : EReal)) we be mask) fun t h9 => by
    rw [after0_5]
    funext j
    exact upd_point V c qr er hq he we be mask hwe hbe hmask t h9 j

theorem region0_upd_apply (we : (⟨2, ![256, 768]⟩ : Shape).Idx → EReal) (be : (⟨1, ![768]⟩ : Shape).Idx → EReal)
    (mask : (⟨1, ![4096]⟩ : Shape).Idx → EReal)
    (hwe : (V c main_v35 : S256x768.Idx → EReal) = we) (hbe : (V c main_arg9 : S768.Idx → EReal) = be)
    (hmask : ∀ p : Fin 4096, (V c main_v48 : S4096x1.Idx → EReal) (ix2 p (0 : Fin 1)) = mask (ix1 p))
    (p : Fin 4096) (h : Fin 768) :
    ((dat0 V c).arrAt 5 cfg0.N : S4096x768.Idx → EReal) (ix2 p h)
      = Cert.Spec.update (fun i => (qr i : EReal)) (fun i => (er i : EReal)) we be mask p h := by
  rw [region0_upd V c qr er hq he we be mask hwe hbe hmask, updArr_ix2]

end Real

end Cert.KernelIdeal.Hand

end
-- ==== Proof.KI.ValA.lean ====
/-
  The kernel program at the extended reals, from launch to the end of the attention-reduction call: what the arrays
  that call reads hold when it is entered, as terms of the argument arrays, and what it leaves in its three output arrays.

  The mention encodings `Qk m c` are the token rows at the start and end positions, joined, projected and biased; the
  narrowed copies the kernels read are the same arrays at the extended reals. Under the precondition every entry of the
  encodings and of the entity table is a real, so the tile-by-tile softmax of the call is the whole-row softmax: its
  outputs are the row maxima, the softmax denominators and the projected, biased and masked retrieved entities.
-/
import proofs.«120323_j21741124452848_2_alg».proof.Proof.KI.Run
import proofs.«120323_j21741124452848_2_alg».proof.Proof.KI.KHost
import proofs.«120323_j21741124452848_2_alg».proof.Proof.KI.Names
import proofs.«120323_j21741124452848_2_alg».proof.Proof.KI.KHostN
import proofs.«120323_j21741124452848_2_alg».proof.Proof.KI.Finite
import proofs.«120323_j21741124452848_2_alg».proof.Proof.KI.V0Out
import proofs.«120323_j21741124452848_2_alg».proof.Proof.Spec
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem QuotLaws
open Idealize.ShloMosaic.Pipeline (Dat)

variable (m : (ℓ : Loc nD τ sig) → Buf (Elt Ideal) ℓ) (ρ : Dev nD → PrngReg) (c : Dev nD)

/-! ## Buffers the four norm-and-reciprocal stretches do not write -/

/-- A buffer none of the four stretches after the first writes holds, when the first kernel is entered, what the first
    stretch left in it. -/
theorem W5_keep (r : Ref sig .tc) (h1 : r ∉ KHost.written_0_1) (h2 : r ∉ KHost.written_0_2) (h3 : r ∉ KHost.written_0_3)
    (h4 : r ∉ KHost.written_0_4) : W5 m ρ c (Proc.devRef .tc r) = W1 m ρ c (Proc.devRef .tc r) :=
  (KHost.keep_0_4 (W4 m ρ c) r h4).trans ((KHost.keep_0_3 (W3 m ρ c) r h3).trans
    ((KHost.keep_0_2 (W2 m ρ c) r h2).trans (KHost.keep_0_1 (W1 m ρ c) r h1)))

/-- A buffer no host stretch before the first kernel writes holds its launch contents there. -/
theorem W5_keep0 (r : Ref sig .tc) (h0 : r ∉ KHost.written_0) (h1 : r ∉ KHost.written_0_1) (h2 : r ∉ KHost.written_0_2)
    (h3 : r ∉ KHost.written_0_3) (h4 : r ∉ KHost.written_0_4) :
    W5 m ρ c (Proc.devRef .tc r) = m ((c.tc : Thread nD τ).loc r) :=
  (W5_keep m ρ c r h1 h2 h3 h4).trans (KHost.keep_0 (W0 m ρ c) r h0)

/-! ## What the first kernel finds -/

/-- The encodings, in full width. -/
theorem entry_v32 : (W5 m ρ c (Proc.devRef .tc main_v32) : S4096x256.Idx → EReal) = Qk m c :=
  (W5_keep m ρ c main_v32 (by decide) (by decide) (by decide) (by decide)).trans (KHost.h0_v32 (W0 m ρ c))

/-- The narrowed encodings the kernels read: the same array. -/
theorem entry_v33 : (W5 m ρ c (Proc.devRef .tc main_v33) : S4096x256.Idx → EReal) = Qk m c :=
  (W5_keep m ρ c main_v33 (by decide) (by decide) (by decide) (by decide)).trans (KHost.h0_v33 (W0 m ρ c))

/-- The narrowed entity table: the entity table. -/
theorem entry_v34 : (W5 m ρ c (Proc.devRef .tc main_v34) : S32000x256.Idx → EReal) = m ((c.tc : Thread nD τ).loc main_arg5) :=
  (W5_keep m ρ c main_v34 (by decide) (by decide) (by decide) (by decide)).trans (KHost.h0_v34 (W0 m ρ c))

/-- The narrowed output projection: the output projection. -/
theorem entry_v35 : (W5 m ρ c (Proc.devRef .tc main_v35) : S256x768.Idx → EReal) = m ((c.tc : Thread nD τ).loc main_arg8) :=
  (W5_keep m ρ c main_v35 (by decide) (by decide) (by decide) (by decide)).trans (KHost.h0_v35 (W0 m ρ c))

/-- The output projection's bias is an argument no stretch writes. -/
theorem entry_arg9 : (W5 m ρ c (Proc.devRef .tc main_arg9) : S768.Idx → EReal) = m ((c.tc : Thread nD τ).loc main_arg9) :=
  W5_keep0 m ρ c main_arg9 (by decide) (by decide) (by decide) (by decide) (by decide)

/-- The arguments the first stretch reads are still as launched after it. -/
theorem W1_arg4 : W1 m ρ c (Proc.devRef .tc main_arg4) = m ((c.tc : Thread nD τ).loc main_arg4) :=
  KHost.keep_0 (W0 m ρ c) main_arg4 (by decide)
theorem W1_arg5 : W1 m ρ c (Proc.devRef .tc main_arg5) = m ((c.tc : Thread nD τ).loc main_arg5) :=
  KHost.keep_0 (W0 m ρ c) main_arg5 (by decide)
theorem W1_v32 : (W1 m ρ c (Proc.devRef .tc main_v32) : S4096x256.Idx → EReal) = Qk m c := KHost.h0_v32 (W0 m ρ c)

/-- The mask column: the mask, one entry per row. -/
theorem entry_v48 (p : Fin 4096) :
    (W5 m ρ c (Proc.devRef .tc main_v48) : S4096x1.Idx → EReal) (ix2 p (0 : Fin 1))
      = (m ((c.tc : Thread nD τ).loc main_arg4) : S4096.Idx → EReal) (ix1 p) :=
  (KHostN.mask_col (W1 m ρ c) p).trans (by rw [W1_arg4 m ρ c])

/-- The reciprocal of the shifted mention norm, one entry per row. -/
theorem entry_v47 (p : Fin 4096) :
    (W5 m ρ c (Proc.devRef .tc main_v47) : S4096x1.Idx → EReal) (ix2 p (0 : Fin 1))
      = Ideal.div (Ideal.ofBits .f32 0x3F800000#32) (Ideal.ofBits .f32 0x322BCC77#32 + Cert.Spec.qNorm (Qk m c) p) :=
  (KHostN.inv_m (W1 m ρ c) p).trans (by rw [W1_v32 m ρ c])

/-- The reciprocal of the shifted entity norm, one entry per entity. -/
theorem entry_v43 (e : Fin 32000) :
    (W5 m ρ c (Proc.devRef .tc main_v43) : S1x32000.Idx → EReal) (ix2 (0 : Fin 1) e)
      = Ideal.div (Ideal.ofBits .f32 0x3F800000#32)
          (Ideal.ofBits .f32 0x322BCC77#32 + Cert.Spec.entNorm (m ((c.tc : Thread nD τ).loc main_arg5)) e) :=
  (KHostN.inv_e (W1 m ρ c) e).trans (by rw [W1_arg5 m ρ c])

/-! ## Under the precondition the encodings and the entity table are real -/

theorem Qk_real (h : Cert.Pre_KernelIdeal m) (i : S4096x256.Idx) : IsReal (Qk m c i) := by
  have e : (Fin0.Vh m c (Proc.devRef .tc main_v33) : S4096x256.Idx → EReal) = Qk m c :=
    KHost.h0_v33 (fun b => m (c, b))
  rw [← e]
  exact Fin0.q_real m c h i

theorem arg5_real (h : Cert.Pre_KernelIdeal m) (i : S32000x256.Idx) :
    IsReal ((m ((c.tc : Thread nD τ).loc main_arg5) : S32000x256.Idx → EReal) i) :=
  (Fin0.args_real m h c).2.2.1 i

/-! ## What the first kernel leaves -/

/-- Its input arrays are as it found them. -/
theorem exit_v33 : (W6 m ρ c (Proc.devRef .tc main_v33) : S4096x256.Idx → EReal) = Qk m c :=
  (W6_arr m ρ c 0).trans ((arr0_0 (V5 m ρ) c).trans (entry_v33 m ρ c))

theorem exit_v34 : (W6 m ρ c (Proc.devRef .tc main_v34) : S32000x256.Idx → EReal) = m ((c.tc : Thread nD τ).loc main_arg5) :=
  (W6_arr m ρ c 1).trans ((arr0_1 (V5 m ρ) c).trans (entry_v34 m ρ c))

theorem exit_arg9 : (W6 m ρ c (Proc.devRef .tc main_arg9) : S768.Idx → EReal) = m ((c.tc : Thread nD τ).loc main_arg9) :=
  (W6_arr m ρ c 3).trans ((arr0_3 (V5 m ρ) c).trans (entry_arg9 m ρ c))

/-- Buffers that are none of its arrays are as it found them. -/
theorem exit_v32 : (W6 m ρ c (Proc.devRef .tc main_v32) : S4096x256.Idx → EReal) = Qk m c :=
  (W6_of_ne m ρ c main_v32 (by decide)).trans (entry_v32 m ρ c)

theorem exit_v47 (p : Fin 4096) :
    (W6 m ρ c (Proc.devRef .tc main_v47) : S4096x1.Idx → EReal) (ix2 p (0 : Fin 1))
      = Ideal.div (Ideal.ofBits .f32 0x3F800000#32) (Ideal.ofBits .f32 0x322BCC77#32 + Cert.Spec.qNorm (Qk m c) p) := by
  rw [W6_of_ne m ρ c main_v47 (by decide)]
  exact entry_v47 m ρ c p

theorem exit_v43 (e : Fin 32000) :
    (W6 m ρ c (Proc.devRef .tc main_v43) : S1x32000.Idx → EReal) (ix2 (0 : Fin 1) e)
      = Ideal.div (Ideal.ofBits .f32 0x3F800000#32)
          (Ideal.ofBits .f32 0x322BCC77#32 + Cert.Spec.entNorm (m ((c.tc : Thread nD τ).loc main_arg5)) e) := by
  rw [W6_of_ne m ρ c main_v43 (by decide)]
  exact entry_v43 m ρ c e

/-- An argument that is none of the first kernel's arrays and that no host stretch before it writes is, after it, as
    launched. -/
theorem exit_arg (r : Ref sig .tc) (hb : ∀ w, Pipeline.arrRef spec0 w ≠ r) (h0 : r ∉ KHost.written_0)
    (h1 : r ∉ KHost.written_0_1) (h2 : r ∉ KHost.written_0_2) (h3 : r ∉ KHost.written_0_3) (h4 : r ∉ KHost.written_0_4) :
    W6 m ρ c (Proc.devRef .tc r) = m ((c.tc : Thread nD τ).loc r) :=
  (W6_of_ne m ρ c r hb).trans (W5_keep0 m ρ c r h0 h1 h2 h3 h4)

theorem exit_arg0 : W6 m ρ c (Proc.devRef .tc main_arg0) = m ((c.tc : Thread nD τ).loc main_arg0) :=
  exit_arg m ρ c main_arg0 (by decide) (by decide) (by decide) (by decide) (by decide) (by decide)
theorem exit_arg1 : W6 m ρ c (Proc.devRef .tc main_arg1) = m ((c.tc : Thread nD τ).loc main_arg1) :=
  exit_arg m ρ c main_arg1 (by decide) (by decide) (by decide) (by decide) (by decide) (by decide)
theorem exit_arg2 : W6 m ρ c (Proc.devRef .tc main_arg2) = m ((c.tc : Thread nD τ).loc main_arg2) :=
  exit_arg m ρ c main_arg2 (by decide) (by decide) (by decide) (by decide) (by decide) (by decide)
theorem exit_arg3 : W6 m ρ c (Proc.devRef .tc main_arg3) = m ((c.tc : Thread nD τ).loc main_arg3) :=
  exit_arg m ρ c main_arg3 (by decide) (by decide) (by decide) (by decide) (by decide) (by decide)
theorem exit_arg4 : W6 m ρ c (Proc.devRef .tc main_arg4) = m ((c.tc : Thread nD τ).loc main_arg4) :=
  exit_arg m ρ c main_arg4 (by decide) (by decide) (by decide) (by decide) (by decide) (by decide)
theorem exit_arg5 : W6 m ρ c (Proc.devRef .tc main_arg5) = m ((c.tc : Thread nD τ).loc main_arg5) :=
  exit_arg m ρ c main_arg5 (by decide) (by decide) (by decide) (by decide) (by decide) (by decide)
theorem exit_arg6 : W6 m ρ c (Proc.devRef .tc main_arg6) = m ((c.tc : Thread nD τ).loc main_arg6) :=
  exit_arg m ρ c main_arg6 (by decide) (by decide) (by decide) (by decide) (by decide) (by decide)
theorem exit_arg7 : W6 m ρ c (Proc.devRef .tc main_arg7) = m ((c.tc : Thread nD τ).loc main_arg7) :=
  exit_arg m ρ c main_arg7 (by decide) (by decide) (by decide) (by decide) (by decide) (by decide)
theorem exit_arg8 : W6 m ρ c (Proc.devRef .tc main_arg8) = m ((c.tc : Thread nD τ).loc main_arg8) :=
  exit_arg m ρ c main_arg8 (by decide) (by decide) (by decide) (by decide) (by decide) (by decide)
theorem exit_arg10 : W6 m ρ c (Proc.devRef .tc main_arg10) = m ((c.tc : Thread nD τ).loc main_arg10) :=
  exit_arg m ρ c main_arg10 (by decide) (by decide) (by decide) (by decide) (by decide) (by decide)
theorem exit_arg11 : W6 m ρ c (Proc.devRef .tc main_arg11) = m ((c.tc : Thread nD τ).loc main_arg11) :=
  exit_arg m ρ c main_arg11 (by decide) (by decide) (by decide) (by decide) (by decide) (by decide)

/-! ## Its three output arrays, under the precondition -/

/-- The running-maximum array: every mention's row maximum. -/
theorem exit_max (h : Cert.Pre_KernelIdeal m) :
    (W6 m ρ c (Proc.devRef .tc main_v49_1) : S4096x1.Idx → EReal)
      = maxCol (Qk m c) (m ((c.tc : Thread nD τ).loc main_arg5)) := by
  obtain ⟨qr, hqr⟩ := Fin0.exists_real_fun (Qk m c) (Qk_real m c h)
  obtain ⟨er, her⟩ := Fin0.exists_real_fun (m ((c.tc : Thread nD τ).loc main_arg5) : S32000x256.Idx → EReal) (arg5_real m c h)
  rw [hqr, her]
  refine (W6_arr m ρ c 6).trans ?_
  exact region0_max (V5 m ρ) c qr er
    (fun i => (congrFun (entry_v33 m ρ c) i).trans (congrFun hqr i))
    (fun i => (congrFun (entry_v34 m ρ c) i).trans (congrFun her i))

/-- The running-sum array: every mention's softmax denominator. -/
theorem exit_sum (h : Cert.Pre_KernelIdeal m) :
    (W6 m ρ c (Proc.devRef .tc main_v49_2) : S4096x1.Idx → EReal)
      = sumCol (Qk m c) (m ((c.tc : Thread nD τ).loc main_arg5)) := by
  obtain ⟨qr, hqr⟩ := Fin0.exists_real_fun (Qk m c) (Qk_real m c h)
  obtain ⟨er, her⟩ := Fin0.exists_real_fun (m ((c.tc : Thread nD τ).loc main_arg5) : S32000x256.Idx → EReal) (arg5_real m c h)
  rw [hqr, her]
  refine (W6_arr m ρ c 7).trans ?_
  exact region0_sum (V5 m ρ) c qr er
    (fun i => (congrFun (entry_v33 m ρ c) i).trans (congrFun hqr i))
    (fun i => (congrFun (entry_v34 m ρ c) i).trans (congrFun her i))

/-- The update array: every mention's retrieved entity, projected, biased and masked. -/
theorem exit_upd (h : Cert.Pre_KernelIdeal m) :
    (W6 m ρ c (Proc.devRef .tc main_v49_0) : S4096x768.Idx → EReal)
      = updArr (Qk m c) (m ((c.tc : Thread nD τ).loc main_arg5)) (m ((c.tc : Thread nD τ).loc main_arg8))
          (m ((c.tc : Thread nD τ).loc main_arg9)) (m ((c.tc : Thread nD τ).loc main_arg4)) := by
  obtain ⟨qr, hqr⟩ := Fin0.exists_real_fun (Qk m c) (Qk_real m c h)
  obtain ⟨er, her⟩ := Fin0.exists_real_fun (m ((c.tc : Thread nD τ).loc main_arg5) : S32000x256.Idx → EReal) (arg5_real m c h)
  rw [hqr, her]
  refine (W6_arr m ρ c 5).trans ?_
  exact region0_upd (V5 m ρ) c qr er
    (fun i => (congrFun (entry_v33 m ρ c) i).trans (congrFun hqr i))
    (fun i => (congrFun (entry_v34 m ρ c) i).trans (congrFun her i))
    (m ((c.tc : Thread nD τ).loc main_arg8)) (m ((c.tc : Thread nD τ).loc main_arg9)) (m ((c.tc : Thread nD τ).loc main_arg4))
    (entry_v35 m ρ c) (entry_arg9 m ρ c) (fun p => entry_v48 m ρ c p)

/-- The update array, under its shared name. -/
theorem updArr_eq_Uk :
    updArr (Qk m c) (m ((c.tc : Thread nD τ).loc main_arg5)) (m ((c.tc : Thread nD τ).loc main_arg8))
        (m ((c.tc : Thread nD τ).loc main_arg9)) (m ((c.tc : Thread nD τ).loc main_arg4)) = Uk m c := rfl

theorem exit_upd_Uk (h : Cert.Pre_KernelIdeal m) :
    (W6 m ρ c (Proc.devRef .tc main_v49_0) : S4096x768.Idx → EReal) = Uk m c :=
  (exit_upd m ρ c h).trans (updArr_eq_Uk m c)

end Cert.KernelIdeal.Hand

end
-- ==== Proof.KI.V1.lean ====
/-
Region 1 at the exact (extended-real) instance: what the region leaves in its two result arrays, index by index, as
formulas of the six arrays it reads, as the region finds them.

Write q for the 4096 × 256 array of queries, ent for the 32000 × 256 table, mx and sm for the 4096 × 1 columns of row
maxima and row sums, im for the 4096 × 1 column and ie for the 1 × 32000 row of reciprocal norms, and
S p e = ∑ₖ q (p, k) · ent (e, k) for the score of query p against table row e.  Then the first result array holds
exp (S p e − mx p) / sm p at (p, e), and the second holds S p e · im p · ie e.

Three steps.  (a) One element of what the body stores, from the elements of the blocks it loaded: the product into the
zero accumulator is the sum over the contracted coordinate; a column laid against the tile reads the column at the
row; a row laid against the tile reads the row at the column; everything else is pointwise.  (b) What a grid point
writes back is the 256 × 3200 block of the whole-array formula at that point's block index: the query tile and the
three columns move with the block's row index, the table tile and the row of reciprocals with its column index.
(c) The 16 × 10 blocks tile the arrays, every block index is some grid point's, and every point writes back, so the
arrays end holding the formula everywhere.
-/
import proofs.«120323_j21741124452848_2_alg».proof.Proof.KI.R1
import proofs.«120323_j21741124452848_2_alg».proof.Proof.LibColBcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The two result arrays as formulas -/

/-- The first result at (p, e): the exponential of the score less the row's maximum, over the row's sum. -/
def attnAt1 (q : S4096x256.Idx → EReal) (ent : S32000x256.Idx → EReal) (mx sm : S4096x1.Idx → EReal)
    (p : Fin 4096) (e : Fin 32000) : EReal :=
  Ideal.div (Ideal.exp ((∑ k : Fin 256, q (ix2 p k) * ent (ix2 e k)) - mx (ix2 p (0 : Fin 1)))) (sm (ix2 p (0 : Fin 1)))

/-- The second result at (p, e): the score times the query's and the table row's reciprocal norms. -/
def cosAt1 (q : S4096x256.Idx → EReal) (ent : S32000x256.Idx → EReal) (im : S4096x1.Idx → EReal) (ie : S1x32000.Idx → EReal)
    (p : Fin 4096) (e : Fin 32000) : EReal :=
  (∑ k : Fin 256, q (ix2 p k) * ent (ix2 e k)) * im (ix2 p (0 : Fin 1)) * ie (ix2 (0 : Fin 1) e)

/-- The first result array. -/
def G1_6 (q : S4096x256.Idx → EReal) (ent : S32000x256.Idx → EReal) (mx sm : S4096x1.Idx → EReal) : S4096x32000.Idx → EReal :=
  fun i => attnAt1 q ent mx sm ⟨(i 0).val, idx2_lt0 i⟩ ⟨(i 1).val, idx2_lt1 i⟩

/-- The second result array. -/
def G1_7 (q : S4096x256.Idx → EReal) (ent : S32000x256.Idx → EReal) (im : S4096x1.Idx → EReal) (ie : S1x32000.Idx → EReal) : S4096x32000.Idx → EReal :=
  fun i => cosAt1 q ent im ie ⟨(i 0).val, idx2_lt0 i⟩ ⟨(i 1).val, idx2_lt1 i⟩

theorem G1_6_ix2 (q : S4096x256.Idx → EReal) (ent : S32000x256.Idx → EReal) (mx sm : S4096x1.Idx → EReal) (p : Fin 4096) (e : Fin 32000) :
    G1_6 q ent mx sm (ix2 p e)
      = Ideal.div (Ideal.exp ((∑ k : Fin 256, q (ix2 p k) * ent (ix2 e k)) - mx (ix2 p (0 : Fin 1)))) (sm (ix2 p (0 : Fin 1))) := rfl

theorem G1_7_ix2 (q : S4096x256.Idx → EReal) (ent : S32000x256.Idx → EReal) (im : S4096x1.Idx → EReal) (ie : S1x32000.Idx → EReal) (p : Fin 4096) (e : Fin 32000) :
    G1_7 q ent im ie (ix2 p e)
      = (∑ k : Fin 256, q (ix2 p k) * ent (ix2 e k)) * im (ix2 p (0 : Fin 1)) * ie (ix2 (0 : Fin 1) e) := rfl

/-! ## (a) One element of what the body stores -/

/-- The body's one contraction: the query tile's second axis against the table tile's second axis. -/
abbrev dotB1 := dot_S256x256_S3200x256_S256x3200_1_1_0_0_n_n

theorem dotB1_lhs0 (i : S256x3200.Idx) (u : dotB1.contr.Idx) : (dotB1.lhsIdx i u 0).val = (i 0).val := by
  unfold DotDims.lhsIdx
  rw [dif_neg (show ¬(0 : Fin S256x256.rank) ∈ dotB1.lhsBatch by decide), dif_pos (show (0 : Fin S256x256.rank) ∈ dotB1.lhsNonContracting by decide)]
  rfl
theorem dotB1_lhs1 (i : S256x3200.Idx) (u : dotB1.contr.Idx) : (dotB1.lhsIdx i u 1).val = (u ⟨0, by decide⟩).val :=
  dotB1.lhsIdx_val_of_single rfl i u
theorem dotB1_rhs0 (i : S256x3200.Idx) (u : dotB1.contr.Idx) : (dotB1.rhsIdx i u 0).val = (i 1).val := by
  unfold DotDims.rhsIdx
  rw [dif_neg (show ¬(0 : Fin S3200x256.rank) ∈ dotB1.rhsBatch by decide), dif_pos (show (0 : Fin S3200x256.rank) ∈ dotB1.rhsNonContracting by decide)]
  rfl
theorem dotB1_rhs1 (i : S256x3200.Idx) (u : dotB1.contr.Idx) : (dotB1.rhsIdx i u 1).val = (u ⟨0, by decide⟩).val :=
  dotB1.rhsIdx_val_of_single rfl i u

/-- The score tile at (r, j): row r of the query tile against row j of the table tile. -/
theorem score1_apply (x0 : Vec Ideal S256x256 .bf16) (x1 : Vec Ideal S3200x256 .bf16) (r : Fin 256) (j : Fin 3200) :
    k1_pay1 x0 x1 (ix2 r j) = ∑ k : Fin 256, x0 (ix2 r k) * x1 (ix2 j k) := by
  unfold k1_pay1
  simp only [shapeCast_self]
  refine (Ideal.matmul_constant_zero_apply (φ₁ := .bf16) (φ₂ := .bf16) dotB1 none x0 x1 (ix2 r j)).trans ?_
  rw [← Equiv.sum_comp (contrEquiv1 dotB1 256 rfl rfl).symm]
  refine Finset.sum_congr rfl fun k _ => ?_
  have hk := contrEquiv1_symm_val dotB1 256 rfl rfl k
  have el : dotB1.lhsIdx (ix2 r j) ((contrEquiv1 dotB1 256 rfl rfl).symm k) = ix2 r k := funext fun a => Fin.ext (by
    match a with
    | ⟨0, _⟩ => exact dotB1_lhs0 _ _
    | ⟨1, _⟩ => exact (dotB1_lhs1 _ _).trans hk)
  have er : dotB1.rhsIdx (ix2 r j) ((contrEquiv1 dotB1 256 rfl rfl).symm k) = ix2 j k := funext fun a => Fin.ext (by
    match a with
    | ⟨0, _⟩ => exact dotB1_rhs0 _ _
    | ⟨1, _⟩ => exact (dotB1_rhs1 _ _).trans hk)
  rw [el, er]

/-- The first stored tile at (r, j). -/
theorem attnTile1_apply (x0 : Vec Ideal S256x256 .bf16) (x1 : Vec Ideal S3200x256 .bf16) (x2 x3 : Vec Ideal S256x1 .f32)
    (r : Fin 256) (j : Fin 3200) :
    k1_pay2 x0 x1 x2 x3 (ix2 r j)
      = Ideal.div (Ideal.exp ((∑ k : Fin 256, x0 (ix2 r k) * x1 (ix2 j k)) - x2 (ix2 r (0 : Fin 1)))) (x3 (ix2 r (0 : Fin 1))) := by
  unfold k1_pay2
  simp only [shapeCast_self]
  show Ideal.div (Ideal.exp (k1_pay1 x0 x1 (ix2 r j) - broadcastTo S256x3200 x2 broadcasts_S256x1_S256x3200 (ix2 r j)))
      (broadcastTo S256x3200 x3 broadcasts_S256x1_S256x3200 (ix2 r j)) = _
  rw [score1_apply, Cert.LibColBcast.broadcastTo_a1_ab_apply, Cert.LibColBcast.broadcastTo_a1_ab_apply]

/-- The second stored tile at (r, j). -/
theorem cosTile1_apply (x0 : Vec Ideal S256x256 .bf16) (x1 : Vec Ideal S3200x256 .bf16) (x4 : Vec Ideal S256x1 .f32) (x5 : Vec Ideal S1x3200 .f32)
    (r : Fin 256) (j : Fin 3200) :
    k1_pay3 x0 x1 x4 x5 (ix2 r j)
      = (∑ k : Fin 256, x0 (ix2 r k) * x1 (ix2 j k)) * x4 (ix2 r (0 : Fin 1)) * x5 (ix2 (0 : Fin 1) j) := by
  unfold k1_pay3
  simp only [shapeCast_self]
  show k1_pay1 x0 x1 (ix2 r j) * broadcastTo S256x3200 x4 broadcasts_S256x1_S256x3200 (ix2 r j)
      * broadcastTo S256x3200 x5 broadcasts_S1x3200_S256x3200 (ix2 r j) = _
  rw [score1_apply, Cert.LibColBcast.broadcastTo_a1_ab_apply, broadcastTo_1b_ab_apply]

/-- An element of the first stored tile is the whole-array formula at (p, e), as soon as the loaded blocks' elements it
    reads are the arrays' elements at (p, ·), (e, ·) and (p, 0). -/
theorem attnTile1_at (q : S4096x256.Idx → EReal) (ent : S32000x256.Idx → EReal) (mx sm : S4096x1.Idx → EReal)
    (x0 : Vec Ideal S256x256 .bf16) (x1 : Vec Ideal S3200x256 .bf16) (x2 x3 : Vec Ideal S256x1 .f32)
    (p : Fin 4096) (e : Fin 32000) (r : Fin 256) (j : Fin 3200)
    (h0 : ∀ k : Fin 256, x0 (ix2 r k) = q (ix2 p k)) (h1 : ∀ k : Fin 256, x1 (ix2 j k) = ent (ix2 e k))
    (h2 : x2 (ix2 r (0 : Fin 1)) = mx (ix2 p (0 : Fin 1))) (h3 : x3 (ix2 r (0 : Fin 1)) = sm (ix2 p (0 : Fin 1))) :
    k1_pay2 x0 x1 x2 x3 (ix2 r j) = G1_6 q ent mx sm (ix2 p e) := by
  rw [attnTile1_apply, G1_6_ix2, h2, h3, Finset.sum_congr rfl fun k _ => by rw [h0 k, h1 k]]

/-- The same for the second stored tile, with the reciprocal norms at (p, 0) and (0, e). -/
theorem cosTile1_at (q : S4096x256.Idx → EReal) (ent : S32000x256.Idx → EReal) (im : S4096x1.Idx → EReal) (ie : S1x32000.Idx → EReal)
    (x0 : Vec Ideal S256x256 .bf16) (x1 : Vec Ideal S3200x256 .bf16) (x4 : Vec Ideal S256x1 .f32) (x5 : Vec Ideal S1x3200 .f32)
    (p : Fin 4096) (e : Fin 32000) (r : Fin 256) (j : Fin 3200)
    (h0 : ∀ k : Fin 256, x0 (ix2 r k) = q (ix2 p k)) (h1 : ∀ k : Fin 256, x1 (ix2 j k) = ent (ix2 e k))
    (h4 : x4 (ix2 r (0 : Fin 1)) = im (ix2 p (0 : Fin 1))) (h5 : x5 (ix2 (0 : Fin 1) j) = ie (ix2 (0 : Fin 1) e)) :
    k1_pay3 x0 x1 x4 x5 (ix2 r j) = G1_7 q ent im ie (ix2 p e) := by
  rw [cosTile1_apply, G1_7_ix2, h4, h5, Finset.sum_congr rfl fun k _ => by rw [h0 k, h1 k]]

/-! ## (b) What a grid point writes back -/

-- the TensorCore's buffer contents when the region is entered
variable (V : (c : Dev nD) → (b : Ref sig .tc) → Buf (Elt Ideal) ((c : Thread nD τ).loc b))

theorem zeroOff1 : (![0, 0] : Fin 2 → Nat) = fun _ => 0 := funext fun a => by fin_cases a <;> rfl

/-- The printed index maps over the 160 grid points.  With (bp, be) the block index of the first result's window:
    the query tile and the three columns sit at row block bp, the table tile at row block be, the row of reciprocal
    norms at column block be, the second result's window at the same block as the first; bp < 16 and be < 10. -/
theorem maps1 : ∀ t : Fin cfg1.N,
    win1_0.index t (0 : Fin 2) = win1_6.index t (0 : Fin 2) ∧ win1_0.index t (1 : Fin 2) = 0
    ∧ win1_1.index t (0 : Fin 2) = win1_6.index t (1 : Fin 2) ∧ win1_1.index t (1 : Fin 2) = 0
    ∧ win1_2.index t (0 : Fin 2) = win1_6.index t (0 : Fin 2) ∧ win1_2.index t (1 : Fin 2) = 0
    ∧ win1_3.index t (0 : Fin 2) = win1_6.index t (0 : Fin 2) ∧ win1_3.index t (1 : Fin 2) = 0
    ∧ win1_4.index t (0 : Fin 2) = win1_6.index t (0 : Fin 2) ∧ win1_4.index t (1 : Fin 2) = 0
    ∧ win1_5.index t (0 : Fin 2) = 0 ∧ win1_5.index t (1 : Fin 2) = win1_6.index t (1 : Fin 2)
    ∧ win1_7.index t (0 : Fin 2) = win1_6.index t (0 : Fin 2) ∧ win1_7.index t (1 : Fin 2) = win1_6.index t (1 : Fin 2)
    ∧ win1_6.index t (0 : Fin 2) ≤ 15 ∧ win1_6.index t (1 : Fin 2) ≤ 9 :=
  (by decide +kernel : ∀ t : Fin grid1.N, _)

/-- Every block index of the 16 × 10 tiling is some grid point's. -/
theorem onto1 : ∀ (a : Fin 16) (b : Fin 10), ∃ t : Fin cfg1.N, win1_6.index t = ![a.val, b.val] :=
  (by decide +kernel : ∀ (a : Fin 16) (b : Fin 10), ∃ t : Fin grid1.N, win1_6.index t = ![a.val, b.val])

/-! The elements of the input blocks at a point, as elements of the arrays. -/

/-- The query tile's row r is the query array's row bp·256 + r. -/
theorem blk1_0_at (c : Dev nD) (t : Fin cfg1.N) (r k : Fin 256) (p : Fin 4096)
    (hp : p.val = win1_6.index t (0 : Fin 2) * 256 + r.val) :
    (iblk1 V c 0 t : Vec Ideal S256x256 .bf16) (ix2 r k) = (V c (Pipeline.arrRef spec1 0) : S4096x256.Idx → EReal) (ix2 p k) := by
  obtain ⟨e00, e01, -⟩ := maps1 t
  show (V c (Pipeline.arrRef spec1 0) : S4096x256.Idx → EReal) (((cfg1.win 0).blk t).view.emb (ix2 r k)) = _
  refine congrArg _ (funext fun a => Fin.ext ?_)
  match a with
  | ⟨0, _⟩ => show win1_0.index t (0 : Fin 2) * 256 + 1 * r.val = p.val; omega
  | ⟨1, _⟩ => show win1_0.index t (1 : Fin 2) * 256 + 1 * k.val = k.val; omega

/-- The table tile's row j is the table's row be·3200 + j. -/
theorem blk1_1_at (c : Dev nD) (t : Fin cfg1.N) (j : Fin 3200) (k : Fin 256) (e : Fin 32000)
    (he : e.val = win1_6.index t (1 : Fin 2) * 3200 + j.val) :
    (iblk1 V c 1 t : Vec Ideal S3200x256 .bf16) (ix2 j k) = (V c (Pipeline.arrRef spec1 1) : S32000x256.Idx → EReal) (ix2 e k) := by
  obtain ⟨-, -, e10, e11, -⟩ := maps1 t
  show (V c (Pipeline.arrRef spec1 1) : S32000x256.Idx → EReal) (((cfg1.win 1).blk t).view.emb (ix2 j k)) = _
  refine congrArg _ (funext fun a => Fin.ext ?_)
  match a with
  | ⟨0, _⟩ => show win1_1.index t (0 : Fin 2) * 3200 + 1 * j.val = e.val; omega
  | ⟨1, _⟩ => show win1_1.index t (1 : Fin 2) * 256 + 1 * k.val = k.val; omega

/-- The column of row maxima at r is the array's entry at row bp·256 + r. -/
theorem blk1_2_at (c : Dev nD) (t : Fin cfg1.N) (r : Fin 256) (p : Fin 4096)
    (hp : p.val = win1_6.index t (0 : Fin 2) * 256 + r.val) :
    (iblk1 V c 2 t : Vec Ideal S256x1 .f32) (ix2 r (0 : Fin 1)) = (V c (Pipeline.arrRef spec1 2) : S4096x1.Idx → EReal) (ix2 p (0 : Fin 1)) := by
  obtain ⟨-, -, -, -, e20, e21, -⟩ := maps1 t
  show (V c (Pipeline.arrRef spec1 2) : S4096x1.Idx → EReal) (((cfg1.win 2).blk t).view.emb (ix2 r (0 : Fin 1))) = _
  refine congrArg _ (funext fun a => Fin.ext ?_)
  match a with
  | ⟨0, _⟩ => show win1_2.index t (0 : Fin 2) * 256 + 1 * r.val = p.val; omega
  | ⟨1, _⟩ => show win1_2.index t (1 : Fin 2) * 1 + 1 * 0 = 0; omega

/-- The column of row sums, likewise. -/
theorem blk1_3_at (c : Dev nD) (t : Fin cfg1.N) (r : Fin 256) (p : Fin 4096)
    (hp : p.val = win1_6.index t (0 : Fin 2) * 256 + r.val) :
    (iblk1 V c 3 t : Vec Ideal S256x1 .f32) (ix2 r (0 : Fin 1)) = (V c (Pipeline.arrRef spec1 3) : S4096x1.Idx → EReal) (ix2 p (0 : Fin 1)) := by
  obtain ⟨-, -, -, -, -, -, e30, e31, -⟩ := maps1 t
  show (V c (Pipeline.arrRef spec1 3) : S4096x1.Idx → EReal) (((cfg1.win 3).blk t).view.emb (ix2 r (0 : Fin 1))) = _
  refine congrArg _ (funext fun a => Fin.ext ?_)
  match a with
  | ⟨0, _⟩ => show win1_3.index t (0 : Fin 2) * 256 + 1 * r.val = p.val; omega
  | ⟨1, _⟩ => show win1_3.index t (1 : Fin 2) * 1 + 1 * 0 = 0; omega

/-- The column of reciprocal query norms, likewise. -/
theorem blk1_4_at (c : Dev nD) (t : Fin cfg1.N) (r : Fin 256) (p : Fin 4096)
    (hp : p.val = win1_6.index t (0 : Fin 2) * 256 + r.val) :
    (iblk1 V c 4 t : Vec Ideal S256x1 .f32) (ix2 r (0 : Fin 1)) = (V c (Pipeline.arrRef spec1 4) : S4096x1.Idx → EReal) (ix2 p (0 : Fin 1)) := by
  obtain ⟨-, -, -, -, -, -, -, -, e40, e41, -⟩ := maps1 t
  show (V c (Pipeline.arrRef spec1 4) : S4096x1.Idx → EReal) (((cfg1.win 4).blk t).view.emb (ix2 r (0 : Fin 1))) = _
  refine congrArg _ (funext fun a => Fin.ext ?_)
  match a with
  | ⟨0, _⟩ => show win1_4.index t (0 : Fin 2) * 256 + 1 * r.val = p.val; omega
  | ⟨1, _⟩ => show win1_4.index t (1 : Fin 2) * 1 + 1 * 0 = 0; omega

/-- The row of reciprocal table-row norms at j is the array's entry at column be·3200 + j. -/
theorem blk1_5_at (c : Dev nD) (t : Fin cfg1.N) (j : Fin 3200) (e : Fin 32000)
    (he : e.val = win1_6.index t (1 : Fin 2) * 3200 + j.val) :
    (iblk1 V c 5 t : Vec Ideal S1x3200 .f32) (ix2 (0 : Fin 1) j) = (V c (Pipeline.arrRef spec1 5) : S1x32000.Idx → EReal) (ix2 (0 : Fin 1) e) := by
  obtain ⟨-, -, -, -, -, -, -, -, -, -, e50, e51, -⟩ := maps1 t
  show (V c (Pipeline.arrRef spec1 5) : S1x32000.Idx → EReal) (((cfg1.win 5).blk t).view.emb (ix2 (0 : Fin 1) j)) = _
  refine congrArg _ (funext fun a => Fin.ext ?_)
  match a with
  | ⟨0, _⟩ => show win1_5.index t (0 : Fin 2) * 1 + 1 * 0 = 0; omega
  | ⟨1, _⟩ => show win1_5.index t (1 : Fin 2) * 3200 + 1 * j.val = e.val; omega

/-- What point t writes back to the first result array is the block, at t's block index, of the whole-array formula. -/
theorem wrote1_6 (c : Dev nD) (t : Fin cfg1.N) :
    (dat1 V c).flushed 6 t = ((cfg1.win 6).blk t).view.read (Elt Ideal)
      (G1_6 (V c (Pipeline.arrRef spec1 0)) (V c (Pipeline.arrRef spec1 1)) (V c (Pipeline.arrRef spec1 2)) (V c (Pipeline.arrRef spec1 3))) := by
  show (cfg1.win 6).cut (grid1.coords t) ((dat1 V c).after 6 t) = _
  rw [after1_6]
  unfold out1_6
  rw [View.canon_unit_zero zeroOff1]
  simp only [View.ld_unit_zero (S := S256x256) zeroOff1, View.ld_unit_zero (S := S3200x256) zeroOff1, View.ld_unit_zero (S := S256x1) zeroOff1]
  have hb := maps1 t
  funext y
  obtain ⟨r, j, rfl⟩ : ∃ (r : Fin 256) (j : Fin 3200), y = ix2 r j := ⟨y 0, y 1, eq_ix2 y⟩
  have hp : win1_6.index t (0 : Fin 2) * 256 + r.val < 4096 := by have := r.isLt; omega
  have he : win1_6.index t (1 : Fin 2) * 3200 + j.val < 32000 := by have := j.isLt; omega
  have hemb : ((cfg1.win 6).blk t).view.emb (ix2 r j) = (ix2 (⟨_, hp⟩ : Fin 4096) (⟨_, he⟩ : Fin 32000) : S4096x32000.Idx) :=
    funext fun a => Fin.ext (by
      match a with
      | ⟨0, _⟩ => show win1_6.index t (0 : Fin 2) * 256 + 1 * r.val = win1_6.index t (0 : Fin 2) * 256 + r.val; omega
      | ⟨1, _⟩ => show win1_6.index t (1 : Fin 2) * 3200 + 1 * j.val = win1_6.index t (1 : Fin 2) * 3200 + j.val; omega)
  show k1_pay2 (iblk1 V c 0 t) (iblk1 V c 1 t) (iblk1 V c 2 t) (iblk1 V c 3 t) (ix2 r j)
    = G1_6 (V c (Pipeline.arrRef spec1 0)) (V c (Pipeline.arrRef spec1 1)) (V c (Pipeline.arrRef spec1 2)) (V c (Pipeline.arrRef spec1 3))
        (((cfg1.win 6).blk t).view.emb (ix2 r j))
  rw [hemb]
  exact attnTile1_at _ _ _ _ (iblk1 V c 0 t) (iblk1 V c 1 t) (iblk1 V c 2 t) (iblk1 V c 3 t) ⟨_, hp⟩ ⟨_, he⟩ r j
    (fun k => blk1_0_at V c t r k ⟨_, hp⟩ rfl) (fun k => blk1_1_at V c t j k ⟨_, he⟩ rfl)
    (blk1_2_at V c t r ⟨_, hp⟩ rfl) (blk1_3_at V c t r ⟨_, hp⟩ rfl)

/-- What point t writes back to the second result array, likewise. -/
theorem wrote1_7 (c : Dev nD) (t : Fin cfg1.N) :
    (dat1 V c).flushed 7 t = ((cfg1.win 7).blk t).view.read (Elt Ideal)
      (G1_7 (V c (Pipeline.arrRef spec1 0)) (V c (Pipeline.arrRef spec1 1)) (V c (Pipeline.arrRef spec1 4)) (V c (Pipeline.arrRef spec1 5))) := by
  show (cfg1.win 7).cut (grid1.coords t) ((dat1 V c).after 7 t) = _
  rw [after1_7]
  unfold out1_7
  rw [View.canon_unit_zero zeroOff1]
  simp only [View.ld_unit_zero (S := S256x256) zeroOff1, View.ld_unit_zero (S := S3200x256) zeroOff1, View.ld_unit_zero (S := S256x1) zeroOff1,
    View.ld_unit_zero (S := S1x3200) zeroOff1]
  have hb := maps1 t
  funext y
  obtain ⟨r, j, rfl⟩ : ∃ (r : Fin 256) (j : Fin 3200), y = ix2 r j := ⟨y 0, y 1, eq_ix2 y⟩
  have hp : win1_6.index t (0 : Fin 2) * 256 + r.val < 4096 := by have := r.isLt; omega
  have he : win1_6.index t (1 : Fin 2) * 3200 + j.val < 32000 := by have := j.isLt; omega
  have hemb : ((cfg1.win 7).blk t).view.emb (ix2 r j) = (ix2 (⟨_, hp⟩ : Fin 4096) (⟨_, he⟩ : Fin 32000) : S4096x32000.Idx) :=
    funext fun a => Fin.ext (by
      match a with
      | ⟨0, _⟩ => show win1_7.index t (0 : Fin 2) * 256 + 1 * r.val = win1_6.index t (0 : Fin 2) * 256 + r.val; omega
      | ⟨1, _⟩ => show win1_7.index t (1 : Fin 2) * 3200 + 1 * j.val = win1_6.index t (1 : Fin 2) * 3200 + j.val; omega)
  show k1_pay3 (iblk1 V c 0 t) (iblk1 V c 1 t) (iblk1 V c 4 t) (iblk1 V c 5 t) (ix2 r j)
    = G1_7 (V c (Pipeline.arrRef spec1 0)) (V c (Pipeline.arrRef spec1 1)) (V c (Pipeline.arrRef spec1 4)) (V c (Pipeline.arrRef spec1 5))
        (((cfg1.win 7).blk t).view.emb (ix2 r j))
  rw [hemb]
  exact cosTile1_at _ _ _ _ (iblk1 V c 0 t) (iblk1 V c 1 t) (iblk1 V c 4 t) (iblk1 V c 5 t) ⟨_, hp⟩ ⟨_, he⟩ r j
    (fun k => blk1_0_at V c t r k ⟨_, hp⟩ rfl) (fun k => blk1_1_at V c t j k ⟨_, he⟩ rfl)
    (blk1_4_at V c t r ⟨_, hp⟩ rfl) (blk1_5_at V c t j ⟨_, he⟩ rfl)

/-! ## (c) The blocks tile the arrays -/

/-- An index of the first result array lies in point t's block exactly when each coordinate lies in the block's range. -/
theorem mem_tile1_6 (t : Fin cfg1.N) (i : S4096x32000.Idx) :
    i ∈ ((cfg1.win 6).blk t).view.set ↔ ∀ a : Fin 2, win1_6.index t a * S256x3200.size a ≤ (i a).val ∧ (i a).val < win1_6.index t a * S256x3200.size a + S256x3200.size a := by
  show i ∈ ((View.whole main_v50_0).slice (win1_6.rect t)).set ↔ _
  rw [View.set_slice_whole, Rect.mem_set_unit]
  exact Iff.rfl

theorem mem_tile1_7 (t : Fin cfg1.N) (i : S4096x32000.Idx) :
    i ∈ ((cfg1.win 7).blk t).view.set ↔ ∀ a : Fin 2, win1_7.index t a * S256x3200.size a ≤ (i a).val ∧ (i a).val < win1_7.index t a * S256x3200.size a + S256x3200.size a := by
  show i ∈ ((View.whole main_v50_1).slice (win1_7.rect t)).set ↔ _
  rw [View.set_slice_whole, Rect.mem_set_unit]
  exact Iff.rfl

/-- Entry (p, e) lies in the block with index (p / 256, e / 3200), which some point writes back. -/
theorem covered1_6 (i : S4096x32000.Idx) : ∃ t : Fin cfg1.N, (cfg1.win 6).flush t = true ∧ i ∈ ((cfg1.win 6).blk t).view.set := by
  have hi0 : (i 0).val < 4096 := (i 0).isLt
  have hi1 : (i 1).val < 32000 := (i 1).isLt
  obtain ⟨t, ht⟩ := onto1 ⟨(i 0).val / 256, by omega⟩ ⟨(i 1).val / 3200, by omega⟩
  have q0 : win1_6.index t (0 : Fin 2) = (i 0).val / 256 := congrFun ht 0
  have q1 : win1_6.index t (1 : Fin 2) = (i 1).val / 3200 := congrFun ht 1
  refine ⟨t, flush1_6 t, ?_⟩
  rw [mem_tile1_6]
  intro a
  match a with
  | ⟨0, _⟩ => show win1_6.index t (0 : Fin 2) * 256 ≤ (i 0).val ∧ (i 0).val < win1_6.index t (0 : Fin 2) * 256 + 256; omega
  | ⟨1, _⟩ => show win1_6.index t (1 : Fin 2) * 3200 ≤ (i 1).val ∧ (i 1).val < win1_6.index t (1 : Fin 2) * 3200 + 3200; omega

theorem covered1_7 (i : S4096x32000.Idx) : ∃ t : Fin cfg1.N, (cfg1.win 7).flush t = true ∧ i ∈ ((cfg1.win 7).blk t).view.set := by
  have hi0 : (i 0).val < 4096 := (i 0).isLt
  have hi1 : (i 1).val < 32000 := (i 1).isLt
  obtain ⟨t, ht⟩ := onto1 ⟨(i 0).val / 256, by omega⟩ ⟨(i 1).val / 3200, by omega⟩
  have q0 : win1_6.index t (0 : Fin 2) = (i 0).val / 256 := congrFun ht 0
  have q1 : win1_6.index t (1 : Fin 2) = (i 1).val / 3200 := congrFun ht 1
  have hb := maps1 t
  refine ⟨t, flush1_7 t, ?_⟩
  rw [mem_tile1_7]
  intro a
  match a with
  | ⟨0, _⟩ => show win1_7.index t (0 : Fin 2) * 256 ≤ (i 0).val ∧ (i 0).val < win1_7.index t (0 : Fin 2) * 256 + 256; omega
  | ⟨1, _⟩ => show win1_7.index t (1 : Fin 2) * 3200 ≤ (i 1).val ∧ (i 1).val < win1_7.index t (1 : Fin 2) * 3200 + 3200; omega

/-! ## The two result arrays after the region -/

/-- After the region the first result array holds exp (S p e − mx p) / sm p at every (p, e). -/
theorem arr1_6 (c : Dev nD) : (dat1 (F := Ideal) V c).arrAt 6 cfg1.N
    = G1_6 (V c (Pipeline.arrRef spec1 0)) (V c (Pipeline.arrRef spec1 1)) (V c (Pipeline.arrRef spec1 2)) (V c (Pipeline.arrRef spec1 3)) :=
  (dat1 V c).arrAt_eq_of_cover 6 _ (fun t _ => wrote1_6 V c t) covered1_6

/-- After the region the second result array holds S p e · im p · ie e at every (p, e). -/
theorem arr1_7 (c : Dev nD) : (dat1 (F := Ideal) V c).arrAt 7 cfg1.N
    = G1_7 (V c (Pipeline.arrRef spec1 0)) (V c (Pipeline.arrRef spec1 1)) (V c (Pipeline.arrRef spec1 4)) (V c (Pipeline.arrRef spec1 5)) :=
  (dat1 V c).arrAt_eq_of_cover 7 _ (fun t _ => wrote1_7 V c t) covered1_7

end Cert.KernelIdeal.Hand

end
-- ==== Proof.KI.V2.lean ====
/-
  The LayerNorm call at the extended reals: what it leaves in its output array, index by index.

  Row `r` of the input array (16384 rows of 768 lanes) is normalised on its own: with `mean r` the row's sum divided by
  the word of 768, and `var r` the sum of the squared deviations from the mean divided by the same word, the output at
  `(r, h)` is `(x r h - mean r) * rsqrt (var r + eps) * scale h + bias h`. The kernel's sums start from the neutral
  accumulator, so no initial value appears in them. Grid point `t` handles rows `1024 t … 1024 t + 1023`; the sixteen
  tiles partition the rows, so the whole output array is that one function of the three input arrays.
-/
import proofs.«120323_j21741124452848_2_alg».proof.Proof.KI.R2
import proofs.«120323_j21741124452848_2_alg».proof.Proof.LibColBcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Cert.LibColBcast
open Idealize.ShloMosaic Idealize.ShloMosaic.TcCoe Idealize.ShloMosaic.ValueIdx
open Idealize.SL.Sem
open Idealize.ShloMosaic.Pipeline (Dat)
open scoped BigOperators

/-! ## The formula -/

/-- The mean of row `r`: the row's sum divided by the word of 768. -/
def mean2 (x : (⟨2, ![16384, 768]⟩ : Shape).Idx → EReal) (r : Fin 16384) : EReal :=
  Ideal.div (∑ h' : Fin 768, x (ix2 r h')) (Ideal.ofBits .f32 0x44400000#32)

/-- The variance of row `r`: the sum of the squared deviations from the mean, divided by the word of 768. -/
def var2 (x : (⟨2, ![16384, 768]⟩ : Shape).Idx → EReal) (r : Fin 16384) : EReal :=
  Ideal.div (∑ h' : Fin 768, (x (ix2 r h') - mean2 x r) * (x (ix2 r h') - mean2 x r)) (Ideal.ofBits .f32 0x44400000#32)

/-- The normalised entry `(r, h)`: the deviation times the reciprocal square root of the variance shifted by the word
    nearest 1e-12, times the scale, plus the bias. -/
def norm2 (x : (⟨2, ![16384, 768]⟩ : Shape).Idx → EReal) (scale bias : (⟨1, ![768]⟩ : Shape).Idx → EReal)
    (r : Fin 16384) (h : Fin 768) : EReal :=
  (x (ix2 r h) - mean2 x r) * Ideal.rsqrt (var2 x r + Ideal.ofBits .f32 0x2B8CBCCC#32) * scale (ix1 h) + bias (ix1 h)

/-- The output array as one function of the input array, the scale and the bias. -/
def G2_3 (x : (⟨2, ![16384, 768]⟩ : Shape).Idx → EReal) (scale bias : (⟨1, ![768]⟩ : Shape).Idx → EReal) :
    (⟨2, ![16384, 768]⟩ : Shape).Idx → EReal :=
  fun i => norm2 x scale bias ⟨(i 0).val, idx2_lt0 i⟩ ⟨(i 1).val, idx2_lt1 i⟩

theorem G2_3_ix2 (x : (⟨2, ![16384, 768]⟩ : Shape).Idx → EReal) (scale bias : (⟨1, ![768]⟩ : Shape).Idx → EReal)
    (r : Fin 16384) (h : Fin 768) : G2_3 x scale bias (ix2 r h) = norm2 x scale bias r h := rfl

/-! ## The body's stored value at an index of the tile -/

/-- A sum over the lanes of a 1024x768 tile, at row `p`. -/
theorem laneSum_apply (v : FVec Ideal S1024x768 .f32) (h : S1024x768.Reduces [1] S1024) (hφ : FKind.Formats .f32)
    (hacc : (0x00000000#32 : BitVec 32) = 0x00000000#32) (p : Fin 1024) :
    multiReduction (F := Ideal) .add [1] S1024 v 0x00000000#32 h hφ hacc (ix1 p) = ∑ k : Fin 768, v (ix2 p k) := by
  refine (Ideal.multiReduction_add_single v 0x00000000#32 h hφ hacc (ix1 p)).trans ?_
  exact Finset.sum_congr rfl fun k _ => congrArg v (funext fun a => by match a with | ⟨0, _⟩ => rfl | ⟨1, _⟩ => rfl)

theorem rsqrt_apply {s : Shape} {φ : FTy} (a : FVec Ideal s φ) (i : s.Idx) : rsqrt a i = Ideal.rsqrt (a i) := rfl

/-- The same three quantities for one 1024x768 tile. -/
def tileMean (x : Vec Ideal S1024x768 .f32) (p : Fin 1024) : EReal :=
  Ideal.div (∑ k : Fin 768, x (ix2 p k)) (Ideal.ofBits .f32 0x44400000#32)

def tileVar (x : Vec Ideal S1024x768 .f32) (p : Fin 1024) : EReal :=
  Ideal.div (∑ k : Fin 768, (x (ix2 p k) - tileMean x p) * (x (ix2 p k) - tileMean x p)) (Ideal.ofBits .f32 0x44400000#32)

def tileNorm (x : Vec Ideal S1024x768 .f32) (g b : Vec Ideal S768 .f32) (p : Fin 1024) (q : Fin 768) : EReal :=
  (x (ix2 p q) - tileMean x p) * Ideal.rsqrt (tileVar x p + Ideal.ofBits .f32 0x2B8CBCCC#32) * g (ix1 q) + b (ix1 q)

set_option backward.isDefEq.respectTransparency.types false in
/-- The value the body stores, at `(p, q)` of the tile: the pointwise operations commute with reading an index; a
    column broadcast along the lanes reads its row; the scale and bias rows broadcast along the rows read their lane. -/
theorem pay_apply (x : Vec Ideal S1024x768 .f32) (g b : Vec Ideal S768 .f32) (p : Fin 1024) (q : Fin 768) :
    k2_pay1 (F := Ideal) x g b (ix2 p q) = tileNorm x g b p q := by
  unfold k2_pay1
  simp only [addf_apply, mulf_apply, subf_apply, divf_apply, broadcast_apply, broadcastTo_a1_ab_apply, shapeCast_a_a1_apply,
    shapeCast_self, shapeCast_a_1a_apply, broadcastTo_1b_ab_apply, rsqrt_apply, Ideal.ofBits_def]
  unfold tileNorm tileVar tileMean
  rw [laneSum_apply x reduces_S1024x768_S1024 _ _ p, laneSum_apply _ reduces_S1024x768_S1024 _ _ p]
  simp only [mulf_apply, subf_apply, divf_apply, broadcast_apply, broadcastTo_a1_ab_apply, shapeCast_a_a1_apply]
  rw [laneSum_apply x reduces_S1024x768_S1024 _ _ p]

/-- A tile row and an array row that hold the same entries, with the same scale and bias, normalise to the same values. -/
theorem tileNorm_eq_norm2 (X : Vec Ideal S1024x768 .f32) (g' b' : Vec Ideal S768 .f32)
    (x : (⟨2, ![16384, 768]⟩ : Shape).Idx → EReal) (scale bias : (⟨1, ![768]⟩ : Shape).Idx → EReal)
    (p : Fin 1024) (r : Fin 16384) (hX : ∀ k : Fin 768, X (ix2 p k) = x (ix2 r k))
    (hg : ∀ q : Fin 768, g' (ix1 q) = scale (ix1 q)) (hb : ∀ q : Fin 768, b' (ix1 q) = bias (ix1 q)) (q : Fin 768) :
    tileNorm X g' b' p q = norm2 x scale bias r q := by
  simp only [tileNorm, tileVar, tileMean, norm2, var2, mean2, hX, hg, hb]

/-! ## From tiles to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps, decided over the sixteen grid points: the input and output tiles are tile `t` of their arrays, the scale
    and bias windows stay at block 0. -/
theorem idx2 : ∀ t : Fin cfg2.N, win2_0.index t (0 : Fin 2) = t.val ∧ win2_0.index t (1 : Fin 2) = 0
    ∧ win2_1.index t (0 : Fin 1) = 0 ∧ win2_2.index t (0 : Fin 1) = 0
    ∧ win2_3.index t (0 : Fin 2) = t.val ∧ win2_3.index t (1 : Fin 2) = 0 :=
  (by decide +kernel : ∀ t : Fin grid2.N, _)

/-- Entry `(p, k)` of the input tile at point `t` is entry `(1024 t + p, k)` of the input array. -/
theorem tile_read (c : Dev nD) (t : Fin cfg2.N) (p : Fin 1024) (k : Fin 768) (r : Fin 16384) (hr : r.val = t.val * 1024 + p.val) :
    (iblk2 V c 0 t : Vec Ideal S1024x768 .f32) (ix2 p k) = (V c (Pipeline.arrRef spec2 0) : S16384x768.Idx → EReal) (ix2 r k) := by
  obtain ⟨e0, e1, -⟩ := idx2 t
  unfold iblk2
  rw [View.read_apply]
  show (V c (Pipeline.arrRef spec2 0) : S16384x768.Idx → EReal) _ = _
  congr 1
  funext a
  apply Fin.ext
  match a with
  | ⟨0, _⟩ => show win2_0.index t (0 : Fin 2) * 1024 + 1 * p.val = r.val; rw [e0, hr]; omega
  | ⟨1, _⟩ => show win2_0.index t (1 : Fin 2) * 768 + 1 * k.val = k.val; rw [e1]; omega

/-- The scale window's block is the whole scale vector, at every point. -/
theorem scale_read (c : Dev nD) (t : Fin cfg2.N) (q : Fin 768) :
    (iblk2 V c 1 t : Vec Ideal S768 .f32) (ix1 q) = (V c (Pipeline.arrRef spec2 1) : S768.Idx → EReal) (ix1 q) := by
  obtain ⟨-, -, e2, -⟩ := idx2 t
  unfold iblk2
  rw [View.read_apply]
  show (V c (Pipeline.arrRef spec2 1) : S768.Idx → EReal) _ = _
  congr 1
  funext a
  apply Fin.ext
  match a with
  | ⟨0, _⟩ => show win2_1.index t (0 : Fin 1) * 768 + 1 * q.val = q.val; rw [e2]; omega

/-- The bias window's block is the whole bias vector, at every point. -/
theorem bias_read (c : Dev nD) (t : Fin cfg2.N) (q : Fin 768) :
    (iblk2 V c 2 t : Vec Ideal S768 .f32) (ix1 q) = (V c (Pipeline.arrRef spec2 2) : S768.Idx → EReal) (ix1 q) := by
  obtain ⟨-, -, -, e3, -⟩ := idx2 t
  unfold iblk2
  rw [View.read_apply]
  show (V c (Pipeline.arrRef spec2 2) : S768.Idx → EReal) _ = _
  congr 1
  funext a
  apply Fin.ext
  match a with
  | ⟨0, _⟩ => show win2_2.index t (0 : Fin 1) * 768 + 1 * q.val = q.val; rw [e3]; omega

/-- The value stored at index `j` of the output tile at point `t` is the formula at the array index under `j`. -/
theorem point2_3 (c : Dev nD) (t : Fin cfg2.N) (j : S1024x768.Idx) :
    k2_pay1 (F := Ideal) (iblk2 V c 0 t) (iblk2 V c 1 t) (iblk2 V c 2 t) j
      = G2_3 (V c (Pipeline.arrRef spec2 0)) (V c (Pipeline.arrRef spec2 1)) (V c (Pipeline.arrRef spec2 2))
          (((cfg2.win 3).blk t).view.emb j) := by
  obtain ⟨p, q, rfl⟩ : ∃ (p : Fin 1024) (q : Fin 768), j = ix2 p q := ⟨j 0, j 1, eq_ix2 j⟩
  have hN : grid2.N = 16 := N_2
  have ht : t.val < grid2.N := t.isLt
  obtain ⟨e0, e1, e2, e3, e4, e5⟩ := idx2 t
  have he : ((cfg2.win 3).blk t).view.emb (ix2 p q) = ix2 (⟨t.val * 1024 + p.val, by omega⟩ : Fin 16384) q := by
    funext a
    apply Fin.ext
    match a with
    | ⟨0, _⟩ => show win2_3.index t (0 : Fin 2) * 1024 + 1 * p.val = t.val * 1024 + p.val; rw [e4]; omega
    | ⟨1, _⟩ => show win2_3.index t (1 : Fin 2) * 768 + 1 * q.val = q.val; rw [e5]; omega
  rw [he, G2_3_ix2]
  refine (pay_apply (iblk2 V c 0 t) (iblk2 V c 1 t) (iblk2 V c 2 t) p q).trans ?_
  exact tileNorm_eq_norm2 (iblk2 V c 0 t) (iblk2 V c 1 t) (iblk2 V c 2 t) (V c (Pipeline.arrRef spec2 0))
    (V c (Pipeline.arrRef spec2 1)) (V c (Pipeline.arrRef spec2 2)) p ⟨t.val * 1024 + p.val, by omega⟩
    (fun k => tile_read V c t p k ⟨t.val * 1024 + p.val, by omega⟩ rfl) (fun q => scale_read V c t q) (fun q => bias_read V c t q) q

/-- What point `t` writes back to the output array is tile `t` of the formula. -/
theorem flushed2_3_eq (c : Dev nD) (t : Fin cfg2.N) :
    (dat2 V c).flushed 3 t = ((cfg2.win 3).blk t).view.read (Elt Ideal)
      (G2_3 (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz2]
  simp only [View.ld_unit_zero (S := S1024x768) hz2, View.ld_unit_zero (S := S768) hz1]
  funext j
  exact point2_3 V c t j

/-- An index of the output array lies in tile `t` iff each coordinate lies in the tile's range. -/
theorem mem_blk2_3 (t : Fin cfg2.N) (i : S16384x768.Idx) :
    i ∈ ((cfg2.win 3).blk t).view.set ↔ ∀ a : Fin 2, win2_3.index t a * S1024x768.size a ≤ (i a).val ∧ (i a).val < win2_3.index t a * S1024x768.size a + S1024x768.size a := by
  show i ∈ ((View.whole main_v66).slice (win2_3.rect t)).set ↔ _
  rw [View.set_slice_whole, Rect.mem_set_unit]
  exact Iff.rfl

/-- Every row lies in exactly the tile numbered by its quotient by 1024, and every point writes its tile back. -/
theorem cover2_3 (i : S16384x768.Idx) : ∃ t : Fin cfg2.N, (cfg2.win 3).flush t = true ∧ i ∈ ((cfg2.win 3).blk t).view.set := by
  have hN : grid2.N = 16 := N_2
  have hi0 : (i 0).val < 16384 := (i 0).isLt
  have hi1 : (i 1).val < 768 := (i 1).isLt
  refine ⟨⟨(i 0).val / 1024, by show (i 0).val / 1024 < grid2.N; omega⟩, flush2_3 _, ?_⟩
  rw [mem_blk2_3]
  obtain ⟨-, -, -, -, e4, e5⟩ := idx2 ⟨(i 0).val / 1024, by show (i 0).val / 1024 < grid2.N; omega⟩
  intro a
  match a with
  | ⟨0, _⟩ =>
    show win2_3.index _ (0 : Fin 2) * 1024 ≤ (i 0).val ∧ (i 0).val < win2_3.index _ (0 : Fin 2) * 1024 + 1024
    rw [e4]; show (i 0).val / 1024 * 1024 ≤ (i 0).val ∧ (i 0).val < (i 0).val / 1024 * 1024 + 1024; omega
  | ⟨1, _⟩ =>
    show win2_3.index _ (1 : Fin 2) * 768 ≤ (i 1).val ∧ (i 1).val < win2_3.index _ (1 : Fin 2) * 768 + 768
    rw [e5]; omega

/-- THE OUTPUT ARRAY after the call: every entry is the normalised, scaled and shifted entry of the input array's row. -/
theorem arr2_3 (c : Dev nD) :
    (dat2 (F := Ideal) V c).arrAt 3 cfg2.N
      = G2_3 (V c (Pipeline.arrRef spec2 0)) (V c (Pipeline.arrRef spec2 1)) (V c (Pipeline.arrRef spec2 2)) :=
  (dat2 V c).arrAt_eq_of_cover 3 _ (fun t _ => flushed2_3_eq V c t) cover2_3

/-- The same, entry by entry. -/
theorem arr2_3_apply (c : Dev nD) (r : Fin 16384) (h : Fin 768) :
    ((dat2 (F := Ideal) V c).arrAt 3 cfg2.N : S16384x768.Idx → EReal) (ix2 r h)
      = norm2 (V c (Pipeline.arrRef spec2 0)) (V c (Pipeline.arrRef spec2 1)) (V c (Pipeline.arrRef spec2 2)) r h := by
  rw [arr2_3]; rfl

end Cert.KernelIdeal.Hand

end
-- ==== Proof.KI.V1Bridge.lean ====
/-
  The two arrays the second kernel writes, as the whole-row formulas: the weights recomputed from a stored row maximum
  and row sum are the attention weights when the stored values are the softmax's own maximum and denominator; the
  scores multiplied by the two stored reciprocals of the shifted norms are the cosine scores.
-/
import proofs.«120323_j21741124452848_2_alg».proof.Proof.KI.V1
import proofs.«120323_j21741124452848_2_alg».proof.Proof.KI.V0Math
import proofs.«120323_j21741124452848_2_alg».proof.Proof.Spec
import Idealize.ShloMosaic.Lib.ValueIdx

noncomputable section

namespace Cert.KernelIdeal.Hand

open Cert.KernelIdeal
open Idealize.ShloMosaic Idealize.ShloMosaic.ValueIdx
open scoped BigOperators

/-- With the stored maximum and sum of every row the softmax's own, the first array is the
    attention weights. -/
theorem region1_attn (q : S4096x256.Idx → EReal) (ent : S32000x256.Idx → EReal) (mx sm : S4096x1.Idx → EReal)
    (hmx : ∀ p : Fin 4096, mx (ix2 p (0 : Fin 1)) = Cert.Spec.rowMax q ent p)
    (hsm : ∀ p : Fin 4096, sm (ix2 p (0 : Fin 1)) = Cert.Spec.rowSum q ent p) :
    G1_6 q ent mx sm = fun i : S4096x32000.Idx => Cert.Spec.attn q ent (i 0) (i 1) := by
  funext i
  obtain ⟨p, e, rfl⟩ : ∃ (p : Fin 4096) (e : Fin 32000), i = ix2 p e := ⟨i 0, i 1, eq_ix2 i⟩
  rw [G1_6_ix2, hmx, hsm]
  rfl

/-- With the stored factors the reciprocals of the shifted norms, the second array is the cosine
    scores (real encodings and a real entity table). -/
theorem region1_cos (qr : (⟨2, ![4096, 256]⟩ : Shape).Idx → ℝ) (er : (⟨2, ![32000, 256]⟩ : Shape).Idx → ℝ)
    (im : S4096x1.Idx → EReal) (ie : S1x32000.Idx → EReal)
    (him : ∀ p : Fin 4096, im (ix2 p (0 : Fin 1))
      = Ideal.div (Ideal.ofBits .f32 0x3F800000#32)
          (Ideal.ofBits .f32 0x322BCC77#32 + Cert.Spec.qNorm (fun i => (qr i : EReal)) p))
    (hie : ∀ e : Fin 32000, ie (ix2 (0 : Fin 1) e)
      = Ideal.div (Ideal.ofBits .f32 0x3F800000#32)
          (Ideal.ofBits .f32 0x322BCC77#32 + Cert.Spec.entNorm (fun i => (er i : EReal)) e)) :
    G1_7 (fun i => (qr i : EReal)) (fun i => (er i : EReal)) im ie
      = fun i : S4096x32000.Idx =>
          Cert.Spec.cosScore (fun i => (qr i : EReal)) (fun i => (er i : EReal)) (i 0) (i 1) := by
  funext i
  obtain ⟨p, e, rfl⟩ : ∃ (p : Fin 4096) (e : Fin 32000), i = ix2 p e := ⟨i 0, i 1, eq_ix2 i⟩
  rw [G1_7_ix2, him, hie]
  exact Cert.KernelIdeal.Tile.cos_recip qr er p e

end Cert.KernelIdeal.Hand
-- ==== Proof.KI.RealWrap.lean ====
/-
  The bridges with their hypotheses on the arrays themselves: an array of extended reals every entry of which is a
  real is the coercion of a real array, so the formulas proved for coerced real arrays hold for it.
-/
import proofs.«120323_j21741124452848_2_alg».proof.Proof.KI.V1Bridge
import proofs.«120323_j21741124452848_2_alg».proof.Proof.KI.Finite
import proofs.«120323_j21741124452848_2_alg».proof.Proof.LibQuot

noncomputable section

namespace Cert.KernelIdeal.Hand

open Cert.KernelIdeal
open Idealize.ShloMosaic Idealize.ShloMosaic.ValueIdx QuotLaws
open scoped BigOperators

/-- The second array of the second kernel is the cosine scores, for encodings and an entity table
    every entry of which is a real. -/
theorem region1_cos' (q : S4096x256.Idx → EReal) (ent : S32000x256.Idx → EReal)
    (hq : ∀ i, IsReal (q i)) (he : ∀ i, IsReal (ent i))
    (im : S4096x1.Idx → EReal) (ie : S1x32000.Idx → EReal)
    (him : ∀ p : Fin 4096, im (ix2 p (0 : Fin 1))
      = Ideal.div (Ideal.ofBits .f32 0x3F800000#32) (Ideal.ofBits .f32 0x322BCC77#32 + Cert.Spec.qNorm q p))
    (hie : ∀ e : Fin 32000, ie (ix2 (0 : Fin 1) e)
      = Ideal.div (Ideal.ofBits .f32 0x3F800000#32) (Ideal.ofBits .f32 0x322BCC77#32 + Cert.Spec.entNorm ent e)) :
    G1_7 q ent im ie = fun i : S4096x32000.Idx => Cert.Spec.cosScore q ent (i 0) (i 1) := by
  obtain ⟨qr, rfl⟩ := Cert.KernelIdeal.Fin0.exists_real_fun q hq
  obtain ⟨er, rfl⟩ := Cert.KernelIdeal.Fin0.exists_real_fun ent he
  exact region1_cos qr er im ie him hie

end Cert.KernelIdeal.Hand
-- ==== Proof.KI.LnBridge.lean ====
/-
  The LayerNorm of the flattened array [16384, 768], row `2048 * b + t`, is the LayerNorm of the array
  [8, 2048, 768] at `(b, t)`: the row's mean, its variance and the normalised entries are sums over the same 768
  entries.
-/
import proofs.«120323_j21741124452848_2_alg».proof.Proof.KI.V2
import proofs.«120323_j21741124452848_2_alg».proof.Proof.Spec
import Idealize.ShloMosaic.Lib.ValueIdx

noncomputable section

namespace Cert.KernelIdeal.Hand

open Idealize.ShloMosaic Idealize.ShloMosaic.ValueIdx
open scoped BigOperators

/-- The row of the flattened array that `(b, t)` is. -/
def rowIdx (b : Fin 8) (t : Fin 2048) : Fin 16384 :=
  ⟨2048 * b.val + t.val, by have := b.isLt; have := t.isLt; omega⟩

/-- Its number. -/
theorem rowIdx_val (b : Fin 8) (t : Fin 2048) : (rowIdx b t).val = 2048 * b.val + t.val := rfl

/-- The same row, whatever the proof of the bound. -/
theorem rowIdx_eq (b : Fin 8) (t : Fin 2048) (hr : 2048 * b.val + t.val < 16384) :
    (⟨2048 * b.val + t.val, hr⟩ : Fin 16384) = rowIdx b t := rfl

section Rows
variable (flat : (⟨2, ![16384, 768]⟩ : Shape).Idx → EReal) (y : (⟨3, ![8, 2048, 768]⟩ : Shape).Idx → EReal)
  (hflat : ∀ (b : Fin 8) (t : Fin 2048) (h : Fin 768), flat (ix2 (rowIdx b t) h) = y (ix3 b t h))
include hflat

/-- Same mean. -/
theorem mean2_eq (b : Fin 8) (t : Fin 2048) : mean2 flat (rowIdx b t) = Cert.Spec.mean y b t := by
  rw [Cert.Spec.mean_eq]
  unfold mean2
  simp only [hflat]

/-- Same variance. -/
theorem var2_eq (b : Fin 8) (t : Fin 2048) : var2 flat (rowIdx b t) = Cert.Spec.var y b t := by
  rw [Cert.Spec.var_eq]
  unfold var2
  simp only [hflat, mean2_eq flat y hflat]

/-- Same normalised entry. -/
theorem norm2_eq (scale bias : (⟨1, ![768]⟩ : Shape).Idx → EReal) (b : Fin 8) (t : Fin 2048) (h : Fin 768) :
    norm2 flat scale bias (rowIdx b t) h = Cert.Spec.layerNorm y scale bias b t h := by
  unfold norm2 Cert.Spec.layerNorm
  rw [hflat, mean2_eq flat y hflat, var2_eq flat y hflat]

/-- The same with the row given by its number and any proof of the bound. -/
theorem norm2_eq' (scale bias : (⟨1, ![768]⟩ : Shape).Idx → EReal) (b : Fin 8) (t : Fin 2048) (h : Fin 768)
    (hr : 2048 * b.val + t.val < 16384) :
    norm2 flat scale bias ⟨2048 * b.val + t.val, hr⟩ h = Cert.Spec.layerNorm y scale bias b t h :=
  norm2_eq flat y hflat scale bias b t h

/-- An array that holds the flattened LayerNorm row by row is the LayerNorm of the
    three-dimensional array. -/
theorem out3_eq (scale bias : (⟨1, ![768]⟩ : Shape).Idx → EReal) (out3 : (⟨3, ![8, 2048, 768]⟩ : Shape).Idx → EReal)
    (hout : ∀ (b : Fin 8) (t : Fin 2048) (h : Fin 768),
      out3 (ix3 b t h) = G2_3 flat scale bias (ix2 (rowIdx b t) h)) :
    out3 = fun i => Cert.Spec.layerNorm y scale bias (i 0) (i 1) (i 2) := by
  funext i
  obtain ⟨b, t, h, rfl⟩ : ∃ (b : Fin 8) (t : Fin 2048) (h : Fin 768), i = ix3 b t h :=
    ⟨i 0, i 1, i 2, eq_ix3 i⟩
  rw [hout, G2_3_ix2]
  exact norm2_eq flat y hflat scale bias b t h

end Rows

end Cert.KernelIdeal.Hand
-- ==== Proof.KI.ValB.lean ====
/-
  The second half of the kernel program's values at the exact extended reals: from what the attention-reduction region
  leaves (the row maxima, the row sums, the projected update) to the four results. The materialisation region turns the
  maxima and sums into the attention weights, and the host's reciprocals of the shifted norms into the cosine scores; the
  host scatter-adds the update into the hidden states; the LayerNorm region normalises the rows; the last reshape restores
  the three axes. Buffers an item does not write keep their contents through it.
-/
import proofs.«120323_j21741124452848_2_alg».proof.Proof.KI.Run
import proofs.«120323_j21741124452848_2_alg».proof.Proof.KI.Frame
import proofs.«120323_j21741124452848_2_alg».proof.Proof.KI.V1
import proofs.«120323_j21741124452848_2_alg».proof.Proof.KI.V2
import proofs.«120323_j21741124452848_2_alg».proof.Proof.KI.V1Bridge
import proofs.«120323_j21741124452848_2_alg».proof.Proof.KI.RealWrap
import proofs.«120323_j21741124452848_2_alg».proof.Proof.KI.LnBridge
import proofs.«120323_j21741124452848_2_alg».proof.Proof.KI.KHost
import proofs.«120323_j21741124452848_2_alg».proof.Proof.KI.V0Out
import proofs.«120323_j21741124452848_2_alg».proof.Proof.Spec
import proofs.«120323_j21741124452848_2_alg».proof.Proof.LibQuot

set_option maxRecDepth 16384

noncomputable section

namespace Cert.KernelIdeal.Hand

open Cert.KernelIdeal
open Cert.KernelIdeal.Gen (hostOps0 hostOps0_1 hostOps0_2 hostOps0_3 hostOps0_4 hostOps2 hostOps3 launch0 launch1 launch2 cellOf_inj)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx QuotLaws

variable (m : (ℓ : Loc nD τ sig) → Buf (Elt Ideal) ℓ) (ρ : Dev nD → PrngReg) (c : Dev nD)

/-! ## The materialisation region -/

section Region1

variable (Q : S4096x256.Idx → EReal) (E : S32000x256.Idx → EReal)
  (h33 : (W6 m ρ c (Proc.devRef .tc main_v33) : S4096x256.Idx → EReal) = Q)
  (h34 : (W6 m ρ c (Proc.devRef .tc main_v34) : S32000x256.Idx → EReal) = E)

include h33 h34

/-- The attention weights: exp (score − row maximum) / row sum is the softmax weight. -/
theorem W7_attn (h1 : (W6 m ρ c (Proc.devRef .tc main_v49_1) : S4096x1.Idx → EReal) = maxCol Q E)
    (h2 : (W6 m ρ c (Proc.devRef .tc main_v49_2) : S4096x1.Idx → EReal) = sumCol Q E) :
    (W7 m ρ c (Proc.devRef .tc main_v50_0) : S4096x32000.Idx → EReal) = fun i => Cert.Spec.attn Q E (i 0) (i 1) := by
  have e := arr1_6 (V6 m ρ) c
  have a0 : (V6 m ρ c (Pipeline.arrRef spec1 0) : S4096x256.Idx → EReal) = Q := h33
  have a1 : (V6 m ρ c (Pipeline.arrRef spec1 1) : S32000x256.Idx → EReal) = E := h34
  have a2 : (V6 m ρ c (Pipeline.arrRef spec1 2) : S4096x1.Idx → EReal) = maxCol Q E := h1
  have a3 : (V6 m ρ c (Pipeline.arrRef spec1 3) : S4096x1.Idx → EReal) = sumCol Q E := h2
  rw [a0, a1, a2, a3] at e
  exact ((W7_arr m ρ c 6).trans e).trans (region1_attn Q E _ _ (fun p => maxCol_ix2 Q E p 0) (fun p => sumCol_ix2 Q E p 0))

/-- The cosine scores: the score times the two reciprocals of the shifted norms is the double quotient. -/
theorem W7_cos (hQ : ∀ i, IsReal (Q i)) (hE : ∀ i, IsReal (E i))
    (h47 : ∀ p : Fin 4096, (W6 m ρ c (Proc.devRef .tc main_v47) : S4096x1.Idx → EReal) (ix2 p (0 : Fin 1))
      = Ideal.div (Ideal.ofBits .f32 0x3F800000#32) (Ideal.ofBits .f32 0x322BCC77#32 + Cert.Spec.qNorm Q p))
    (h43 : ∀ e : Fin 32000, (W6 m ρ c (Proc.devRef .tc main_v43) : S1x32000.Idx → EReal) (ix2 (0 : Fin 1) e)
      = Ideal.div (Ideal.ofBits .f32 0x3F800000#32) (Ideal.ofBits .f32 0x322BCC77#32 + Cert.Spec.entNorm E e)) :
    (W7 m ρ c (Proc.devRef .tc main_v50_1) : S4096x32000.Idx → EReal) = fun i => Cert.Spec.cosScore Q E (i 0) (i 1) := by
  have e := arr1_7 (V6 m ρ) c
  have a0 : (V6 m ρ c (Pipeline.arrRef spec1 0) : S4096x256.Idx → EReal) = Q := h33
  have a1 : (V6 m ρ c (Pipeline.arrRef spec1 1) : S32000x256.Idx → EReal) = E := h34
  rw [a0, a1] at e
  exact ((W7_arr m ρ c 7).trans e).trans (region1_cos' Q E hQ hE _ _ h47 h43)

end Region1

/-! ## The scatter-add, the LayerNorm region and the last reshape -/

/-- The normalised hidden states: the LayerNorm of the rows of the scatter-add of the update into the hidden states. -/
theorem W10_ln (x0 : S8x2048x768.Idx → EReal) (x1 x2 : (⟨S4096, .i32⟩ : BufTy).Contents (Elt Ideal)) (U : S4096x768.Idx → EReal) (sc bi : S768.Idx → EReal)
    (h0 : W7 m ρ c (Proc.devRef .tc main_arg0) = x0) (h1 : W7 m ρ c (Proc.devRef .tc main_arg1) = x1) (h2 : W7 m ρ c (Proc.devRef .tc main_arg2) = x2)
    (hu : W7 m ρ c (Proc.devRef .tc main_v49_0) = U)
    (h10 : (W8 m ρ c (Proc.devRef .tc main_arg10) : S768.Idx → EReal) = sc) (h11 : (W8 m ρ c (Proc.devRef .tc main_arg11) : S768.Idx → EReal) = bi) :
    (W10 m ρ c (Proc.devRef .tc main_v67) : S8x2048x768.Idx → EReal)
      = fun i => Cert.Spec.layerNorm (KHost.scatteredOf (F := Ideal) x0 x1 x2 U) sc bi (i 0) (i 1) (i 2) := by
  refine out3_eq (W8 m ρ c (Proc.devRef .tc main_v65)) (KHost.scatteredOf (F := Ideal) x0 x1 x2 U) ?_ sc bi _ ?_
  · intro b t h
    rw [← h0, ← h1, ← h2, ← hu]
    exact KHost.h2_v65_at (W7 m ρ c) b t h
  · intro b t h
    have e3 := KHost.h3_v67_at (W9 m ρ c) b t h
    have e2 := arr2_3 (V8 m ρ) c
    have a1 : (V8 m ρ c (Pipeline.arrRef spec2 1) : S768.Idx → EReal) = sc := h10
    have a2 : (V8 m ρ c (Pipeline.arrRef spec2 2) : S768.Idx → EReal) = bi := h11
    rw [a1, a2] at e2
    refine e3.trans ?_
    rw [show W9 m ρ c (Proc.devRef .tc main_v66) = (dat2 (V8 m ρ) c).arrAt 3 cfg2.N from W9_arr m ρ c 3, e2]
    rfl

/-! ## What the later items do not write -/

/-- A buffer that is no array of the LayerNorm region and that the last two host stretches do not write keeps, to the end,
    what it held after the materialisation region. -/
theorem W10_keep7 (r : Ref sig .tc) (h2 : r ∉ Gen.hostOps2_W) (h3 : r ∉ Gen.hostOps3_W) (ha : ∀ w, Pipeline.arrRef spec2 w ≠ r) :
    W10 m ρ c (Proc.devRef .tc r) = W7 m ρ c (Proc.devRef .tc r) :=
  (W10_of m ρ c r h3).trans <| (W9_of_ne m ρ c r ha).trans (W8_of m ρ c r h2)

end Cert.KernelIdeal.Hand

end
-- ==== Proof.KI.Final.lean ====
/-
  The kernel program's four results at the exact extended reals, as the formulas of `Cert.Spec` of the launch memory.

  The run ends with every unscoped buffer at the contents the last boundary names. Read back through the boundaries:
  the attention weights and the cosine scores are what the materialisation call writes, from the encodings, the entity
  table, the row maxima and denominators the reduction call left, and the host's shifted reciprocal norms; the
  encodings are the first host stretch's, untouched since; the normalised hidden states are the LayerNorm call's rows
  of the input with the update scatter-added, folded back to three axes; no argument is ever written. Under the
  precondition the encodings and the entity table are real, which is what makes the tile-by-tile softmax the
  whole-row one and the product with two reciprocals the double quotient.
-/
import proofs.«120323_j21741124452848_2_alg».proof.Proof.KI.Run
import proofs.«120323_j21741124452848_2_alg».proof.Proof.KI.Frame
import proofs.«120323_j21741124452848_2_alg».proof.Proof.KI.Names
import proofs.«120323_j21741124452848_2_alg».proof.Proof.KI.ValA
import proofs.«120323_j21741124452848_2_alg».proof.Proof.KI.ValB
import proofs.«120323_j21741124452848_2_alg».proof.Proof.Spec

set_option maxRecDepth 16384

noncomputable section

namespace Cert.KernelIdeal.Hand

open Cert.KernelIdeal
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## The four results at the last boundary -/

/-- The attention weights. -/
theorem end_attn (h : Cert.Pre_KernelIdeal (hPre_finite_inputs := Cert.Pre_finite_inputs.Gen.facts) m) :
    (W10 m ρ c (Proc.devRef .tc main_v50_0) : S4096x32000.Idx → EReal)
      = fun i => Cert.Spec.attn (Qk m c) (m ((c.tc : Thread nD τ).loc main_arg5)) (i 0) (i 1) :=
  (W10_keep7 m ρ c main_v50_0 (by decide) (by decide) (by decide)).trans
    (W7_attn m ρ c (Qk m c) (m ((c.tc : Thread nD τ).loc main_arg5)) (exit_v33 m ρ c) (exit_v34 m ρ c) (exit_max m ρ c h) (exit_sum m ρ c h))

/-- The cosine scores. -/
theorem end_cos (h : Cert.Pre_KernelIdeal (hPre_finite_inputs := Cert.Pre_finite_inputs.Gen.facts) m) :
    (W10 m ρ c (Proc.devRef .tc main_v50_1) : S4096x32000.Idx → EReal)
      = fun i => Cert.Spec.cosScore (Qk m c) (m ((c.tc : Thread nD τ).loc main_arg5)) (i 0) (i 1) :=
  (W10_keep7 m ρ c main_v50_1 (by decide) (by decide) (by decide)).trans
    (W7_cos m ρ c (Qk m c) (m ((c.tc : Thread nD τ).loc main_arg5)) (exit_v33 m ρ c) (exit_v34 m ρ c) (Qk_real m c h) (arg5_real m c h)
      (exit_v47 m ρ c) (exit_v43 m ρ c))

/-- The mention encodings. -/
theorem end_q : (W10 m ρ c (Proc.devRef .tc main_v32) : S4096x256.Idx → EReal) = Qk m c :=
  (W10_keep7 m ρ c main_v32 (by decide) (by decide) (by decide)).trans
    ((W7_of_ne m ρ c main_v32 (by decide)).trans (exit_v32 m ρ c))

/-- The normalised hidden states. -/
theorem end_ln (h : Cert.Pre_KernelIdeal (hPre_finite_inputs := Cert.Pre_finite_inputs.Gen.facts) m) :
    (W10 m ρ c (Proc.devRef .tc main_v67) : S8x2048x768.Idx → EReal)
      = fun i => Cert.Spec.layerNorm (Yk m c) (m ((c.tc : Thread nD τ).loc main_arg10)) (m ((c.tc : Thread nD τ).loc main_arg11)) (i 0) (i 1) (i 2) :=
  W10_ln m ρ c (m ((c.tc : Thread nD τ).loc main_arg0)) (m ((c.tc : Thread nD τ).loc main_arg1)) (m ((c.tc : Thread nD τ).loc main_arg2)) (Uk m c) (m ((c.tc : Thread nD τ).loc main_arg10)) (m ((c.tc : Thread nD τ).loc main_arg11))
    ((W7_of_ne m ρ c main_arg0 (by decide)).trans (exit_arg0 m ρ c))
    ((W7_of_ne m ρ c main_arg1 (by decide)).trans (exit_arg1 m ρ c))
    ((W7_of_ne m ρ c main_arg2 (by decide)).trans (exit_arg2 m ρ c))
    ((W7_of_ne m ρ c main_v49_0 (by decide)).trans (exit_upd_Uk m ρ c h))
    ((W8_of m ρ c main_arg10 (by decide)).trans ((W7_of_ne m ρ c main_arg10 (by decide)).trans (exit_arg10 m ρ c)))
    ((W8_of m ρ c main_arg11 (by decide)).trans ((W7_of_ne m ρ c main_arg11 (by decide)).trans (exit_arg11 m ρ c)))

/-! ## The run -/

/-- Under the precondition every weakly fair execution of the kernel program ends with the four results at the
    formulas and the arguments unchanged. -/
theorem kernel_run (h : Cert.Pre_KernelIdeal (hPre_finite_inputs := Cert.Pre_finite_inputs.Gen.facts) m) :
    θ_run (defs (F := Ideal)) (onTc (τ := τ) (main (F := Ideal))) ⟨m, fun _ => 0, ρ⟩ (fun r => ∀ c : Dev nD,
      r.2.mem ((c.tc : Thread nD τ).loc main_v67)
          = (fun i : S8x2048x768.Idx => Cert.Spec.layerNorm (Yk m c) (m ((c.tc : Thread nD τ).loc main_arg10)) (m ((c.tc : Thread nD τ).loc main_arg11)) (i 0) (i 1) (i 2))
      ∧ r.2.mem ((c.tc : Thread nD τ).loc main_v32) = Qk m c
      ∧ r.2.mem ((c.tc : Thread nD τ).loc main_v50_1)
          = (fun i : S4096x32000.Idx => Cert.Spec.cosScore (Qk m c) (m ((c.tc : Thread nD τ).loc main_arg5)) (i 0) (i 1))
      ∧ r.2.mem ((c.tc : Thread nD τ).loc main_v50_0)
          = (fun i : S4096x32000.Idx => Cert.Spec.attn (Qk m c) (m ((c.tc : Thread nD τ).loc main_arg5)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r hr c =>
    ⟨(hr c _ (mem_uc main_v67 (by decide))).trans (end_ln m ρ c h),
     (hr c _ (mem_uc main_v32 (by decide))).trans (end_q m ρ c),
     (hr c _ (mem_uc main_v50_1 (by decide))).trans (end_cos m ρ c h),
     (hr c _ (mem_uc main_v50_0 (by decide))).trans (end_attn m ρ c h),
     (hr c _ (mem_uc main_arg0 (by decide))).trans (W10_main_arg0 m ρ c),
     (hr c _ (mem_uc main_arg1 (by decide))).trans (W10_main_arg1 m ρ c),
     (hr c _ (mem_uc main_arg2 (by decide))).trans (W10_main_arg2 m ρ c),
     (hr c _ (mem_uc main_arg3 (by decide))).trans (W10_main_arg3 m ρ c),
     (hr c _ (mem_uc main_arg4 (by decide))).trans (W10_main_arg4 m ρ c),
     (hr c _ (mem_uc main_arg5 (by decide))).trans (W10_main_arg5 m ρ c),
     (hr c _ (mem_uc main_arg6 (by decide))).trans (W10_main_arg6 m ρ c),
     (hr c _ (mem_uc main_arg7 (by decide))).trans (W10_main_arg7 m ρ c),
     (hr c _ (mem_uc main_arg8 (by decide))).trans (W10_main_arg8 m ρ c),
     (hr c _ (mem_uc main_arg9 (by decide))).trans (W10_main_arg9 m ρ c),
     (hr c _ (mem_uc main_arg10 (by decide))).trans (W10_main_arg10 m ρ c),
     (hr c _ (mem_uc main_arg11 (by decide))).trans (W10_main_arg11 m ρ c)⟩) (run_all (F := Ideal) m ρ)

end Cert.KernelIdeal.Hand

end
-- ==== Proof.RefRead.lean ====
/-
  The reference program's results, read index by index as the formulas of `Cert.Spec`.

  The reference computes the mention encodings `q` (two gathers of token rows, joined and projected), the scores
  `q · entᵀ`, their softmax over the entities, the attention-weighted entity projected back to the hidden width and
  masked, a scatter-add of that update into the input followed by a LayerNorm, and the cosine scores. Here every
  stage after `q` is read at an index built from coordinates and shown to be the corresponding `Cert.Spec` formula of
  `q` and of the argument arrays. Two things are never opened: `q` itself (it enters only as an array) and the
  scatter-add (the LayerNorm is stated of the array it leaves).

  The proofs are one pattern: rewrite the stage at an index by the per-operation reading lemmas, outermost operation
  first; identify the composed index maps of the broadcasts, contractions and reductions with `ix1` / `ix2` / `ix3` of
  the coordinates; replace inner stages by the formulas already proved for them; what is left differs from the
  formula only by the names of the ideal operations, and is closed by unfolding those. The row maximum is the one
  reduction with no reading lemma: a reduction by a commutative, associative operation over one axis is the fold over
  that axis's coordinates, and the index with a coordinate inserted on axis 1 of a row `p` is `(p, e)`.
-/
import proofs.«120323_j21741124452848_2_alg».proof.Proof.Spec
import proofs.«120323_j21741124452848_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The composed index maps, on coordinates -/

section Indices

variable (p : Fin 4096) (e : Fin 32000) (k : Fin 256) (h : Fin 768) (b : Fin 8) (t : Fin 2048)

theorem lidx33 : lidx_main_v33 (ix2 p e) k = ix2 p k :=
  funext fun a => by match a with | ⟨0, _⟩ => rfl | ⟨1, _⟩ => rfl
theorem ridx33 : ridx_main_v33 (ix2 p e) k = ix2 e k :=
  funext fun a => by match a with | ⟨0, _⟩ => rfl | ⟨1, _⟩ => rfl
theorem idx37_38 : idx_main_v37 (idx_main_v38 (ix2 p e)) = ix1 p :=
  funext fun a => by match a with | ⟨0, _⟩ => rfl
theorem idx41 : idx_main_v41 (ix1 p) e = ix2 p e :=
  funext fun a => by match a with | ⟨0, _⟩ => rfl | ⟨1, _⟩ => rfl
theorem idx42_43 : idx_main_v42 (idx_main_v43 (ix2 p e)) = ix1 p :=
  funext fun a => by match a with | ⟨0, _⟩ => rfl
theorem lidx45 : lidx_main_v45 (ix2 p k) e = ix2 p e :=
  funext fun a => by match a with | ⟨0, _⟩ => rfl | ⟨1, _⟩ => rfl
theorem ridx45 : ridx_main_v45 (ix2 p k) e = ix2 e k :=
  funext fun a => by match a with | ⟨0, _⟩ => rfl | ⟨1, _⟩ => rfl
theorem lidx46 : lidx_main_v46 (ix2 p h) k = ix2 p k :=
  funext fun a => by match a with | ⟨0, _⟩ => rfl | ⟨1, _⟩ => rfl
theorem ridx46 : ridx_main_v46 (ix2 p h) k = ix2 k h :=
  funext fun a => by match a with | ⟨0, _⟩ => rfl | ⟨1, _⟩ => rfl
theorem idx47_48 : idx_main_v47 (idx_main_v48 (ix2 p h)) = ix1 h :=
  funext fun a => by match a with | ⟨0, _⟩ => rfl
theorem idx50_51 : idx_main_v50 (idx_main_v51 (ix2 p h)) = ix1 p :=
  funext fun a => by match a with | ⟨0, _⟩ => rfl
theorem idxc0 : idx_main_call0_v1 (ix1 p) k = ix2 p k :=
  funext fun a => by match a with | ⟨0, _⟩ => rfl | ⟨1, _⟩ => rfl
theorem idxc1 : idx_main_call1_v1 (ix1 e) k = ix2 e k :=
  funext fun a => by match a with | ⟨0, _⟩ => rfl | ⟨1, _⟩ => rfl
theorem idx93_96 : idx_main_v93 (idx_main_v96 (ix2 p e)) = ix1 p :=
  funext fun a => by match a with | ⟨0, _⟩ => rfl
theorem idx98_101 : idx_main_v98 (idx_main_v101 (ix2 p e)) = ix1 e :=
  funext fun a => by match a with | ⟨0, _⟩ => rfl
theorem idx67_68 : idx_main_v67 (idx_main_v68 (ix3 b t (0 : Fin 1))) h = ix3 b t h :=
  funext fun a => by match a with | ⟨0, _⟩ => rfl | ⟨1, _⟩ => rfl | ⟨2, _⟩ => rfl
theorem idx74_75 : idx_main_v74 (idx_main_v75 (ix3 b t (0 : Fin 1))) h = ix3 b t h :=
  funext fun a => by match a with | ⟨0, _⟩ => rfl | ⟨1, _⟩ => rfl | ⟨2, _⟩ => rfl
theorem idx71 : idx_main_v71 (ix3 b t h) = ix3 b t (0 : Fin 1) :=
  funext fun a => by match a with | ⟨0, _⟩ => rfl | ⟨1, _⟩ => rfl | ⟨2, _⟩ => rfl
theorem idx78 : idx_main_v78 (ix3 b t h) = ix3 b t (0 : Fin 1) :=
  funext fun a => by match a with | ⟨0, _⟩ => rfl | ⟨1, _⟩ => rfl | ⟨2, _⟩ => rfl
theorem idx83 : idx_main_v83 (ix3 b t h) = ix3 b t (0 : Fin 1) :=
  funext fun a => by match a with | ⟨0, _⟩ => rfl | ⟨1, _⟩ => rfl | ⟨2, _⟩ => rfl
theorem idx85_86 : idx_main_v85 (idx_main_v86 (ix3 b t h)) = ix1 h :=
  funext fun a => by match a with | ⟨0, _⟩ => rfl
theorem idx88_89 : idx_main_v88 (idx_main_v89 (ix3 b t h)) = ix1 h :=
  funext fun a => by match a with | ⟨0, _⟩ => rfl

/-- The entity axis of the score array is reduced away by the row maximum. -/
theorem redRow : S4096x32000.Reduces [1] S4096 := by decide

/-- Row `p` with the entity coordinate `e` put back is the index `(p, e)`. -/
theorem lift_row : redRow.lift (ix1 p) e = ix2 p e :=
  funext fun a => Fin.ext (by match a with | ⟨0, _⟩ => rfl | ⟨1, _⟩ => rfl)

end Indices

/-! ## The stages after the mention encodings, as functions of the argument arrays -/

section Stages

variable (x0 : (⟨S8x2048x768, .f32⟩ : BufTy).Contents (Elt Ideal)) (x1 x2 x3 : (⟨S4096, .i32⟩ : BufTy).Contents (Elt Ideal))
  (x4 : (⟨S4096, .f32⟩ : BufTy).Contents (Elt Ideal)) (x5 : (⟨S32000x256, .f32⟩ : BufTy).Contents (Elt Ideal))
  (x6 : (⟨S1536x256, .f32⟩ : BufTy).Contents (Elt Ideal)) (x7 : (⟨S256, .f32⟩ : BufTy).Contents (Elt Ideal))
  (x8 : (⟨S256x768, .f32⟩ : BufTy).Contents (Elt Ideal)) (x9 x10 x11 : (⟨S768, .f32⟩ : BufTy).Contents (Elt Ideal))

/-- The scores: the dot product of a mention encoding with an entity row. -/
theorem score_at (p : Fin 4096) (e : Fin 32000) :
    val_main_v33 (F := Ideal) x0 x1 x2 x3 x5 x6 x7 (ix2 p e)
      = Spec.score (val_main_v32 (F := Ideal) x0 x1 x2 x3 x6 x7) x5 p e := by
  rw [val_main_v33_apply]
  simp only [lidx33, ridx33]
  rfl

/-- The row maximum: the maximum reduction over the entity axis is the fold of `max` over the entities, and the
    reference takes the maximum with −∞ once more. -/
theorem rowMax_at (p : Fin 4096) :
    val_main_v36 (F := Ideal) x0 x1 x2 x3 x5 x6 x7 (ix1 p)
      = Spec.rowMax (val_main_v32 (F := Ideal) x0 x1 x2 x3 x6 x7) x5 p := by
  have hs : (val_main_v33 (F := Ideal) x0 x1 x2 x3 x5 x6 x7 ∘ redRow.lift (ix1 p))
      = fun e => Spec.score (val_main_v32 (F := Ideal) x0 x1 x2 x3 x6 x7) x5 p e := by
    funext e
    show val_main_v33 (F := Ideal) x0 x1 x2 x3 x5 x6 x7 (redRow.lift (ix1 p) e) = _
    exact (congrArg (val_main_v33 (F := Ideal) x0 x1 x2 x3 x5 x6 x7) (lift_row p e)).trans
      (score_at x0 x1 x2 x3 x5 x6 x7 p e)
  rw [val_main_v36_apply, val_main_v35_apply, val_main_cst_7_apply]
  unfold val_main_v34
  rw [Host.reduce_eq_fold_single FloatOps.maximumf _ _ reducesTo_S4096x32000_S4096_d1 redRow h_S_ (ix1 p), hs,
    val_main_cst_apply]
  rfl

/-- The exponential of the score shifted by its row's maximum. -/
theorem expo_at (p : Fin 4096) (e : Fin 32000) :
    val_main_v40 (F := Ideal) x0 x1 x2 x3 x5 x6 x7 (ix2 p e)
      = Spec.expo (val_main_v32 (F := Ideal) x0 x1 x2 x3 x6 x7) x5 p e := by
  rw [val_main_v40_apply, val_main_v39_apply, val_main_v38_apply, val_main_v37_apply, score_at, idx37_38, rowMax_at]
  rfl

/-- The softmax denominator. -/
theorem rowSum_at (p : Fin 4096) :
    val_main_v41 (F := Ideal) x0 x1 x2 x3 x5 x6 x7 (ix1 p)
      = Spec.rowSum (val_main_v32 (F := Ideal) x0 x1 x2 x3 x6 x7) x5 p := by
  rw [val_main_v41_apply, val_main_cst_8_apply]
  simp only [idx41, expo_at, Ideal.ofBits_def, Ideal.ofBits_zero_f32]
  rfl

/-- The attention weights. -/
theorem attn_at (p : Fin 4096) (e : Fin 32000) :
    val_main_v44 (F := Ideal) x0 x1 x2 x3 x5 x6 x7 (ix2 p e)
      = Spec.attn (val_main_v32 (F := Ideal) x0 x1 x2 x3 x6 x7) x5 p e := by
  rw [val_main_v44_apply, val_main_v43_apply, val_main_v42_apply, expo_at, idx42_43, rowSum_at]
  rfl

/-- The attention-weighted entity. -/
theorem retrieved_at (p : Fin 4096) (k : Fin 256) :
    val_main_v45 (F := Ideal) x0 x1 x2 x3 x5 x6 x7 (ix2 p k)
      = Spec.retrieved (val_main_v32 (F := Ideal) x0 x1 x2 x3 x6 x7) x5 p k := by
  rw [val_main_v45_apply]
  simp only [lidx45, ridx45, attn_at]
  rfl

/-- The update: projected to the hidden width, shifted by the bias, masked. -/
theorem update_at (p : Fin 4096) (h : Fin 768) :
    val_main_v52 (F := Ideal) x0 x1 x2 x3 x4 x5 x6 x7 x8 x9 (ix2 p h)
      = Spec.update (val_main_v32 (F := Ideal) x0 x1 x2 x3 x6 x7) x5 x8 x9 x4 p h := by
  rw [val_main_v52_apply, val_main_v49_apply, val_main_v46_apply, val_main_v48_apply, val_main_v47_apply,
    val_main_v51_apply, val_main_v50_apply, idx47_48, idx50_51]
  simp only [lidx46, ridx46, retrieved_at]
  rfl

/-- The norm of a mention encoding. -/
theorem qNorm_at (p : Fin 4096) :
    val_main_v91 (F := Ideal) x0 x1 x2 x3 x6 x7 (ix1 p)
      = Spec.qNorm (val_main_v32 (F := Ideal) x0 x1 x2 x3 x6 x7) p := by
  rw [val_main_v91_apply, val_main_call0_v1_apply, val_main_call0_cst_apply]
  simp only [idxc0, val_main_call0_v0_apply, Ideal.ofBits_def, Ideal.ofBits_zero_f32]
  rfl

/-- The norm of an entity row. -/
theorem entNorm_at (e : Fin 32000) :
    val_main_v92 (F := Ideal) x5 (ix1 e) = Spec.entNorm x5 e := by
  rw [val_main_v92_apply, val_main_call1_v1_apply, val_main_call1_cst_apply]
  simp only [idxc1, val_main_call1_v0_apply, Ideal.ofBits_def, Ideal.ofBits_zero_f32]
  rfl

/-- The cosine scores. -/
theorem cos_at (p : Fin 4096) (e : Fin 32000) :
    val_main_v102 (F := Ideal) x0 x1 x2 x3 x5 x6 x7 (ix2 p e)
      = Spec.cosScore (val_main_v32 (F := Ideal) x0 x1 x2 x3 x6 x7) x5 p e := by
  rw [val_main_v102_apply, val_main_v97_apply, val_main_v96_apply, val_main_v95_apply, val_main_v94_apply,
    val_main_cst_18_apply, val_main_v93_apply, val_main_v101_apply, val_main_v100_apply, val_main_v99_apply,
    val_main_cst_19_apply, val_main_v98_apply, score_at, idx93_96, idx98_101, qNorm_at, entNorm_at]
  rfl

/-- The mean of a row of the array the scatter-add leaves. -/
theorem mean_at (b : Fin 8) (t : Fin 2048) :
    val_main_v70 (F := Ideal) x0 x1 x2 x3 x4 x5 x6 x7 x8 x9 (ix3 b t (0 : Fin 1))
      = Spec.mean (val_main_v66 (F := Ideal) x0 x1 x2 x3 x4 x5 x6 x7 x8 x9) b t := by
  rw [val_main_v70_apply, val_main_v68_apply, val_main_v67_apply, val_main_cst_13_apply, val_main_v69_apply,
    val_main_cst_14_apply]
  simp only [idx67_68, Ideal.ofBits_def, Ideal.ofBits_zero_f32]
  rfl

/-- The variance of that row. -/
theorem var_at (b : Fin 8) (t : Fin 2048) :
    val_main_v77 (F := Ideal) x0 x1 x2 x3 x4 x5 x6 x7 x8 x9 (ix3 b t (0 : Fin 1))
      = Spec.var (val_main_v66 (F := Ideal) x0 x1 x2 x3 x4 x5 x6 x7 x8 x9) b t := by
  rw [val_main_v77_apply, val_main_v75_apply, val_main_v74_apply, val_main_cst_15_apply, val_main_v76_apply,
    val_main_cst_16_apply]
  simp only [idx74_75, val_main_v73_apply, val_main_v72_apply, val_main_v71_apply, idx71, mean_at, Ideal.ofBits_def,
    Ideal.ofBits_zero_f32]
  rfl

/-- The normalised row. -/
theorem layerNorm_at (b : Fin 8) (t : Fin 2048) (h : Fin 768) :
    val_main_v90 (F := Ideal) x0 x1 x2 x3 x4 x5 x6 x7 x8 x9 x10 x11 (ix3 b t h)
      = Spec.layerNorm (val_main_v66 (F := Ideal) x0 x1 x2 x3 x4 x5 x6 x7 x8 x9) x10 x11 b t h := by
  rw [val_main_v90_apply, val_main_v87_apply, val_main_v84_apply, val_main_v79_apply, val_main_v78_apply,
    val_main_v83_apply, val_main_v82_apply, val_main_v81_apply, val_main_v80_apply, val_main_cst_17_apply,
    val_main_v86_apply, val_main_v85_apply, val_main_v89_apply, val_main_v88_apply, idx78, idx83, idx85_86, idx88_89,
    mean_at, var_at]
  rfl

/-- The array the LayerNorm is taken of: the scatter-add of the update rows into the input. -/
theorem scattered_eq :
    val_main_v66 (F := Ideal) x0 x1 x2 x3 x4 x5 x6 x7 x8 x9
      = Host.scatterAdd (F := Ideal) (φ := .f32) scatter_S8x2048x768_S4096x2_S4096x768_1_01_01_1 x0 (val_main_v65 (F := Ideal) x1 x2)
          (fun i => Spec.update (val_main_v32 (F := Ideal) x0 x1 x2 x3 x6 x7) x5 x8 x9 x4 (i 0) (i 1)) := by
  unfold val_main_v66
  refine congrArg (Host.scatterAdd (F := Ideal) (φ := .f32) scatter_S8x2048x768_S4096x2_S4096x768_1_01_01_1 x0 (val_main_v65 (F := Ideal) x1 x2)) ?_
  funext i
  obtain ⟨p, h, rfl⟩ : ∃ (p : Fin 4096) (h : Fin 768), i = ix2 p h := ⟨i 0, i 1, eq_ix2 i⟩
  exact update_at x0 x1 x2 x3 x4 x5 x6 x7 x8 x9 p h

end Stages

/-! ## The run's result terms -/

section Results

variable (m : (ℓ : Loc nD τ sig) → Buf (Elt Ideal) ℓ) (c : Dev nD)

/-- The mention encodings the run leaves in the second result: the stage's term of the arguments, kept closed. -/
abbrev Q : (⟨S4096x256, .f32⟩ : BufTy).Contents (Elt Ideal) :=
  val_main_v32 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg6))
    (m ((c.tc : Thread nD τ).loc main_arg7))

/-- The input with the update rows scatter-added at the mention start positions: the array the LayerNorm reads. -/
abbrev Y : (⟨S8x2048x768, .f32⟩ : BufTy).Contents (Elt Ideal) :=
  val_main_v66 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

/-- Result 3, the attention weights. -/
theorem ref_attn :
    Cert.ReferenceIdeal.Value.res_main_v44 (F := Ideal) m c
      = fun i : S4096x32000.Idx => Spec.attn (Q m c) (m ((c.tc : Thread nD τ).loc main_arg5)) (i 0) (i 1) := by
  rw [val_main_v44_eq]
  funext i
  obtain ⟨p, e, rfl⟩ : ∃ (p : Fin 4096) (e : Fin 32000), i = ix2 p e := ⟨i 0, i 1, eq_ix2 i⟩
  exact attn_at _ _ _ _ _ _ _ p e

/-- Result 2, the cosine scores. -/
theorem ref_cos :
    Cert.ReferenceIdeal.Value.res_main_v102 (F := Ideal) m c
      = fun i : S4096x32000.Idx => Spec.cosScore (Q m c) (m ((c.tc : Thread nD τ).loc main_arg5)) (i 0) (i 1) := by
  rw [val_main_v102_eq]
  funext i
  obtain ⟨p, e, rfl⟩ : ∃ (p : Fin 4096) (e : Fin 32000), i = ix2 p e := ⟨i 0, i 1, eq_ix2 i⟩
  exact cos_at _ _ _ _ _ _ _ p e

/-- Result 0, the LayerNorm of the scatter-added array. -/
theorem ref_ln :
    Cert.ReferenceIdeal.Value.res_main_v90 (F := Ideal) m c
      = fun i : S8x2048x768.Idx => Spec.layerNorm (Y m c) (m ((c.tc : Thread nD τ).loc main_arg10))
          (m ((c.tc : Thread nD τ).loc main_arg11)) (i 0) (i 1) (i 2) := by
  rw [val_main_v90_eq]
  funext i
  obtain ⟨b, t, h, rfl⟩ : ∃ (b : Fin 8) (t : Fin 2048) (h : Fin 768), i = ix3 b t h := ⟨i 0, i 1, i 2, eq_ix3 i⟩
  exact layerNorm_at _ _ _ _ _ _ _ _ _ _ _ _ b t h

/-- The scatter-added array, with the update rows as the formula. -/
theorem ref_update :
    Y m c = Host.scatterAdd (F := Ideal) (φ := .f32) scatter_S8x2048x768_S4096x2_S4096x768_1_01_01_1 (m ((c.tc : Thread nD τ).loc main_arg0))
        (val_main_v65 (F := Ideal) (m ((c.tc : Thread nD τ).loc main_arg1)) (m ((c.tc : Thread nD τ).loc main_arg2)))
        (fun i => Spec.update (Q m c) (m ((c.tc : Thread nD τ).loc main_arg5)) (m ((c.tc : Thread nD τ).loc main_arg8))
          (m ((c.tc : Thread nD τ).loc main_arg9)) (m ((c.tc : Thread nD τ).loc main_arg4)) (i 0) (i 1)) :=
  scattered_eq _ _ _ _ _ _ _ _ _ _

/-- Every weakly fair execution of the reference ends with the four results at the formulas and the arguments
    unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v90)
          = (fun i : S8x2048x768.Idx => Spec.layerNorm (Y m c) (m ((c.tc : Thread nD τ).loc main_arg10))
              (m ((c.tc : Thread nD τ).loc main_arg11)) (i 0) (i 1) (i 2))
      ∧ r.2.mem ((c.tc : Thread nD τ).loc main_v32) = Q m c
      ∧ r.2.mem ((c.tc : Thread nD τ).loc main_v102)
          = (fun i : S4096x32000.Idx => Spec.cosScore (Q m c) (m ((c.tc : Thread nD τ).loc main_arg5)) (i 0) (i 1))
      ∧ r.2.mem ((c.tc : Thread nD τ).loc main_v44)
          = (fun i : S4096x32000.Idx => Spec.attn (Q m c) (m ((c.tc : Thread nD τ).loc main_arg5)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono
    (fun _ h c => ⟨(h c).1.trans (ref_ln m c), (h c).2.1.trans (val_main_v32_eq _ _ _ _ _ _),
      (h c).2.2.1.trans (ref_cos m c), (h c).2.2.2.1.trans (ref_attn m c), (h c).2.2.2.2⟩)
    (Cert.ReferenceIdeal.Value.run (F := Ideal) m ρ)

end Results

end Cert.ReferenceIdeal.RefValue

end
-- ==== Proof.KI.KHostRef.lean ====
/-
  The kernel program's host computations are the reference's: the mention encodings, the normalised positions and the
  scatter-added array are, operation for operation, the same functions of the argument arrays in the two programs.

  Both programs print the same chain for the mention encodings (wrap the negative positions, pair them, gather the
  start and end token rows, join them, project by `wq`, add `bq`) and the same scatter-add of the update rows at the
  wrapped start positions; the two texts differ only in which program's copy of each shape record they name, and
  the copies are equal field by field. So the kernel's query array is the reference's second result, and once the
  kernel's update rows are known to be the formula `Cert.Spec.update`, the array its LayerNorm reads is the array the
  reference's LayerNorm reads.
-/
import proofs.«120323_j21741124452848_2_alg».proof.Proof.KI.KHost
import proofs.«120323_j21741124452848_2_alg».proof.Proof.RefRead

noncomputable section

namespace Cert.KernelIdeal.KHostRef

open Idealize.ShloMosaic Idealize.ShloMosaic.ValueIdx

variable (x0 : (⟨Cert.KernelIdeal.S8x2048x768, .f32⟩ : BufTy).Contents (Elt Ideal)) (x1 x2 x3 : (⟨Cert.KernelIdeal.S4096, .i32⟩ : BufTy).Contents (Elt Ideal))
  (x4 : (⟨Cert.KernelIdeal.S4096, .f32⟩ : BufTy).Contents (Elt Ideal)) (x5 : (⟨Cert.KernelIdeal.S32000x256, .f32⟩ : BufTy).Contents (Elt Ideal))
  (x6 : (⟨Cert.KernelIdeal.S1536x256, .f32⟩ : BufTy).Contents (Elt Ideal)) (x7 : (⟨Cert.KernelIdeal.S256, .f32⟩ : BufTy).Contents (Elt Ideal))
  (x8 : (⟨Cert.KernelIdeal.S256x768, .f32⟩ : BufTy).Contents (Elt Ideal)) (x9 : (⟨Cert.KernelIdeal.S768, .f32⟩ : BufTy).Contents (Elt Ideal))

/-- The wrapped (row, token) positions are the reference's. -/
theorem posIdx_eq : Cert.KernelIdeal.KHost.posIdx (F := Ideal) x1 x2 = Cert.ReferenceIdeal.Read.val_main_v65 (F := Ideal) x1 x2 := rfl

/-- The mention encodings are the reference's. -/
theorem queryOf_eq :
    Cert.KernelIdeal.KHost.queryOf (F := Ideal) x0 x1 x2 x3 x6 x7 = Cert.ReferenceIdeal.Read.val_main_v32 (F := Ideal) x0 x1 x2 x3 x6 x7 := rfl

/-- The scatter-add is the reference's, at any update rows. -/
theorem scatteredOf_eq (u : (⟨Cert.KernelIdeal.S4096x768, .f32⟩ : BufTy).Contents (Elt Ideal)) :
    Cert.KernelIdeal.KHost.scatteredOf (F := Ideal) x0 x1 x2 u
      = Host.scatterAdd (F := Ideal) (φ := .f32) Cert.ReferenceIdeal.scatter_S8x2048x768_S4096x2_S4096x768_1_01_01_1 x0
          (Cert.ReferenceIdeal.Read.val_main_v65 (F := Ideal) x1 x2) u := rfl

/-- With the update rows the formula of the reference's mention encodings, the scatter-added array is the array the
    reference's LayerNorm reads. -/
theorem scatteredOf_update :
    Cert.KernelIdeal.KHost.scatteredOf (F := Ideal) x0 x1 x2
        (fun i => Cert.Spec.update (Cert.ReferenceIdeal.Read.val_main_v32 (F := Ideal) x0 x1 x2 x3 x6 x7) x5 x8 x9 x4 (i 0) (i 1))
      = Cert.ReferenceIdeal.Read.val_main_v66 (F := Ideal) x0 x1 x2 x3 x4 x5 x6 x7 x8 x9 :=
  (scatteredOf_eq x0 x1 x2 _).trans (Cert.ReferenceIdeal.RefValue.scattered_eq x0 x1 x2 x3 x4 x5 x6 x7 x8 x9).symm

end Cert.KernelIdeal.KHostRef

end
-- ==== Proof.Alg.lean ====
/-
The algebraic claim, assembled: from a run of the idealized kernel program that ends with its four results at the
specification's formulas — the LayerNorm of the hidden states with the update scatter-added, the query array, the
cosine scores, the attention weights, each written over the kernel program's own names for the query array and the
scatter-added array — and the reference's run, which ends at the same formulas over the reference's names, the two
programs end with equal results whenever they start from memories that agree on the twelve arguments.

What joins the two sides: the kernel program computes its query array by the same host operations as the reference
(so the two names denote one array once the arguments agree), and, the update rows being the same formula of that
array, the two scatter-added arrays are one array too.  Nothing else is opened: the formulas are the same terms on
both sides.
-/
import proofs.«120323_j21741124452848_2_alg».proof.Defs
import proofs.«120323_j21741124452848_2_alg».proof.Proof.Gen.Kernel
import proofs.«120323_j21741124452848_2_alg».proof.Proof.Gen.KernelIdeal
import proofs.«120323_j21741124452848_2_alg».proof.Proof.Gen.ReferenceIdeal
import proofs.«120323_j21741124452848_2_alg».proof.Proof.Gen.Pre_finite_inputs
import proofs.«120323_j21741124452848_2_alg».proof.Proof.RefRead
import proofs.«120323_j21741124452848_2_alg».proof.Proof.KI.Names
import proofs.«120323_j21741124452848_2_alg».proof.Proof.KI.KHostRef

noncomputable section

namespace Cert.Proof

open Idealize.ShloMosaic Idealize.ShloMosaic.TcCoe Idealize.SL.Sem

/-- The algebraic claim from the kernel side's run at the formulas, given that the kernel program's query array and
    scatter-added array are the reference's stages of the same arguments. -/
theorem algebraic_of_eqs
    (hQ : ∀ (x0 : (⟨Cert.KernelIdeal.S8x2048x768, .f32⟩ : BufTy).Contents (Elt Ideal)) (x1 x2 x3 : (⟨Cert.KernelIdeal.S4096, .i32⟩ : BufTy).Contents (Elt Ideal))
        (x4 : (⟨Cert.KernelIdeal.S4096, .f32⟩ : BufTy).Contents (Elt Ideal)) (x5 : (⟨Cert.KernelIdeal.S32000x256, .f32⟩ : BufTy).Contents (Elt Ideal))
        (x6 : (⟨Cert.KernelIdeal.S1536x256, .f32⟩ : BufTy).Contents (Elt Ideal)) (x7 : (⟨Cert.KernelIdeal.S256, .f32⟩ : BufTy).Contents (Elt Ideal))
        (x8 : (⟨Cert.KernelIdeal.S256x768, .f32⟩ : BufTy).Contents (Elt Ideal)) (x9 : (⟨Cert.KernelIdeal.S768, .f32⟩ : BufTy).Contents (Elt Ideal)),
        Cert.KernelIdeal.KHost.queryOf (F := Ideal) x0 x1 x2 x3 x6 x7 = Cert.ReferenceIdeal.Read.val_main_v32 (F := Ideal) x0 x1 x2 x3 x6 x7)
    (hY : ∀ (x0 : (⟨Cert.KernelIdeal.S8x2048x768, .f32⟩ : BufTy).Contents (Elt Ideal)) (x1 x2 x3 : (⟨Cert.KernelIdeal.S4096, .i32⟩ : BufTy).Contents (Elt Ideal))
        (x4 : (⟨Cert.KernelIdeal.S4096, .f32⟩ : BufTy).Contents (Elt Ideal)) (x5 : (⟨Cert.KernelIdeal.S32000x256, .f32⟩ : BufTy).Contents (Elt Ideal))
        (x6 : (⟨Cert.KernelIdeal.S1536x256, .f32⟩ : BufTy).Contents (Elt Ideal)) (x7 : (⟨Cert.KernelIdeal.S256, .f32⟩ : BufTy).Contents (Elt Ideal))
        (x8 : (⟨Cert.KernelIdeal.S256x768, .f32⟩ : BufTy).Contents (Elt Ideal)) (x9 : (⟨Cert.KernelIdeal.S768, .f32⟩ : BufTy).Contents (Elt Ideal)),
        Cert.KernelIdeal.KHost.scatteredOf (F := Ideal) x0 x1 x2
            (fun i => Cert.Spec.update (Cert.ReferenceIdeal.Read.val_main_v32 (F := Ideal) x0 x1 x2 x3 x6 x7) x5 x8 x9 x4 (i 0) (i 1))
          = Cert.ReferenceIdeal.Read.val_main_v66 (F := Ideal) x0 x1 x2 x3 x4 x5 x6 x7 x8 x9)
    (hk : ∀ (m : (ℓ : Loc Cert.KernelIdeal.nD Cert.KernelIdeal.τ Cert.KernelIdeal.sig) → Buf (Elt Ideal) ℓ) (ρ : Dev Cert.KernelIdeal.nD → PrngReg),
      Cert.Pre_KernelIdeal (hPre_finite_inputs := Cert.Pre_finite_inputs.Gen.facts) m →
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v67)
              = (fun i : Cert.KernelIdeal.S8x2048x768.Idx => Cert.Spec.layerNorm (Cert.KernelIdeal.Hand.Yk m c) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (i 0) (i 1) (i 2))
          ∧ r.2.mem ((c.tc : Thread Cert.KernelIdeal.nD Cert.KernelIdeal.τ).loc Cert.KernelIdeal.main_v32) = Cert.KernelIdeal.Hand.Qk m c
          ∧ r.2.mem ((c.tc : Thread Cert.KernelIdeal.nD Cert.KernelIdeal.τ).loc Cert.KernelIdeal.main_v50_1)
              = (fun i : Cert.KernelIdeal.S4096x32000.Idx => Cert.Spec.cosScore (Cert.KernelIdeal.Hand.Qk m c) (m ((c.tc : Thread Cert.KernelIdeal.nD Cert.KernelIdeal.τ).loc Cert.KernelIdeal.main_arg5)) (i 0) (i 1))
          ∧ r.2.mem ((c.tc : Thread Cert.KernelIdeal.nD Cert.KernelIdeal.τ).loc Cert.KernelIdeal.main_v50_0)
              = (fun i : Cert.KernelIdeal.S4096x32000.Idx => Cert.Spec.attn (Cert.KernelIdeal.Hand.Qk m c) (m ((c.tc : Thread Cert.KernelIdeal.nD Cert.KernelIdeal.τ).loc Cert.KernelIdeal.main_arg5)) (i 0) (i 1))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => fun i : Cert.KernelIdeal.S8x2048x768.Idx => Cert.Spec.layerNorm (Cert.KernelIdeal.Hand.Yk m c) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (i 0) (i 1) (i 2),
    fun c => Cert.KernelIdeal.Hand.Qk m c,
    fun c => fun i : Cert.KernelIdeal.S4096x32000.Idx => Cert.Spec.cosScore (Cert.KernelIdeal.Hand.Qk m c) (m ((c.tc : Thread Cert.KernelIdeal.nD Cert.KernelIdeal.τ).loc Cert.KernelIdeal.main_arg5)) (i 0) (i 1),
    fun c => fun i : Cert.KernelIdeal.S4096x32000.Idx => Cert.Spec.attn (Cert.KernelIdeal.Hand.Qk m c) (m ((c.tc : Thread Cert.KernelIdeal.nD Cert.KernelIdeal.τ).loc Cert.KernelIdeal.main_arg5)) (i 0) (i 1),
    hk m ρ hpre, ?_⟩
  refine (θ_run Cert.ReferenceIdeal.defs _ _).mono (fun _ h c => ?_) (Cert.ReferenceIdeal.RefValue.run m' ρ')
  obtain ⟨h0, h1, h2, h3, hargs⟩ := h c
  obtain ⟨a0, a1, a2, a3, a4, a5, a6, a7, a8, a9, a10, a11⟩ := hagree c
  -- the reference's query array is the kernel program's
  have eQ : Cert.ReferenceIdeal.RefValue.Q m' c = Cert.KernelIdeal.Hand.Qk m c := by
    show Cert.ReferenceIdeal.Read.val_main_v32 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [a0, a1, a2, a3, a6, a7]
    exact (hQ _ _ _ _ (m ((c.tc : Thread Cert.KernelIdeal.nD Cert.KernelIdeal.τ).loc Cert.KernelIdeal.main_arg4)) (m ((c.tc : Thread Cert.KernelIdeal.nD Cert.KernelIdeal.τ).loc Cert.KernelIdeal.main_arg5)) _ _ (m ((c.tc : Thread Cert.KernelIdeal.nD Cert.KernelIdeal.τ).loc Cert.KernelIdeal.main_arg8)) (m ((c.tc : Thread Cert.KernelIdeal.nD Cert.KernelIdeal.τ).loc Cert.KernelIdeal.main_arg9))).symm
  -- the array the reference's LayerNorm reads is the kernel program's
  have eY : Cert.ReferenceIdeal.RefValue.Y m' c = Cert.KernelIdeal.Hand.Yk m c := by
    show Cert.ReferenceIdeal.Read.val_main_v66 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
    rw [a0, a1, a2, a3, a4, a5, a6, a7, a8, a9]
    refine (hY _ _ _ _ _ _ _ _ _ _).symm.trans ?_
    unfold Cert.KernelIdeal.Hand.Yk Cert.KernelIdeal.Hand.Uk Cert.KernelIdeal.Hand.Qk
    rw [hQ _ _ _ _ (m ((c.tc : Thread Cert.KernelIdeal.nD Cert.KernelIdeal.τ).loc Cert.KernelIdeal.main_arg4)) (m ((c.tc : Thread Cert.KernelIdeal.nD Cert.KernelIdeal.τ).loc Cert.KernelIdeal.main_arg5)) _ _ (m ((c.tc : Thread Cert.KernelIdeal.nD Cert.KernelIdeal.τ).loc Cert.KernelIdeal.main_arg8)) (m ((c.tc : Thread Cert.KernelIdeal.nD Cert.KernelIdeal.τ).loc Cert.KernelIdeal.main_arg9))]
  refine ⟨h0.trans ?_, h1.trans eQ, h2.trans ?_, h3.trans ?_, hargs⟩
  · rw [eY, a10, a11]
  · rw [eQ, a5]
  · rw [eQ, a5]

/-- The algebraic claim from the kernel side's run at the formulas: the two equations between the programs' host
    computations hold because the two programs print the same host operations. -/
theorem algebraic_of
    (hk : ∀ (m : (ℓ : Loc Cert.KernelIdeal.nD Cert.KernelIdeal.τ Cert.KernelIdeal.sig) → Buf (Elt Ideal) ℓ) (ρ : Dev Cert.KernelIdeal.nD → PrngReg),
      Cert.Pre_KernelIdeal (hPre_finite_inputs := Cert.Pre_finite_inputs.Gen.facts) m →
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v67)
              = (fun i : Cert.KernelIdeal.S8x2048x768.Idx => Cert.Spec.layerNorm (Cert.KernelIdeal.Hand.Yk m c) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (i 0) (i 1) (i 2))
          ∧ r.2.mem ((c.tc : Thread Cert.KernelIdeal.nD Cert.KernelIdeal.τ).loc Cert.KernelIdeal.main_v32) = Cert.KernelIdeal.Hand.Qk m c
          ∧ r.2.mem ((c.tc : Thread Cert.KernelIdeal.nD Cert.KernelIdeal.τ).loc Cert.KernelIdeal.main_v50_1)
              = (fun i : Cert.KernelIdeal.S4096x32000.Idx => Cert.Spec.cosScore (Cert.KernelIdeal.Hand.Qk m c) (m ((c.tc : Thread Cert.KernelIdeal.nD Cert.KernelIdeal.τ).loc Cert.KernelIdeal.main_arg5)) (i 0) (i 1))
          ∧ r.2.mem ((c.tc : Thread Cert.KernelIdeal.nD Cert.KernelIdeal.τ).loc Cert.KernelIdeal.main_v50_0)
              = (fun i : Cert.KernelIdeal.S4096x32000.Idx => Cert.Spec.attn (Cert.KernelIdeal.Hand.Qk m c) (m ((c.tc : Thread Cert.KernelIdeal.nD Cert.KernelIdeal.τ).loc Cert.KernelIdeal.main_arg5)) (i 0) (i 1))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) :=
  algebraic_of_eqs
    (fun x0 x1 x2 x3 _ _ x6 x7 _ _ => Cert.KernelIdeal.KHostRef.queryOf_eq x0 x1 x2 x3 x6 x7)
    (fun x0 x1 x2 x3 x4 x5 x6 x7 x8 x9 => Cert.KernelIdeal.KHostRef.scatteredOf_update x0 x1 x2 x3 x4 x5 x6 x7 x8 x9)
    hk

end Cert.Proof

end
-- ==== Proof.lean ====
/-
  The certificate of an entity-attention layer against its jnp reference, on the extended reals. The kernel program is
  three Pallas regions among host operations: an attention reduction over entity tiles that keeps a running maximum, a
  running sum and a running weighted sum per query row (the online form of the softmax) and at the last tile emits the
  projected, masked update; a materialisation of the attention weights and of the cosine scores tile by tile; a scatter-add
  on the host; and a LayerNorm over rows. The reference computes the same quantities with whole-row softmax and plain
  quotients. At exact arithmetic with finite inputs the two agree: the online softmax's final maximum, sum and weighted
  sums are the whole row's (rescaling by exp of the difference of maxima), the quotient of a sum is the sum of the
  quotients, and a product with two reciprocals is a double quotient.
  The frames: every argument array ends holding its launch contents, because no host operation writes one and every region
  hands its input arrays back as it found them.
-/
import proofs.«120323_j21741124452848_2_alg».proof.Defs
import proofs.«120323_j21741124452848_2_alg».proof.Proof.Gen.Kernel
import proofs.«120323_j21741124452848_2_alg».proof.Proof.Gen.KernelIdeal
import proofs.«120323_j21741124452848_2_alg».proof.Proof.Gen.ReferenceIdeal
import proofs.«120323_j21741124452848_2_alg».proof.Proof.Gen.Pre_finite_inputs
import proofs.«120323_j21741124452848_2_alg».proof.Proof.Gen.ReferenceIdeal.Run
import proofs.«120323_j21741124452848_2_alg».proof.Proof.K.Frame
import proofs.«120323_j21741124452848_2_alg».proof.Proof.KI.Frame
import proofs.«120323_j21741124452848_2_alg».proof.Proof.KI.Final
import proofs.«120323_j21741124452848_2_alg».proof.Proof.Alg

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.Value.run (F := Ideal) m ρ)

/-- The ideal pass rewrote nothing: the idealization is the program's own text read at the extended reals. -/
theorem preserves : Cert.preserves_Kernel_KernelIdeal := trivial

/-- Both idealized programs, from memories agreeing on the arguments, end with the same four results: the kernel program's
    run ends at the whole-row softmax formulas of its own query array and scatter-added hidden states, which are the
    same functions of the arguments as the reference's. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) :=
  algebraic_of fun m ρ h => Cert.KernelIdeal.Hand.kernel_run m ρ h

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
